-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v185)) (v1 : (c : Dev Cert.KernelIdeal.nD) → Buf (Elt Ideal) ((c.tc : Thread Cert.KernelIdeal.nD Cert.KernelIdeal.τ).loc Cert.KernelIdeal.main_v174)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v185) = v0 c
          ∧ r.2.mem ((c.tc : Thread Cert.KernelIdeal.nD Cert.KernelIdeal.τ).loc Cert.KernelIdeal.main_v174) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v154) = v0 c
          ∧ r.2.mem ((c.tc : Thread Cert.ReferenceIdeal.nD Cert.ReferenceIdeal.τ).loc Cert.ReferenceIdeal.main_v143) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x100 : Shape := ⟨2, ![50000, 100]⟩
abbrev S237x100 : Shape := ⟨2, ![237, 100]⟩
abbrev S2x300000 : Shape := ⟨2, ![2, 300000]⟩
abbrev S300000 : Shape := ⟨1, ![300000]⟩
abbrev S200x300 : Shape := ⟨2, ![200, 300]⟩
abbrev S200 : Shape := ⟨1, ![200]⟩
abbrev S1x2x100 : Shape := ⟨3, ![1, 2, 100]⟩
abbrev S400x500 : Shape := ⟨2, ![400, 500]⟩
abbrev S400 : Shape := ⟨1, ![400]⟩
abbrev S1x2x200 : Shape := ⟨3, ![1, 2, 200]⟩
abbrev S200x100 : Shape := ⟨2, ![200, 100]⟩
abbrev S_ : Shape := ⟨0, ![]⟩

class Facts : Prop where
  bcast_S_S50000x100 : S_.BroadcastsInDim S50000x100 (![] : Fin 0 → Fin S50000x100.rank)
  reducesTo_S50000x100_S_d0_1 : S50000x100.ReducesTo [0, 1] S_
  h_S_ : 0 < S_.numel
  bcast_S_S237x100 : S_.BroadcastsInDim S237x100 (![] : Fin 0 → Fin S237x100.rank)
  reducesTo_S237x100_S_d0_1 : S237x100.ReducesTo [0, 1] S_
  bcast_S_S200x300 : S_.BroadcastsInDim S200x300 (![] : Fin 0 → Fin S200x300.rank)
  reducesTo_S200x300_S_d0_1 : S200x300.ReducesTo [0, 1] S_
  bcast_S_S200 : S_.BroadcastsInDim S200 (![] : Fin 0 → Fin S200.rank)
  reducesTo_S200_S_d0 : S200.ReducesTo [0] S_
  bcast_S_S1x2x100 : S_.BroadcastsInDim S1x2x100 (![] : Fin 0 → Fin S1x2x100.rank)
  reducesTo_S1x2x100_S_d0_1_2 : S1x2x100.ReducesTo [0, 1, 2] S_
  bcast_S_S400x500 : S_.BroadcastsInDim S400x500 (![] : Fin 0 → Fin S400x500.rank)
  reducesTo_S400x500_S_d0_1 : S400x500.ReducesTo [0, 1] S_
  bcast_S_S400 : S_.BroadcastsInDim S400 (![] : Fin 0 → Fin S400.rank)
  reducesTo_S400_S_d0 : S400.ReducesTo [0] S_
  bcast_S_S1x2x200 : S_.BroadcastsInDim S1x2x200 (![] : Fin 0 → Fin S1x2x200.rank)
  reducesTo_S1x2x200_S_d0_1_2 : S1x2x200.ReducesTo [0, 1, 2] S_
  bcast_S_S200x100 : S_.BroadcastsInDim S200x100 (![] : Fin 0 → Fin S200x100.rank)
  reducesTo_S200x100_S_d0_1 : S200x100.ReducesTo [0, 1] S_

variable [Facts]

def fn_part3 {F : FTy → Type} [FloatOps F] (main_arg13 : FVec F S200 .f32) (main_v48 : IVec S_ 1) (main_v49 : FVec F S200x100 .f32) (main_v50 : FVec F S200x100 .f32) : IVec S_ 1 :=
  let main_v51 : IVec S200x100 1 := cmpf .olt main_v49 main_v50
  let main_c_19 : IVec S_ 1 := constantI S_ 1 1#1
  let main_v52 : IVec S_ 1 := (fun x v => Host.reduce IntOp.andi x v reducesTo_S200x100_S_d0_1 h_S_) main_v51 main_c_19
  let main_v53 : IVec S_ 1 := andi main_v48 main_v52
  let main_v54 : FVec F S200 .f32 := Host.absf main_arg13
  let main_cst_20 : FVec F S_ .f32 := constant S_ .f32 0x7F800000#32
  let main_v55 : FVec F S200 .f32 := broadcastInDim S200 ![] bcast_S_S200 main_cst_20
  let main_v56 : IVec S200 1 := cmpf .olt main_v54 main_v55
  let main_c_21 : IVec S_ 1 := constantI S_ 1 1#1
  let main_v57 : IVec S_ 1 := (fun x v => Host.reduce IntOp.andi x v reducesTo_S200_S_d0 h_S_) main_v56 main_c_21
  let main_v58 : IVec S_ 1 := andi main_v53 main_v57
  main_v58

def fn_part2 {F : FTy → Type} [FloatOps F] (main_arg9 : FVec F S1x2x200 .f32) (main_arg10 : FVec F S200x100 .f32) (main_arg11 : FVec F S200 .f32) (main_arg12 : FVec F S200x100 .f32) (main_arg13 : FVec F S200 .f32) (main_v33 : IVec S_ 1) : IVec S_ 1 :=
  let main_v34 : FVec F S1x2x200 .f32 := Host.absf main_arg9
  let main_cst_12 : FVec F S_ .f32 := constant S_ .f32 0x7F800000#32
  let main_v35 : FVec F S1x2x200 .f32 := broadcastInDim S1x2x200 ![] bcast_S_S1x2x200 main_cst_12
  let main_v36 : IVec S1x2x200 1 := cmpf .olt main_v34 main_v35
  let main_c_13 : IVec S_ 1 := constantI S_ 1 1#1
  let main_v37 : IVec S_ 1 := (fun x v => Host.reduce IntOp.andi x v reducesTo_S1x2x200_S_d0_1_2 h_S_) main_v36 main_c_13
  let main_v38 : IVec S_ 1 := andi main_v33 main_v37
  let main_v39 : FVec F S200x100 .f32 := Host.absf main_arg10
  let main_cst_14 : FVec F S_ .f32 := constant S_ .f32 0x7F800000#32
  let main_v40 : FVec F S200x100 .f32 := broadcastInDim S200x100 ![] bcast_S_S200x100 main_cst_14
  let main_v41 : IVec S200x100 1 := cmpf .olt main_v39 main_v40
  let main_c_15 : IVec S_ 1 := constantI S_ 1 1#1
  let main_v42 : IVec S_ 1 := (fun x v => Host.reduce IntOp.andi x v reducesTo_S200x100_S_d0_1 h_S_) main_v41 main_c_15
  let main_v43 : IVec S_ 1 := andi main_v38 main_v42
  let main_v44 : FVec F S200 .f32 := Host.absf main_arg11
  let main_cst_16 : FVec F S_ .f32 := constant S_ .f32 0x7F800000#32
  let main_v45 : FVec F S200 .f32 := broadcastInDim S200 ![] bcast_S_S200 main_cst_16
  let main_v46 : IVec S200 1 := cmpf .olt main_v44 main_v45
  let main_c_17 : IVec S_ 1 := constantI S_ 1 1#1
  let main_v47 : IVec S_ 1 := (fun x v => Host.reduce IntOp.andi x v reducesTo_S200_S_d0 h_S_) main_v46 main_c_17
  let main_v48 : IVec S_ 1 := andi main_v43 main_v47
  let main_v49 : FVec F S200x100 .f32 := Host.absf main_arg12
  let main_cst_18 : FVec F S_ .f32 := constant S_ .f32 0x7F800000#32
  let main_v50 : FVec F S200x100 .f32 := broadcastInDim S200x100 ![] bcast_S_S200x100 main_cst_18
  fn_part3 (F := F) main_arg13 main_v48 main_v49 main_v50

def fn_part1 {F : FTy → Type} [FloatOps F] (main_arg6 : FVec F S1x2x100 .f32) (main_arg7 : FVec F S400x500 .f32) (main_arg8 : FVec F S400 .f32) (main_arg9 : FVec F S1x2x200 .f32) (main_arg10 : FVec F S200x100 .f32) (main_arg11 : FVec F S200 .f32) (main_arg12 : FVec F S200x100 .f32) (main_arg13 : FVec F S200 .f32) (main_v13 : IVec S_ 1) (main_v16 : IVec S200 1) : IVec S_ 1 :=
  let main_c_5 : IVec S_ 1 := constantI S_ 1 1#1
  let main_v17 : IVec S_ 1 := (fun x v => Host.reduce IntOp.andi x v reducesTo_S200_S_d0 h_S_) main_v16 main_c_5
  let main_v18 : IVec S_ 1 := andi main_v13 main_v17
  let main_v19 : FVec F S1x2x100 .f32 := Host.absf main_arg6
  let main_cst_6 : FVec F S_ .f32 := constant S_ .f32 0x7F800000#32
  let main_v20 : FVec F S1x2x100 .f32 := broadcastInDim S1x2x100 ![] bcast_S_S1x2x100 main_cst_6
  let main_v21 : IVec S1x2x100 1 := cmpf .olt main_v19 main_v20
  let main_c_7 : IVec S_ 1 := constantI S_ 1 1#1
  let main_v22 : IVec S_ 1 := (fun x v => Host.reduce IntOp.andi x v reducesTo_S1x2x100_S_d0_1_2 h_S_) main_v21 main_c_7
  let main_v23 : IVec S_ 1 := andi main_v18 main_v22
  let main_v24 : FVec F S400x500 .f32 := Host.absf main_arg7
  let main_cst_8 : FVec F S_ .f32 := constant S_ .f32 0x7F800000#32
  let main_v25 : FVec F S400x500 .f32 := broadcastInDim S400x500 ![] bcast_S_S400x500 main_cst_8
  let main_v26 : IVec S400x500 1 := cmpf .olt main_v24 main_v25
  let main_c_9 : IVec S_ 1 := constantI S_ 1 1#1
  let main_v27 : IVec S_ 1 := (fun x v => Host.reduce IntOp.andi x v reducesTo_S400x500_S_d0_1 h_S_) main_v26 main_c_9
  let main_v28 : IVec S_ 1 := andi main_v23 main_v27
  let main_v29 : FVec F S400 .f32 := Host.absf main_arg8
  let main_cst_10 : FVec F S_ .f32 := constant S_ .f32 0x7F800000#32
  let main_v30 : FVec F S400 .f32 := broadcastInDim S400 ![] bcast_S_S400 main_cst_10
  let main_v31 : IVec S400 1 := cmpf .olt main_v29 main_v30
  let main_c_11 : IVec S_ 1 := constantI S_ 1 1#1
  let main_v32 : IVec S_ 1 := (fun x v => Host.reduce IntOp.andi x v reducesTo_S400_S_d0 h_S_) main_v31 main_c_11
  let main_v33 : IVec S_ 1 := andi main_v28 main_v32
  fn_part2 (F := F) main_arg9 main_arg10 main_arg11 main_arg12 main_arg13 main_v33

def fn {F : FTy → Type} [FloatOps F] (main_arg0 : FVec F S50000x100 .f32) (main_arg1 : FVec F S237x100 .f32) (main_arg2 : IVec S2x300000 32) (main_arg3 : IVec S300000 32) (main_arg4 : FVec F S200x300 .f32) (main_arg5 : FVec F S200 .f32) (main_arg6 : FVec F S1x2x100 .f32) (main_arg7 : FVec F S400x500 .f32) (main_arg8 : FVec F S400 .f32) (main_arg9 : FVec F S1x2x200 .f32) (main_arg10 : FVec F S200x100 .f32) (main_arg11 : FVec F S200 .f32) (main_arg12 : FVec F S200x100 .f32) (main_arg13 : FVec F S200 .f32) : IVec S_ 1 :=
  let main_v0 : FVec F S50000x100 .f32 := Host.absf main_arg0
  let main_cst : FVec F S_ .f32 := constant S_ .f32 0x7F800000#32
  let main_v1 : FVec F S50000x100 .f32 := broadcastInDim S50000x100 ![] bcast_S_S50000x100 main_cst
  let main_v2 : IVec S50000x100 1 := cmpf .olt main_v0 main_v1
  let main_c : IVec S_ 1 := constantI S_ 1 1#1
  let main_v3 : IVec S_ 1 := (fun x v => Host.reduce IntOp.andi x v reducesTo_S50000x100_S_d0_1 h_S_) main_v2 main_c
  let main_v4 : FVec F S237x100 .f32 := Host.absf main_arg1
  let main_cst_0 : FVec F S_ .f32 := constant S_ .f32 0x7F800000#32
  let main_v5 : FVec F S237x100 .f32 := broadcastInDim S237x100 ![] bcast_S_S237x100 main_cst_0
  let main_v6 : IVec S237x100 1 := cmpf .olt main_v4 main_v5
  let main_c_1 : IVec S_ 1 := constantI S_ 1 1#1
  let main_v7 : IVec S_ 1 := (fun x v => Host.reduce IntOp.andi x v reducesTo_S237x100_S_d0_1 h_S_) main_v6 main_c_1
  let main_v8 : IVec S_ 1 := andi main_v3 main_v7
  let main_v9 : FVec F S200x300 .f32 := Host.absf main_arg4
  let main_cst_2 : FVec F S_ .f32 := constant S_ .f32 0x7F800000#32
  let main_v10 : FVec F S200x300 .f32 := broadcastInDim S200x300 ![] bcast_S_S200x300 main_cst_2
  let main_v11 : IVec S200x300 1 := cmpf .olt main_v9 main_v10
  let main_c_3 : IVec S_ 1 := constantI S_ 1 1#1
  let main_v12 : IVec S_ 1 := (fun x v => Host.reduce IntOp.andi x v reducesTo_S200x300_S_d0_1 h_S_) main_v11 main_c_3
  let main_v13 : IVec S_ 1 := andi main_v8 main_v12
  let main_v14 : FVec F S200 .f32 := Host.absf main_arg5
  let main_cst_4 : FVec F S_ .f32 := constant S_ .f32 0x7F800000#32
  let main_v15 : FVec F S200 .f32 := broadcastInDim S200 ![] bcast_S_S200 main_cst_4
  let main_v16 : IVec S200 1 := cmpf .olt main_v14 main_v15
  fn_part1 (F := F) main_arg6 main_arg7 main_arg8 main_arg9 main_arg10 main_arg11 main_arg12 main_arg13 main_v13 main_v16
-- ==== Kernel.lean ====
abbrev S50000x100 : Shape := ⟨2, ![50000, 100]⟩
abbrev S237x100 : Shape := ⟨2, ![237, 100]⟩
abbrev S2x300000 : Shape := ⟨2, ![2, 300000]⟩
abbrev S300000 : Shape := ⟨1, ![300000]⟩
abbrev S200x300 : Shape := ⟨2, ![200, 300]⟩
abbrev S200 : Shape := ⟨1, ![200]⟩
abbrev S1x2x100 : Shape := ⟨3, ![1, 2, 100]⟩
abbrev S400x500 : Shape := ⟨2, ![400, 500]⟩
abbrev S400 : Shape := ⟨1, ![400]⟩
abbrev S1x2x200 : Shape := ⟨3, ![1, 2, 200]⟩
abbrev S200x100 : Shape := ⟨2, ![200, 100]⟩
abbrev S1x300000 : Shape := ⟨2, ![1, 300000]⟩
abbrev S_ : Shape := ⟨0, ![]⟩
abbrev S50000 : Shape := ⟨1, ![50000]⟩
abbrev S50000x1 : Shape := ⟨2, ![50000, 1]⟩
abbrev S300000x1 : Shape := ⟨2, ![300000, 1]⟩
abbrev S300000x100 : Shape := ⟨2, ![300000, 100]⟩
abbrev S100x200 : Shape := ⟨2, ![100, 200]⟩
abbrev S2x100 : Shape := ⟨2, ![2, 100]⟩
abbrev S200x2 : Shape := ⟨2, ![200, 2]⟩
abbrev S1x100 : Shape := ⟨2, ![1, 100]⟩
abbrev S100 : Shape := ⟨1, ![100]⟩
abbrev S1 : Shape := ⟨1, ![1]⟩
abbrev S2 : Shape := ⟨1, ![2]⟩
abbrev S1x200 : Shape := ⟨2, ![1, 200]⟩
abbrev S300000x200 : Shape := ⟨2, ![300000, 200]⟩
abbrev S300000x2 : Shape := ⟨2, ![300000, 2]⟩
abbrev S10000x100 : Shape := ⟨2, ![10000, 100]⟩
abbrev S10000x200 : Shape := ⟨2, ![10000, 200]⟩
abbrev S10000x2 : Shape := ⟨2, ![10000, 2]⟩
abbrev S300000x2x1 : Shape := ⟨3, ![300000, 2, 1]⟩
abbrev S50000x2x1 : Shape := ⟨3, ![50000, 2, 1]⟩
abbrev S300000x2x100 : Shape := ⟨3, ![300000, 2, 100]⟩
abbrev S50000x2x100 : Shape := ⟨3, ![50000, 2, 100]⟩
abbrev S50000x2 : Shape := ⟨2, ![50000, 2]⟩
abbrev S50000x200 : Shape := ⟨2, ![50000, 200]⟩
abbrev S400x200 : Shape := ⟨2, ![400, 200]⟩
abbrev S400x100 : Shape := ⟨2, ![400, 100]⟩
abbrev S200x400 : Shape := ⟨2, ![200, 400]⟩
abbrev S100x400 : Shape := ⟨2, ![100, 400]⟩
abbrev S2x200 : Shape := ⟨2, ![2, 200]⟩
abbrev S400x2 : Shape := ⟨2, ![400, 2]⟩
abbrev S1x400 : Shape := ⟨2, ![1, 400]⟩
abbrev S300000x400 : Shape := ⟨2, ![300000, 400]⟩
abbrev S6000x200 : Shape := ⟨2, ![6000, 200]⟩
abbrev S6000x100 : Shape := ⟨2, ![6000, 100]⟩
abbrev S6000x400 : Shape := ⟨2, ![6000, 400]⟩
abbrev S6000x2 : Shape := ⟨2, ![6000, 2]⟩
abbrev S300000x2x200 : Shape := ⟨3, ![300000, 2, 200]⟩
abbrev S50000x2x200 : Shape := ⟨3, ![50000, 2, 200]⟩
abbrev S50000x1x200 : Shape := ⟨3, ![50000, 1, 200]⟩
abbrev S237x200 : Shape := ⟨2, ![237, 200]⟩

abbrev nBuf : Space → Nat
  | .hbm => 256
  | .vmem => 30
  | .smem => 0
  | _ => 0

abbrev hbmTy0_0 (i : Nat) : BufTy := match i % 128 with
  | 0 => ⟨S50000x100, .f32⟩
  | 1 => ⟨S237x100, .f32⟩
  | 2 => ⟨S2x300000, .i32⟩
  | 3 => ⟨S300000, .i32⟩
  | 4 => ⟨S200x300, .f32⟩
  | 5 => ⟨S200, .f32⟩
  | 6 => ⟨S1x2x100, .f32⟩
  | 7 => ⟨S400x500, .f32⟩
  | 8 => ⟨S400, .f32⟩
  | 9 => ⟨S1x2x200, .f32⟩
  | 10 => ⟨S200x100, .f32⟩
  | 11 => ⟨S200, .f32⟩
  | 12 => ⟨S200x100, .f32⟩
  | 13 => ⟨S200, .f32⟩
  | 14 => ⟨S1x300000, .i32⟩
  | 15 => ⟨S300000, .i32⟩
  | 16 => ⟨S1x300000, .i32⟩
  | 17 => ⟨S300000, .i32⟩
  | 18 => ⟨S50000x100, .f32⟩
  | 19 => ⟨S_, .f32⟩
  | 20 => ⟨S50000, .f32⟩
  | 21 => ⟨S50000x1, .f32⟩
  | 22 => ⟨S50000x1, .f32⟩
  | 23 => ⟨S_, .f32⟩
  | 24 => ⟨S50000x1, .f32⟩
  | 25 => ⟨S50000x1, .f32⟩
  | 26 => ⟨S50000x100, .f32⟩
  | 27 => ⟨S50000x100, .f32⟩
  | 28 => ⟨S50000x100, .bf16⟩
  | 29 => ⟨S237x100, .bf16⟩
  | 30 => ⟨S_, .i32⟩
  | 31 => ⟨S300000, .i32⟩
  | 32 => ⟨S300000, .i1⟩
  | 33 => ⟨S_, .i32⟩
  | 34 => ⟨S300000, .i32⟩
  | 35 => ⟨S300000, .i32⟩
  | 36 => ⟨S300000, .i32⟩
  | 37 => ⟨S300000x1, .i32⟩
  | 38 => ⟨S300000x100, .bf16⟩
  | 39 => ⟨S_, .i32⟩
  | 40 => ⟨S300000, .i32⟩
  | 41 => ⟨S300000, .i1⟩
  | 42 => ⟨S_, .i32⟩
  | 43 => ⟨S300000, .i32⟩
  | 44 => ⟨S300000, .i32⟩
  | 45 => ⟨S300000, .i32⟩
  | 46 => ⟨S300000x1, .i32⟩
  | 47 => ⟨S300000x100, .bf16⟩
  | 48 => ⟨S_, .i32⟩
  | 49 => ⟨S300000, .i32⟩
  | 50 => ⟨S300000, .i1⟩
  | 51 => ⟨S_, .i32⟩
  | 52 => ⟨S300000, .i32⟩
  | 53 => ⟨S300000, .i32⟩
  | 54 => ⟨S300000, .i32⟩
  | 55 => ⟨S300000x1, .i32⟩
  | 56 => ⟨S300000x100, .bf16⟩
  | 57 => ⟨S200x100, .f32⟩
  | 58 => ⟨S200x100, .f32⟩
  | 59 => ⟨S200x100, .f32⟩
  | 60 => ⟨S100x200, .f32⟩
  | 61 => ⟨S100x200, .bf16⟩
  | 62 => ⟨S100x200, .f32⟩
  | 63 => ⟨S100x200, .bf16⟩
  | 64 => ⟨S100x200, .f32⟩
  | 65 => ⟨S100x200, .bf16⟩
  | 66 => ⟨S2x100, .f32⟩
  | 67 => ⟨S_, .f32⟩
  | 68 => ⟨S200x2, .f32⟩
  | 69 => ⟨S1x100, .f32⟩
  | 70 => ⟨S100, .f32⟩
  | 71 => ⟨S_, .i32⟩
  | 72 => ⟨S1, .i32⟩
  | 73 => ⟨S_, .i32⟩
  | 74 => ⟨S1, .i32⟩
  | 75 => ⟨S2, .i32⟩
  | 76 => ⟨S200x2, .f32⟩
  | 77 => ⟨S1x100, .f32⟩
  | 78 => ⟨S100, .f32⟩
  | 79 => ⟨S_, .i32⟩
  | 80 => ⟨S1, .i32⟩
  | 81 => ⟨S_, .i32⟩
  | 82 => ⟨S1, .i32⟩
  | 83 => ⟨S2, .i32⟩
  | 84 => ⟨S200x2, .f32⟩
  | 85 => ⟨S1x200, .f32⟩
  | 86 => ⟨S300000x200, .f32⟩
  | 87 => ⟨S300000x2, .f32⟩
  | 88 => ⟨S300000x2x1, .f32⟩
  | 89 => ⟨S_, .f32⟩
  | 90 => ⟨S50000x2x1, .f32⟩
  | 91 => ⟨S300000x1, .i32⟩
  | 92 => ⟨S50000x2x1, .f32⟩
  | 93 => ⟨S_, .i32⟩
  | 94 => ⟨S300000, .i32⟩
  | 95 => ⟨S300000, .i1⟩
  | 96 => ⟨S_, .i32⟩
  | 97 => ⟨S300000, .i32⟩
  | 98 => ⟨S300000, .i32⟩
  | 99 => ⟨S300000, .i32⟩
  | 100 => ⟨S300000x1, .i32⟩
  | 101 => ⟨S300000x2x1, .f32⟩
  | 102 => ⟨S300000x2x1, .f32⟩
  | 103 => ⟨S300000x2x100, .f32⟩
  | 104 => ⟨S300000x2x100, .f32⟩
  | 105 => ⟨S300000x2x100, .f32⟩
  | 106 => ⟨S_, .f32⟩
  | 107 => ⟨S50000x2x100, .f32⟩
  | 108 => ⟨S300000x1, .i32⟩
  | 109 => ⟨S50000x2x100, .f32⟩
  | 110 => ⟨S_, .f32⟩
  | 111 => ⟨S_, .f32⟩
  | 112 => ⟨S50000x2x100, .f32⟩
  | 113 => ⟨S50000x2x100, .i1⟩
  | 114 => ⟨S_, .f32⟩
  | 115 => ⟨S50000x2x100, .f32⟩
  | 116 => ⟨S50000x2x100, .f32⟩
  | 117 => ⟨S50000x2x100, .f32⟩
  | 118 => ⟨S50000x2x100, .f32⟩
  | 119 => ⟨S_, .f32⟩
  | 120 => ⟨S50000x2, .f32⟩
  | 121 => ⟨S50000x2x1, .f32⟩
  | 122 => ⟨S50000x2x1, .f32⟩
  | 123 => ⟨S_, .f32⟩
  | 124 => ⟨S50000x2x1, .f32⟩
  | 125 => ⟨S50000x2x1, .f32⟩
  | 126 => ⟨S50000x2x100, .f32⟩
  | 127 => ⟨S50000x2x100, .f32⟩
  | _ => ⟨S50000x100, .f32⟩

abbrev hbmTy0_1 (i : Nat) : BufTy := match i % 128 with
  | 0 => ⟨S50000x200, .f32⟩
  | 1 => ⟨S50000x200, .bf16⟩
  | 2 => ⟨S_, .i32⟩
  | 3 => ⟨S300000, .i32⟩
  | 4 => ⟨S300000, .i1⟩
  | 5 => ⟨S_, .i32⟩
  | 6 => ⟨S300000, .i32⟩
  | 7 => ⟨S300000, .i32⟩
  | 8 => ⟨S300000, .i32⟩
  | 9 => ⟨S300000x1, .i32⟩
  | 10 => ⟨S300000x200, .bf16⟩
  | 11 => ⟨S_, .i32⟩
  | 12 => ⟨S300000, .i32⟩
  | 13 => ⟨S300000, .i1⟩
  | 14 => ⟨S_, .i32⟩
  | 15 => ⟨S300000, .i32⟩
  | 16 => ⟨S300000, .i32⟩
  | 17 => ⟨S300000, .i32⟩
  | 18 => ⟨S300000x1, .i32⟩
  | 19 => ⟨S300000x200, .bf16⟩
  | 20 => ⟨S_, .i32⟩
  | 21 => ⟨S300000, .i32⟩
  | 22 => ⟨S300000, .i1⟩
  | 23 => ⟨S_, .i32⟩
  | 24 => ⟨S300000, .i32⟩
  | 25 => ⟨S300000, .i32⟩
  | 26 => ⟨S300000, .i32⟩
  | 27 => ⟨S300000x1, .i32⟩
  | 28 => ⟨S300000x100, .bf16⟩
  | 29 => ⟨S400x200, .f32⟩
  | 30 => ⟨S400x200, .f32⟩
  | 31 => ⟨S400x100, .f32⟩
  | 32 => ⟨S200x400, .f32⟩
  | 33 => ⟨S200x400, .bf16⟩
  | 34 => ⟨S200x400, .f32⟩
  | 35 => ⟨S200x400, .bf16⟩
  | 36 => ⟨S100x400, .f32⟩
  | 37 => ⟨S100x400, .bf16⟩
  | 38 => ⟨S2x200, .f32⟩
  | 39 => ⟨S_, .f32⟩
  | 40 => ⟨S400x2, .f32⟩
  | 41 => ⟨S1x200, .f32⟩
  | 42 => ⟨S200, .f32⟩
  | 43 => ⟨S_, .i32⟩
  | 44 => ⟨S1, .i32⟩
  | 45 => ⟨S_, .i32⟩
  | 46 => ⟨S1, .i32⟩
  | 47 => ⟨S2, .i32⟩
  | 48 => ⟨S400x2, .f32⟩
  | 49 => ⟨S1x200, .f32⟩
  | 50 => ⟨S200, .f32⟩
  | 51 => ⟨S_, .i32⟩
  | 52 => ⟨S1, .i32⟩
  | 53 => ⟨S_, .i32⟩
  | 54 => ⟨S1, .i32⟩
  | 55 => ⟨S2, .i32⟩
  | 56 => ⟨S400x2, .f32⟩
  | 57 => ⟨S1x400, .f32⟩
  | 58 => ⟨S300000x400, .f32⟩
  | 59 => ⟨S300000x2, .f32⟩
  | 60 => ⟨S300000x2x1, .f32⟩
  | 61 => ⟨S_, .f32⟩
  | 62 => ⟨S50000x2x1, .f32⟩
  | 63 => ⟨S300000x1, .i32⟩
  | 64 => ⟨S50000x2x1, .f32⟩
  | 65 => ⟨S_, .i32⟩
  | 66 => ⟨S300000, .i32⟩
  | 67 => ⟨S300000, .i1⟩
  | 68 => ⟨S_, .i32⟩
  | 69 => ⟨S300000, .i32⟩
  | 70 => ⟨S300000, .i32⟩
  | 71 => ⟨S300000, .i32⟩
  | 72 => ⟨S300000x1, .i32⟩
  | 73 => ⟨S300000x2x1, .f32⟩
  | 74 => ⟨S300000x2x1, .f32⟩
  | 75 => ⟨S300000x2x200, .f32⟩
  | 76 => ⟨S300000x2x200, .f32⟩
  | 77 => ⟨S300000x2x200, .f32⟩
  | 78 => ⟨S_, .f32⟩
  | 79 => ⟨S50000x2x200, .f32⟩
  | 80 => ⟨S300000x1, .i32⟩
  | 81 => ⟨S50000x2x200, .f32⟩
  | 82 => ⟨S_, .f32⟩
  | 83 => ⟨S_, .f32⟩
  | 84 => ⟨S50000x2x200, .f32⟩
  | 85 => ⟨S50000x2x200, .i1⟩
  | 86 => ⟨S_, .f32⟩
  | 87 => ⟨S50000x2x200, .f32⟩
  | 88 => ⟨S50000x2x200, .f32⟩
  | 89 => ⟨S50000x2x200, .f32⟩
  | 90 => ⟨S50000x2x200, .f32⟩
  | 91 => ⟨S_, .f32⟩
  | 92 => ⟨S50000x2, .f32⟩
  | 93 => ⟨S50000x2x1, .f32⟩
  | 94 => ⟨S50000x2x1, .f32⟩
  | 95 => ⟨S_, .f32⟩
  | 96 => ⟨S50000x2x1, .f32⟩
  | 97 => ⟨S50000x2x1, .f32⟩
  | 98 => ⟨S50000x2x200, .f32⟩
  | 99 => ⟨S50000x2x200, .f32⟩
  | 100 => ⟨S100x200, .f32⟩
  | 101 => ⟨S50000x200, .f32⟩
  | 102 => ⟨S1x200, .f32⟩
  | 103 => ⟨S50000x200, .f32⟩
  | 104 => ⟨S50000x200, .f32⟩
  | 105 => ⟨S50000x1x200, .f32⟩
  | 106 => ⟨S50000x2x200, .f32⟩
  | 107 => ⟨S50000x2x200, .f32⟩
  | 108 => ⟨S100x200, .f32⟩
  | 109 => ⟨S237x200, .f32⟩
  | 110 => ⟨S1x200, .f32⟩
  | 111 => ⟨S237x200, .f32⟩
  | 112 => ⟨S237x200, .f32⟩
  | 113 => ⟨S50000x2x200, .f32⟩
  | 114 => ⟨S_, .f32⟩
  | 115 => ⟨S50000x2, .f32⟩
  | 116 => ⟨S50000x2x1, .f32⟩
  | 117 => ⟨S50000x2x1, .f32⟩
  | 118 => ⟨S_, .f32⟩
  | 119 => ⟨S50000x2x1, .f32⟩
  | 120 => ⟨S50000x2x1, .f32⟩
  | 121 => ⟨S50000x2x200, .f32⟩
  | 122 => ⟨S50000x2x200, .f32⟩
  | 123 => ⟨S_, .f32⟩
  | 124 => ⟨S50000x200, .f32⟩
  | 125 => ⟨S_, .f32⟩
  | 126 => ⟨S50000x200, .f32⟩
  | 127 => ⟨S50000x200, .f32⟩
  | _ => ⟨S50000x100, .f32⟩

abbrev hbmTy (i : Nat) : BufTy := match i / 128 with
  | 0 => hbmTy0_0 i
  | 1 => hbmTy0_1 i
  | _ => ⟨S50000x100, .f32⟩

abbrev bufTy : (tb : Table) → Fin (tcTables nBuf tb) → BufTy
  | .hbm, ⟨i, _⟩ => hbmTy i
  | .local _ .vmem, ⟨0, _⟩ => ⟨S10000x100, .bf16⟩
  | .local _ .vmem, ⟨1, _⟩ => ⟨S10000x100, .bf16⟩
  | .local _ .vmem, ⟨2, _⟩ => ⟨S10000x100, .bf16⟩
  | .local _ .vmem, ⟨3, _⟩ => ⟨S10000x100, .bf16⟩
  | .local _ .vmem, ⟨4, _⟩ => ⟨S10000x100, .bf16⟩
  | .local _ .vmem, ⟨5, _⟩ => ⟨S10000x100, .bf16⟩
  | .local _ .vmem, ⟨6, _⟩ => ⟨S100x200, .bf16⟩
  | .local _ .vmem, ⟨7, _⟩ => ⟨S100x200, .bf16⟩
  | .local _ .vmem, ⟨8, _⟩ => ⟨S100x200, .bf16⟩
  | .local _ .vmem, ⟨9, _⟩ => ⟨S1x200, .f32⟩
  | .local _ .vmem, ⟨10, _⟩ => ⟨S200x2, .f32⟩
  | .local _ .vmem, ⟨11, _⟩ => ⟨S10000x200, .f32⟩
  | .local _ .vmem, ⟨12, _⟩ => ⟨S10000x200, .f32⟩
  | .local _ .vmem, ⟨13, _⟩ => ⟨S10000x2, .f32⟩
  | .local _ .vmem, ⟨14, _⟩ => ⟨S10000x2, .f32⟩
  | .local _ .vmem, ⟨15, _⟩ => ⟨S6000x200, .bf16⟩
  | .local _ .vmem, ⟨16, _⟩ => ⟨S6000x200, .bf16⟩
  | .local _ .vmem, ⟨17, _⟩ => ⟨S6000x200, .bf16⟩
  | .local _ .vmem, ⟨18, _⟩ => ⟨S6000x200, .bf16⟩
  | .local _ .vmem, ⟨19, _⟩ => ⟨S6000x100, .bf16⟩
  | .local _ .vmem, ⟨20, _⟩ => ⟨S6000x100, .bf16⟩
  | .local _ .vmem, ⟨21, _⟩ => ⟨S200x400, .bf16⟩
  | .local _ .vmem, ⟨22, _⟩ => ⟨S200x400, .bf16⟩
  | .local _ .vmem, ⟨23, _⟩ => ⟨S100x400, .bf16⟩
  | .local _ .vmem, ⟨24, _⟩ => ⟨S1x400, .f32⟩
  | .local _ .vmem, ⟨25, _⟩ => ⟨S400x2, .f32⟩
  | .local _ .vmem, ⟨26, _⟩ => ⟨S6000x400, .f32⟩
  | .local _ .vmem, ⟨27, _⟩ => ⟨S6000x400, .f32⟩
  | .local _ .vmem, ⟨28, _⟩ => ⟨S6000x2, .f32⟩
  | .local _ .vmem, ⟨29, _⟩ => ⟨S6000x2, .f32⟩
  | _, _ => ⟨S50000x100, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_c : Ref sig .tc := ⟨.hbm, 30, rfl⟩
abbrev main_v14 : Ref sig .tc := ⟨.hbm, 31, rfl⟩
abbrev main_v15 : Ref sig .tc := ⟨.hbm, 32, rfl⟩
abbrev main_c_1 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_c_2 : Ref sig .tc := ⟨.hbm, 39, rfl⟩
abbrev main_v21 : Ref sig .tc := ⟨.hbm, 40, rfl⟩
abbrev main_v22 : Ref sig .tc := ⟨.hbm, 41, rfl⟩
abbrev main_c_3 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_c_4 : Ref sig .tc := ⟨.hbm, 48, rfl⟩
abbrev main_v28 : Ref sig .tc := ⟨.hbm, 49, rfl⟩
abbrev main_v29 : Ref sig .tc := ⟨.hbm, 50, rfl⟩
abbrev main_c_5 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_6 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_c_7 : Ref sig .tc := ⟨.hbm, 71, rfl⟩
abbrev main_v48 : Ref sig .tc := ⟨.hbm, 72, rfl⟩
abbrev main_c_8 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_c_9 : Ref sig .tc := ⟨.hbm, 79, rfl⟩
abbrev main_v54 : Ref sig .tc := ⟨.hbm, 80, rfl⟩
abbrev main_c_10 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59_0 : Ref sig .tc := ⟨.hbm, 86, rfl⟩
abbrev main_v59_1 : Ref sig .tc := ⟨.hbm, 87, rfl⟩
abbrev main_v60 : Ref sig .tc := ⟨.hbm, 88, rfl⟩
abbrev main_cst_11 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_c_12 : Ref sig .tc := ⟨.hbm, 93, rfl⟩
abbrev main_v64 : Ref sig .tc := ⟨.hbm, 94, rfl⟩
abbrev main_v65 : Ref sig .tc := ⟨.hbm, 95, rfl⟩
abbrev main_c_13 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_cst_14 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_cst_15 : Ref sig .tc := ⟨.hbm, 110, rfl⟩
abbrev main_call0_cst : Ref sig .tc := ⟨.hbm, 111, rfl⟩
abbrev main_call0_v0 : Ref sig .tc := ⟨.hbm, 112, rfl⟩
abbrev main_call0_v1 : Ref sig .tc := ⟨.hbm, 113, rfl⟩
abbrev main_call0_v2 : Ref sig .tc := ⟨.hbm, 114, rfl⟩
abbrev main_call0_v3 : Ref sig .tc := ⟨.hbm, 115, rfl⟩
abbrev main_call0_v4 : Ref sig .tc := ⟨.hbm, 116, rfl⟩
abbrev main_v78 : Ref sig .tc := ⟨.hbm, 117, rfl⟩
abbrev main_v79 : Ref sig .tc := ⟨.hbm, 118, rfl⟩
abbrev main_cst_16 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_cst_17 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_c_18 : Ref sig .tc := ⟨.hbm, 130, rfl⟩
abbrev main_v89 : Ref sig .tc := ⟨.hbm, 131, rfl⟩
abbrev main_v90 : Ref sig .tc := ⟨.hbm, 132, rfl⟩
abbrev main_c_19 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_c_20 : Ref sig .tc := ⟨.hbm, 139, rfl⟩
abbrev main_v96 : Ref sig .tc := ⟨.hbm, 140, rfl⟩
abbrev main_v97 : Ref sig .tc := ⟨.hbm, 141, rfl⟩
abbrev main_c_21 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_c_22 : Ref sig .tc := ⟨.hbm, 148, rfl⟩
abbrev main_v103 : Ref sig .tc := ⟨.hbm, 149, rfl⟩
abbrev main_v104 : Ref sig .tc := ⟨.hbm, 150, rfl⟩
abbrev main_c_23 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_cst_24 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_c_25 : Ref sig .tc := ⟨.hbm, 171, rfl⟩
abbrev main_v123 : Ref sig .tc := ⟨.hbm, 172, rfl⟩
abbrev main_c_26 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_v128 : Ref sig .tc := ⟨.hbm, 178, rfl⟩
abbrev main_c_27 : Ref sig .tc := ⟨.hbm, 179, rfl⟩
abbrev main_v129 : Ref sig .tc := ⟨.hbm, 180, rfl⟩
abbrev main_c_28 : Ref sig .tc := ⟨.hbm, 181, rfl⟩
abbrev main_v130 : Ref sig .tc := ⟨.hbm, 182, rfl⟩
abbrev main_v131 : Ref sig .tc := ⟨.hbm, 183, rfl⟩
abbrev main_v132 : Ref sig .tc := ⟨.hbm, 184, rfl⟩
abbrev main_v133 : Ref sig .tc := ⟨.hbm, 185, rfl⟩
abbrev main_v134_0 : Ref sig .tc := ⟨.hbm, 186, rfl⟩
abbrev main_v134_1 : Ref sig .tc := ⟨.hbm, 187, rfl⟩
abbrev main_v135 : Ref sig .tc := ⟨.hbm, 188, rfl⟩
abbrev main_cst_29 : Ref sig .tc := ⟨.hbm, 189, rfl⟩
abbrev main_v136 : Ref sig .tc := ⟨.hbm, 190, rfl⟩
abbrev main_v137 : Ref sig .tc := ⟨.hbm, 191, rfl⟩
abbrev main_v138 : Ref sig .tc := ⟨.hbm, 192, rfl⟩
abbrev main_c_30 : Ref sig .tc := ⟨.hbm, 193, rfl⟩
abbrev main_v139 : Ref sig .tc := ⟨.hbm, 194, rfl⟩
abbrev main_v140 : Ref sig .tc := ⟨.hbm, 195, rfl⟩
abbrev main_c_31 : Ref sig .tc := ⟨.hbm, 196, rfl⟩
abbrev main_v141 : Ref sig .tc := ⟨.hbm, 197, rfl⟩
abbrev main_v142 : Ref sig .tc := ⟨.hbm, 198, rfl⟩
abbrev main_v143 : Ref sig .tc := ⟨.hbm, 199, rfl⟩
abbrev main_v144 : Ref sig .tc := ⟨.hbm, 200, rfl⟩
abbrev main_v145 : Ref sig .tc := ⟨.hbm, 201, rfl⟩
abbrev main_v146 : Ref sig .tc := ⟨.hbm, 202, rfl⟩
abbrev main_v147 : Ref sig .tc := ⟨.hbm, 203, rfl⟩
abbrev main_v148 : Ref sig .tc := ⟨.hbm, 204, rfl⟩
abbrev main_v149 : Ref sig .tc := ⟨.hbm, 205, rfl⟩
abbrev main_cst_32 : Ref sig .tc := ⟨.hbm, 206, rfl⟩
abbrev main_v150 : Ref sig .tc := ⟨.hbm, 207, rfl⟩
abbrev main_v151 : Ref sig .tc := ⟨.hbm, 208, rfl⟩
abbrev main_v152 : Ref sig .tc := ⟨.hbm, 209, rfl⟩
abbrev main_cst_33 : Ref sig .tc := ⟨.hbm, 210, rfl⟩
abbrev main_call1_cst : Ref sig .tc := ⟨.hbm, 211, rfl⟩
abbrev main_call1_v0 : Ref sig .tc := ⟨.hbm, 212, rfl⟩
abbrev main_call1_v1 : Ref sig .tc := ⟨.hbm, 213, rfl⟩
abbrev main_call1_v2 : Ref sig .tc := ⟨.hbm, 214, rfl⟩
abbrev main_call1_v3 : Ref sig .tc := ⟨.hbm, 215, rfl⟩
abbrev main_call1_v4 : Ref sig .tc := ⟨.hbm, 216, rfl⟩
abbrev main_v153 : Ref sig .tc := ⟨.hbm, 217, rfl⟩
abbrev main_v154 : Ref sig .tc := ⟨.hbm, 218, rfl⟩
abbrev main_cst_34 : Ref sig .tc := ⟨.hbm, 219, rfl⟩
abbrev main_v155 : Ref sig .tc := ⟨.hbm, 220, rfl⟩
abbrev main_v156 : Ref sig .tc := ⟨.hbm, 221, rfl⟩
abbrev main_v157 : Ref sig .tc := ⟨.hbm, 222, rfl⟩
abbrev main_cst_35 : Ref sig .tc := ⟨.hbm, 223, rfl⟩
abbrev main_v158 : Ref sig .tc := ⟨.hbm, 224, rfl⟩
abbrev main_v159 : Ref sig .tc := ⟨.hbm, 225, rfl⟩
abbrev main_v160 : Ref sig .tc := ⟨.hbm, 226, rfl⟩
abbrev main_v161 : Ref sig .tc := ⟨.hbm, 227, rfl⟩
abbrev main_v162 : Ref sig .tc := ⟨.hbm, 228, rfl⟩
abbrev main_v163 : Ref sig .tc := ⟨.hbm, 229, rfl⟩
abbrev main_v164 : Ref sig .tc := ⟨.hbm, 230, rfl⟩
abbrev main_v165 : Ref sig .tc := ⟨.hbm, 231, rfl⟩
abbrev main_v166 : Ref sig .tc := ⟨.hbm, 232, rfl⟩
abbrev main_v167 : Ref sig .tc := ⟨.hbm, 233, rfl⟩
abbrev main_v168 : Ref sig .tc := ⟨.hbm, 234, rfl⟩
abbrev main_v169 : Ref sig .tc := ⟨.hbm, 235, rfl⟩
abbrev main_v170 : Ref sig .tc := ⟨.hbm, 236, rfl⟩
abbrev main_v171 : Ref sig .tc := ⟨.hbm, 237, rfl⟩
abbrev main_v172 : Ref sig .tc := ⟨.hbm, 238, rfl⟩
abbrev main_v173 : Ref sig .tc := ⟨.hbm, 239, rfl⟩
abbrev main_v174 : Ref sig .tc := ⟨.hbm, 240, rfl⟩
abbrev main_v175 : Ref sig .tc := ⟨.hbm, 241, rfl⟩
abbrev main_cst_36 : Ref sig .tc := ⟨.hbm, 242, rfl⟩
abbrev main_v176 : Ref sig .tc := ⟨.hbm, 243, rfl⟩
abbrev main_v177 : Ref sig .tc := ⟨.hbm, 244, rfl⟩
abbrev main_v178 : Ref sig .tc := ⟨.hbm, 245, rfl⟩
abbrev main_cst_37 : Ref sig .tc := ⟨.hbm, 246, rfl⟩
abbrev main_v179 : Ref sig .tc := ⟨.hbm, 247, rfl⟩
abbrev main_v180 : Ref sig .tc := ⟨.hbm, 248, rfl⟩
abbrev main_v181 : Ref sig .tc := ⟨.hbm, 249, rfl⟩
abbrev main_v182 : Ref sig .tc := ⟨.hbm, 250, rfl⟩
abbrev main_cst_38 : Ref sig .tc := ⟨.hbm, 251, rfl⟩
abbrev main_v183 : Ref sig .tc := ⟨.hbm, 252, rfl⟩
abbrev main_cst_39 : Ref sig .tc := ⟨.hbm, 253, rfl⟩
abbrev main_v184 : Ref sig .tc := ⟨.hbm, 254, rfl⟩
abbrev main_v185 : Ref sig .tc := ⟨.hbm, 255, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg2_1 : Ref sig .tc := ⟨.vmem, 20, rfl⟩
abbrev cc1_stg3_0 : Ref sig .tc := ⟨.vmem, 21, rfl⟩
abbrev cc1_stg4_0 : Ref sig .tc := ⟨.vmem, 22, rfl⟩
abbrev cc1_stg5_0 : Ref sig .tc := ⟨.vmem, 23, rfl⟩
abbrev cc1_stg6_0 : Ref sig .tc := ⟨.vmem, 24, rfl⟩
abbrev cc1_stg7_0 : Ref sig .tc := ⟨.vmem, 25, rfl⟩
abbrev cc1_stg8_0 : Ref sig .tc := ⟨.vmem, 26, rfl⟩
abbrev cc1_stg8_1 : Ref sig .tc := ⟨.vmem, 27, rfl⟩
abbrev cc1_stg9_0 : Ref sig .tc := ⟨.vmem, 28, rfl⟩
abbrev cc1_stg9_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc1_sem0_0 : DmaSem sig := 15
abbrev cc1_sem0_1 : DmaSem sig := 16
abbrev cc1_sem1_0 : DmaSem sig := 17
abbrev cc1_sem1_1 : DmaSem sig := 18
abbrev cc1_sem2_0 : DmaSem sig := 19
abbrev cc1_sem2_1 : DmaSem sig := 20
abbrev cc1_sem3_0 : DmaSem sig := 21
abbrev cc1_sem4_0 : DmaSem sig := 22
abbrev cc1_sem5_0 : DmaSem sig := 23
abbrev cc1_sem6_0 : DmaSem sig := 24
abbrev cc1_sem7_0 : DmaSem sig := 25
abbrev cc1_sem8_0 : DmaSem sig := 26
abbrev cc1_sem8_1 : DmaSem sig := 27
abbrev cc1_sem9_0 : DmaSem sig := 28
abbrev cc1_sem9_1 : DmaSem sig := 29

abbrev nD : Nat := 1
abbrev τ : Topo := Topo.v7x

variable {F : FTy → Type} [FloatOps F]

abbrev grid0 : Pipeline.Grid := ⟨1, ![30], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x100 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x100 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x100 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S100x200 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S100x200 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S100x200 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x200 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S200x2 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S10000x200 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S10000x2 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S6000x200 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S6000x200 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S6000x100 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S200x400 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S200x400 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S100x400 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x400 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S400x2 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S6000x400 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S6000x2 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  slices_S2x300000_S1x300000_0_0 : S2x300000.Slices ![0, 0] S1x300000
  shapeCasts_S1x300000_S300000 : S1x300000.ShapeCasts S300000
  slices_S2x300000_S1x300000_1_0 : S2x300000.Slices ![1, 0] S1x300000
  reducesTo_S50000x100_S50000_d1 : S50000x100.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x100_0_1 : S50000x1.BroadcastsInDim S50000x100 (![0, 1] : Fin 2 → Fin S50000x100.rank)
  bitsLt_bf16_f32 : FTy.bits .bf16 < FTy.bits .f32
  bcast_S_S300000 : S_.BroadcastsInDim S300000 (![] : Fin 0 → Fin S300000.rank)
  bcast_S300000_S300000x1_0 : S300000.BroadcastsInDim S300000x1 (![0] : Fin 1 → Fin S300000x1.rank)
  slices_S200x300_S200x100_0_0 : S200x300.Slices ![0, 0] S200x100
  slices_S200x300_S200x100_0_100 : S200x300.Slices ![0, 100] S200x100
  slices_S200x300_S200x100_0_200 : S200x300.Slices ![0, 200] S200x100
  transposes_S200x100_S100x200_1_0 : S200x100.Transposes [1, 0] S100x200
  shapeCasts_S1x2x100_S2x100 : S1x2x100.ShapeCasts S2x100
  bcast_S_S200x2 : S_.BroadcastsInDim S200x2 (![] : Fin 0 → Fin S200x2.rank)
  slices_S2x100_S1x100_0_0 : S2x100.Slices ![0, 0] S1x100
  shapeCasts_S1x100_S100 : S1x100.ShapeCasts S100
  bcast_S_S1 : S_.BroadcastsInDim S1 (![] : Fin 0 → Fin S1.rank)
  concatenates_S1_S1_S2_d0 : Shape.Concatenates [S1, S1] S2 0
  slices_S2x100_S1x100_1_0 : S2x100.Slices ![1, 0] S1x100
  bcast_S200_S1x200_1 : S200.BroadcastsInDim S1x200 (![1] : Fin 1 → Fin S1x200.rank)
  inb_S10000x100_S10000x100_0_0 : ∀ a, (![0, 0] : Fin 2 → Nat) a + S10000x100.size a ≤ S10000x100.size a
  h_S10000x100 : 0 < S10000x100.numel
  shapeCasts_S10000x100_S10000x100 : S10000x100.ShapeCasts S10000x100
  inb_S100x200_S100x200_0_0 : ∀ a, (![0, 0] : Fin 2 → Nat) a + S100x200.size a ≤ S100x200.size a
  h_S100x200 : 0 < S100x200.numel
  shapeCasts_S100x200_S100x200 : S100x200.ShapeCasts S100x200
  inb_S1x200_S1x200_0_0 : ∀ a, (![0, 0] : Fin 2 → Nat) a + S1x200.size a ≤ S1x200.size a
  h_S1x200 : 0 < S1x200.numel
  shapeCasts_S1x200_S1x200 : S1x200.ShapeCasts S1x200
  broadcasts_S1x200_S10000x200 : S1x200.Broadcasts S10000x200
  inb_S10000x200_S10000x200_0_0 : ∀ a, (![0, 0] : Fin 2 → Nat) a + S10000x200.size a ≤ S10000x200.size a
  h_S10000x200 : 0 < S10000x200.numel
  inb_S200x2_S200x2_0_0 : ∀ a, (![0, 0] : Fin 2 → Nat) a + S200x2.size a ≤ S200x2.size a
  h_S200x2 : 0 < S200x2.numel
  shapeCasts_S200x2_S200x2 : S200x2.ShapeCasts S200x2
  inb_S10000x2_S10000x2_0_0 : ∀ a, (![0, 0] : Fin 2 → Nat) a + S10000x2.size a ≤ S10000x2.size a
  h_S10000x2 : 0 < S10000x2.numel
  bcast_S300000x2_S300000x2x1_0_1 : S300000x2.BroadcastsInDim S300000x2x1 (![0, 1] : Fin 2 → Fin S300000x2x1.rank)
  bcast_S_S50000x2x1 : S_.BroadcastsInDim S50000x2x1 (![] : Fin 0 → Fin S50000x2x1.rank)
  shapeCasts_S300000x200_S300000x2x100 : S300000x200.ShapeCasts S300000x2x100
  bcast_S300000x2x1_S300000x2x100_0_1_2 : S300000x2x1.BroadcastsInDim S300000x2x100 (![0, 1, 2] : Fin 3 → Fin S300000x2x100.rank)
  bcast_S_S50000x2x100 : S_.BroadcastsInDim S50000x2x100 (![] : Fin 0 → Fin S50000x2x100.rank)
  reducesTo_S50000x2x100_S50000x2_d2 : S50000x2x100.ReducesTo [2] S50000x2
  bcast_S50000x2_S50000x2x1_0_1 : S50000x2.BroadcastsInDim S50000x2x1 (![0, 1] : Fin 2 → Fin S50000x2x1.rank)
  bcast_S50000x2x1_S50000x2x100_0_1_2 : S50000x2x1.BroadcastsInDim S50000x2x100 (![0, 1, 2] : Fin 3 → Fin S50000x2x100.rank)
  shapeCasts_S50000x2x100_S50000x200 : S50000x2x100.ShapeCasts S50000x200
  slices_S400x500_S400x200_0_0 : S400x500.Slices ![0, 0] S400x200
  slices_S400x500_S400x200_0_200 : S400x500.Slices ![0, 200] S400x200
  slices_S400x500_S400x100_0_400 : S400x500.Slices ![0, 400] S400x100
  transposes_S400x200_S200x400_1_0 : S400x200.Transposes [1, 0] S200x400
  transposes_S400x100_S100x400_1_0 : S400x100.Transposes [1, 0] S100x400
  shapeCasts_S1x2x200_S2x200 : S1x2x200.ShapeCasts S2x200
  bcast_S_S400x2 : S_.BroadcastsInDim S400x2 (![] : Fin 0 → Fin S400x2.rank)
  slices_S2x200_S1x200_0_0 : S2x200.Slices ![0, 0] S1x200
  shapeCasts_S1x200_S200 : S1x200.ShapeCasts S200
  slices_S2x200_S1x200_1_0 : S2x200.Slices ![1, 0] S1x200
  bcast_S400_S1x400_1 : S400.BroadcastsInDim S1x400 (![1] : Fin 1 → Fin S1x400.rank)
  inb_S6000x200_S6000x200_0_0 : ∀ a, (![0, 0] : Fin 2 → Nat) a + S6000x200.size a ≤ S6000x200.size a
  h_S6000x200 : 0 < S6000x200.numel
  shapeCasts_S6000x200_S6000x200 : S6000x200.ShapeCasts S6000x200
  inb_S200x400_S200x400_0_0 : ∀ a, (![0, 0] : Fin 2 → Nat) a + S200x400.size a ≤ S200x400.size a
  h_S200x400 : 0 < S200x400.numel
  shapeCasts_S200x400_S200x400 : S200x400.ShapeCasts S200x400
  inb_S6000x100_S6000x100_0_0 : ∀ a, (![0, 0] : Fin 2 → Nat) a + S6000x100.size a ≤ S6000x100.size a
  h_S6000x100 : 0 < S6000x100.numel
  shapeCasts_S6000x100_S6000x100 : S6000x100.ShapeCasts S6000x100
  inb_S100x400_S100x400_0_0 : ∀ a, (![0, 0] : Fin 2 → Nat) a + S100x400.size a ≤ S100x400.size a
  h_S100x400 : 0 < S100x400.numel
  shapeCasts_S100x400_S100x400 : S100x400.ShapeCasts S100x400
  inb_S1x400_S1x400_0_0 : ∀ a, (![0, 0] : Fin 2 → Nat) a + S1x400.size a ≤ S1x400.size a
  h_S1x400 : 0 < S1x400.numel
  shapeCasts_S1x400_S1x400 : S1x400.ShapeCasts S1x400
  broadcasts_S1x400_S6000x400 : S1x400.Broadcasts S6000x400
  inb_S6000x400_S6000x400_0_0 : ∀ a, (![0, 0] : Fin 2 → Nat) a + S6000x400.size a ≤ S6000x400.size a
  h_S6000x400 : 0 < S6000x400.numel
  inb_S400x2_S400x2_0_0 : ∀ a, (![0, 0] : Fin 2 → Nat) a + S400x2.size a ≤ S400x2.size a
  h_S400x2 : 0 < S400x2.numel
  shapeCasts_S400x2_S400x2 : S400x2.ShapeCasts S400x2
  inb_S6000x2_S6000x2_0_0 : ∀ a, (![0, 0] : Fin 2 → Nat) a + S6000x2.size a ≤ S6000x2.size a
  h_S6000x2 : 0 < S6000x2.numel
  shapeCasts_S300000x400_S300000x2x200 : S300000x400.ShapeCasts S300000x2x200
  bcast_S300000x2x1_S300000x2x200_0_1_2 : S300000x2x1.BroadcastsInDim S300000x2x200 (![0, 1, 2] : Fin 3 → Fin S300000x2x200.rank)
  bcast_S_S50000x2x200 : S_.BroadcastsInDim S50000x2x200 (![] : Fin 0 → Fin S50000x2x200.rank)
  reducesTo_S50000x2x200_S50000x2_d2 : S50000x2x200.ReducesTo [2] S50000x2
  bcast_S50000x2x1_S50000x2x200_0_1_2 : S50000x2x1.BroadcastsInDim S50000x2x200 (![0, 1, 2] : Fin 3 → Fin S50000x2x200.rank)
  bcast_S1x200_S50000x200_0_1 : S1x200.BroadcastsInDim S50000x200 (![0, 1] : Fin 2 → Fin S50000x200.rank)
  bcast_S50000x200_S50000x1x200_0_2 : S50000x200.BroadcastsInDim S50000x1x200 (![0, 2] : Fin 2 → Fin S50000x1x200.rank)
  bcast_S50000x1x200_S50000x2x200_0_1_2 : S50000x1x200.BroadcastsInDim S50000x2x200 (![0, 1, 2] : Fin 3 → Fin S50000x2x200.rank)
  bcast_S1x200_S237x200_0_1 : S1x200.BroadcastsInDim S237x200 (![0, 1] : Fin 2 → Fin S237x200.rank)
  reducesTo_S50000x2x200_S50000x200_d1 : S50000x2x200.ReducesTo [1] S50000x200
  bcast_S_S50000x200 : S_.BroadcastsInDim S50000x200 (![] : Fin 0 → Fin S50000x200.rank)
  gather_S50000x100_S300000x1_S300000x100_1_0_n_n_0_1_1100_wf : GatherDims.WF S50000x100 S300000x1 S300000x100 [1] [0] [] [0] [] 1 ![1, 100]
  gather_S237x100_S300000x1_S300000x100_1_0_n_n_0_1_1100_wf : GatherDims.WF S237x100 S300000x1 S300000x100 [1] [0] [] [0] [] 1 ![1, 100]
  scatter_S200x2_S2_S100_0_1_01_0_wf : ScatterDims.WF S200x2 S2 S100 [0] [1] [0, 1] 0
  dot_S10000x100_S100x200_S10000x200_1_0_0_1_n_n_wf : DotDims.WF S10000x100 S100x200 S10000x200 [1] [0] [0] [1] [] []
  dot_S10000x200_S200x2_S10000x2_1_0_0_1_n_n_wf : DotDims.WF S10000x200 S200x2 S10000x2 [1] [0] [0] [1] [] []
  scatter_S50000x2x1_S300000x1_S300000x2x1_12_0_0_1_wf : ScatterDims.WF S50000x2x1 S300000x1 S300000x2x1 [1, 2] [0] [0] 1
  gather_S50000x2x1_S300000x1_S300000x2x1_12_0_n_n_0_1_121_wf : GatherDims.WF S50000x2x1 S300000x1 S300000x2x1 [1, 2] [0] [] [0] [] 1 ![1, 2, 1]
  scatter_S50000x2x100_S300000x1_S300000x2x100_12_0_0_1_wf : ScatterDims.WF S50000x2x100 S300000x1 S300000x2x100 [1, 2] [0] [0] 1
  gather_S50000x200_S300000x1_S300000x200_1_0_n_n_0_1_1200_wf : GatherDims.WF S50000x200 S300000x1 S300000x200 [1] [0] [] [0] [] 1 ![1, 200]
  scatter_S400x2_S2_S200_0_1_01_0_wf : ScatterDims.WF S400x2 S2 S200 [0] [1] [0, 1] 0
  dot_S6000x200_S200x400_S6000x400_1_0_0_1_n_n_wf : DotDims.WF S6000x200 S200x400 S6000x400 [1] [0] [0] [1] [] []
  dot_S6000x100_S100x400_S6000x400_1_0_0_1_n_n_wf : DotDims.WF S6000x100 S100x400 S6000x400 [1] [0] [0] [1] [] []
  dot_S6000x400_S400x2_S6000x2_1_0_0_1_n_n_wf : DotDims.WF S6000x400 S400x2 S6000x2 [1] [0] [0] [1] [] []
  scatter_S50000x2x200_S300000x1_S300000x2x200_12_0_0_1_wf : ScatterDims.WF S50000x2x200 S300000x1 S300000x2x200 [1, 2] [0] [0] 1
  dot_S50000x100_S100x200_S50000x200_1_0_0_1_n_n_wf : DotDims.WF S50000x100 S100x200 S50000x200 [1] [0] [0] [1] [] []
  dot_S237x100_S100x200_S237x200_1_0_0_1_n_n_wf : DotDims.WF S237x100 S100x200 S237x200 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x100.size a ≤ S300000x100.size a
  hwx0_0 : ∀ i : grid0.Coords, EltTy.bits .bf16 = 32 ∨ (Rect.block (s := S300000x100) S10000x100.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x100.size a ≤ S300000x100.size a
  hwx0_1 : ∀ i : grid0.Coords, EltTy.bits .bf16 = 32 ∨ (Rect.block (s := S300000x100) S10000x100.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x100.size a ≤ S300000x100.size a
  hwx0_2 : ∀ i : grid0.Coords, EltTy.bits .bf16 = 32 ∨ (Rect.block (s := S300000x100) S10000x100.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S100x200.size a ≤ S100x200.size a
  hwx0_3 : ∀ i : grid0.Coords, EltTy.bits .bf16 = 32 ∨ (Rect.block (s := S100x200) S100x200.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S100x200.size a ≤ S100x200.size a
  hwx0_4 : ∀ i : grid0.Coords, EltTy.bits .bf16 = 32 ∨ (Rect.block (s := S100x200) S100x200.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S100x200.size a ≤ S100x200.size a
  hwx0_5 : ∀ i : grid0.Coords, EltTy.bits .bf16 = 32 ∨ (Rect.block (s := S100x200) S100x200.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x200.size a ≤ S1x200.size a
  hwx0_6 : ∀ i : grid0.Coords, EltTy.bits .f32 = 32 ∨ (Rect.block (s := S1x200) S1x200.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S200x2.size a ≤ S200x2.size a
  hwx0_7 : ∀ i : grid0.Coords, EltTy.bits .f32 = 32 ∨ (Rect.block (s := S200x2) S200x2.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S10000x200.size a ≤ S300000x200.size a
  hwx0_8 : ∀ i : grid0.Coords, EltTy.bits .f32 = 32 ∨ (Rect.block (s := S300000x200) S10000x200.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S10000x2.size a ≤ S300000x2.size a
  hwx0_9 : ∀ i : grid0.Coords, EltTy.bits .f32 = 32 ∨ (Rect.block (s := S300000x2) S10000x2.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S6000x200.size a ≤ S300000x200.size a
  hwx1_0 : ∀ i : grid1.Coords, EltTy.bits .bf16 = 32 ∨ (Rect.block (s := S300000x200) S6000x200.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S6000x200.size a ≤ S300000x200.size a
  hwx1_1 : ∀ i : grid1.Coords, EltTy.bits .bf16 = 32 ∨ (Rect.block (s := S300000x200) S6000x200.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S6000x100.size a ≤ S300000x100.size a
  hwx1_2 : ∀ i : grid1.Coords, EltTy.bits .bf16 = 32 ∨ (Rect.block (s := S300000x100) S6000x100.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S200x400.size a ≤ S200x400.size a
  hwx1_3 : ∀ i : grid1.Coords, EltTy.bits .bf16 = 32 ∨ (Rect.block (s := S200x400) S200x400.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S200x400.size a ≤ S200x400.size a
  hwx1_4 : ∀ i : grid1.Coords, EltTy.bits .bf16 = 32 ∨ (Rect.block (s := S200x400) S200x400.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S100x400.size a ≤ S100x400.size a
  hwx1_5 : ∀ i : grid1.Coords, EltTy.bits .bf16 = 32 ∨ (Rect.block (s := S100x400) S100x400.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x400.size a ≤ S1x400.size a
  hwx1_6 : ∀ i : grid1.Coords, EltTy.bits .f32 = 32 ∨ (Rect.block (s := S1x400) S1x400.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S400x2.size a ≤ S400x2.size a
  hwx1_7 : ∀ i : grid1.Coords, EltTy.bits .f32 = 32 ∨ (Rect.block (s := S400x2) S400x2.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S6000x400.size a ≤ S300000x400.size a
  hwx1_8 : ∀ i : grid1.Coords, EltTy.bits .f32 = 32 ∨ (Rect.block (s := S300000x400) S6000x400.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S6000x2.size a ≤ S300000x2.size a
  hwx1_9 : ∀ i : grid1.Coords, EltTy.bits .f32 = 32 ∨ (Rect.block (s := S300000x2) S6000x2.size (cc1_transform_9 i) (hinb1_9 i)).WholeWords (EltTy.packing .f32)

variable [Facts₀]

def gather_S50000x100_S300000x1_S300000x100_1_0_n_n_0_1_1100 : GatherDims S50000x100 S300000x1 S300000x100 where
  offsetDims := [1]
  collapsedSliceDims := [0]
  operandBatchingDims := []
  startIndicesBatchingDims := []
  startIndexMap := [0]
  indexVectorDim := 1
  sliceSizes := ![1, 100]
  wf := gather_S50000x100_S300000x1_S300000x100_1_0_n_n_0_1_1100_wf
def gather_S237x100_S300000x1_S300000x100_1_0_n_n_0_1_1100 : GatherDims S237x100 S300000x1 S300000x100 where
  offsetDims := [1]
  collapsedSliceDims := [0]
  operandBatchingDims := []
  startIndicesBatchingDims := []
  startIndexMap := [0]
  indexVectorDim := 1
  sliceSizes := ![1, 100]
  wf := gather_S237x100_S300000x1_S300000x100_1_0_n_n_0_1_1100_wf
def scatter_S200x2_S2_S100_0_1_01_0 : ScatterDims S200x2 S2 S100 where
  updateWindowDims := [0]
  insertedWindowDims := [1]
  scatterDimsToOperandDims := [0, 1]
  indexVectorDim := 0
  wf := scatter_S200x2_S2_S100_0_1_01_0_wf
def dot_S10000x100_S100x200_S10000x200_1_0_0_1_n_n : DotDims S10000x100 S100x200 S10000x200 where
  lhsContracting := [1]
  rhsContracting := [0]
  lhsNonContracting := [0]
  rhsNonContracting := [1]
  lhsBatch := []
  rhsBatch := []
  wf := dot_S10000x100_S100x200_S10000x200_1_0_0_1_n_n_wf
def dot_S10000x200_S200x2_S10000x2_1_0_0_1_n_n : DotDims S10000x200 S200x2 S10000x2 where
  lhsContracting := [1]
  rhsContracting := [0]
  lhsNonContracting := [0]
  rhsNonContracting := [1]
  lhsBatch := []
  rhsBatch := []
  wf := dot_S10000x200_S200x2_S10000x2_1_0_0_1_n_n_wf
def scatter_S50000x2x1_S300000x1_S300000x2x1_12_0_0_1 : ScatterDims S50000x2x1 S300000x1 S300000x2x1 where
  updateWindowDims := [1, 2]
  insertedWindowDims := [0]
  scatterDimsToOperandDims := [0]
  indexVectorDim := 1
  wf := scatter_S50000x2x1_S300000x1_S300000x2x1_12_0_0_1_wf
def gather_S50000x2x1_S300000x1_S300000x2x1_12_0_n_n_0_1_121 : GatherDims S50000x2x1 S300000x1 S300000x2x1 where
  offsetDims := [1, 2]
  collapsedSliceDims := [0]
  operandBatchingDims := []
  startIndicesBatchingDims := []
  startIndexMap := [0]
  indexVectorDim := 1
  sliceSizes := ![1, 2, 1]
  wf := gather_S50000x2x1_S300000x1_S300000x2x1_12_0_n_n_0_1_121_wf
def scatter_S50000x2x100_S300000x1_S300000x2x100_12_0_0_1 : ScatterDims S50000x2x100 S300000x1 S300000x2x100 where
  updateWindowDims := [1, 2]
  insertedWindowDims := [0]
  scatterDimsToOperandDims := [0]
  indexVectorDim := 1
  wf := scatter_S50000x2x100_S300000x1_S300000x2x100_12_0_0_1_wf
def gather_S50000x200_S300000x1_S300000x200_1_0_n_n_0_1_1200 : GatherDims S50000x200 S300000x1 S300000x200 where
  offsetDims := [1]
  collapsedSliceDims := [0]
  operandBatchingDims := []
  startIndicesBatchingDims := []
  startIndexMap := [0]
  indexVectorDim := 1
  sliceSizes := ![1, 200]
  wf := gather_S50000x200_S300000x1_S300000x200_1_0_n_n_0_1_1200_wf
def scatter_S400x2_S2_S200_0_1_01_0 : ScatterDims S400x2 S2 S200 where
  updateWindowDims := [0]
  insertedWindowDims := [1]
  scatterDimsToOperandDims := [0, 1]
  indexVectorDim := 0
  wf := scatter_S400x2_S2_S200_0_1_01_0_wf
def dot_S6000x200_S200x400_S6000x400_1_0_0_1_n_n : DotDims S6000x200 S200x400 S6000x400 where
  lhsContracting := [1]
  rhsContracting := [0]
  lhsNonContracting := [0]
  rhsNonContracting := [1]
  lhsBatch := []
  rhsBatch := []
  wf := dot_S6000x200_S200x400_S6000x400_1_0_0_1_n_n_wf
def dot_S6000x100_S100x400_S6000x400_1_0_0_1_n_n : DotDims S6000x100 S100x400 S6000x400 where
  lhsContracting := [1]
  rhsContracting := [0]
  lhsNonContracting := [0]
  rhsNonContracting := [1]
  lhsBatch := []
  rhsBatch := []
  wf := dot_S6000x100_S100x400_S6000x400_1_0_0_1_n_n_wf
def dot_S6000x400_S400x2_S6000x2_1_0_0_1_n_n : DotDims S6000x400 S400x2 S6000x2 where
  lhsContracting := [1]
  rhsContracting := [0]
  lhsNonContracting := [0]
  rhsNonContracting := [1]
  lhsBatch := []
  rhsBatch := []
  wf := dot_S6000x400_S400x2_S6000x2_1_0_0_1_n_n_wf
def scatter_S50000x2x200_S300000x1_S300000x2x200_12_0_0_1 : ScatterDims S50000x2x200 S300000x1 S300000x2x200 where
  updateWindowDims := [1, 2]
  insertedWindowDims := [0]
  scatterDimsToOperandDims := [0]
  indexVectorDim := 1
  wf := scatter_S50000x2x200_S300000x1_S300000x2x200_12_0_0_1_wf
def dot_S50000x100_S100x200_S50000x200_1_0_0_1_n_n : DotDims S50000x100 S100x200 S50000x200 where
  lhsContracting := [1]
  rhsContracting := [0]
  lhsNonContracting := [0]
  rhsNonContracting := [1]
  lhsBatch := []
  rhsBatch := []
  wf := dot_S50000x100_S100x200_S50000x200_1_0_0_1_n_n_wf
def dot_S237x100_S100x200_S237x200_1_0_0_1_n_n : DotDims S237x100 S100x200 S237x200 where
  lhsContracting := [1]
  rhsContracting := [0]
  lhsNonContracting := [0]
  rhsNonContracting := [1]
  lhsBatch := []
  rhsBatch := []
  wf := dot_S237x100_S100x200_S237x200_1_0_0_1_n_n_wf

abbrev win0_0 : Pipeline.Window sig grid0 :=
  Pipeline.Window.ofSpec (Memref.whole main_v20) S10000x100.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v27) S10000x100.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v34) S10000x100.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v39) S100x200.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v41) S100x200.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v43) S100x200.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v58) S1x200.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v57) S200x2.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v59_0) S10000x200.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v59_1) S10000x2.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v95) S6000x200.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v102) S6000x200.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v109) S6000x100.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v114) S200x400.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v116) S200x400.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v118) S100x400.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v133) S1x400.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v132) S400x2.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v134_0) S6000x400.size cc1_transform_8 reads1_8 true false 2 stage1_8 sem1_8
    hrank1 hreads1_8 hinb1_8 nbuf1_8 (Memref.isWhole_whole _) hwx1_8 hstage1_8

abbrev win1_9 : Pipeline.Window sig grid1 :=
  Pipeline.Window.ofSpec (Memref.whole main_v134_1) S6000x2.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S50000x100 : Shape := ⟨2, ![50000, 100]⟩
abbrev S237x100 : Shape := ⟨2, ![237, 100]⟩
abbrev S2x300000 : Shape := ⟨2, ![2, 300000]⟩
abbrev S300000 : Shape := ⟨1, ![300000]⟩
abbrev S200x300 : Shape := ⟨2, ![200, 300]⟩
abbrev S200 : Shape := ⟨1, ![200]⟩
abbrev S1x2x100 : Shape := ⟨3, ![1, 2, 100]⟩
abbrev S400x500 : Shape := ⟨2, ![400, 500]⟩
abbrev S400 : Shape := ⟨1, ![400]⟩
abbrev S1x2x200 : Shape := ⟨3, ![1, 2, 200]⟩
abbrev S200x100 : Shape := ⟨2, ![200, 100]⟩
abbrev S1x300000 : Shape := ⟨2, ![1, 300000]⟩
abbrev S_ : Shape := ⟨0, ![]⟩
abbrev S50000 : Shape := ⟨1, ![50000]⟩
abbrev S50000x1 : Shape := ⟨2, ![50000, 1]⟩
abbrev S300000x1 : Shape := ⟨2, ![300000, 1]⟩
abbrev S300000x100 : Shape := ⟨2, ![300000, 100]⟩
abbrev S300000x300 : Shape := ⟨2, ![300000, 300]⟩
abbrev S300x200 : Shape := ⟨2, ![300, 200]⟩
abbrev S300000x200 : Shape := ⟨2, ![300000, 200]⟩
abbrev S1x200 : Shape := ⟨2, ![1, 200]⟩
abbrev S300000x2x100 : Shape := ⟨3, ![300000, 2, 100]⟩
abbrev S300000x2 : Shape := ⟨2, ![300000, 2]⟩
abbrev S300000x2x1 : Shape := ⟨3, ![300000, 2, 1]⟩
abbrev S50000x2x1 : Shape := ⟨3, ![50000, 2, 1]⟩
abbrev S50000x2x100 : Shape := ⟨3, ![50000, 2, 100]⟩
abbrev S50000x2 : Shape := ⟨2, ![50000, 2]⟩
abbrev S50000x200 : Shape := ⟨2, ![50000, 200]⟩
abbrev S300000x500 : Shape := ⟨2, ![300000, 500]⟩
abbrev S500x400 : Shape := ⟨2, ![500, 400]⟩
abbrev S300000x400 : Shape := ⟨2, ![300000, 400]⟩
abbrev S1x400 : Shape := ⟨2, ![1, 400]⟩
abbrev S300000x2x200 : Shape := ⟨3, ![300000, 2, 200]⟩
abbrev S50000x2x200 : Shape := ⟨3, ![50000, 2, 200]⟩
abbrev S100x200 : Shape := ⟨2, ![100, 200]⟩
abbrev S50000x1x200 : Shape := ⟨3, ![50000, 1, 200]⟩
abbrev S237x200 : Shape := ⟨2, ![237, 200]⟩

abbrev nBuf : Space → Nat
  | .hbm => 229
  | .vmem => 0
  | .smem => 0
  | _ => 0

abbrev hbmTy0_0 (i : Nat) : BufTy := match i % 128 with
  | 0 => ⟨S50000x100, .f32⟩
  | 1 => ⟨S237x100, .f32⟩
  | 2 => ⟨S2x300000, .i32⟩
  | 3 => ⟨S300000, .i32⟩
  | 4 => ⟨S200x300, .f32⟩
  | 5 => ⟨S200, .f32⟩
  | 6 => ⟨S1x2x100, .f32⟩
  | 7 => ⟨S400x500, .f32⟩
  | 8 => ⟨S400, .f32⟩
  | 9 => ⟨S1x2x200, .f32⟩
  | 10 => ⟨S200x100, .f32⟩
  | 11 => ⟨S200, .f32⟩
  | 12 => ⟨S200x100, .f32⟩
  | 13 => ⟨S200, .f32⟩
  | 14 => ⟨S1x300000, .i32⟩
  | 15 => ⟨S300000, .i32⟩
  | 16 => ⟨S1x300000, .i32⟩
  | 17 => ⟨S300000, .i32⟩
  | 18 => ⟨S50000x100, .f32⟩
  | 19 => ⟨S_, .f32⟩
  | 20 => ⟨S50000, .f32⟩
  | 21 => ⟨S50000x1, .f32⟩
  | 22 => ⟨S50000x1, .f32⟩
  | 23 => ⟨S_, .f32⟩
  | 24 => ⟨S50000x1, .f32⟩
  | 25 => ⟨S50000x1, .f32⟩
  | 26 => ⟨S50000x100, .f32⟩
  | 27 => ⟨S50000x100, .f32⟩
  | 28 => ⟨S_, .i32⟩
  | 29 => ⟨S300000, .i32⟩
  | 30 => ⟨S300000, .i1⟩
  | 31 => ⟨S_, .i32⟩
  | 32 => ⟨S300000, .i32⟩
  | 33 => ⟨S300000, .i32⟩
  | 34 => ⟨S300000, .i32⟩
  | 35 => ⟨S300000x1, .i32⟩
  | 36 => ⟨S300000x100, .f32⟩
  | 37 => ⟨S_, .i32⟩
  | 38 => ⟨S300000, .i32⟩
  | 39 => ⟨S300000, .i1⟩
  | 40 => ⟨S_, .i32⟩
  | 41 => ⟨S300000, .i32⟩
  | 42 => ⟨S300000, .i32⟩
  | 43 => ⟨S300000, .i32⟩
  | 44 => ⟨S300000x1, .i32⟩
  | 45 => ⟨S300000x100, .f32⟩
  | 46 => ⟨S_, .i32⟩
  | 47 => ⟨S300000, .i32⟩
  | 48 => ⟨S300000, .i1⟩
  | 49 => ⟨S_, .i32⟩
  | 50 => ⟨S300000, .i32⟩
  | 51 => ⟨S300000, .i32⟩
  | 52 => ⟨S300000, .i32⟩
  | 53 => ⟨S300000x1, .i32⟩
  | 54 => ⟨S300000x100, .f32⟩
  | 55 => ⟨S300000x300, .f32⟩
  | 56 => ⟨S300x200, .f32⟩
  | 57 => ⟨S300000x200, .f32⟩
  | 58 => ⟨S1x200, .f32⟩
  | 59 => ⟨S300000x200, .f32⟩
  | 60 => ⟨S300000x200, .f32⟩
  | 61 => ⟨S300000x2x100, .f32⟩
  | 62 => ⟨S300000x2x100, .f32⟩
  | 63 => ⟨S300000x2x100, .f32⟩
  | 64 => ⟨S_, .f32⟩
  | 65 => ⟨S300000x2, .f32⟩
  | 66 => ⟨S300000x2x1, .f32⟩
  | 67 => ⟨S_, .f32⟩
  | 68 => ⟨S_, .f32⟩
  | 69 => ⟨S300000x2x1, .f32⟩
  | 70 => ⟨S300000x2x1, .i1⟩
  | 71 => ⟨S_, .f32⟩
  | 72 => ⟨S300000x2x1, .f32⟩
  | 73 => ⟨S300000x2x1, .f32⟩
  | 74 => ⟨S300000x2x1, .f32⟩
  | 75 => ⟨S300000x2x1, .f32⟩
  | 76 => ⟨S_, .f32⟩
  | 77 => ⟨S50000x2x1, .f32⟩
  | 78 => ⟨S300000x1, .i32⟩
  | 79 => ⟨S50000x2x1, .f32⟩
  | 80 => ⟨S_, .i32⟩
  | 81 => ⟨S300000, .i32⟩
  | 82 => ⟨S300000, .i1⟩
  | 83 => ⟨S_, .i32⟩
  | 84 => ⟨S300000, .i32⟩
  | 85 => ⟨S300000, .i32⟩
  | 86 => ⟨S300000, .i32⟩
  | 87 => ⟨S300000x1, .i32⟩
  | 88 => ⟨S300000x2x1, .f32⟩
  | 89 => ⟨S300000x2x1, .f32⟩
  | 90 => ⟨S300000x2x100, .f32⟩
  | 91 => ⟨S300000x2x100, .f32⟩
  | 92 => ⟨S_, .f32⟩
  | 93 => ⟨S50000x2x100, .f32⟩
  | 94 => ⟨S300000x1, .i32⟩
  | 95 => ⟨S50000x2x100, .f32⟩
  | 96 => ⟨S_, .f32⟩
  | 97 => ⟨S_, .f32⟩
  | 98 => ⟨S50000x2x100, .f32⟩
  | 99 => ⟨S50000x2x100, .i1⟩
  | 100 => ⟨S_, .f32⟩
  | 101 => ⟨S50000x2x100, .f32⟩
  | 102 => ⟨S50000x2x100, .f32⟩
  | 103 => ⟨S50000x2x100, .f32⟩
  | 104 => ⟨S50000x2x100, .f32⟩
  | 105 => ⟨S_, .f32⟩
  | 106 => ⟨S50000x2, .f32⟩
  | 107 => ⟨S50000x2x1, .f32⟩
  | 108 => ⟨S50000x2x1, .f32⟩
  | 109 => ⟨S_, .f32⟩
  | 110 => ⟨S50000x2x1, .f32⟩
  | 111 => ⟨S50000x2x1, .f32⟩
  | 112 => ⟨S50000x2x100, .f32⟩
  | 113 => ⟨S50000x2x100, .f32⟩
  | 114 => ⟨S50000x200, .f32⟩
  | 115 => ⟨S_, .i32⟩
  | 116 => ⟨S300000, .i32⟩
  | 117 => ⟨S300000, .i1⟩
  | 118 => ⟨S_, .i32⟩
  | 119 => ⟨S300000, .i32⟩
  | 120 => ⟨S300000, .i32⟩
  | 121 => ⟨S300000, .i32⟩
  | 122 => ⟨S300000x1, .i32⟩
  | 123 => ⟨S300000x200, .f32⟩
  | 124 => ⟨S_, .i32⟩
  | 125 => ⟨S300000, .i32⟩
  | 126 => ⟨S300000, .i1⟩
  | 127 => ⟨S_, .i32⟩
  | _ => ⟨S50000x100, .f32⟩

abbrev hbmTy0_1 (i : Nat) : BufTy := match i % 128 with
  | 0 => ⟨S300000, .i32⟩
  | 1 => ⟨S300000, .i32⟩
  | 2 => ⟨S300000, .i32⟩
  | 3 => ⟨S300000x1, .i32⟩
  | 4 => ⟨S300000x200, .f32⟩
  | 5 => ⟨S_, .i32⟩
  | 6 => ⟨S300000, .i32⟩
  | 7 => ⟨S300000, .i1⟩
  | 8 => ⟨S_, .i32⟩
  | 9 => ⟨S300000, .i32⟩
  | 10 => ⟨S300000, .i32⟩
  | 11 => ⟨S300000, .i32⟩
  | 12 => ⟨S300000x1, .i32⟩
  | 13 => ⟨S300000x100, .f32⟩
  | 14 => ⟨S300000x500, .f32⟩
  | 15 => ⟨S500x400, .f32⟩
  | 16 => ⟨S300000x400, .f32⟩
  | 17 => ⟨S1x400, .f32⟩
  | 18 => ⟨S300000x400, .f32⟩
  | 19 => ⟨S300000x400, .f32⟩
  | 20 => ⟨S300000x2x200, .f32⟩
  | 21 => ⟨S300000x2x200, .f32⟩
  | 22 => ⟨S300000x2x200, .f32⟩
  | 23 => ⟨S_, .f32⟩
  | 24 => ⟨S300000x2, .f32⟩
  | 25 => ⟨S300000x2x1, .f32⟩
  | 26 => ⟨S_, .f32⟩
  | 27 => ⟨S_, .f32⟩
  | 28 => ⟨S300000x2x1, .f32⟩
  | 29 => ⟨S300000x2x1, .i1⟩
  | 30 => ⟨S_, .f32⟩
  | 31 => ⟨S300000x2x1, .f32⟩
  | 32 => ⟨S300000x2x1, .f32⟩
  | 33 => ⟨S300000x2x1, .f32⟩
  | 34 => ⟨S300000x2x1, .f32⟩
  | 35 => ⟨S_, .f32⟩
  | 36 => ⟨S50000x2x1, .f32⟩
  | 37 => ⟨S300000x1, .i32⟩
  | 38 => ⟨S50000x2x1, .f32⟩
  | 39 => ⟨S_, .i32⟩
  | 40 => ⟨S300000, .i32⟩
  | 41 => ⟨S300000, .i1⟩
  | 42 => ⟨S_, .i32⟩
  | 43 => ⟨S300000, .i32⟩
  | 44 => ⟨S300000, .i32⟩
  | 45 => ⟨S300000, .i32⟩
  | 46 => ⟨S300000x1, .i32⟩
  | 47 => ⟨S300000x2x1, .f32⟩
  | 48 => ⟨S300000x2x1, .f32⟩
  | 49 => ⟨S300000x2x200, .f32⟩
  | 50 => ⟨S300000x2x200, .f32⟩
  | 51 => ⟨S_, .f32⟩
  | 52 => ⟨S50000x2x200, .f32⟩
  | 53 => ⟨S300000x1, .i32⟩
  | 54 => ⟨S50000x2x200, .f32⟩
  | 55 => ⟨S_, .f32⟩
  | 56 => ⟨S_, .f32⟩
  | 57 => ⟨S50000x2x200, .f32⟩
  | 58 => ⟨S50000x2x200, .i1⟩
  | 59 => ⟨S_, .f32⟩
  | 60 => ⟨S50000x2x200, .f32⟩
  | 61 => ⟨S50000x2x200, .f32⟩
  | 62 => ⟨S50000x2x200, .f32⟩
  | 63 => ⟨S50000x2x200, .f32⟩
  | 64 => ⟨S_, .f32⟩
  | 65 => ⟨S50000x2, .f32⟩
  | 66 => ⟨S50000x2x1, .f32⟩
  | 67 => ⟨S50000x2x1, .f32⟩
  | 68 => ⟨S_, .f32⟩
  | 69 => ⟨S50000x2x1, .f32⟩
  | 70 => ⟨S50000x2x1, .f32⟩
  | 71 => ⟨S50000x2x200, .f32⟩
  | 72 => ⟨S50000x2x200, .f32⟩
  | 73 => ⟨S100x200, .f32⟩
  | 74 => ⟨S50000x200, .f32⟩
  | 75 => ⟨S1x200, .f32⟩
  | 76 => ⟨S50000x200, .f32⟩
  | 77 => ⟨S50000x200, .f32⟩
  | 78 => ⟨S50000x1x200, .f32⟩
  | 79 => ⟨S50000x2x200, .f32⟩
  | 80 => ⟨S50000x2x200, .f32⟩
  | 81 => ⟨S100x200, .f32⟩
  | 82 => ⟨S237x200, .f32⟩
  | 83 => ⟨S1x200, .f32⟩
  | 84 => ⟨S237x200, .f32⟩
  | 85 => ⟨S237x200, .f32⟩
  | 86 => ⟨S50000x2x200, .f32⟩
  | 87 => ⟨S_, .f32⟩
  | 88 => ⟨S50000x2, .f32⟩
  | 89 => ⟨S50000x2x1, .f32⟩
  | 90 => ⟨S50000x2x1, .f32⟩
  | 91 => ⟨S_, .f32⟩
  | 92 => ⟨S50000x2x1, .f32⟩
  | 93 => ⟨S50000x2x1, .f32⟩
  | 94 => ⟨S50000x2x200, .f32⟩
  | 95 => ⟨S50000x2x200, .f32⟩
  | 96 => ⟨S_, .f32⟩
  | 97 => ⟨S50000x200, .f32⟩
  | 98 => ⟨S_, .f32⟩
  | 99 => ⟨S50000x200, .f32⟩
  | 100 => ⟨S50000x200, .f32⟩
  | _ => ⟨S50000x100, .f32⟩

abbrev hbmTy (i : Nat) : BufTy := match i / 128 with
  | 0 => hbmTy0_0 i
  | 1 => hbmTy0_1 i
  | _ => ⟨S50000x100, .f32⟩

abbrev bufTy : (tb : Table) → Fin (tcTables nBuf tb) → BufTy
  | .hbm, ⟨i, _⟩ => hbmTy i
  | _, _ => ⟨S50000x100, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_c : Ref sig .tc := ⟨.hbm, 28, rfl⟩
abbrev main_v12 : Ref sig .tc := ⟨.hbm, 29, rfl⟩
abbrev main_v13 : Ref sig .tc := ⟨.hbm, 30, rfl⟩
abbrev main_c_1 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_c_2 : Ref sig .tc := ⟨.hbm, 37, rfl⟩
abbrev main_v19 : Ref sig .tc := ⟨.hbm, 38, rfl⟩
abbrev main_v20 : Ref sig .tc := ⟨.hbm, 39, rfl⟩
abbrev main_c_3 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_c_4 : Ref sig .tc := ⟨.hbm, 46, rfl⟩
abbrev main_v26 : Ref sig .tc := ⟨.hbm, 47, rfl⟩
abbrev main_v27 : Ref sig .tc := ⟨.hbm, 48, rfl⟩
abbrev main_c_5 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_6 : Ref sig .tc := ⟨.hbm, 64, rfl⟩
abbrev main_v42 : Ref sig .tc := ⟨.hbm, 65, rfl⟩
abbrev main_v43 : Ref sig .tc := ⟨.hbm, 66, rfl⟩
abbrev main_cst_7 : Ref sig .tc := ⟨.hbm, 67, rfl⟩
abbrev main_call0_cst : Ref sig .tc := ⟨.hbm, 68, rfl⟩
abbrev main_call0_v0 : Ref sig .tc := ⟨.hbm, 69, rfl⟩
abbrev main_call0_v1 : Ref sig .tc := ⟨.hbm, 70, rfl⟩
abbrev main_call0_v2 : Ref sig .tc := ⟨.hbm, 71, rfl⟩
abbrev main_call0_v3 : Ref sig .tc := ⟨.hbm, 72, rfl⟩
abbrev main_call0_v4 : Ref sig .tc := ⟨.hbm, 73, rfl⟩
abbrev main_v44 : Ref sig .tc := ⟨.hbm, 74, rfl⟩
abbrev main_v45 : Ref sig .tc := ⟨.hbm, 75, rfl⟩
abbrev main_cst_8 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_c_9 : Ref sig .tc := ⟨.hbm, 80, rfl⟩
abbrev main_v49 : Ref sig .tc := ⟨.hbm, 81, rfl⟩
abbrev main_v50 : Ref sig .tc := ⟨.hbm, 82, rfl⟩
abbrev main_c_10 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_cst_11 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_cst_12 : Ref sig .tc := ⟨.hbm, 96, rfl⟩
abbrev main_call1_cst : Ref sig .tc := ⟨.hbm, 97, rfl⟩
abbrev main_call1_v0 : Ref sig .tc := ⟨.hbm, 98, rfl⟩
abbrev main_call1_v1 : Ref sig .tc := ⟨.hbm, 99, rfl⟩
abbrev main_call1_v2 : Ref sig .tc := ⟨.hbm, 100, rfl⟩
abbrev main_call1_v3 : Ref sig .tc := ⟨.hbm, 101, rfl⟩
abbrev main_call1_v4 : Ref sig .tc := ⟨.hbm, 102, rfl⟩
abbrev main_v62 : Ref sig .tc := ⟨.hbm, 103, rfl⟩
abbrev main_v63 : Ref sig .tc := ⟨.hbm, 104, rfl⟩
abbrev main_cst_13 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_cst_14 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_c_15 : Ref sig .tc := ⟨.hbm, 115, rfl⟩
abbrev main_v72 : Ref sig .tc := ⟨.hbm, 116, rfl⟩
abbrev main_v73 : Ref sig .tc := ⟨.hbm, 117, rfl⟩
abbrev main_c_16 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_c_17 : Ref sig .tc := ⟨.hbm, 124, rfl⟩
abbrev main_v79 : Ref sig .tc := ⟨.hbm, 125, rfl⟩
abbrev main_v80 : Ref sig .tc := ⟨.hbm, 126, rfl⟩
abbrev main_c_18 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_c_19 : Ref sig .tc := ⟨.hbm, 133, rfl⟩
abbrev main_v86 : Ref sig .tc := ⟨.hbm, 134, rfl⟩
abbrev main_v87 : Ref sig .tc := ⟨.hbm, 135, rfl⟩
abbrev main_c_20 : Ref sig .tc := ⟨.hbm, 136, rfl⟩
abbrev main_v88 : Ref sig .tc := ⟨.hbm, 137, rfl⟩
abbrev main_v89 : Ref sig .tc := ⟨.hbm, 138, rfl⟩
abbrev main_v90 : Ref sig .tc := ⟨.hbm, 139, rfl⟩
abbrev main_v91 : Ref sig .tc := ⟨.hbm, 140, rfl⟩
abbrev main_v92 : Ref sig .tc := ⟨.hbm, 141, rfl⟩
abbrev main_v93 : Ref sig .tc := ⟨.hbm, 142, rfl⟩
abbrev main_v94 : Ref sig .tc := ⟨.hbm, 143, rfl⟩
abbrev main_v95 : Ref sig .tc := ⟨.hbm, 144, rfl⟩
abbrev main_v96 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_cst_21 : Ref sig .tc := ⟨.hbm, 151, rfl⟩
abbrev main_v102 : Ref sig .tc := ⟨.hbm, 152, rfl⟩
abbrev main_v103 : Ref sig .tc := ⟨.hbm, 153, rfl⟩
abbrev main_cst_22 : Ref sig .tc := ⟨.hbm, 154, rfl⟩
abbrev main_call2_cst : Ref sig .tc := ⟨.hbm, 155, rfl⟩
abbrev main_call2_v0 : Ref sig .tc := ⟨.hbm, 156, rfl⟩
abbrev main_call2_v1 : Ref sig .tc := ⟨.hbm, 157, rfl⟩
abbrev main_call2_v2 : Ref sig .tc := ⟨.hbm, 158, rfl⟩
abbrev main_call2_v3 : Ref sig .tc := ⟨.hbm, 159, rfl⟩
abbrev main_call2_v4 : Ref sig .tc := ⟨.hbm, 160, rfl⟩
abbrev main_v104 : Ref sig .tc := ⟨.hbm, 161, rfl⟩
abbrev main_v105 : Ref sig .tc := ⟨.hbm, 162, rfl⟩
abbrev main_cst_23 : Ref sig .tc := ⟨.hbm, 163, rfl⟩
abbrev main_v106 : Ref sig .tc := ⟨.hbm, 164, rfl⟩
abbrev main_v107 : Ref sig .tc := ⟨.hbm, 165, rfl⟩
abbrev main_v108 : Ref sig .tc := ⟨.hbm, 166, rfl⟩
abbrev main_c_24 : Ref sig .tc := ⟨.hbm, 167, rfl⟩
abbrev main_v109 : Ref sig .tc := ⟨.hbm, 168, rfl⟩
abbrev main_v110 : Ref sig .tc := ⟨.hbm, 169, rfl⟩
abbrev main_c_25 : Ref sig .tc := ⟨.hbm, 170, rfl⟩
abbrev main_v111 : Ref sig .tc := ⟨.hbm, 171, rfl⟩
abbrev main_v112 : Ref sig .tc := ⟨.hbm, 172, rfl⟩
abbrev main_v113 : Ref sig .tc := ⟨.hbm, 173, rfl⟩
abbrev main_v114 : Ref sig .tc := ⟨.hbm, 174, rfl⟩
abbrev main_v115 : Ref sig .tc := ⟨.hbm, 175, rfl⟩
abbrev main_v116 : Ref sig .tc := ⟨.hbm, 176, rfl⟩
abbrev main_v117 : Ref sig .tc := ⟨.hbm, 177, rfl⟩
abbrev main_v118 : Ref sig .tc := ⟨.hbm, 178, rfl⟩
abbrev main_cst_26 : Ref sig .tc := ⟨.hbm, 179, rfl⟩
abbrev main_v119 : Ref sig .tc := ⟨.hbm, 180, rfl⟩
abbrev main_v120 : Ref sig .tc := ⟨.hbm, 181, rfl⟩
abbrev main_v121 : Ref sig .tc := ⟨.hbm, 182, rfl⟩
abbrev main_cst_27 : Ref sig .tc := ⟨.hbm, 183, rfl⟩
abbrev main_call3_cst : Ref sig .tc := ⟨.hbm, 184, rfl⟩
abbrev main_call3_v0 : Ref sig .tc := ⟨.hbm, 185, rfl⟩
abbrev main_call3_v1 : Ref sig .tc := ⟨.hbm, 186, rfl⟩
abbrev main_call3_v2 : Ref sig .tc := ⟨.hbm, 187, rfl⟩
abbrev main_call3_v3 : Ref sig .tc := ⟨.hbm, 188, rfl⟩
abbrev main_call3_v4 : Ref sig .tc := ⟨.hbm, 189, rfl⟩
abbrev main_v122 : Ref sig .tc := ⟨.hbm, 190, rfl⟩
abbrev main_v123 : Ref sig .tc := ⟨.hbm, 191, rfl⟩
abbrev main_cst_28 : Ref sig .tc := ⟨.hbm, 192, rfl⟩
abbrev main_v124 : Ref sig .tc := ⟨.hbm, 193, rfl⟩
abbrev main_v125 : Ref sig .tc := ⟨.hbm, 194, rfl⟩
abbrev main_v126 : Ref sig .tc := ⟨.hbm, 195, rfl⟩
abbrev main_cst_29 : Ref sig .tc := ⟨.hbm, 196, rfl⟩
abbrev main_v127 : Ref sig .tc := ⟨.hbm, 197, rfl⟩
abbrev main_v128 : Ref sig .tc := ⟨.hbm, 198, rfl⟩
abbrev main_v129 : Ref sig .tc := ⟨.hbm, 199, rfl⟩
abbrev main_v130 : Ref sig .tc := ⟨.hbm, 200, rfl⟩
abbrev main_v131 : Ref sig .tc := ⟨.hbm, 201, rfl⟩
abbrev main_v132 : Ref sig .tc := ⟨.hbm, 202, rfl⟩
abbrev main_v133 : Ref sig .tc := ⟨.hbm, 203, rfl⟩
abbrev main_v134 : Ref sig .tc := ⟨.hbm, 204, rfl⟩
abbrev main_v135 : Ref sig .tc := ⟨.hbm, 205, rfl⟩
abbrev main_v136 : Ref sig .tc := ⟨.hbm, 206, rfl⟩
abbrev main_v137 : Ref sig .tc := ⟨.hbm, 207, rfl⟩
abbrev main_v138 : Ref sig .tc := ⟨.hbm, 208, rfl⟩
abbrev main_v139 : Ref sig .tc := ⟨.hbm, 209, rfl⟩
abbrev main_v140 : Ref sig .tc := ⟨.hbm, 210, rfl⟩
abbrev main_v141 : Ref sig .tc := ⟨.hbm, 211, rfl⟩
abbrev main_v142 : Ref sig .tc := ⟨.hbm, 212, rfl⟩
abbrev main_v143 : Ref sig .tc := ⟨.hbm, 213, rfl⟩
abbrev main_v144 : Ref sig .tc := ⟨.hbm, 214, rfl⟩
abbrev main_cst_30 : Ref sig .tc := ⟨.hbm, 215, rfl⟩
abbrev main_v145 : Ref sig .tc := ⟨.hbm, 216, rfl⟩
abbrev main_v146 : Ref sig .tc := ⟨.hbm, 217, rfl⟩
abbrev main_v147 : Ref sig .tc := ⟨.hbm, 218, rfl⟩
abbrev main_cst_31 : Ref sig .tc := ⟨.hbm, 219, rfl⟩
abbrev main_v148 : Ref sig .tc := ⟨.hbm, 220, rfl⟩
abbrev main_v149 : Ref sig .tc := ⟨.hbm, 221, rfl⟩
abbrev main_v150 : Ref sig .tc := ⟨.hbm, 222, rfl⟩
abbrev main_v151 : Ref sig .tc := ⟨.hbm, 223, rfl⟩
abbrev main_cst_32 : Ref sig .tc := ⟨.hbm, 224, rfl⟩
abbrev main_v152 : Ref sig .tc := ⟨.hbm, 225, rfl⟩
abbrev main_cst_33 : Ref sig .tc := ⟨.hbm, 226, rfl⟩
abbrev main_v153 : Ref sig .tc := ⟨.hbm, 227, rfl⟩
abbrev main_v154 : Ref sig .tc := ⟨.hbm, 228, rfl⟩

abbrev nD : Nat := 1
abbrev τ : Topo := Topo.v7x

variable {F : FTy → Type} [FloatOps F]

class Facts₀ : Prop where
  slices_S2x300000_S1x300000_0_0 : S2x300000.Slices ![0, 0] S1x300000
  shapeCasts_S1x300000_S300000 : S1x300000.ShapeCasts S300000
  slices_S2x300000_S1x300000_1_0 : S2x300000.Slices ![1, 0] S1x300000
  reducesTo_S50000x100_S50000_d1 : S50000x100.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x100_0_1 : S50000x1.BroadcastsInDim S50000x100 (![0, 1] : Fin 2 → Fin S50000x100.rank)
  bcast_S_S300000 : S_.BroadcastsInDim S300000 (![] : Fin 0 → Fin S300000.rank)
  bcast_S300000_S300000x1_0 : S300000.BroadcastsInDim S300000x1 (![0] : Fin 1 → Fin S300000x1.rank)
  concatenates_S300000x100_S300000x100_S300000x100_S300000x300_d1 : Shape.Concatenates [S300000x100, S300000x100, S300000x100] S300000x300 1
  transposes_S200x300_S300x200_1_0 : S200x300.Transposes [1, 0] S300x200
  bcast_S200_S1x200_1 : S200.BroadcastsInDim S1x200 (![1] : Fin 1 → Fin S1x200.rank)
  bcast_S1x200_S300000x200_0_1 : S1x200.BroadcastsInDim S300000x200 (![0, 1] : Fin 2 → Fin S300000x200.rank)
  shapeCasts_S300000x200_S300000x2x100 : S300000x200.ShapeCasts S300000x2x100
  bcast_S1x2x100_S300000x2x100_0_1_2 : S1x2x100.BroadcastsInDim S300000x2x100 (![0, 1, 2] : Fin 3 → Fin S300000x2x100.rank)
  reducesTo_S300000x2x100_S300000x2_d2 : S300000x2x100.ReducesTo [2] S300000x2
  bcast_S300000x2_S300000x2x1_0_1 : S300000x2.BroadcastsInDim S300000x2x1 (![0, 1] : Fin 2 → Fin S300000x2x1.rank)
  bcast_S_S300000x2x1 : S_.BroadcastsInDim S300000x2x1 (![] : Fin 0 → Fin S300000x2x1.rank)
  bcast_S_S50000x2x1 : S_.BroadcastsInDim S50000x2x1 (![] : Fin 0 → Fin S50000x2x1.rank)
  bcast_S300000x2x1_S300000x2x100_0_1_2 : S300000x2x1.BroadcastsInDim S300000x2x100 (![0, 1, 2] : Fin 3 → Fin S300000x2x100.rank)
  bcast_S_S50000x2x100 : S_.BroadcastsInDim S50000x2x100 (![] : Fin 0 → Fin S50000x2x100.rank)
  reducesTo_S50000x2x100_S50000x2_d2 : S50000x2x100.ReducesTo [2] S50000x2
  bcast_S50000x2_S50000x2x1_0_1 : S50000x2.BroadcastsInDim S50000x2x1 (![0, 1] : Fin 2 → Fin S50000x2x1.rank)
  bcast_S50000x2x1_S50000x2x100_0_1_2 : S50000x2x1.BroadcastsInDim S50000x2x100 (![0, 1, 2] : Fin 3 → Fin S50000x2x100.rank)
  shapeCasts_S50000x2x100_S50000x200 : S50000x2x100.ShapeCasts S50000x200
  concatenates_S300000x200_S300000x200_S300000x100_S300000x500_d1 : Shape.Concatenates [S300000x200, S300000x200, S300000x100] S300000x500 1
  transposes_S400x500_S500x400_1_0 : S400x500.Transposes [1, 0] S500x400
  bcast_S400_S1x400_1 : S400.BroadcastsInDim S1x400 (![1] : Fin 1 → Fin S1x400.rank)
  bcast_S1x400_S300000x400_0_1 : S1x400.BroadcastsInDim S300000x400 (![0, 1] : Fin 2 → Fin S300000x400.rank)
  shapeCasts_S300000x400_S300000x2x200 : S300000x400.ShapeCasts S300000x2x200
  bcast_S1x2x200_S300000x2x200_0_1_2 : S1x2x200.BroadcastsInDim S300000x2x200 (![0, 1, 2] : Fin 3 → Fin S300000x2x200.rank)
  reducesTo_S300000x2x200_S300000x2_d2 : S300000x2x200.ReducesTo [2] S300000x2
  bcast_S300000x2x1_S300000x2x200_0_1_2 : S300000x2x1.BroadcastsInDim S300000x2x200 (![0, 1, 2] : Fin 3 → Fin S300000x2x200.rank)
  bcast_S_S50000x2x200 : S_.BroadcastsInDim S50000x2x200 (![] : Fin 0 → Fin S50000x2x200.rank)
  reducesTo_S50000x2x200_S50000x2_d2 : S50000x2x200.ReducesTo [2] S50000x2
  bcast_S50000x2x1_S50000x2x200_0_1_2 : S50000x2x1.BroadcastsInDim S50000x2x200 (![0, 1, 2] : Fin 3 → Fin S50000x2x200.rank)
  transposes_S200x100_S100x200_1_0 : S200x100.Transposes [1, 0] S100x200
  bcast_S1x200_S50000x200_0_1 : S1x200.BroadcastsInDim S50000x200 (![0, 1] : Fin 2 → Fin S50000x200.rank)
  bcast_S50000x200_S50000x1x200_0_2 : S50000x200.BroadcastsInDim S50000x1x200 (![0, 2] : Fin 2 → Fin S50000x1x200.rank)
  bcast_S50000x1x200_S50000x2x200_0_1_2 : S50000x1x200.BroadcastsInDim S50000x2x200 (![0, 1, 2] : Fin 3 → Fin S50000x2x200.rank)
  bcast_S1x200_S237x200_0_1 : S1x200.BroadcastsInDim S237x200 (![0, 1] : Fin 2 → Fin S237x200.rank)
  reducesTo_S50000x2x200_S50000x200_d1 : S50000x2x200.ReducesTo [1] S50000x200
  bcast_S_S50000x200 : S_.BroadcastsInDim S50000x200 (![] : Fin 0 → Fin S50000x200.rank)
  gather_S50000x100_S300000x1_S300000x100_1_0_n_n_0_1_1100_wf : GatherDims.WF S50000x100 S300000x1 S300000x100 [1] [0] [] [0] [] 1 ![1, 100]
  gather_S237x100_S300000x1_S300000x100_1_0_n_n_0_1_1100_wf : GatherDims.WF S237x100 S300000x1 S300000x100 [1] [0] [] [0] [] 1 ![1, 100]
  dot_S300000x300_S300x200_S300000x200_1_0_0_1_n_n_wf : DotDims.WF S300000x300 S300x200 S300000x200 [1] [0] [0] [1] [] []
  scatter_S50000x2x1_S300000x1_S300000x2x1_12_0_0_1_wf : ScatterDims.WF S50000x2x1 S300000x1 S300000x2x1 [1, 2] [0] [0] 1
  gather_S50000x2x1_S300000x1_S300000x2x1_12_0_n_n_0_1_121_wf : GatherDims.WF S50000x2x1 S300000x1 S300000x2x1 [1, 2] [0] [] [0] [] 1 ![1, 2, 1]
  scatter_S50000x2x100_S300000x1_S300000x2x100_12_0_0_1_wf : ScatterDims.WF S50000x2x100 S300000x1 S300000x2x100 [1, 2] [0] [0] 1
  gather_S50000x200_S300000x1_S300000x200_1_0_n_n_0_1_1200_wf : GatherDims.WF S50000x200 S300000x1 S300000x200 [1] [0] [] [0] [] 1 ![1, 200]
  dot_S300000x500_S500x400_S300000x400_1_0_0_1_n_n_wf : DotDims.WF S300000x500 S500x400 S300000x400 [1] [0] [0] [1] [] []
  scatter_S50000x2x200_S300000x1_S300000x2x200_12_0_0_1_wf : ScatterDims.WF S50000x2x200 S300000x1 S300000x2x200 [1, 2] [0] [0] 1
  dot_S50000x100_S100x200_S50000x200_1_0_0_1_n_n_wf : DotDims.WF S50000x100 S100x200 S50000x200 [1] [0] [0] [1] [] []
  dot_S237x100_S100x200_S237x200_1_0_0_1_n_n_wf : DotDims.WF S237x100 S100x200 S237x200 [1] [0] [0] [1] [] []

variable [Facts₀]

def gather_S50000x100_S300000x1_S300000x100_1_0_n_n_0_1_1100 : GatherDims S50000x100 S300000x1 S300000x100 where
  offsetDims := [1]
  collapsedSliceDims := [0]
  operandBatchingDims := []
  startIndicesBatchingDims := []
  startIndexMap := [0]
  indexVectorDim := 1
  sliceSizes := ![1, 100]
  wf := gather_S50000x100_S300000x1_S300000x100_1_0_n_n_0_1_1100_wf
def gather_S237x100_S300000x1_S300000x100_1_0_n_n_0_1_1100 : GatherDims S237x100 S300000x1 S300000x100 where
  offsetDims := [1]
  collapsedSliceDims := [0]
  operandBatchingDims := []
  startIndicesBatchingDims := []
  startIndexMap := [0]
  indexVectorDim := 1
  sliceSizes := ![1, 100]
  wf := gather_S237x100_S300000x1_S300000x100_1_0_n_n_0_1_1100_wf
def dot_S300000x300_S300x200_S300000x200_1_0_0_1_n_n : DotDims S300000x300 S300x200 S300000x200 where
  lhsContracting := [1]
  rhsContracting := [0]
  lhsNonContracting := [0]
  rhsNonContracting := [1]
  lhsBatch := []
  rhsBatch := []
  wf := dot_S300000x300_S300x200_S300000x200_1_0_0_1_n_n_wf
def scatter_S50000x2x1_S300000x1_S300000x2x1_12_0_0_1 : ScatterDims S50000x2x1 S300000x1 S300000x2x1 where
  updateWindowDims := [1, 2]
  insertedWindowDims := [0]
  scatterDimsToOperandDims := [0]
  indexVectorDim := 1
  wf := scatter_S50000x2x1_S300000x1_S300000x2x1_12_0_0_1_wf
def gather_S50000x2x1_S300000x1_S300000x2x1_12_0_n_n_0_1_121 : GatherDims S50000x2x1 S300000x1 S300000x2x1 where
  offsetDims := [1, 2]
  collapsedSliceDims := [0]
  operandBatchingDims := []
  startIndicesBatchingDims := []
  startIndexMap := [0]
  indexVectorDim := 1
  sliceSizes := ![1, 2, 1]
  wf := gather_S50000x2x1_S300000x1_S300000x2x1_12_0_n_n_0_1_121_wf
def scatter_S50000x2x100_S300000x1_S300000x2x100_12_0_0_1 : ScatterDims S50000x2x100 S300000x1 S300000x2x100 where
  updateWindowDims := [1, 2]
  insertedWindowDims := [0]
  scatterDimsToOperandDims := [0]
  indexVectorDim := 1
  wf := scatter_S50000x2x100_S300000x1_S300000x2x100_12_0_0_1_wf
def gather_S50000x200_S300000x1_S300000x200_1_0_n_n_0_1_1200 : GatherDims S50000x200 S300000x1 S300000x200 where
  offsetDims := [1]
  collapsedSliceDims := [0]
  operandBatchingDims := []
  startIndicesBatchingDims := []
  startIndexMap := [0]
  indexVectorDim := 1
  sliceSizes := ![1, 200]
  wf := gather_S50000x200_S300000x1_S300000x200_1_0_n_n_0_1_1200_wf
def dot_S300000x500_S500x400_S300000x400_1_0_0_1_n_n : DotDims S300000x500 S500x400 S300000x400 where
  lhsContracting := [1]
  rhsContracting := [0]
  lhsNonContracting := [0]
  rhsNonContracting := [1]
  lhsBatch := []
  rhsBatch := []
  wf := dot_S300000x500_S500x400_S300000x400_1_0_0_1_n_n_wf
def scatter_S50000x2x200_S300000x1_S300000x2x200_12_0_0_1 : ScatterDims S50000x2x200 S300000x1 S300000x2x200 where
  updateWindowDims := [1, 2]
  insertedWindowDims := [0]
  scatterDimsToOperandDims := [0]
  indexVectorDim := 1
  wf := scatter_S50000x2x200_S300000x1_S300000x2x200_12_0_0_1_wf
def dot_S50000x100_S100x200_S50000x200_1_0_0_1_n_n : DotDims S50000x100 S100x200 S50000x200 where
  lhsContracting := [1]
  rhsContracting := [0]
  lhsNonContracting := [0]
  rhsNonContracting := [1]
  lhsBatch := []
  rhsBatch := []
  wf := dot_S50000x100_S100x200_S50000x200_1_0_0_1_n_n_wf
def dot_S237x100_S100x200_S237x200_1_0_0_1_n_n : DotDims S237x100 S100x200 S237x200 where
  lhsContracting := [1]
  rhsContracting := [0]
  lhsNonContracting := [0]
  rhsNonContracting := [1]
  lhsBatch := []
  rhsBatch := []
  wf := dot_S237x100_S100x200_S237x200_1_0_0_1_n_n_wf

class Facts : Prop extends Facts₀ where

variable [Facts]
-- ==== Proof.KRun.lean ====
/-
  The kernel program's run, with every buffer named at the end.

  The program is two kernel regions among stretches of host operations. Its buffer contents at each boundary are a
  fold from the launch memory: a stretch rewrites the buffers its operations write, a region rewrites its output
  arrays. Here the run is stated with the whole of the last boundary's contents in the post: from any memory with
  zero counters every weakly fair execution terminates, and in every final state each buffer that no region scopes
  holds what the fold leaves there. The two results are such buffers.
-/
import proofs.«161084_j22883585753704_2_alg».proof.Proof.Gen.KernelIdeal.Frame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of the program terminates, nothing faulting, and
    every final state has each unscoped buffer of each device at the last boundary's contents. -/
theorem run_W9 : θ_run defs (onTc (τ := τ) (main (F := F))) ⟨m, fun _ => 0, ρ⟩ (fun r => ∀ c : Dev nD,
      ∀ b ∈ Pipeline.ucRefs τ sig, r.2.mem ((c : Thread nD τ).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h => h)

/-- The first result's buffer is unscoped. -/
theorem mem_uc_v185 : (Proc.devRef .tc main_v185 : DevRef τ sig) ∈ Pipeline.ucRefs τ sig := mem_uc main_v185 (by decide)
/-- The second result's buffer is unscoped. -/
theorem mem_uc_v174 : (Proc.devRef .tc main_v174 : DevRef τ sig) ∈ Pipeline.ucRefs τ sig := mem_uc main_v174 (by decide)

end Cert.KernelIdeal.KRun

end
-- ==== Proof.ROps.lean ====
/-
  The reference program's host operations, in program order, as six literal lists (the functions it calls are
  written out at their calls over the call's own buffers). The lists are cut where the two programs' structures meet:
  s0 — the edge lists, the normalised node features and the three gathered operands of layer 1 (41 operations);
  s1 — layer 1's projection of the concatenated operands, its attention logits and their exponentials (21 operations);
  s2 — layer 1's normalisation over source nodes, aggregation into destination nodes, leaky rectifier and unit-length scaling (39 operations);
  s3 — the three gathered operands of layer 2 (27 operations);
  s4 — layer 2's projection, attention logits and exponentials (21 operations);
  s5 — layer 2's normalisation and aggregation, the entity and relation maps, the last scaling and the mean over heads (66 operations);
  ops is the six in order.
-/
import proofs.«161084_j22883585753704_2_alg».proof.ReferenceIdeal
import proofs.«161084_j22883585753704_2_alg».proof.Proof.Gen.ReferenceIdeal
import Idealize.ShloMosaic.Lib.StableHlo.Run

set_option maxRecDepth 4096

noncomputable section

namespace Cert.ReferenceIdeal.ROps

open Idealize.ShloMosaic Idealize.ShloMosaic.TcCoe
open Idealize.SL Idealize.SL.RA Idealize.SL.BI
open scoped Idealize.SL.BI
open Idealize.SL.BI.BIBase Idealize.SL.Sem
open Cert.ReferenceIdeal Cert.ReferenceIdeal.Facts₀ Cert.ReferenceIdeal.Facts

variable {F : FTy → Type} [FloatOps F]

set_option maxHeartbeats 40000000 in
/-- The edge lists, the normalised node features and the three gathered operands of layer 1. -/
abbrev s0 : List (HloOp τ sig (Elt F)) :=
  [ StableHlo.unary main_arg2 main_v0 ((extractStridedSlice S1x300000 ![0, 0] · slices_S2x300000_S1x300000_0_0) : (⟨S2x300000, .i32⟩ : BufTy).Contents (Elt F) → (⟨S1x300000, .i32⟩ : BufTy).Contents (Elt F)),
    StableHlo.reshape main_v0 main_v1 rfl shapeCasts_S1x300000_S300000,
    StableHlo.unary main_arg2 main_v2 ((extractStridedSlice S1x300000 ![1, 0] · slices_S2x300000_S1x300000_1_0) : (⟨S2x300000, .i32⟩ : BufTy).Contents (Elt F) → (⟨S1x300000, .i32⟩ : BufTy).Contents (Elt F)),
    StableHlo.reshape main_v2 main_v3 rfl shapeCasts_S1x300000_S300000,
    StableHlo.binary main_arg0 main_arg0 main_v4 (mulf : (⟨S50000x100, .f32⟩ : BufTy).Contents (Elt F) → (⟨S50000x100, .f32⟩ : BufTy).Contents (Elt F) → (⟨S50000x100, .f32⟩ : BufTy).Contents (Elt F)),
    StableHlo.nullary main_cst (constant S_ .f32 0x00000000#32),
    StableHlo.binary main_v4 main_cst main_v5 ((fun x v => Host.reduceAdd x v reducesTo_S50000x100_S50000_d1 h_S_) : (⟨S50000x100, .f32⟩ : BufTy).Contents (Elt F) → (⟨S_, .f32⟩ : BufTy).Contents (Elt F) → (⟨S50000, .f32⟩ : BufTy).Contents (Elt F)),
    StableHlo.unary main_v5 main_v6 (broadcastInDim S50000x1 ![0] bcast_S50000_S50000x1_0 : (⟨S50000, .f32⟩ : BufTy).Contents (Elt F) → (⟨S50000x1, .f32⟩ : BufTy).Contents (Elt F)),
    StableHlo.unary main_v6 main_v7 (Host.sqrt : (⟨S50000x1, .f32⟩ : BufTy).Contents (Elt F) → (⟨S50000x1, .f32⟩ : BufTy).Contents (Elt F)),
    StableHlo.nullary main_cst_0 (constant S_ .f32 0x2B8CBCCC#32),
    StableHlo.unary main_cst_0 main_v8 (broadcastInDim S50000x1 ![] bcast_S_S50000x1 : (⟨S_, .f32⟩ : BufTy).Contents (Elt F) → (⟨S50000x1, .f32⟩ : BufTy).Contents (Elt F)),
    StableHlo.binary main_v7 main_v8 main_v9 (maximumf : (⟨S50000x1, .f32⟩ : BufTy).Contents (Elt F) → (⟨S50000x1, .f32⟩ : BufTy).Contents (Elt F) → (⟨S50000x1, .f32⟩ : BufTy).Contents (Elt F)),
    StableHlo.unary main_v9 main_v10 (broadcastInDim S50000x100 ![0, 1] bcast_S50000x1_S50000x100_0_1 : (⟨S50000x1, .f32⟩ : BufTy).Contents (Elt F) → (⟨S50000x100, .f32⟩ : BufTy).Contents (Elt F)),
    StableHlo.binary main_arg0 main_v10 main_v11 (Host.divf : (⟨S50000x100, .f32⟩ : BufTy).Contents (Elt F) → (⟨S50000x100, .f32⟩ : BufTy).Contents (Elt F) → (⟨S50000x100, .f32⟩ : BufTy).Contents (Elt F)),
    StableHlo.nullary main_c (constantI S_ 32 0#32),
    StableHlo.unary main_c main_v12 (broadcastInDim S300000 ![] bcast_S_S300000 : (⟨S_, .i32⟩ : BufTy).Contents (Elt F) → (⟨S300000, .i32⟩ : BufTy).Contents (Elt F)),
    StableHlo.binary main_v1 main_v12 main_v13 (cmpi .slt : (⟨S300000, .i32⟩ : BufTy).Contents (Elt F) → (⟨S300000, .i32⟩ : BufTy).Contents (Elt F) → (⟨S300000, .i1⟩ : BufTy).Contents (Elt F)),
    StableHlo.nullary main_c_1 (constantI S_ 32 50000#32),
    StableHlo.unary main_c_1 main_v14 (broadcastInDim S300000 ![] bcast_S_S300000 : (⟨S_, .i32⟩ : BufTy).Contents (Elt F) → (⟨S300000, .i32⟩ : BufTy).Contents (Elt F)),
    StableHlo.binary main_v1 main_v14 main_v15 (addi : (⟨S300000, .i32⟩ : BufTy).Contents (Elt F) → (⟨S300000, .i32⟩ : BufTy).Contents (Elt F) → (⟨S300000, .i32⟩ : BufTy).Contents (Elt F)),
    StableHlo.ternary main_v13 main_v15 main_v1 main_v16 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v16 main_v17 (broadcastInDim S300000x1 ![0] bcast_S300000_S300000x1_0 : (⟨S300000, .i32⟩ : BufTy).Contents (Elt F) → (⟨S300000x1, .i32⟩ : BufTy).Contents (Elt F)),
    StableHlo.binary main_v11 main_v17 main_v18 ((fun x i => Host.gather gather_S50000x100_S300000x1_S300000x100_1_0_n_n_0_1_1100 x i) : (⟨S50000x100, .f32⟩ : BufTy).Contents (Elt F) → (⟨S300000x1, .i32⟩ : BufTy).Contents (Elt F) → (⟨S300000x100, .f32⟩ : BufTy).Contents (Elt F)),
    StableHlo.nullary main_c_2 (constantI S_ 32 0#32),
    StableHlo.unary main_c_2 main_v19 (broadcastInDim S300000 ![] bcast_S_S300000 : (⟨S_, .i32⟩ : BufTy).Contents (Elt F) → (⟨S300000, .i32⟩ : BufTy).Contents (Elt F)),
    StableHlo.binary main_v3 main_v19 main_v20 (cmpi .slt : (⟨S300000, .i32⟩ : BufTy).Contents (Elt F) → (⟨S300000, .i32⟩ : BufTy).Contents (Elt F) → (⟨S300000, .i1⟩ : BufTy).Contents (Elt F)),
    StableHlo.nullary main_c_3 (constantI S_ 32 50000#32),
    StableHlo.unary main_c_3 main_v21 (broadcastInDim S300000 ![] bcast_S_S300000 : (⟨S_, .i32⟩ : BufTy).Contents (Elt F) → (⟨S300000, .i32⟩ : BufTy).Contents (Elt F)),
    StableHlo.binary main_v3 main_v21 main_v22 (addi : (⟨S300000, .i32⟩ : BufTy).Contents (Elt F) → (⟨S300000, .i32⟩ : BufTy).Contents (Elt F) → (⟨S300000, .i32⟩ : BufTy).Contents (Elt F)),
    StableHlo.ternary main_v20 main_v22 main_v3 main_v23 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v23 main_v24 (broadcastInDim S300000x1 ![0] bcast_S300000_S300000x1_0 : (⟨S300000, .i32⟩ : BufTy).Contents (Elt F) → (⟨S300000x1, .i32⟩ : BufTy).Contents (Elt F)),
    StableHlo.binary main_v11 main_v24 main_v25 ((fun x i => Host.gather gather_S50000x100_S300000x1_S300000x100_1_0_n_n_0_1_1100 x i) : (⟨S50000x100, .f32⟩ : BufTy).Contents (Elt F) → (⟨S300000x1, .i32⟩ : BufTy).Contents (Elt F) → (⟨S300000x100, .f32⟩ : BufTy).Contents (Elt F)),
    StableHlo.nullary main_c_4 (constantI S_ 32 0#32),
    StableHlo.unary main_c_4 main_v26 (broadcastInDim S300000 ![] bcast_S_S300000 : (⟨S_, .i32⟩ : BufTy).Contents (Elt F) → (⟨S300000, .i32⟩ : BufTy).Contents (Elt F)),
    StableHlo.binary main_arg3 main_v26 main_v27 (cmpi .slt : (⟨S300000, .i32⟩ : BufTy).Contents (Elt F) → (⟨S300000, .i32⟩ : BufTy).Contents (Elt F) → (⟨S300000, .i1⟩ : BufTy).Contents (Elt F)),
    StableHlo.nullary main_c_5 (constantI S_ 32 237#32),
    StableHlo.unary main_c_5 main_v28 (broadcastInDim S300000 ![] bcast_S_S300000 : (⟨S_, .i32⟩ : BufTy).Contents (Elt F) → (⟨S300000, .i32⟩ : BufTy).Contents (Elt F)),
    StableHlo.binary main_arg3 main_v28 main_v29 (addi : (⟨S300000, .i32⟩ : BufTy).Contents (Elt F) → (⟨S300000, .i32⟩ : BufTy).Contents (Elt F) → (⟨S300000, .i32⟩ : BufTy).Contents (Elt F)),
    StableHlo.ternary main_v27 main_v29 main_arg3 main_v30 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v30 main_v31 (broadcastInDim S300000x1 ![0] bcast_S300000_S300000x1_0 : (⟨S300000, .i32⟩ : BufTy).Contents (Elt F) → (⟨S300000x1, .i32⟩ : BufTy).Contents (Elt F)),
    StableHlo.binary main_arg1 main_v31 main_v32 ((fun x i => Host.gather gather_S237x100_S300000x1_S300000x100_1_0_n_n_0_1_1100 x i) : (⟨S237x100, .f32⟩ : BufTy).Contents (Elt F) → (⟨S300000x1, .i32⟩ : BufTy).Contents (Elt F) → (⟨S300000x100, .f32⟩ : BufTy).Contents (Elt F)) ]

set_option maxHeartbeats 40000000 in
/-- Layer 1's projection of the concatenated operands, its attention logits and their exponentials. -/
abbrev s1 : List (HloOp τ sig (Elt F)) :=
  [ StableHlo.nary ![main_v18, main_v25, main_v32] main_v33 (fun u => concatenate S300000x300 1 [⟨S300000x100, u 0⟩, ⟨S300000x100, u 1⟩, ⟨S300000x100, u 2⟩] concatenates_S300000x100_S300000x100_S300000x100_S300000x300_d1),
    StableHlo.unary main_arg4 main_v34 ((transpose S300x200 [1, 0] · transposes_S200x300_S300x200_1_0) : (⟨S200x300, .f32⟩ : BufTy).Contents (Elt F) → (⟨S300x200, .f32⟩ : BufTy).Contents (Elt F)),
    StableHlo.binary main_v33 main_v34 main_v35 ((fun l r => Host.dotGeneral dot_S300000x300_S300x200_S300000x200_1_0_0_1_n_n none l r) : (⟨S300000x300, .f32⟩ : BufTy).Contents (Elt F) → (⟨S300x200, .f32⟩ : BufTy).Contents (Elt F) → (⟨S300000x200, .f32⟩ : BufTy).Contents (Elt F)),
    StableHlo.unary main_arg5 main_v36 (broadcastInDim S1x200 ![1] bcast_S200_S1x200_1 : (⟨S200, .f32⟩ : BufTy).Contents (Elt F) → (⟨S1x200, .f32⟩ : BufTy).Contents (Elt F)),
    StableHlo.unary main_v36 main_v37 (broadcastInDim S300000x200 ![0, 1] bcast_S1x200_S300000x200_0_1 : (⟨S1x200, .f32⟩ : BufTy).Contents (Elt F) → (⟨S300000x200, .f32⟩ : BufTy).Contents (Elt F)),
    StableHlo.binary main_v35 main_v37 main_v38 (addf : (⟨S300000x200, .f32⟩ : BufTy).Contents (Elt F) → (⟨S300000x200, .f32⟩ : BufTy).Contents (Elt F) → (⟨S300000x200, .f32⟩ : BufTy).Contents (Elt F)),
    StableHlo.reshape main_v38 main_v39 rfl shapeCasts_S300000x200_S300000x2x100,
    StableHlo.unary main_arg6 main_v40 (broadcastInDim S300000x2x100 ![0, 1, 2] bcast_S1x2x100_S300000x2x100_0_1_2 : (⟨S1x2x100, .f32⟩ : BufTy).Contents (Elt F) → (⟨S300000x2x100, .f32⟩ : BufTy).Contents (Elt F)),
    StableHlo.binary main_v40 main_v39 main_v41 (mulf : (⟨S300000x2x100, .f32⟩ : BufTy).Contents (Elt F) → (⟨S300000x2x100, .f32⟩ : BufTy).Contents (Elt F) → (⟨S300000x2x100, .f32⟩ : BufTy).Contents (Elt F)),
    StableHlo.nullary main_cst_6 (constant S_ .f32 0x00000000#32),
    StableHlo.binary main_v41 main_cst_6 main_v42 ((fun x v => Host.reduceAdd x v reducesTo_S300000x2x100_S300000x2_d2 h_S_) : (⟨S300000x2x100, .f32⟩ : BufTy).Contents (Elt F) → (⟨S_, .f32⟩ : BufTy).Contents (Elt F) → (⟨S300000x2, .f32⟩ : BufTy).Contents (Elt F)),
    StableHlo.unary main_v42 main_v43 (broadcastInDim S300000x2x1 ![0, 1] bcast_S300000x2_S300000x2x1_0_1 : (⟨S300000x2, .f32⟩ : BufTy).Contents (Elt F) → (⟨S300000x2x1, .f32⟩ : BufTy).Contents (Elt F)),
    StableHlo.nullary main_cst_7 (constant S_ .f32 0x3C23D70A#32),
    StableHlo.TRef.nullary (.of main_call0_cst : StableHlo.TRef sig ⟨S_, .f32⟩) (constant S_ .f32 0x00000000#32),
    StableHlo.TRef.unary (.of main_call0_cst : StableHlo.TRef sig ⟨S_, .f32⟩) (.of main_call0_v0 : StableHlo.TRef sig ⟨S300000x2x1, .f32⟩) (broadcastInDim S300000x2x1 ![] bcast_S_S300000x2x1),
    StableHlo.TRef.binary (.of main_v43 : StableHlo.TRef sig ⟨S300000x2x1, .f32⟩) (.of main_call0_v0 : StableHlo.TRef sig ⟨S300000x2x1, .f32⟩) (.of main_call0_v1 : StableHlo.TRef sig ⟨S300000x2x1, .i1⟩) (cmpf .oge),
    StableHlo.TRef.unary (.of main_cst_7 : StableHlo.TRef sig ⟨S_, .f32⟩) (.of main_call0_v2 : StableHlo.TRef sig ⟨S_, .f32⟩) id,
    StableHlo.TRef.unary (.of main_call0_v2 : StableHlo.TRef sig ⟨S_, .f32⟩) (.of main_call0_v3 : StableHlo.TRef sig ⟨S300000x2x1, .f32⟩) (broadcastInDim S300000x2x1 ![] bcast_S_S300000x2x1),
    StableHlo.TRef.binary (.of main_call0_v3 : StableHlo.TRef sig ⟨S300000x2x1, .f32⟩) (.of main_v43 : StableHlo.TRef sig ⟨S300000x2x1, .f32⟩) (.of main_call0_v4 : StableHlo.TRef sig ⟨S300000x2x1, .f32⟩) mulf,
    StableHlo.TRef.ternary (.of main_call0_v1 : StableHlo.TRef sig ⟨S300000x2x1, .i1⟩) (.of main_v43 : StableHlo.TRef sig ⟨S300000x2x1, .f32⟩) (.of main_call0_v4 : StableHlo.TRef sig ⟨S300000x2x1, .f32⟩) (.of main_v44 : StableHlo.TRef sig ⟨S300000x2x1, .f32⟩) select,
    StableHlo.unary main_v44 main_v45 (Host.exp : (⟨S300000x2x1, .f32⟩ : BufTy).Contents (Elt F) → (⟨S300000x2x1, .f32⟩ : BufTy).Contents (Elt F)) ]

set_option maxHeartbeats 40000000 in
/-- Layer 1's normalisation over source nodes, aggregation into destination nodes, leaky rectifier and unit-length scaling. -/
abbrev s2 : List (HloOp τ sig (Elt F)) :=
  [ StableHlo.nullary main_cst_8 (constant S_ .f32 0x00000000#32),
    StableHlo.unary main_cst_8 main_v46 (broadcastInDim S50000x2x1 ![] bcast_S_S50000x2x1 : (⟨S_, .f32⟩ : BufTy).Contents (Elt F) → (⟨S50000x2x1, .f32⟩ : BufTy).Contents (Elt F)),
    StableHlo.unary main_v1 main_v47 (broadcastInDim S300000x1 ![0] bcast_S300000_S300000x1_0 : (⟨S300000, .i32⟩ : BufTy).Contents (Elt F) → (⟨S300000x1, .i32⟩ : BufTy).Contents (Elt F)),
    StableHlo.ternary main_v46 main_v47 main_v45 main_v48 ((fun x i u => Host.scatterAdd scatter_S50000x2x1_S300000x1_S300000x2x1_12_0_0_1 x i u) : (⟨S50000x2x1, .f32⟩ : BufTy).Contents (Elt F) → (⟨S300000x1, .i32⟩ : BufTy).Contents (Elt F) → (⟨S300000x2x1, .f32⟩ : BufTy).Contents (Elt F) → (⟨S50000x2x1, .f32⟩ : BufTy).Contents (Elt F)),
    StableHlo.nullary main_c_9 (constantI S_ 32 0#32),
    StableHlo.unary main_c_9 main_v49 (broadcastInDim S300000 ![] bcast_S_S300000 : (⟨S_, .i32⟩ : BufTy).Contents (Elt F) → (⟨S300000, .i32⟩ : BufTy).Contents (Elt F)),
    StableHlo.binary main_v1 main_v49 main_v50 (cmpi .slt : (⟨S300000, .i32⟩ : BufTy).Contents (Elt F) → (⟨S300000, .i32⟩ : BufTy).Contents (Elt F) → (⟨S300000, .i1⟩ : BufTy).Contents (Elt F)),
    StableHlo.nullary main_c_10 (constantI S_ 32 50000#32),
    StableHlo.unary main_c_10 main_v51 (broadcastInDim S300000 ![] bcast_S_S300000 : (⟨S_, .i32⟩ : BufTy).Contents (Elt F) → (⟨S300000, .i32⟩ : BufTy).Contents (Elt F)),
    StableHlo.binary main_v1 main_v51 main_v52 (addi : (⟨S300000, .i32⟩ : BufTy).Contents (Elt F) → (⟨S300000, .i32⟩ : BufTy).Contents (Elt F) → (⟨S300000, .i32⟩ : BufTy).Contents (Elt F)),
    StableHlo.ternary main_v50 main_v52 main_v1 main_v53 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v53 main_v54 (broadcastInDim S300000x1 ![0] bcast_S300000_S300000x1_0 : (⟨S300000, .i32⟩ : BufTy).Contents (Elt F) → (⟨S300000x1, .i32⟩ : BufTy).Contents (Elt F)),
    StableHlo.binary main_v48 main_v54 main_v55 ((fun x i => Host.gather gather_S50000x2x1_S300000x1_S300000x2x1_12_0_n_n_0_1_121 x i) : (⟨S50000x2x1, .f32⟩ : BufTy).Contents (Elt F) → (⟨S300000x1, .i32⟩ : BufTy).Contents (Elt F) → (⟨S300000x2x1, .f32⟩ : BufTy).Contents (Elt F)),
    StableHlo.binary main_v45 main_v55 main_v56 (Host.divf : (⟨S300000x2x1, .f32⟩ : BufTy).Contents (Elt F) → (⟨S300000x2x1, .f32⟩ : BufTy).Contents (Elt F) → (⟨S300000x2x1, .f32⟩ : BufTy).Contents (Elt F)),
    StableHlo.unary main_v56 main_v57 (broadcastInDim S300000x2x100 ![0, 1, 2] bcast_S300000x2x1_S300000x2x100_0_1_2 : (⟨S300000x2x1, .f32⟩ : BufTy).Contents (Elt F) → (⟨S300000x2x100, .f32⟩ : BufTy).Contents (Elt F)),
    StableHlo.binary main_v57 main_v39 main_v58 (mulf : (⟨S300000x2x100, .f32⟩ : BufTy).Contents (Elt F) → (⟨S300000x2x100, .f32⟩ : BufTy).Contents (Elt F) → (⟨S300000x2x100, .f32⟩ : BufTy).Contents (Elt F)),
    StableHlo.nullary main_cst_11 (constant S_ .f32 0x00000000#32),
    StableHlo.unary main_cst_11 main_v59 (broadcastInDim S50000x2x100 ![] bcast_S_S50000x2x100 : (⟨S_, .f32⟩ : BufTy).Contents (Elt F) → (⟨S50000x2x100, .f32⟩ : BufTy).Contents (Elt F)),
    StableHlo.unary main_v3 main_v60 (broadcastInDim S300000x1 ![0] bcast_S300000_S300000x1_0 : (⟨S300000, .i32⟩ : BufTy).Contents (Elt F) → (⟨S300000x1, .i32⟩ : BufTy).Contents (Elt F)),
    StableHlo.ternary main_v59 main_v60 main_v58 main_v61 ((fun x i u => Host.scatterAdd scatter_S50000x2x100_S300000x1_S300000x2x100_12_0_0_1 x i u) : (⟨S50000x2x100, .f32⟩ : BufTy).Contents (Elt F) → (⟨S300000x1, .i32⟩ : BufTy).Contents (Elt F) → (⟨S300000x2x100, .f32⟩ : BufTy).Contents (Elt F) → (⟨S50000x2x100, .f32⟩ : BufTy).Contents (Elt F)),
    StableHlo.nullary main_cst_12 (constant S_ .f32 0x3C23D70A#32),
    StableHlo.TRef.nullary (.of main_call1_cst : StableHlo.TRef sig ⟨S_, .f32⟩) (constant S_ .f32 0x00000000#32),
    StableHlo.TRef.unary (.of main_call1_cst : StableHlo.TRef sig ⟨S_, .f32⟩) (.of main_call1_v0 : StableHlo.TRef sig ⟨S50000x2x100, .f32⟩) (broadcastInDim S50000x2x100 ![] bcast_S_S50000x2x100),
    StableHlo.TRef.binary (.of main_v61 : StableHlo.TRef sig ⟨S50000x2x100, .f32⟩) (.of main_call1_v0 : StableHlo.TRef sig ⟨S50000x2x100, .f32⟩) (.of main_call1_v1 : StableHlo.TRef sig ⟨S50000x2x100, .i1⟩) (cmpf .oge),
    StableHlo.TRef.unary (.of main_cst_12 : StableHlo.TRef sig ⟨S_, .f32⟩) (.of main_call1_v2 : StableHlo.TRef sig ⟨S_, .f32⟩) id,
    StableHlo.TRef.unary (.of main_call1_v2 : StableHlo.TRef sig ⟨S_, .f32⟩) (.of main_call1_v3 : StableHlo.TRef sig ⟨S50000x2x100, .f32⟩) (broadcastInDim S50000x2x100 ![] bcast_S_S50000x2x100),
    StableHlo.TRef.binary (.of main_call1_v3 : StableHlo.TRef sig ⟨S50000x2x100, .f32⟩) (.of main_v61 : StableHlo.TRef sig ⟨S50000x2x100, .f32⟩) (.of main_call1_v4 : StableHlo.TRef sig ⟨S50000x2x100, .f32⟩) mulf,
    StableHlo.TRef.ternary (.of main_call1_v1 : StableHlo.TRef sig ⟨S50000x2x100, .i1⟩) (.of main_v61 : StableHlo.TRef sig ⟨S50000x2x100, .f32⟩) (.of main_call1_v4 : StableHlo.TRef sig ⟨S50000x2x100, .f32⟩) (.of main_v62 : StableHlo.TRef sig ⟨S50000x2x100, .f32⟩) select,
    StableHlo.binary main_v62 main_v62 main_v63 (mulf : (⟨S50000x2x100, .f32⟩ : BufTy).Contents (Elt F) → (⟨S50000x2x100, .f32⟩ : BufTy).Contents (Elt F) → (⟨S50000x2x100, .f32⟩ : BufTy).Contents (Elt F)),
    StableHlo.nullary main_cst_13 (constant S_ .f32 0x00000000#32),
    StableHlo.binary main_v63 main_cst_13 main_v64 ((fun x v => Host.reduceAdd x v reducesTo_S50000x2x100_S50000x2_d2 h_S_) : (⟨S50000x2x100, .f32⟩ : BufTy).Contents (Elt F) → (⟨S_, .f32⟩ : BufTy).Contents (Elt F) → (⟨S50000x2, .f32⟩ : BufTy).Contents (Elt F)),
    StableHlo.unary main_v64 main_v65 (broadcastInDim S50000x2x1 ![0, 1] bcast_S50000x2_S50000x2x1_0_1 : (⟨S50000x2, .f32⟩ : BufTy).Contents (Elt F) → (⟨S50000x2x1, .f32⟩ : BufTy).Contents (Elt F)),
    StableHlo.unary main_v65 main_v66 (Host.sqrt : (⟨S50000x2x1, .f32⟩ : BufTy).Contents (Elt F) → (⟨S50000x2x1, .f32⟩ : BufTy).Contents (Elt F)),
    StableHlo.nullary main_cst_14 (constant S_ .f32 0x2B8CBCCC#32),
    StableHlo.unary main_cst_14 main_v67 (broadcastInDim S50000x2x1 ![] bcast_S_S50000x2x1 : (⟨S_, .f32⟩ : BufTy).Contents (Elt F) → (⟨S50000x2x1, .f32⟩ : BufTy).Contents (Elt F)),
    StableHlo.binary main_v66 main_v67 main_v68 (maximumf : (⟨S50000x2x1, .f32⟩ : BufTy).Contents (Elt F) → (⟨S50000x2x1, .f32⟩ : BufTy).Contents (Elt F) → (⟨S50000x2x1, .f32⟩ : BufTy).Contents (Elt F)),
    StableHlo.unary main_v68 main_v69 (broadcastInDim S50000x2x100 ![0, 1, 2] bcast_S50000x2x1_S50000x2x100_0_1_2 : (⟨S50000x2x1, .f32⟩ : BufTy).Contents (Elt F) → (⟨S50000x2x100, .f32⟩ : BufTy).Contents (Elt F)),
    StableHlo.binary main_v62 main_v69 main_v70 (Host.divf : (⟨S50000x2x100, .f32⟩ : BufTy).Contents (Elt F) → (⟨S50000x2x100, .f32⟩ : BufTy).Contents (Elt F) → (⟨S50000x2x100, .f32⟩ : BufTy).Contents (Elt F)),
    StableHlo.reshape main_v70 main_v71 rfl shapeCasts_S50000x2x100_S50000x200 ]

set_option maxHeartbeats 40000000 in
/-- The three gathered operands of layer 2. -/
abbrev s3 : List (HloOp τ sig (Elt F)) :=
  [ StableHlo.nullary main_c_15 (constantI S_ 32 0#32),
    StableHlo.unary main_c_15 main_v72 (broadcastInDim S300000 ![] bcast_S_S300000 : (⟨S_, .i32⟩ : BufTy).Contents (Elt F) → (⟨S300000, .i32⟩ : BufTy).Contents (Elt F)),
    StableHlo.binary main_v1 main_v72 main_v73 (cmpi .slt : (⟨S300000, .i32⟩ : BufTy).Contents (Elt F) → (⟨S300000, .i32⟩ : BufTy).Contents (Elt F) → (⟨S300000, .i1⟩ : BufTy).Contents (Elt F)),
    StableHlo.nullary main_c_16 (constantI S_ 32 50000#32),
    StableHlo.unary main_c_16 main_v74 (broadcastInDim S300000 ![] bcast_S_S300000 : (⟨S_, .i32⟩ : BufTy).Contents (Elt F) → (⟨S300000, .i32⟩ : BufTy).Contents (Elt F)),
    StableHlo.binary main_v1 main_v74 main_v75 (addi : (⟨S300000, .i32⟩ : BufTy).Contents (Elt F) → (⟨S300000, .i32⟩ : BufTy).Contents (Elt F) → (⟨S300000, .i32⟩ : BufTy).Contents (Elt F)),
    StableHlo.ternary main_v73 main_v75 main_v1 main_v76 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v76 main_v77 (broadcastInDim S300000x1 ![0] bcast_S300000_S300000x1_0 : (⟨S300000, .i32⟩ : BufTy).Contents (Elt F) → (⟨S300000x1, .i32⟩ : BufTy).Contents (Elt F)),
    StableHlo.binary main_v71 main_v77 main_v78 ((fun x i => Host.gather gather_S50000x200_S300000x1_S300000x200_1_0_n_n_0_1_1200 x i) : (⟨S50000x200, .f32⟩ : BufTy).Contents (Elt F) → (⟨S300000x1, .i32⟩ : BufTy).Contents (Elt F) → (⟨S300000x200, .f32⟩ : BufTy).Contents (Elt F)),
    StableHlo.nullary main_c_17 (constantI S_ 32 0#32),
    StableHlo.unary main_c_17 main_v79 (broadcastInDim S300000 ![] bcast_S_S300000 : (⟨S_, .i32⟩ : BufTy).Contents (Elt F) → (⟨S300000, .i32⟩ : BufTy).Contents (Elt F)),
    StableHlo.binary main_v3 main_v79 main_v80 (cmpi .slt : (⟨S300000, .i32⟩ : BufTy).Contents (Elt F) → (⟨S300000, .i32⟩ : BufTy).Contents (Elt F) → (⟨S300000, .i1⟩ : BufTy).Contents (Elt F)),
    StableHlo.nullary main_c_18 (constantI S_ 32 50000#32),
    StableHlo.unary main_c_18 main_v81 (broadcastInDim S300000 ![] bcast_S_S300000 : (⟨S_, .i32⟩ : BufTy).Contents (Elt F) → (⟨S300000, .i32⟩ : BufTy).Contents (Elt F)),
    StableHlo.binary main_v3 main_v81 main_v82 (addi : (⟨S300000, .i32⟩ : BufTy).Contents (Elt F) → (⟨S300000, .i32⟩ : BufTy).Contents (Elt F) → (⟨S300000, .i32⟩ : BufTy).Contents (Elt F)),
    StableHlo.ternary main_v80 main_v82 main_v3 main_v83 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v83 main_v84 (broadcastInDim S300000x1 ![0] bcast_S300000_S300000x1_0 : (⟨S300000, .i32⟩ : BufTy).Contents (Elt F) → (⟨S300000x1, .i32⟩ : BufTy).Contents (Elt F)),
    StableHlo.binary main_v71 main_v84 main_v85 ((fun x i => Host.gather gather_S50000x200_S300000x1_S300000x200_1_0_n_n_0_1_1200 x i) : (⟨S50000x200, .f32⟩ : BufTy).Contents (Elt F) → (⟨S300000x1, .i32⟩ : BufTy).Contents (Elt F) → (⟨S300000x200, .f32⟩ : BufTy).Contents (Elt F)),
    StableHlo.nullary main_c_19 (constantI S_ 32 0#32),
    StableHlo.unary main_c_19 main_v86 (broadcastInDim S300000 ![] bcast_S_S300000 : (⟨S_, .i32⟩ : BufTy).Contents (Elt F) → (⟨S300000, .i32⟩ : BufTy).Contents (Elt F)),
    StableHlo.binary main_arg3 main_v86 main_v87 (cmpi .slt : (⟨S300000, .i32⟩ : BufTy).Contents (Elt F) → (⟨S300000, .i32⟩ : BufTy).Contents (Elt F) → (⟨S300000, .i1⟩ : BufTy).Contents (Elt F)),
    StableHlo.nullary main_c_20 (constantI S_ 32 237#32),
    StableHlo.unary main_c_20 main_v88 (broadcastInDim S300000 ![] bcast_S_S300000 : (⟨S_, .i32⟩ : BufTy).Contents (Elt F) → (⟨S300000, .i32⟩ : BufTy).Contents (Elt F)),
    StableHlo.binary main_arg3 main_v88 main_v89 (addi : (⟨S300000, .i32⟩ : BufTy).Contents (Elt F) → (⟨S300000, .i32⟩ : BufTy).Contents (Elt F) → (⟨S300000, .i32⟩ : BufTy).Contents (Elt F)),
    StableHlo.ternary main_v87 main_v89 main_arg3 main_v90 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v90 main_v91 (broadcastInDim S300000x1 ![0] bcast_S300000_S300000x1_0 : (⟨S300000, .i32⟩ : BufTy).Contents (Elt F) → (⟨S300000x1, .i32⟩ : BufTy).Contents (Elt F)),
    StableHlo.binary main_arg1 main_v91 main_v92 ((fun x i => Host.gather gather_S237x100_S300000x1_S300000x100_1_0_n_n_0_1_1100 x i) : (⟨S237x100, .f32⟩ : BufTy).Contents (Elt F) → (⟨S300000x1, .i32⟩ : BufTy).Contents (Elt F) → (⟨S300000x100, .f32⟩ : BufTy).Contents (Elt F)) ]

set_option maxHeartbeats 40000000 in
/-- Layer 2's projection, attention logits and exponentials. -/
abbrev s4 : List (HloOp τ sig (Elt F)) :=
  [ StableHlo.nary ![main_v78, main_v85, main_v92] main_v93 (fun u => concatenate S300000x500 1 [⟨S300000x200, u 0⟩, ⟨S300000x200, u 1⟩, ⟨S300000x100, u 2⟩] concatenates_S300000x200_S300000x200_S300000x100_S300000x500_d1),
    StableHlo.unary main_arg7 main_v94 ((transpose S500x400 [1, 0] · transposes_S400x500_S500x400_1_0) : (⟨S400x500, .f32⟩ : BufTy).Contents (Elt F) → (⟨S500x400, .f32⟩ : BufTy).Contents (Elt F)),
    StableHlo.binary main_v93 main_v94 main_v95 ((fun l r => Host.dotGeneral dot_S300000x500_S500x400_S300000x400_1_0_0_1_n_n none l r) : (⟨S300000x500, .f32⟩ : BufTy).Contents (Elt F) → (⟨S500x400, .f32⟩ : BufTy).Contents (Elt F) → (⟨S300000x400, .f32⟩ : BufTy).Contents (Elt F)),
    StableHlo.unary main_arg8 main_v96 (broadcastInDim S1x400 ![1] bcast_S400_S1x400_1 : (⟨S400, .f32⟩ : BufTy).Contents (Elt F) → (⟨S1x400, .f32⟩ : BufTy).Contents (Elt F)),
    StableHlo.unary main_v96 main_v97 (broadcastInDim S300000x400 ![0, 1] bcast_S1x400_S300000x400_0_1 : (⟨S1x400, .f32⟩ : BufTy).Contents (Elt F) → (⟨S300000x400, .f32⟩ : BufTy).Contents (Elt F)),
    StableHlo.binary main_v95 main_v97 main_v98 (addf : (⟨S300000x400, .f32⟩ : BufTy).Contents (Elt F) → (⟨S300000x400, .f32⟩ : BufTy).Contents (Elt F) → (⟨S300000x400, .f32⟩ : BufTy).Contents (Elt F)),
    StableHlo.reshape main_v98 main_v99 rfl shapeCasts_S300000x400_S300000x2x200,
    StableHlo.unary main_arg9 main_v100 (broadcastInDim S300000x2x200 ![0, 1, 2] bcast_S1x2x200_S300000x2x200_0_1_2 : (⟨S1x2x200, .f32⟩ : BufTy).Contents (Elt F) → (⟨S300000x2x200, .f32⟩ : BufTy).Contents (Elt F)),
    StableHlo.binary main_v100 main_v99 main_v101 (mulf : (⟨S300000x2x200, .f32⟩ : BufTy).Contents (Elt F) → (⟨S300000x2x200, .f32⟩ : BufTy).Contents (Elt F) → (⟨S300000x2x200, .f32⟩ : BufTy).Contents (Elt F)),
    StableHlo.nullary main_cst_21 (constant S_ .f32 0x00000000#32),
    StableHlo.binary main_v101 main_cst_21 main_v102 ((fun x v => Host.reduceAdd x v reducesTo_S300000x2x200_S300000x2_d2 h_S_) : (⟨S300000x2x200, .f32⟩ : BufTy).Contents (Elt F) → (⟨S_, .f32⟩ : BufTy).Contents (Elt F) → (⟨S300000x2, .f32⟩ : BufTy).Contents (Elt F)),
    StableHlo.unary main_v102 main_v103 (broadcastInDim S300000x2x1 ![0, 1] bcast_S300000x2_S300000x2x1_0_1 : (⟨S300000x2, .f32⟩ : BufTy).Contents (Elt F) → (⟨S300000x2x1, .f32⟩ : BufTy).Contents (Elt F)),
    StableHlo.nullary main_cst_22 (constant S_ .f32 0x3C23D70A#32),
    StableHlo.TRef.nullary (.of main_call2_cst : StableHlo.TRef sig ⟨S_, .f32⟩) (constant S_ .f32 0x00000000#32),
    StableHlo.TRef.unary (.of main_call2_cst : StableHlo.TRef sig ⟨S_, .f32⟩) (.of main_call2_v0 : StableHlo.TRef sig ⟨S300000x2x1, .f32⟩) (broadcastInDim S300000x2x1 ![] bcast_S_S300000x2x1),
    StableHlo.TRef.binary (.of main_v103 : StableHlo.TRef sig ⟨S300000x2x1, .f32⟩) (.of main_call2_v0 : StableHlo.TRef sig ⟨S300000x2x1, .f32⟩) (.of main_call2_v1 : StableHlo.TRef sig ⟨S300000x2x1, .i1⟩) (cmpf .oge),
    StableHlo.TRef.unary (.of main_cst_22 : StableHlo.TRef sig ⟨S_, .f32⟩) (.of main_call2_v2 : StableHlo.TRef sig ⟨S_, .f32⟩) id,
    StableHlo.TRef.unary (.of main_call2_v2 : StableHlo.TRef sig ⟨S_, .f32⟩) (.of main_call2_v3 : StableHlo.TRef sig ⟨S300000x2x1, .f32⟩) (broadcastInDim S300000x2x1 ![] bcast_S_S300000x2x1),
    StableHlo.TRef.binary (.of main_call2_v3 : StableHlo.TRef sig ⟨S300000x2x1, .f32⟩) (.of main_v103 : StableHlo.TRef sig ⟨S300000x2x1, .f32⟩) (.of main_call2_v4 : StableHlo.TRef sig ⟨S300000x2x1, .f32⟩) mulf,
    StableHlo.TRef.ternary (.of main_call2_v1 : StableHlo.TRef sig ⟨S300000x2x1, .i1⟩) (.of main_v103 : StableHlo.TRef sig ⟨S300000x2x1, .f32⟩) (.of main_call2_v4 : StableHlo.TRef sig ⟨S300000x2x1, .f32⟩) (.of main_v104 : StableHlo.TRef sig ⟨S300000x2x1, .f32⟩) select,
    StableHlo.unary main_v104 main_v105 (Host.exp : (⟨S300000x2x1, .f32⟩ : BufTy).Contents (Elt F) → (⟨S300000x2x1, .f32⟩ : BufTy).Contents (Elt F)) ]

set_option maxHeartbeats 40000000 in
/-- Layer 2's normalisation and aggregation, the entity and relation maps, the last scaling and the mean over heads. -/
abbrev s5 : List (HloOp τ sig (Elt F)) :=
  [ StableHlo.nullary main_cst_23 (constant S_ .f32 0x00000000#32),
    StableHlo.unary main_cst_23 main_v106 (broadcastInDim S50000x2x1 ![] bcast_S_S50000x2x1 : (⟨S_, .f32⟩ : BufTy).Contents (Elt F) → (⟨S50000x2x1, .f32⟩ : BufTy).Contents (Elt F)),
    StableHlo.unary main_v1 main_v107 (broadcastInDim S300000x1 ![0] bcast_S300000_S300000x1_0 : (⟨S300000, .i32⟩ : BufTy).Contents (Elt F) → (⟨S300000x1, .i32⟩ : BufTy).Contents (Elt F)),
    StableHlo.ternary main_v106 main_v107 main_v105 main_v108 ((fun x i u => Host.scatterAdd scatter_S50000x2x1_S300000x1_S300000x2x1_12_0_0_1 x i u) : (⟨S50000x2x1, .f32⟩ : BufTy).Contents (Elt F) → (⟨S300000x1, .i32⟩ : BufTy).Contents (Elt F) → (⟨S300000x2x1, .f32⟩ : BufTy).Contents (Elt F) → (⟨S50000x2x1, .f32⟩ : BufTy).Contents (Elt F)),
    StableHlo.nullary main_c_24 (constantI S_ 32 0#32),
    StableHlo.unary main_c_24 main_v109 (broadcastInDim S300000 ![] bcast_S_S300000 : (⟨S_, .i32⟩ : BufTy).Contents (Elt F) → (⟨S300000, .i32⟩ : BufTy).Contents (Elt F)),
    StableHlo.binary main_v1 main_v109 main_v110 (cmpi .slt : (⟨S300000, .i32⟩ : BufTy).Contents (Elt F) → (⟨S300000, .i32⟩ : BufTy).Contents (Elt F) → (⟨S300000, .i1⟩ : BufTy).Contents (Elt F)),
    StableHlo.nullary main_c_25 (constantI S_ 32 50000#32),
    StableHlo.unary main_c_25 main_v111 (broadcastInDim S300000 ![] bcast_S_S300000 : (⟨S_, .i32⟩ : BufTy).Contents (Elt F) → (⟨S300000, .i32⟩ : BufTy).Contents (Elt F)),
    StableHlo.binary main_v1 main_v111 main_v112 (addi : (⟨S300000, .i32⟩ : BufTy).Contents (Elt F) → (⟨S300000, .i32⟩ : BufTy).Contents (Elt F) → (⟨S300000, .i32⟩ : BufTy).Contents (Elt F)),
    StableHlo.ternary main_v110 main_v112 main_v1 main_v113 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v113 main_v114 (broadcastInDim S300000x1 ![0] bcast_S300000_S300000x1_0 : (⟨S300000, .i32⟩ : BufTy).Contents (Elt F) → (⟨S300000x1, .i32⟩ : BufTy).Contents (Elt F)),
    StableHlo.binary main_v108 main_v114 main_v115 ((fun x i => Host.gather gather_S50000x2x1_S300000x1_S300000x2x1_12_0_n_n_0_1_121 x i) : (⟨S50000x2x1, .f32⟩ : BufTy).Contents (Elt F) → (⟨S300000x1, .i32⟩ : BufTy).Contents (Elt F) → (⟨S300000x2x1, .f32⟩ : BufTy).Contents (Elt F)),
    StableHlo.binary main_v105 main_v115 main_v116 (Host.divf : (⟨S300000x2x1, .f32⟩ : BufTy).Contents (Elt F) → (⟨S300000x2x1, .f32⟩ : BufTy).Contents (Elt F) → (⟨S300000x2x1, .f32⟩ : BufTy).Contents (Elt F)),
    StableHlo.unary main_v116 main_v117 (broadcastInDim S300000x2x200 ![0, 1, 2] bcast_S300000x2x1_S300000x2x200_0_1_2 : (⟨S300000x2x1, .f32⟩ : BufTy).Contents (Elt F) → (⟨S300000x2x200, .f32⟩ : BufTy).Contents (Elt F)),
    StableHlo.binary main_v117 main_v99 main_v118 (mulf : (⟨S300000x2x200, .f32⟩ : BufTy).Contents (Elt F) → (⟨S300000x2x200, .f32⟩ : BufTy).Contents (Elt F) → (⟨S300000x2x200, .f32⟩ : BufTy).Contents (Elt F)),
    StableHlo.nullary main_cst_26 (constant S_ .f32 0x00000000#32),
    StableHlo.unary main_cst_26 main_v119 (broadcastInDim S50000x2x200 ![] bcast_S_S50000x2x200 : (⟨S_, .f32⟩ : BufTy).Contents (Elt F) → (⟨S50000x2x200, .f32⟩ : BufTy).Contents (Elt F)),
    StableHlo.unary main_v3 main_v120 (broadcastInDim S300000x1 ![0] bcast_S300000_S300000x1_0 : (⟨S300000, .i32⟩ : BufTy).Contents (Elt F) → (⟨S300000x1, .i32⟩ : BufTy).Contents (Elt F)),
    StableHlo.ternary main_v119 main_v120 main_v118 main_v121 ((fun x i u => Host.scatterAdd scatter_S50000x2x200_S300000x1_S300000x2x200_12_0_0_1 x i u) : (⟨S50000x2x200, .f32⟩ : BufTy).Contents (Elt F) → (⟨S300000x1, .i32⟩ : BufTy).Contents (Elt F) → (⟨S300000x2x200, .f32⟩ : BufTy).Contents (Elt F) → (⟨S50000x2x200, .f32⟩ : BufTy).Contents (Elt F)),
    StableHlo.nullary main_cst_27 (constant S_ .f32 0x3C23D70A#32),
    StableHlo.TRef.nullary (.of main_call3_cst : StableHlo.TRef sig ⟨S_, .f32⟩) (constant S_ .f32 0x00000000#32),
    StableHlo.TRef.unary (.of main_call3_cst : StableHlo.TRef sig ⟨S_, .f32⟩) (.of main_call3_v0 : StableHlo.TRef sig ⟨S50000x2x200, .f32⟩) (broadcastInDim S50000x2x200 ![] bcast_S_S50000x2x200),
    StableHlo.TRef.binary (.of main_v121 : StableHlo.TRef sig ⟨S50000x2x200, .f32⟩) (.of main_call3_v0 : StableHlo.TRef sig ⟨S50000x2x200, .f32⟩) (.of main_call3_v1 : StableHlo.TRef sig ⟨S50000x2x200, .i1⟩) (cmpf .oge),
    StableHlo.TRef.unary (.of main_cst_27 : StableHlo.TRef sig ⟨S_, .f32⟩) (.of main_call3_v2 : StableHlo.TRef sig ⟨S_, .f32⟩) id,
    StableHlo.TRef.unary (.of main_call3_v2 : StableHlo.TRef sig ⟨S_, .f32⟩) (.of main_call3_v3 : StableHlo.TRef sig ⟨S50000x2x200, .f32⟩) (broadcastInDim S50000x2x200 ![] bcast_S_S50000x2x200),
    StableHlo.TRef.binary (.of main_call3_v3 : StableHlo.TRef sig ⟨S50000x2x200, .f32⟩) (.of main_v121 : StableHlo.TRef sig ⟨S50000x2x200, .f32⟩) (.of main_call3_v4 : StableHlo.TRef sig ⟨S50000x2x200, .f32⟩) mulf,
    StableHlo.TRef.ternary (.of main_call3_v1 : StableHlo.TRef sig ⟨S50000x2x200, .i1⟩) (.of main_v121 : StableHlo.TRef sig ⟨S50000x2x200, .f32⟩) (.of main_call3_v4 : StableHlo.TRef sig ⟨S50000x2x200, .f32⟩) (.of main_v122 : StableHlo.TRef sig ⟨S50000x2x200, .f32⟩) select,
    StableHlo.binary main_v122 main_v122 main_v123 (mulf : (⟨S50000x2x200, .f32⟩ : BufTy).Contents (Elt F) → (⟨S50000x2x200, .f32⟩ : BufTy).Contents (Elt F) → (⟨S50000x2x200, .f32⟩ : BufTy).Contents (Elt F)),
    StableHlo.nullary main_cst_28 (constant S_ .f32 0x00000000#32),
    StableHlo.binary main_v123 main_cst_28 main_v124 ((fun x v => Host.reduceAdd x v reducesTo_S50000x2x200_S50000x2_d2 h_S_) : (⟨S50000x2x200, .f32⟩ : BufTy).Contents (Elt F) → (⟨S_, .f32⟩ : BufTy).Contents (Elt F) → (⟨S50000x2, .f32⟩ : BufTy).Contents (Elt F)),
    StableHlo.unary main_v124 main_v125 (broadcastInDim S50000x2x1 ![0, 1] bcast_S50000x2_S50000x2x1_0_1 : (⟨S50000x2, .f32⟩ : BufTy).Contents (Elt F) → (⟨S50000x2x1, .f32⟩ : BufTy).Contents (Elt F)),
    StableHlo.unary main_v125 main_v126 (Host.sqrt : (⟨S50000x2x1, .f32⟩ : BufTy).Contents (Elt F) → (⟨S50000x2x1, .f32⟩ : BufTy).Contents (Elt F)),
    StableHlo.nullary main_cst_29 (constant S_ .f32 0x2B8CBCCC#32),
    StableHlo.unary main_cst_29 main_v127 (broadcastInDim S50000x2x1 ![] bcast_S_S50000x2x1 : (⟨S_, .f32⟩ : BufTy).Contents (Elt F) → (⟨S50000x2x1, .f32⟩ : BufTy).Contents (Elt F)),
    StableHlo.binary main_v126 main_v127 main_v128 (maximumf : (⟨S50000x2x1, .f32⟩ : BufTy).Contents (Elt F) → (⟨S50000x2x1, .f32⟩ : BufTy).Contents (Elt F) → (⟨S50000x2x1, .f32⟩ : BufTy).Contents (Elt F)),
    StableHlo.unary main_v128 main_v129 (broadcastInDim S50000x2x200 ![0, 1, 2] bcast_S50000x2x1_S50000x2x200_0_1_2 : (⟨S50000x2x1, .f32⟩ : BufTy).Contents (Elt F) → (⟨S50000x2x200, .f32⟩ : BufTy).Contents (Elt F)),
    StableHlo.binary main_v122 main_v129 main_v130 (Host.divf : (⟨S50000x2x200, .f32⟩ : BufTy).Contents (Elt F) → (⟨S50000x2x200, .f32⟩ : BufTy).Contents (Elt F) → (⟨S50000x2x200, .f32⟩ : BufTy).Contents (Elt F)),
    StableHlo.unary main_arg10 main_v131 ((transpose S100x200 [1, 0] · transposes_S200x100_S100x200_1_0) : (⟨S200x100, .f32⟩ : BufTy).Contents (Elt F) → (⟨S100x200, .f32⟩ : BufTy).Contents (Elt F)),
    StableHlo.binary main_v11 main_v131 main_v132 ((fun l r => Host.dotGeneral dot_S50000x100_S100x200_S50000x200_1_0_0_1_n_n none l r) : (⟨S50000x100, .f32⟩ : BufTy).Contents (Elt F) → (⟨S100x200, .f32⟩ : BufTy).Contents (Elt F) → (⟨S50000x200, .f32⟩ : BufTy).Contents (Elt F)),
    StableHlo.unary main_arg11 main_v133 (broadcastInDim S1x200 ![1] bcast_S200_S1x200_1 : (⟨S200, .f32⟩ : BufTy).Contents (Elt F) → (⟨S1x200, .f32⟩ : BufTy).Contents (Elt F)),
    StableHlo.unary main_v133 main_v134 (broadcastInDim S50000x200 ![0, 1] bcast_S1x200_S50000x200_0_1 : (⟨S1x200, .f32⟩ : BufTy).Contents (Elt F) → (⟨S50000x200, .f32⟩ : BufTy).Contents (Elt F)),
    StableHlo.binary main_v132 main_v134 main_v135 (addf : (⟨S50000x200, .f32⟩ : BufTy).Contents (Elt F) → (⟨S50000x200, .f32⟩ : BufTy).Contents (Elt F) → (⟨S50000x200, .f32⟩ : BufTy).Contents (Elt F)),
    StableHlo.unary main_v135 main_v136 (broadcastInDim S50000x1x200 ![0, 2] bcast_S50000x200_S50000x1x200_0_2 : (⟨S50000x200, .f32⟩ : BufTy).Contents (Elt F) → (⟨S50000x1x200, .f32⟩ : BufTy).Contents (Elt F)),
    StableHlo.unary main_v136 main_v137 (broadcastInDim S50000x2x200 ![0, 1, 2] bcast_S50000x1x200_S50000x2x200_0_1_2 : (⟨S50000x1x200, .f32⟩ : BufTy).Contents (Elt F) → (⟨S50000x2x200, .f32⟩ : BufTy).Contents (Elt F)),
    StableHlo.binary main_v137 main_v130 main_v138 (addf : (⟨S50000x2x200, .f32⟩ : BufTy).Contents (Elt F) → (⟨S50000x2x200, .f32⟩ : BufTy).Contents (Elt F) → (⟨S50000x2x200, .f32⟩ : BufTy).Contents (Elt F)),
    StableHlo.unary main_arg12 main_v139 ((transpose S100x200 [1, 0] · transposes_S200x100_S100x200_1_0) : (⟨S200x100, .f32⟩ : BufTy).Contents (Elt F) → (⟨S100x200, .f32⟩ : BufTy).Contents (Elt F)),
    StableHlo.binary main_arg1 main_v139 main_v140 ((fun l r => Host.dotGeneral dot_S237x100_S100x200_S237x200_1_0_0_1_n_n none l r) : (⟨S237x100, .f32⟩ : BufTy).Contents (Elt F) → (⟨S100x200, .f32⟩ : BufTy).Contents (Elt F) → (⟨S237x200, .f32⟩ : BufTy).Contents (Elt F)),
    StableHlo.unary main_arg13 main_v141 (broadcastInDim S1x200 ![1] bcast_S200_S1x200_1 : (⟨S200, .f32⟩ : BufTy).Contents (Elt F) → (⟨S1x200, .f32⟩ : BufTy).Contents (Elt F)),
    StableHlo.unary main_v141 main_v142 (broadcastInDim S237x200 ![0, 1] bcast_S1x200_S237x200_0_1 : (⟨S1x200, .f32⟩ : BufTy).Contents (Elt F) → (⟨S237x200, .f32⟩ : BufTy).Contents (Elt F)),
    StableHlo.binary main_v140 main_v142 main_v143 (addf : (⟨S237x200, .f32⟩ : BufTy).Contents (Elt F) → (⟨S237x200, .f32⟩ : BufTy).Contents (Elt F) → (⟨S237x200, .f32⟩ : BufTy).Contents (Elt F)),
    StableHlo.binary main_v138 main_v138 main_v144 (mulf : (⟨S50000x2x200, .f32⟩ : BufTy).Contents (Elt F) → (⟨S50000x2x200, .f32⟩ : BufTy).Contents (Elt F) → (⟨S50000x2x200, .f32⟩ : BufTy).Contents (Elt F)),
    StableHlo.nullary main_cst_30 (constant S_ .f32 0x00000000#32),
    StableHlo.binary main_v144 main_cst_30 main_v145 ((fun x v => Host.reduceAdd x v reducesTo_S50000x2x200_S50000x2_d2 h_S_) : (⟨S50000x2x200, .f32⟩ : BufTy).Contents (Elt F) → (⟨S_, .f32⟩ : BufTy).Contents (Elt F) → (⟨S50000x2, .f32⟩ : BufTy).Contents (Elt F)),
    StableHlo.unary main_v145 main_v146 (broadcastInDim S50000x2x1 ![0, 1] bcast_S50000x2_S50000x2x1_0_1 : (⟨S50000x2, .f32⟩ : BufTy).Contents (Elt F) → (⟨S50000x2x1, .f32⟩ : BufTy).Contents (Elt F)),
    StableHlo.unary main_v146 main_v147 (Host.sqrt : (⟨S50000x2x1, .f32⟩ : BufTy).Contents (Elt F) → (⟨S50000x2x1, .f32⟩ : BufTy).Contents (Elt F)),
    StableHlo.nullary main_cst_31 (constant S_ .f32 0x2B8CBCCC#32),
    StableHlo.unary main_cst_31 main_v148 (broadcastInDim S50000x2x1 ![] bcast_S_S50000x2x1 : (⟨S_, .f32⟩ : BufTy).Contents (Elt F) → (⟨S50000x2x1, .f32⟩ : BufTy).Contents (Elt F)),
    StableHlo.binary main_v147 main_v148 main_v149 (maximumf : (⟨S50000x2x1, .f32⟩ : BufTy).Contents (Elt F) → (⟨S50000x2x1, .f32⟩ : BufTy).Contents (Elt F) → (⟨S50000x2x1, .f32⟩ : BufTy).Contents (Elt F)),
    StableHlo.unary main_v149 main_v150 (broadcastInDim S50000x2x200 ![0, 1, 2] bcast_S50000x2x1_S50000x2x200_0_1_2 : (⟨S50000x2x1, .f32⟩ : BufTy).Contents (Elt F) → (⟨S50000x2x200, .f32⟩ : BufTy).Contents (Elt F)),
    StableHlo.binary main_v138 main_v150 main_v151 (Host.divf : (⟨S50000x2x200, .f32⟩ : BufTy).Contents (Elt F) → (⟨S50000x2x200, .f32⟩ : BufTy).Contents (Elt F) → (⟨S50000x2x200, .f32⟩ : BufTy).Contents (Elt F)),
    StableHlo.nullary main_cst_32 (constant S_ .f32 0x00000000#32),
    StableHlo.binary main_v151 main_cst_32 main_v152 ((fun x v => Host.reduceAdd x v reducesTo_S50000x2x200_S50000x200_d1 h_S_) : (⟨S50000x2x200, .f32⟩ : BufTy).Contents (Elt F) → (⟨S_, .f32⟩ : BufTy).Contents (Elt F) → (⟨S50000x200, .f32⟩ : BufTy).Contents (Elt F)),
    StableHlo.nullary main_cst_33 (constant S_ .f32 0x40000000#32),
    StableHlo.unary main_cst_33 main_v153 (broadcastInDim S50000x200 ![] bcast_S_S50000x200 : (⟨S_, .f32⟩ : BufTy).Contents (Elt F) → (⟨S50000x200, .f32⟩ : BufTy).Contents (Elt F)),
    StableHlo.binary main_v152 main_v153 main_v154 (Host.divf : (⟨S50000x200, .f32⟩ : BufTy).Contents (Elt F) → (⟨S50000x200, .f32⟩ : BufTy).Contents (Elt F) → (⟨S50000x200, .f32⟩ : BufTy).Contents (Elt F)) ]

/-- The whole program's operations. -/
abbrev ops : List (HloOp τ sig (Elt F)) := s0 ++ (s1 ++ (s2 ++ (s3 ++ (s4 ++ s5))))

end Cert.ReferenceIdeal.ROps

end
-- ==== Proof.RRunMain.lean ====
/-
  The reference program is one straight line of host operations.

  The program's text is cut into four windows run in order, and three of its lines call a function whose body is
  six operations and a call of a one-operation function. Unfolding the windows and the calls, the program is the
  line of the 215 operations listed in the six stretches: each window is the line of a slice of that list (the
  windows' cuts fall inside the third, fifth and sixth stretches), and four lines run one after the other are their
  concatenation run as one.
-/
import proofs.«161084_j22883585753704_2_alg».proof.Proof.ROps

noncomputable section

namespace Cert.ReferenceIdeal.RRun

open Idealize.ShloMosaic Idealize.ShloMosaic.TcCoe
open Idealize.SL Idealize.SL.Sem
open Cert.ReferenceIdeal Cert.ReferenceIdeal.Facts₀ Cert.ReferenceIdeal.Facts
open Idealize.ShloMosaic.StableHlo (seq)

variable {F : FTy → Type} [FloatOps F]

/-- Six lists in a row, re-cut inside the third, the fifth and the sixth. -/
theorem cut6 {α : Type} (a b c d e f : List α) (i j k : Nat) :
    a ++ (b ++ (c ++ (d ++ (e ++ f))))
      = (a ++ (b ++ c.take i)) ++ ((c.drop i ++ (d ++ e.take j)) ++ ((e.drop j ++ f.take k) ++ f.drop k)) := by
  conv_lhs => rw [← List.take_append_drop i c, ← List.take_append_drop j e, ← List.take_append_drop k f]
  simp only [List.append_assoc]

/-- The operations, cut where the program's windows are. -/
theorem ops_cut : (ROps.ops : List (HloOp τ sig (Elt F)))
    = (ROps.s0 ++ (ROps.s1 ++ ROps.s2.take 4)) ++ ((ROps.s2.drop 4 ++ (ROps.s3 ++ ROps.s4.take 4))
        ++ ((ROps.s4.drop 4 ++ ROps.s5.take 55) ++ ROps.s5.drop 55)) :=
  cut6 ROps.s0 ROps.s1 ROps.s2 ROps.s3 ROps.s4 ROps.s5 4 4 55

set_option maxRecDepth 16384 in
set_option maxHeartbeats 4000000 in
/-- The first window: the first two stretches (the first call unfolded) and four operations of the third. -/
theorem part0_eq (d : Dev nD) : main_part0 (F := F) d = seq (ROps.s0 ++ (ROps.s1 ++ ROps.s2.take 4)) := rfl

set_option maxRecDepth 16384 in
set_option maxHeartbeats 4000000 in
/-- The second window: the rest of the third stretch (the second call unfolded), the fourth, and four operations of the fifth. -/
theorem part1_eq (d : Dev nD) : main_part1 (F := F) d = seq (ROps.s2.drop 4 ++ (ROps.s3 ++ ROps.s4.take 4)) := rfl

set_option maxRecDepth 16384 in
set_option maxHeartbeats 4000000 in
/-- The third window: the rest of the fifth stretch (the third call unfolded) and 55 operations of the sixth (the fourth call unfolded). -/
theorem part2_eq (d : Dev nD) : main_part2 (F := F) d = seq (ROps.s4.drop 4 ++ ROps.s5.take 55) := rfl

set_option maxRecDepth 16384 in
/-- The fourth window: the last eleven operations. -/
theorem part3_eq (d : Dev nD) : main_part3 (F := F) d = seq (ROps.s5.drop 55) := rfl

/-- The program is the line of its 215 operations. -/
theorem main_eq (d : Dev nD) : main (F := F) d = seq ROps.ops := by
  rw [ops_cut, StableHlo.seq_append (ROps.s0 ++ (ROps.s1 ++ ROps.s2.take 4)) _,
    StableHlo.seq_append (ROps.s2.drop 4 ++ (ROps.s3 ++ ROps.s4.take 4)) _,
    StableHlo.seq_append (ROps.s4.drop 4 ++ ROps.s5.take 55) _,
    ← part0_eq d, ← part1_eq d, ← part2_eq d, ← part3_eq d]
  rfl

end Cert.ReferenceIdeal.RRun

end
-- ==== Proof.LibHostStretches.lean ====
/-
  Host lines run in stretches.

  The contents of a device's buffers after a list of host operations is a fold: each operation rewrites the buffer it
  writes and leaves the rest. So the contents after two stretches run one after the other are the second stretch's
  contents computed from the first stretch's, and a buffer that no operation of a stretch writes comes out of the
  stretch as it went in. With these a long program is read a stretch at a time: each stretch as a function of what it
  was handed, the stretches composed afterwards.
-/
import Idealize.ShloMosaic.Lib.StableHlo.Run

noncomputable section

namespace Idealize.ShloMosaic.StableHlo

variable {τ : Topo} {sig : RefSig} {Val : EltTy → Type}

/-- The contents after two stretches are the second's from the first's. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- A property of every operation of each of two stretches holds of every operation of the two joined. -/
theorem forall_append {p : HloOp τ sig Val → Prop} {l₁ l₂ : List (HloOp τ sig Val)} (h₁ : l₁.Forall p) (h₂ : l₂.Forall p) :
    (l₁ ++ l₂).Forall p :=
  List.forall_iff_forall_mem.mpr fun x hx => by
    rcases List.mem_append.mp hx with h | h
    · exact List.forall_iff_forall_mem.mp h₁ x h
    · exact List.forall_iff_forall_mem.mp h₂ x h

end Idealize.ShloMosaic.StableHlo

end
-- ==== Proof.RRunOps.lean ====
/-
  What the reference program's line of operations touches.

  Every operation reads and writes TensorCore buffers only, none allocates a buffer, and each writes exactly one
  buffer, which is never one of the fourteen arguments. So an argument holds after the whole line what it held
  before it. Each fact is read off the six stretches one at a time and holds of the six joined.
-/
import proofs.«161084_j22883585753704_2_alg».proof.Proof.ROps
import proofs.«161084_j22883585753704_2_alg».proof.Proof.LibHostStretches

noncomputable section

namespace Cert.ReferenceIdeal.RRun

open Idealize.ShloMosaic Idealize.ShloMosaic.TcCoe
open Idealize.SL Idealize.SL.Sem
open Cert.ReferenceIdeal Cert.ReferenceIdeal.Facts₀ Cert.ReferenceIdeal.Facts

variable {F : FTy → Type} [FloatOps F]

/-- The fourteen arguments. -/
abbrev argRefs : List (Ref sig .tc) :=
  [main_arg0, main_arg1, main_arg2, main_arg3, main_arg4, main_arg5, main_arg6, main_arg7, main_arg8, main_arg9,
    main_arg10, main_arg11, main_arg12, main_arg13]

/-! ### The first stretch -/

set_option maxRecDepth 8192 in
set_option maxHeartbeats 4000000 in
/-- Its operations touch TensorCore references only: each is one of six kinds of operation, and each kind touches its operands and its result. -/
theorem s0_sub : (ROps.s0 : List (HloOp τ sig (Elt F))).Forall fun op => op.bufs ⊆ StableHlo.tcRefs τ sig := by
  simp only [List.Forall, StableHlo.nullary_bufs_sub, StableHlo.unary_bufs_sub, StableHlo.binary_bufs_sub, StableHlo.ternary_bufs_sub, StableHlo.reshape_bufs_sub, StableHlo.nary_bufs_sub, and_self]

set_option maxRecDepth 8192 in
/-- None of its operations allocates a buffer. -/
theorem s0_fresh : (ROps.s0 : List (HloOp τ sig (Elt F))).Forall fun op => op.fresh = ∅ := by
  simp only [List.Forall]; repeat' constructor

set_option maxRecDepth 8192 in
set_option maxHeartbeats 4000000 in
/-- None of its operations writes an argument: each writes one buffer, and that buffer is no argument. -/
theorem s0_args {r : Ref sig .tc} (hr : r ∈ argRefs) :
    (ROps.s0 : List (HloOp τ sig (Elt F))).Forall fun op => (Proc.devRef .tc r : DevRef τ sig) ∉ op.writes := by
  simp only [List.Forall, StableHlo.nullary_writes, StableHlo.unary_writes, StableHlo.binary_writes, StableHlo.ternary_writes, StableHlo.reshape_writes, StableHlo.nary_writes, Finset.mem_singleton]
  repeat' apply And.intro
  all_goals exact StableHlo.devRef_ne_of_ne (ne_of_mem_of_not_mem hr (by decide))

/-! ### The second stretch -/

set_option maxRecDepth 8192 in
set_option maxHeartbeats 4000000 in
/-- Its operations touch TensorCore references only: each is one of six kinds of operation, and each kind touches its operands and its result. -/
theorem s1_sub : (ROps.s1 : List (HloOp τ sig (Elt F))).Forall fun op => op.bufs ⊆ StableHlo.tcRefs τ sig := by
  simp only [List.Forall, StableHlo.nullary_bufs_sub, StableHlo.unary_bufs_sub, StableHlo.binary_bufs_sub, StableHlo.ternary_bufs_sub, StableHlo.reshape_bufs_sub, StableHlo.nary_bufs_sub, and_self]

set_option maxRecDepth 8192 in
/-- None of its operations allocates a buffer. -/
theorem s1_fresh : (ROps.s1 : List (HloOp τ sig (Elt F))).Forall fun op => op.fresh = ∅ := by
  simp only [List.Forall]; repeat' constructor

set_option maxRecDepth 8192 in
set_option maxHeartbeats 4000000 in
/-- None of its operations writes an argument: each writes one buffer, and that buffer is no argument. -/
theorem s1_args {r : Ref sig .tc} (hr : r ∈ argRefs) :
    (ROps.s1 : List (HloOp τ sig (Elt F))).Forall fun op => (Proc.devRef .tc r : DevRef τ sig) ∉ op.writes := by
  simp only [List.Forall, StableHlo.nullary_writes, StableHlo.unary_writes, StableHlo.binary_writes, StableHlo.ternary_writes, StableHlo.reshape_writes, StableHlo.nary_writes, Finset.mem_singleton]
  repeat' apply And.intro
  all_goals exact StableHlo.devRef_ne_of_ne (ne_of_mem_of_not_mem hr (by decide))

/-! ### The third stretch -/

set_option maxRecDepth 8192 in
set_option maxHeartbeats 4000000 in
/-- Its operations touch TensorCore references only: each is one of six kinds of operation, and each kind touches its operands and its result. -/
theorem s2_sub : (ROps.s2 : List (HloOp τ sig (Elt F))).Forall fun op => op.bufs ⊆ StableHlo.tcRefs τ sig := by
  simp only [List.Forall, StableHlo.nullary_bufs_sub, StableHlo.unary_bufs_sub, StableHlo.binary_bufs_sub, StableHlo.ternary_bufs_sub, StableHlo.reshape_bufs_sub, StableHlo.nary_bufs_sub, and_self]

set_option maxRecDepth 8192 in
/-- None of its operations allocates a buffer. -/
theorem s2_fresh : (ROps.s2 : List (HloOp τ sig (Elt F))).Forall fun op => op.fresh = ∅ := by
  simp only [List.Forall]; repeat' constructor

set_option maxRecDepth 8192 in
set_option maxHeartbeats 4000000 in
/-- None of its operations writes an argument: each writes one buffer, and that buffer is no argument. -/
theorem s2_args {r : Ref sig .tc} (hr : r ∈ argRefs) :
    (ROps.s2 : List (HloOp τ sig (Elt F))).Forall fun op => (Proc.devRef .tc r : DevRef τ sig) ∉ op.writes := by
  simp only [List.Forall, StableHlo.nullary_writes, StableHlo.unary_writes, StableHlo.binary_writes, StableHlo.ternary_writes, StableHlo.reshape_writes, StableHlo.nary_writes, Finset.mem_singleton]
  repeat' apply And.intro
  all_goals exact StableHlo.devRef_ne_of_ne (ne_of_mem_of_not_mem hr (by decide))

/-! ### The fourth stretch -/

set_option maxRecDepth 8192 in
set_option maxHeartbeats 4000000 in
/-- Its operations touch TensorCore references only: each is one of six kinds of operation, and each kind touches its operands and its result. -/
theorem s3_sub : (ROps.s3 : List (HloOp τ sig (Elt F))).Forall fun op => op.bufs ⊆ StableHlo.tcRefs τ sig := by
  simp only [List.Forall, StableHlo.nullary_bufs_sub, StableHlo.unary_bufs_sub, StableHlo.binary_bufs_sub, StableHlo.ternary_bufs_sub, StableHlo.reshape_bufs_sub, StableHlo.nary_bufs_sub, and_self]

set_option maxRecDepth 8192 in
/-- None of its operations allocates a buffer. -/
theorem s3_fresh : (ROps.s3 : List (HloOp τ sig (Elt F))).Forall fun op => op.fresh = ∅ := by
  simp only [List.Forall]; repeat' constructor

set_option maxRecDepth 8192 in
set_option maxHeartbeats 4000000 in
/-- None of its operations writes an argument: each writes one buffer, and that buffer is no argument. -/
theorem s3_args {r : Ref sig .tc} (hr : r ∈ argRefs) :
    (ROps.s3 : List (HloOp τ sig (Elt F))).Forall fun op => (Proc.devRef .tc r : DevRef τ sig) ∉ op.writes := by
  simp only [List.Forall, StableHlo.nullary_writes, StableHlo.unary_writes, StableHlo.binary_writes, StableHlo.ternary_writes, StableHlo.reshape_writes, StableHlo.nary_writes, Finset.mem_singleton]
  repeat' apply And.intro
  all_goals exact StableHlo.devRef_ne_of_ne (ne_of_mem_of_not_mem hr (by decide))

/-! ### The fifth stretch -/

set_option maxRecDepth 8192 in
set_option maxHeartbeats 4000000 in
/-- Its operations touch TensorCore references only: each is one of six kinds of operation, and each kind touches its operands and its result. -/
theorem s4_sub : (ROps.s4 : List (HloOp τ sig (Elt F))).Forall fun op => op.bufs ⊆ StableHlo.tcRefs τ sig := by
  simp only [List.Forall, StableHlo.nullary_bufs_sub, StableHlo.unary_bufs_sub, StableHlo.binary_bufs_sub, StableHlo.ternary_bufs_sub, StableHlo.reshape_bufs_sub, StableHlo.nary_bufs_sub, and_self]

set_option maxRecDepth 8192 in
/-- None of its operations allocates a buffer. -/
theorem s4_fresh : (ROps.s4 : List (HloOp τ sig (Elt F))).Forall fun op => op.fresh = ∅ := by
  simp only [List.Forall]; repeat' constructor

set_option maxRecDepth 8192 in
set_option maxHeartbeats 4000000 in
/-- None of its operations writes an argument: each writes one buffer, and that buffer is no argument. -/
theorem s4_args {r : Ref sig .tc} (hr : r ∈ argRefs) :
    (ROps.s4 : List (HloOp τ sig (Elt F))).Forall fun op => (Proc.devRef .tc r : DevRef τ sig) ∉ op.writes := by
  simp only [List.Forall, StableHlo.nullary_writes, StableHlo.unary_writes, StableHlo.binary_writes, StableHlo.ternary_writes, StableHlo.reshape_writes, StableHlo.nary_writes, Finset.mem_singleton]
  repeat' apply And.intro
  all_goals exact StableHlo.devRef_ne_of_ne (ne_of_mem_of_not_mem hr (by decide))

/-! ### The sixth stretch -/

set_option maxRecDepth 8192 in
set_option maxHeartbeats 4000000 in
/-- Its operations touch TensorCore references only: each is one of six kinds of operation, and each kind touches its operands and its result. -/
theorem s5_sub : (ROps.s5 : List (HloOp τ sig (Elt F))).Forall fun op => op.bufs ⊆ StableHlo.tcRefs τ sig := by
  simp only [List.Forall, StableHlo.nullary_bufs_sub, StableHlo.unary_bufs_sub, StableHlo.binary_bufs_sub, StableHlo.ternary_bufs_sub, StableHlo.reshape_bufs_sub, StableHlo.nary_bufs_sub, and_self]

set_option maxRecDepth 8192 in
/-- None of its operations allocates a buffer. -/
theorem s5_fresh : (ROps.s5 : List (HloOp τ sig (Elt F))).Forall fun op => op.fresh = ∅ := by
  simp only [List.Forall]; repeat' constructor

set_option maxRecDepth 8192 in
set_option maxHeartbeats 4000000 in
/-- None of its operations writes an argument: each writes one buffer, and that buffer is no argument. -/
theorem s5_args {r : Ref sig .tc} (hr : r ∈ argRefs) :
    (ROps.s5 : List (HloOp τ sig (Elt F))).Forall fun op => (Proc.devRef .tc r : DevRef τ sig) ∉ op.writes := by
  simp only [List.Forall, StableHlo.nullary_writes, StableHlo.unary_writes, StableHlo.binary_writes, StableHlo.ternary_writes, StableHlo.reshape_writes, StableHlo.nary_writes, Finset.mem_singleton]
  repeat' apply And.intro
  all_goals exact StableHlo.devRef_ne_of_ne (ne_of_mem_of_not_mem hr (by decide))

/-! ### The six joined -/

/-- Every operation touches TensorCore references only. -/
theorem ops_sub : (ROps.ops : List (HloOp τ sig (Elt F))).Forall fun op => op.bufs ⊆ StableHlo.tcRefs τ sig :=
  StableHlo.forall_append s0_sub (StableHlo.forall_append s1_sub (StableHlo.forall_append s2_sub
    (StableHlo.forall_append s3_sub (StableHlo.forall_append s4_sub s5_sub))))

/-- No operation allocates a buffer. -/
theorem ops_fresh : (ROps.ops : List (HloOp τ sig (Elt F))).Forall fun op => op.fresh = ∅ :=
  StableHlo.forall_append s0_fresh (StableHlo.forall_append s1_fresh (StableHlo.forall_append s2_fresh
    (StableHlo.forall_append s3_fresh (StableHlo.forall_append s4_fresh s5_fresh))))

/-- No operation writes an argument. -/
theorem ops_args {r : Ref sig .tc} (hr : r ∈ argRefs) :
    (ROps.ops : List (HloOp τ sig (Elt F))).Forall fun op => (Proc.devRef .tc r : DevRef τ sig) ∉ op.writes :=
  StableHlo.forall_append (s0_args hr) (StableHlo.forall_append (s1_args hr) (StableHlo.forall_append (s2_args hr)
    (StableHlo.forall_append (s3_args hr) (StableHlo.forall_append (s4_args hr) (s5_args hr)))))

/-- An argument holds after the line what it held before it. -/
theorem ops_keep {r : Ref sig .tc} (hr : r ∈ argRefs) (V : Valuation τ sig (Elt F)) :
    StableHlo.after ROps.ops V (Proc.devRef .tc r) = V (Proc.devRef .tc r) :=
  StableHlo.after_of_forall_not_mem _ V (List.forall_iff_forall_mem.mp (ops_args hr))

theorem ops_arg0 (V : Valuation τ sig (Elt F)) : StableHlo.after ROps.ops V (Proc.devRef .tc main_arg0) = V (Proc.devRef .tc main_arg0) := ops_keep (by decide) V
theorem ops_arg1 (V : Valuation τ sig (Elt F)) : StableHlo.after ROps.ops V (Proc.devRef .tc main_arg1) = V (Proc.devRef .tc main_arg1) := ops_keep (by decide) V
theorem ops_arg2 (V : Valuation τ sig (Elt F)) : StableHlo.after ROps.ops V (Proc.devRef .tc main_arg2) = V (Proc.devRef .tc main_arg2) := ops_keep (by decide) V
theorem ops_arg3 (V : Valuation τ sig (Elt F)) : StableHlo.after ROps.ops V (Proc.devRef .tc main_arg3) = V (Proc.devRef .tc main_arg3) := ops_keep (by decide) V
theorem ops_arg4 (V : Valuation τ sig (Elt F)) : StableHlo.after ROps.ops V (Proc.devRef .tc main_arg4) = V (Proc.devRef .tc main_arg4) := ops_keep (by decide) V
theorem ops_arg5 (V : Valuation τ sig (Elt F)) : StableHlo.after ROps.ops V (Proc.devRef .tc main_arg5) = V (Proc.devRef .tc main_arg5) := ops_keep (by decide) V
theorem ops_arg6 (V : Valuation τ sig (Elt F)) : StableHlo.after ROps.ops V (Proc.devRef .tc main_arg6) = V (Proc.devRef .tc main_arg6) := ops_keep (by decide) V
theorem ops_arg7 (V : Valuation τ sig (Elt F)) : StableHlo.after ROps.ops V (Proc.devRef .tc main_arg7) = V (Proc.devRef .tc main_arg7) := ops_keep (by decide) V
theorem ops_arg8 (V : Valuation τ sig (Elt F)) : StableHlo.after ROps.ops V (Proc.devRef .tc main_arg8) = V (Proc.devRef .tc main_arg8) := ops_keep (by decide) V
theorem ops_arg9 (V : Valuation τ sig (Elt F)) : StableHlo.after ROps.ops V (Proc.devRef .tc main_arg9) = V (Proc.devRef .tc main_arg9) := ops_keep (by decide) V
theorem ops_arg10 (V : Valuation τ sig (Elt F)) : StableHlo.after ROps.ops V (Proc.devRef .tc main_arg10) = V (Proc.devRef .tc main_arg10) := ops_keep (by decide) V
theorem ops_arg11 (V : Valuation τ sig (Elt F)) : StableHlo.after ROps.ops V (Proc.devRef .tc main_arg11) = V (Proc.devRef .tc main_arg11) := ops_keep (by decide) V
theorem ops_arg12 (V : Valuation τ sig (Elt F)) : StableHlo.after ROps.ops V (Proc.devRef .tc main_arg12) = V (Proc.devRef .tc main_arg12) := ops_keep (by decide) V
theorem ops_arg13 (V : Valuation τ sig (Elt F)) : StableHlo.after ROps.ops V (Proc.devRef .tc main_arg13) = V (Proc.devRef .tc main_arg13) := ops_keep (by decide) V

end Cert.ReferenceIdeal.RRun

end
-- ==== Proof.RRun.lean ====
/-
  The reference program's run.

  The program is a straight line of host operations on a signature that scopes no buffer and no semaphore. So
  from any memory with zero counters every weakly fair execution terminates, and in every final state each
  TensorCore buffer of each device holds the fold of the operations' results over that device's launch contents.
  No operation writes an argument, so the arguments end as they were launched: the program's frame.
-/
import proofs.«161084_j22883585753704_2_alg».proof.Proof.RRunMain
import proofs.«161084_j22883585753704_2_alg».proof.Proof.RRunOps
import proofs.«161084_j22883585753704_2_alg».proof.Defs
import proofs.«161084_j22883585753704_2_alg».proof.Proof.Gen.Pre_finite_inputs

noncomputable section

namespace Cert.ReferenceIdeal.RRun

open Idealize.ShloMosaic Idealize.ShloMosaic.TcCoe
open Idealize.SL Idealize.SL.Sem
open Cert.ReferenceIdeal Cert.ReferenceIdeal.Facts₀ Cert.ReferenceIdeal.Facts

variable {F : FTy → Type} [FloatOps F]

set_option maxRecDepth 16384 in
/-- The signature scopes no TensorCore buffer. -/
theorem scopedRefs_eq : (Finset.univ.filter fun b : Ref sig .tc => b.isScoped) = ∅ := by decide
/-- The signature scopes no semaphore. -/
theorem scopedSems_eq : (Finset.univ.filter fun sm : SemLoc sig => sm.isScoped .tc) = ∅ := by decide

/-- At the compiled mesh, for any float values, from any memory with zero counters: every weakly fair execution of the
    program on the TensorCores terminates, and every final state has each TensorCore buffer at the operations' fold
    over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b)
        = StableHlo.after ROps.ops (StableHlo.launchContents m d) (Proc.devRef .tc b) :=
  StableHlo.run_seq scopedRefs_eq scopedSems_eq defs main (fun _ => ROps.ops) main_eq (fun _ => ops_sub) m ρ
    (fun _ => List.forall_iff_forall_mem.mp ops_fresh)

/-- The program runs and its fourteen arguments end as launched: the run, each argument read back through the fold. -/
theorem frame_ri : Cert.frame_ReferenceIdeal (hReferenceIdeal := Cert.ReferenceIdeal.Gen.facts)
    (hPre_finite_inputs := Cert.Pre_finite_inputs.Gen.facts) :=
  fun m ρ _ => (θ_run (defs (F := Ideal)) _ _).mono (fun _ h c =>
    ⟨(h c _).trans (ops_arg0 _),
      (h c _).trans (ops_arg1 _),
      (h c _).trans (ops_arg2 _),
      (h c _).trans (ops_arg3 _),
      (h c _).trans (ops_arg4 _),
      (h c _).trans (ops_arg5 _),
      (h c _).trans (ops_arg6 _),
      (h c _).trans (ops_arg7 _),
      (h c _).trans (ops_arg8 _),
      (h c _).trans (ops_arg9 _),
      (h c _).trans (ops_arg10 _),
      (h c _).trans (ops_arg11 _),
      (h c _).trans (ops_arg12 _),
      (h c _).trans (ops_arg13 _)⟩)
    (run_main m ρ)

end Cert.ReferenceIdeal.RRun

end
-- ==== Proof.BridgeDefs.lean ====
/-
  Shared vocabulary for comparing the two idealized programs' buffer contents.

  The kernel program's launch memory and the reference's buffer contents are different types (each program has its own
  table of buffers); a buffer of one is compared with a buffer of the other as functions on the same index set into the
  extended reals (or 32-bit words). Named here: the two kinds of contents, a reference of either program as a device
  buffer, the kernel program's launch contents at an argument, the reference's fourteen argument references, and those
  together with the three buffers every later stretch reads (the two edge lists and the normalised node features) — the
  buffers carried unchanged from stretch to stretch. Also: contents after two stretches run one after the other are the
  second stretch's contents computed from the first's.
-/
import proofs.«161084_j22883585753704_2_alg».proof.KernelIdeal
import proofs.«161084_j22883585753704_2_alg».proof.ReferenceIdeal
import Idealize.ShloMosaic.PureOps.Ideal
import Idealize.ShloMosaic.Lib.StableHlo.Run

noncomputable section

namespace Cert.Bridge

open Idealize.ShloMosaic Idealize.ShloMosaic.TcCoe Idealize.SL.Sem

/-- Contents after two stretches run one after the other are the second stretch's from the first's. -/
theorem after_append {τ : Topo} {sig : RefSig} {Val : EltTy → Type} (l₁ l₂ : List (HloOp τ sig Val)) (V : Valuation τ sig Val) :
    StableHlo.after (l₁ ++ l₂) V = StableHlo.after l₂ (StableHlo.after l₁ V) := by
  induction l₁ generalizing V with
  | nil => rfl
  | cons op l ih => exact ih _

/-- The kernel program's launch memory, over the extended reals. -/
abbrev KM := (ℓ : Loc Cert.KernelIdeal.nD Cert.KernelIdeal.τ Cert.KernelIdeal.sig) → Buf (Elt Ideal) ℓ
/-- The reference's buffer contents on one device, over the extended reals. -/
abbrev RVal := Valuation Cert.ReferenceIdeal.τ Cert.ReferenceIdeal.sig (Elt Ideal)
/-- A buffer of the kernel program, of the reference, as a device buffer. -/
abbrev dk (b : Ref Cert.KernelIdeal.sig .tc) : DevRef Cert.KernelIdeal.τ Cert.KernelIdeal.sig := Proc.devRef .tc b
abbrev dr (b : Ref Cert.ReferenceIdeal.sig .tc) : DevRef Cert.ReferenceIdeal.τ Cert.ReferenceIdeal.sig := Proc.devRef .tc b
/-- The kernel program's launch contents of a buffer on device c. -/
abbrev ka (m : KM) (c : Dev Cert.KernelIdeal.nD) (b : Ref Cert.KernelIdeal.sig .tc) := m ((c : Thread Cert.KernelIdeal.nD Cert.KernelIdeal.τ).loc b)

/-- The reference's argument references. -/
abbrev LA : List (Ref Cert.ReferenceIdeal.sig .tc) := [Cert.ReferenceIdeal.main_arg0, Cert.ReferenceIdeal.main_arg1, Cert.ReferenceIdeal.main_arg2, Cert.ReferenceIdeal.main_arg3, Cert.ReferenceIdeal.main_arg4, Cert.ReferenceIdeal.main_arg5, Cert.ReferenceIdeal.main_arg6, Cert.ReferenceIdeal.main_arg7, Cert.ReferenceIdeal.main_arg8, Cert.ReferenceIdeal.main_arg9, Cert.ReferenceIdeal.main_arg10, Cert.ReferenceIdeal.main_arg11, Cert.ReferenceIdeal.main_arg12, Cert.ReferenceIdeal.main_arg13]
/-- The references carried from stretch to stretch: the two edge lists, the normalised node features, the arguments. -/
abbrev LC : List (Ref Cert.ReferenceIdeal.sig .tc) := [Cert.ReferenceIdeal.main_v1, Cert.ReferenceIdeal.main_v3, Cert.ReferenceIdeal.main_v11] ++ LA

end Cert.Bridge

end
-- ==== Proof.ChainA.lean ====
import proofs.«161084_j22883585753704_2_alg».proof.Defs
import proofs.«161084_j22883585753704_2_alg».proof.Proof.Gen.KernelIdeal.Frame
import proofs.«161084_j22883585753704_2_alg».proof.Proof.ROps

set_option maxRecDepth 8192

noncomputable section
namespace Cert.Bridge.Chain
open Idealize.ShloMosaic Idealize.ShloMosaic.TcCoe Idealize.SL.Sem

set_option quotPrecheck false in
local notation "dk" b:max => (Proc.devRef Proc.tc b : DevRef Cert.KernelIdeal.τ Cert.KernelIdeal.sig)
set_option quotPrecheck false in
local notation "dr" b:max => (Proc.devRef Proc.tc b : DevRef Cert.ReferenceIdeal.τ Cert.ReferenceIdeal.sig)

variable (m : (ℓ : Loc Cert.KernelIdeal.nD Cert.KernelIdeal.τ Cert.KernelIdeal.sig) → Buf (Elt Ideal) ℓ) (ρ : Dev Cert.KernelIdeal.nD → PrngReg) (c : Dev Cert.KernelIdeal.nD)
  (RV : Valuation Cert.ReferenceIdeal.τ Cert.ReferenceIdeal.sig (Elt Ideal))

/-! # The shared host operations before the first kernel region

Both programs begin with the same operations on their arguments: the two rows of the edge list are sliced out and
flattened, the node features are scaled to unit length (each row divided by the larger of its Euclidean norm and a
small positive constant), negative indices are wrapped by the table's height, and the rows of the scaled features
(and of the relation table) named by the wrapped indices are gathered. The kernel's program narrows the floating-point
format of the tables before the gathers; on the extended reals a change of format is the identity, so the gathered
rows are the same functions. Each equation below reads both sides down to the arguments and finds the same
operations applied to the same operands. -/

theorem cpa_v1 (h2 : RV (dr Cert.ReferenceIdeal.main_arg2) = m ((c : Thread Cert.KernelIdeal.nD Cert.KernelIdeal.τ).loc Cert.KernelIdeal.main_arg2)) :
    StableHlo.after (Cert.ReferenceIdeal.ROps.s0 (F := Ideal)) RV (dr Cert.ReferenceIdeal.main_v1) = Cert.KernelIdeal.Gen.W1 m ρ c (dk Cert.KernelIdeal.main_v1) := by
  dsimp only [Cert.KernelIdeal.Gen.W1, Cert.KernelIdeal.Gen.W0, Cert.KernelIdeal.Gen.hostOps0, Cert.ReferenceIdeal.ROps.s0]
  after_results_simp
  rw [h2]
  rfl

theorem cpa_v3 (h2 : RV (dr Cert.ReferenceIdeal.main_arg2) = m ((c : Thread Cert.KernelIdeal.nD Cert.KernelIdeal.τ).loc Cert.KernelIdeal.main_arg2)) :
    StableHlo.after (Cert.ReferenceIdeal.ROps.s0 (F := Ideal)) RV (dr Cert.ReferenceIdeal.main_v3) = Cert.KernelIdeal.Gen.W1 m ρ c (dk Cert.KernelIdeal.main_v3) := by
  dsimp only [Cert.KernelIdeal.Gen.W1, Cert.KernelIdeal.Gen.W0, Cert.KernelIdeal.Gen.hostOps0, Cert.ReferenceIdeal.ROps.s0]
  after_results_simp
  rw [h2]
  rfl

attribute [local irreducible] Host.reduce Host.gather Host.scatter Host.reduceAdd Host.scatterAdd in
theorem cpa_v11 (h0 : RV (dr Cert.ReferenceIdeal.main_arg0) = m ((c : Thread Cert.KernelIdeal.nD Cert.KernelIdeal.τ).loc Cert.KernelIdeal.main_arg0)) :
    StableHlo.after (Cert.ReferenceIdeal.ROps.s0 (F := Ideal)) RV (dr Cert.ReferenceIdeal.main_v11) = Cert.KernelIdeal.Gen.W1 m ρ c (dk Cert.KernelIdeal.main_v11) := by
  dsimp only [Cert.KernelIdeal.Gen.W1, Cert.KernelIdeal.Gen.W0, Cert.KernelIdeal.Gen.hostOps0, Cert.ReferenceIdeal.ROps.s0]
  after_results_simp
  rw [h0]

attribute [local irreducible] Host.reduce Host.gather Host.scatter Host.reduceAdd Host.scatterAdd in
theorem cpa_v18 (h0 : RV (dr Cert.ReferenceIdeal.main_arg0) = m ((c : Thread Cert.KernelIdeal.nD Cert.KernelIdeal.τ).loc Cert.KernelIdeal.main_arg0)) (h2 : RV (dr Cert.ReferenceIdeal.main_arg2) = m ((c : Thread Cert.KernelIdeal.nD Cert.KernelIdeal.τ).loc Cert.KernelIdeal.main_arg2)) :
    StableHlo.after (Cert.ReferenceIdeal.ROps.s0 (F := Ideal)) RV (dr Cert.ReferenceIdeal.main_v18) = Cert.KernelIdeal.Gen.W1 m ρ c (dk Cert.KernelIdeal.main_v20) := by
  dsimp only [Cert.KernelIdeal.Gen.W1, Cert.KernelIdeal.Gen.W0, Cert.KernelIdeal.Gen.hostOps0, Cert.ReferenceIdeal.ROps.s0]
  after_results_simp
  rw [h0, h2]
  rfl

attribute [local irreducible] Host.reduce Host.gather Host.scatter Host.reduceAdd Host.scatterAdd in
theorem cpa_v25 (h0 : RV (dr Cert.ReferenceIdeal.main_arg0) = m ((c : Thread Cert.KernelIdeal.nD Cert.KernelIdeal.τ).loc Cert.KernelIdeal.main_arg0)) (h2 : RV (dr Cert.ReferenceIdeal.main_arg2) = m ((c : Thread Cert.KernelIdeal.nD Cert.KernelIdeal.τ).loc Cert.KernelIdeal.main_arg2)) :
    StableHlo.after (Cert.ReferenceIdeal.ROps.s0 (F := Ideal)) RV (dr Cert.ReferenceIdeal.main_v25) = Cert.KernelIdeal.Gen.W1 m ρ c (dk Cert.KernelIdeal.main_v27) := by
  dsimp only [Cert.KernelIdeal.Gen.W1, Cert.KernelIdeal.Gen.W0, Cert.KernelIdeal.Gen.hostOps0, Cert.ReferenceIdeal.ROps.s0]
  after_results_simp
  rw [h0, h2]
  rfl

attribute [local irreducible] Host.reduce Host.gather Host.scatter Host.reduceAdd Host.scatterAdd in
theorem cpa_v32 (h1 : RV (dr Cert.ReferenceIdeal.main_arg1) = m ((c : Thread Cert.KernelIdeal.nD Cert.KernelIdeal.τ).loc Cert.KernelIdeal.main_arg1)) (h3 : RV (dr Cert.ReferenceIdeal.main_arg3) = m ((c : Thread Cert.KernelIdeal.nD Cert.KernelIdeal.τ).loc Cert.KernelIdeal.main_arg3)) :
    StableHlo.after (Cert.ReferenceIdeal.ROps.s0 (F := Ideal)) RV (dr Cert.ReferenceIdeal.main_v32) = Cert.KernelIdeal.Gen.W1 m ρ c (dk Cert.KernelIdeal.main_v34) := by
  dsimp only [Cert.KernelIdeal.Gen.W1, Cert.KernelIdeal.Gen.W0, Cert.KernelIdeal.Gen.hostOps0, Cert.ReferenceIdeal.ROps.s0]
  after_results_simp
  rw [h1, h3]
  rfl

/-- The edge lists, the scaled node features and the three gathered operands of the first layer agree. -/
theorem cpa (h0 : RV (dr Cert.ReferenceIdeal.main_arg0) = m ((c : Thread Cert.KernelIdeal.nD Cert.KernelIdeal.τ).loc Cert.KernelIdeal.main_arg0)) (h1 : RV (dr Cert.ReferenceIdeal.main_arg1) = m ((c : Thread Cert.KernelIdeal.nD Cert.KernelIdeal.τ).loc Cert.KernelIdeal.main_arg1)) (h2 : RV (dr Cert.ReferenceIdeal.main_arg2) = m ((c : Thread Cert.KernelIdeal.nD Cert.KernelIdeal.τ).loc Cert.KernelIdeal.main_arg2)) (h3 : RV (dr Cert.ReferenceIdeal.main_arg3) = m ((c : Thread Cert.KernelIdeal.nD Cert.KernelIdeal.τ).loc Cert.KernelIdeal.main_arg3)) :
    let RV1 := StableHlo.after (Cert.ReferenceIdeal.ROps.s0 (F := Ideal)) RV
    RV1 (dr Cert.ReferenceIdeal.main_v1) = Cert.KernelIdeal.Gen.W1 m ρ c (dk Cert.KernelIdeal.main_v1) ∧ RV1 (dr Cert.ReferenceIdeal.main_v3) = Cert.KernelIdeal.Gen.W1 m ρ c (dk Cert.KernelIdeal.main_v3)
    ∧ RV1 (dr Cert.ReferenceIdeal.main_v11) = Cert.KernelIdeal.Gen.W1 m ρ c (dk Cert.KernelIdeal.main_v11)
    ∧ RV1 (dr Cert.ReferenceIdeal.main_v18) = Cert.KernelIdeal.Gen.W1 m ρ c (dk Cert.KernelIdeal.main_v20) ∧ RV1 (dr Cert.ReferenceIdeal.main_v25) = Cert.KernelIdeal.Gen.W1 m ρ c (dk Cert.KernelIdeal.main_v27)
    ∧ RV1 (dr Cert.ReferenceIdeal.main_v32) = Cert.KernelIdeal.Gen.W1 m ρ c (dk Cert.KernelIdeal.main_v34) :=
  ⟨cpa_v1 m ρ c RV h2, cpa_v3 m ρ c RV h2, cpa_v11 m ρ c RV h0, cpa_v18 m ρ c RV h0 h2, cpa_v25 m ρ c RV h0 h2,
    cpa_v32 m ρ c RV h1 h3⟩

end Cert.Bridge.Chain
end
-- ==== Proof.ChainB.lean ====
import proofs.«161084_j22883585753704_2_alg».proof.Defs
import proofs.«161084_j22883585753704_2_alg».proof.Proof.Gen.KernelIdeal.Frame
import proofs.«161084_j22883585753704_2_alg».proof.Proof.ROps

set_option maxRecDepth 8192

noncomputable section
namespace Cert.Bridge.Chain
open Idealize.ShloMosaic Idealize.ShloMosaic.TcCoe Idealize.SL.Sem

set_option quotPrecheck false in
local notation "dk" b:max => (Proc.devRef Proc.tc b : DevRef Cert.KernelIdeal.τ Cert.KernelIdeal.sig)
set_option quotPrecheck false in
local notation "dr" b:max => (Proc.devRef Proc.tc b : DevRef Cert.ReferenceIdeal.τ Cert.ReferenceIdeal.sig)

variable (m : (ℓ : Loc Cert.KernelIdeal.nD Cert.KernelIdeal.τ Cert.KernelIdeal.sig) → Buf (Elt Ideal) ℓ) (ρ : Dev Cert.KernelIdeal.nD → PrngReg) (c : Dev Cert.KernelIdeal.nD)
  (RV : Valuation Cert.ReferenceIdeal.τ Cert.ReferenceIdeal.sig (Elt Ideal))

local macro "after_results_simp_at " h:ident : tactic =>
  `(tactic| simp (disch := decide) only [StableHlo.after_cons, StableHlo.after_nil,
      StableHlo.nullary_result', StableHlo.unary_result', StableHlo.binary_result', StableHlo.ternary_result', StableHlo.quaternary_result', StableHlo.reshape_result',
      StableHlo.nullary_result_ne', StableHlo.unary_result_ne', StableHlo.binary_result_ne', StableHlo.ternary_result_ne', StableHlo.quaternary_result_ne', StableHlo.reshape_result_ne'] at $h:ident)

/-! # The shared host operations between the two kernel regions

After the first region both programs normalise each edge's exponential by the sum over the edges with the same
source node (a scatter-add over the source list, gathered back per edge, divided), weight the projected features by
it, sum the weighted features into each destination node (a scatter-add over the destination list), apply the leaky
rectifier, scale each (node, head) row to unit length and flatten the heads; then they gather the rows named by the
wrapped source, destination and relation indices. The kernel's program writes the region's two outputs through one
layout operation each (a trailing unit axis; the heads split off the feature axis) before using them, which is where
the hypotheses on the region's outputs are stated; it also narrows the format of the gathered tables, the identity
on the extended reals. Both sides are read down to the region's outputs, the edge lists and the arguments, and are
the same operations of the same operands. -/

set_option maxHeartbeats 16000000 in
attribute [local irreducible] Host.reduce Host.gather Host.scatter Host.reduceAdd Host.scatterAdd in
theorem cpb_v78 (h45 : RV (dr Cert.ReferenceIdeal.main_v45) = Cert.KernelIdeal.Gen.W3 m ρ c (dk Cert.KernelIdeal.main_v60)) (h39 : RV (dr Cert.ReferenceIdeal.main_v39) = Cert.KernelIdeal.Gen.W3 m ρ c (dk Cert.KernelIdeal.main_v72))
    (hv1 : RV (dr Cert.ReferenceIdeal.main_v1) = Cert.KernelIdeal.Gen.W1 m ρ c (dk Cert.KernelIdeal.main_v1)) (hv3 : RV (dr Cert.ReferenceIdeal.main_v3) = Cert.KernelIdeal.Gen.W1 m ρ c (dk Cert.KernelIdeal.main_v3)) :
    StableHlo.after (Cert.ReferenceIdeal.ROps.s3 (F := Ideal)) (StableHlo.after (Cert.ReferenceIdeal.ROps.s2 (F := Ideal)) RV) (dr Cert.ReferenceIdeal.main_v78) = Cert.KernelIdeal.Gen.W5 m ρ c (dk Cert.KernelIdeal.main_v95) := by
  have h45' := h45
  have h39' := h39
  dsimp only [Cert.KernelIdeal.Gen.W3, Cert.KernelIdeal.Gen.hostOps1] at h45' h39'
  after_results_simp_at h45'
  after_results_simp_at h39'
  have k1 : Cert.KernelIdeal.Gen.W2 m ρ c (dk Cert.KernelIdeal.main_v1) = Cert.KernelIdeal.Gen.W1 m ρ c (dk Cert.KernelIdeal.main_v1) := Cert.KernelIdeal.Gen.W2_of_ne m ρ c Cert.KernelIdeal.main_v1 (by decide)
  have k3 : Cert.KernelIdeal.Gen.W2 m ρ c (dk Cert.KernelIdeal.main_v3) = Cert.KernelIdeal.Gen.W1 m ρ c (dk Cert.KernelIdeal.main_v3) := Cert.KernelIdeal.Gen.W2_of_ne m ρ c Cert.KernelIdeal.main_v3 (by decide)
  dsimp only [Cert.KernelIdeal.Gen.W5, Cert.KernelIdeal.Gen.W4, Cert.KernelIdeal.Gen.W3, Cert.KernelIdeal.Gen.hostOps1_2, Cert.KernelIdeal.Gen.hostOps1_1, Cert.KernelIdeal.Gen.hostOps1, Cert.ReferenceIdeal.ROps.s3, Cert.ReferenceIdeal.ROps.s2]
  after_results_simp
  rw [h45', h39', hv1, hv3, k1, k3]
  rfl

set_option maxHeartbeats 16000000 in
attribute [local irreducible] Host.reduce Host.gather Host.scatter Host.reduceAdd Host.scatterAdd in
theorem cpb_v85 (h45 : RV (dr Cert.ReferenceIdeal.main_v45) = Cert.KernelIdeal.Gen.W3 m ρ c (dk Cert.KernelIdeal.main_v60)) (h39 : RV (dr Cert.ReferenceIdeal.main_v39) = Cert.KernelIdeal.Gen.W3 m ρ c (dk Cert.KernelIdeal.main_v72))
    (hv1 : RV (dr Cert.ReferenceIdeal.main_v1) = Cert.KernelIdeal.Gen.W1 m ρ c (dk Cert.KernelIdeal.main_v1)) (hv3 : RV (dr Cert.ReferenceIdeal.main_v3) = Cert.KernelIdeal.Gen.W1 m ρ c (dk Cert.KernelIdeal.main_v3)) :
    StableHlo.after (Cert.ReferenceIdeal.ROps.s3 (F := Ideal)) (StableHlo.after (Cert.ReferenceIdeal.ROps.s2 (F := Ideal)) RV) (dr Cert.ReferenceIdeal.main_v85) = Cert.KernelIdeal.Gen.W5 m ρ c (dk Cert.KernelIdeal.main_v102) := by
  have h45' := h45
  have h39' := h39
  dsimp only [Cert.KernelIdeal.Gen.W3, Cert.KernelIdeal.Gen.hostOps1] at h45' h39'
  after_results_simp_at h45'
  after_results_simp_at h39'
  have k1 : Cert.KernelIdeal.Gen.W2 m ρ c (dk Cert.KernelIdeal.main_v1) = Cert.KernelIdeal.Gen.W1 m ρ c (dk Cert.KernelIdeal.main_v1) := Cert.KernelIdeal.Gen.W2_of_ne m ρ c Cert.KernelIdeal.main_v1 (by decide)
  have k3 : Cert.KernelIdeal.Gen.W2 m ρ c (dk Cert.KernelIdeal.main_v3) = Cert.KernelIdeal.Gen.W1 m ρ c (dk Cert.KernelIdeal.main_v3) := Cert.KernelIdeal.Gen.W2_of_ne m ρ c Cert.KernelIdeal.main_v3 (by decide)
  dsimp only [Cert.KernelIdeal.Gen.W5, Cert.KernelIdeal.Gen.W4, Cert.KernelIdeal.Gen.W3, Cert.KernelIdeal.Gen.hostOps1_2, Cert.KernelIdeal.Gen.hostOps1_1, Cert.KernelIdeal.Gen.hostOps1, Cert.ReferenceIdeal.ROps.s3, Cert.ReferenceIdeal.ROps.s2]
  after_results_simp
  rw [h45', h39', hv1, hv3, k1, k3]
  rfl

set_option maxHeartbeats 16000000 in
attribute [local irreducible] Host.reduce Host.gather Host.scatter Host.reduceAdd Host.scatterAdd in
theorem cpb_v92 (ha1 : RV (dr Cert.ReferenceIdeal.main_arg1) = m ((c : Thread Cert.KernelIdeal.nD Cert.KernelIdeal.τ).loc Cert.KernelIdeal.main_arg1)) (ha3 : RV (dr Cert.ReferenceIdeal.main_arg3) = m ((c : Thread Cert.KernelIdeal.nD Cert.KernelIdeal.τ).loc Cert.KernelIdeal.main_arg3)) :
    StableHlo.after (Cert.ReferenceIdeal.ROps.s3 (F := Ideal)) (StableHlo.after (Cert.ReferenceIdeal.ROps.s2 (F := Ideal)) RV) (dr Cert.ReferenceIdeal.main_v92) = Cert.KernelIdeal.Gen.W5 m ρ c (dk Cert.KernelIdeal.main_v109) := by
  have k13 : Cert.KernelIdeal.Gen.W2 m ρ c (dk Cert.KernelIdeal.main_v13) = Cert.KernelIdeal.Gen.W1 m ρ c (dk Cert.KernelIdeal.main_v13) := Cert.KernelIdeal.Gen.W2_of_ne m ρ c Cert.KernelIdeal.main_v13 (by decide)
  have ka3 : Cert.KernelIdeal.Gen.W2 m ρ c (dk Cert.KernelIdeal.main_arg3) = Cert.KernelIdeal.Gen.W1 m ρ c (dk Cert.KernelIdeal.main_arg3) := Cert.KernelIdeal.Gen.W2_of_ne m ρ c Cert.KernelIdeal.main_arg3 (by decide)
  dsimp only [Cert.KernelIdeal.Gen.W5, Cert.KernelIdeal.Gen.W4, Cert.KernelIdeal.Gen.W3, Cert.KernelIdeal.Gen.hostOps1_2, Cert.KernelIdeal.Gen.hostOps1_1, Cert.KernelIdeal.Gen.hostOps1, Cert.ReferenceIdeal.ROps.s3, Cert.ReferenceIdeal.ROps.s2]
  after_results_simp
  rw [k13, ka3]
  dsimp only [Cert.KernelIdeal.Gen.W1, Cert.KernelIdeal.Gen.W0, Cert.KernelIdeal.Gen.hostOps0]
  after_results_simp
  rw [ha1, ha3]
  rfl

/-- The three gathered operands of the second layer agree. -/
theorem cpb (h45 : RV (dr Cert.ReferenceIdeal.main_v45) = Cert.KernelIdeal.Gen.W3 m ρ c (dk Cert.KernelIdeal.main_v60)) (h39 : RV (dr Cert.ReferenceIdeal.main_v39) = Cert.KernelIdeal.Gen.W3 m ρ c (dk Cert.KernelIdeal.main_v72))
    (hv1 : RV (dr Cert.ReferenceIdeal.main_v1) = Cert.KernelIdeal.Gen.W1 m ρ c (dk Cert.KernelIdeal.main_v1)) (hv3 : RV (dr Cert.ReferenceIdeal.main_v3) = Cert.KernelIdeal.Gen.W1 m ρ c (dk Cert.KernelIdeal.main_v3)) (ha1 : RV (dr Cert.ReferenceIdeal.main_arg1) = m ((c : Thread Cert.KernelIdeal.nD Cert.KernelIdeal.τ).loc Cert.KernelIdeal.main_arg1)) (ha3 : RV (dr Cert.ReferenceIdeal.main_arg3) = m ((c : Thread Cert.KernelIdeal.nD Cert.KernelIdeal.τ).loc Cert.KernelIdeal.main_arg3)) :
    let RV' := StableHlo.after (Cert.ReferenceIdeal.ROps.s3 (F := Ideal)) (StableHlo.after (Cert.ReferenceIdeal.ROps.s2 (F := Ideal)) RV)
    RV' (dr Cert.ReferenceIdeal.main_v78) = Cert.KernelIdeal.Gen.W5 m ρ c (dk Cert.KernelIdeal.main_v95) ∧ RV' (dr Cert.ReferenceIdeal.main_v85) = Cert.KernelIdeal.Gen.W5 m ρ c (dk Cert.KernelIdeal.main_v102)
    ∧ RV' (dr Cert.ReferenceIdeal.main_v92) = Cert.KernelIdeal.Gen.W5 m ρ c (dk Cert.KernelIdeal.main_v109) :=
  ⟨cpb_v78 m ρ c RV h45 h39 hv1 hv3, cpb_v85 m ρ c RV h45 h39 hv1 hv3, cpb_v92 m ρ c RV ha1 ha3⟩

end Cert.Bridge.Chain
end
-- ==== Proof.ChainK.lean ====
import proofs.«161084_j22883585753704_2_alg».proof.Defs
import proofs.«161084_j22883585753704_2_alg».proof.Proof.Gen.KernelIdeal.Frame

set_option maxRecDepth 8192

noncomputable section
namespace Cert.Bridge.Chain
open Idealize.ShloMosaic Idealize.ShloMosaic.TcCoe Idealize.SL.Sem

set_option quotPrecheck false in
local notation "dk" b:max => (Proc.devRef Proc.tc b : DevRef Cert.KernelIdeal.τ Cert.KernelIdeal.sig)

variable (m : (ℓ : Loc Cert.KernelIdeal.nD Cert.KernelIdeal.τ Cert.KernelIdeal.sig) → Buf (Elt Ideal) ℓ) (ρ : Dev Cert.KernelIdeal.nD → PrngReg) (c : Dev Cert.KernelIdeal.nD)

/-! # Buffers of the kernel's program that later stretches read unchanged

The kernel's program writes the two edge lists, the scaled node features and the narrowed relation table once, in
its first stretch of host operations, and reads them again after each kernel region; the arguments are never
written. A stretch of host operations changes only the buffers its operations write, and a kernel region only its
own arrays. Listed here: the references each of the first four stretches writes, with the fact that every operation
writes inside its list; from these, a buffer outside a list is carried through the stretch, and the buffers the
later stretches need are walked back to where they were written (or to the launch memory). -/

/-- The references the first stretch of host operations writes. -/
abbrev writtenK0 : List (Ref Cert.KernelIdeal.sig .tc) := [Cert.KernelIdeal.main_v0, Cert.KernelIdeal.main_v1, Cert.KernelIdeal.main_v2, Cert.KernelIdeal.main_v3, Cert.KernelIdeal.main_v4, Cert.KernelIdeal.main_cst, Cert.KernelIdeal.main_v5, Cert.KernelIdeal.main_v6, Cert.KernelIdeal.main_v7, Cert.KernelIdeal.main_cst_0, Cert.KernelIdeal.main_v8, Cert.KernelIdeal.main_v9, Cert.KernelIdeal.main_v10, Cert.KernelIdeal.main_v11, Cert.KernelIdeal.main_v12, Cert.KernelIdeal.main_v13, Cert.KernelIdeal.main_c, Cert.KernelIdeal.main_v14, Cert.KernelIdeal.main_v15, Cert.KernelIdeal.main_c_1, Cert.KernelIdeal.main_v16, Cert.KernelIdeal.main_v17, Cert.KernelIdeal.main_v18, Cert.KernelIdeal.main_v19, Cert.KernelIdeal.main_v20, Cert.KernelIdeal.main_c_2, Cert.KernelIdeal.main_v21, Cert.KernelIdeal.main_v22, Cert.KernelIdeal.main_c_3, Cert.KernelIdeal.main_v23, Cert.KernelIdeal.main_v24, Cert.KernelIdeal.main_v25, Cert.KernelIdeal.main_v26, Cert.KernelIdeal.main_v27, Cert.KernelIdeal.main_c_4, Cert.KernelIdeal.main_v28, Cert.KernelIdeal.main_v29, Cert.KernelIdeal.main_c_5, Cert.KernelIdeal.main_v30, Cert.KernelIdeal.main_v31, Cert.KernelIdeal.main_v32, Cert.KernelIdeal.main_v33, Cert.KernelIdeal.main_v34, Cert.KernelIdeal.main_v35, Cert.KernelIdeal.main_v36, Cert.KernelIdeal.main_v37, Cert.KernelIdeal.main_v38, Cert.KernelIdeal.main_v39, Cert.KernelIdeal.main_v40, Cert.KernelIdeal.main_v41, Cert.KernelIdeal.main_v42, Cert.KernelIdeal.main_v43, Cert.KernelIdeal.main_v44, Cert.KernelIdeal.main_cst_6, Cert.KernelIdeal.main_v45, Cert.KernelIdeal.main_v46, Cert.KernelIdeal.main_v47, Cert.KernelIdeal.main_c_7, Cert.KernelIdeal.main_v48, Cert.KernelIdeal.main_c_8, Cert.KernelIdeal.main_v49, Cert.KernelIdeal.main_v50, Cert.KernelIdeal.main_v51, Cert.KernelIdeal.main_v52, Cert.KernelIdeal.main_v53, Cert.KernelIdeal.main_c_9, Cert.KernelIdeal.main_v54, Cert.KernelIdeal.main_c_10, Cert.KernelIdeal.main_v55, Cert.KernelIdeal.main_v56, Cert.KernelIdeal.main_v57, Cert.KernelIdeal.main_v58]

/-- The references the three stretches between the two regions write. -/
abbrev writtenK1 : List (Ref Cert.KernelIdeal.sig .tc) := [Cert.KernelIdeal.main_v60, Cert.KernelIdeal.main_cst_11, Cert.KernelIdeal.main_v61, Cert.KernelIdeal.main_v62, Cert.KernelIdeal.main_v63, Cert.KernelIdeal.main_c_12, Cert.KernelIdeal.main_v64, Cert.KernelIdeal.main_v65, Cert.KernelIdeal.main_c_13, Cert.KernelIdeal.main_v66, Cert.KernelIdeal.main_v67, Cert.KernelIdeal.main_v68, Cert.KernelIdeal.main_v69, Cert.KernelIdeal.main_v70, Cert.KernelIdeal.main_v71, Cert.KernelIdeal.main_v72, Cert.KernelIdeal.main_v73, Cert.KernelIdeal.main_v74, Cert.KernelIdeal.main_cst_14, Cert.KernelIdeal.main_v75, Cert.KernelIdeal.main_v76, Cert.KernelIdeal.main_v77, Cert.KernelIdeal.main_cst_15, Cert.KernelIdeal.main_call0_cst, Cert.KernelIdeal.main_call0_v0, Cert.KernelIdeal.main_call0_v1, Cert.KernelIdeal.main_call0_v2, Cert.KernelIdeal.main_call0_v3, Cert.KernelIdeal.main_call0_v4, Cert.KernelIdeal.main_v78, Cert.KernelIdeal.main_v79, Cert.KernelIdeal.main_cst_16, Cert.KernelIdeal.main_v80, Cert.KernelIdeal.main_v81, Cert.KernelIdeal.main_v82, Cert.KernelIdeal.main_cst_17, Cert.KernelIdeal.main_v83, Cert.KernelIdeal.main_v84, Cert.KernelIdeal.main_v85, Cert.KernelIdeal.main_v86, Cert.KernelIdeal.main_v87, Cert.KernelIdeal.main_v88, Cert.KernelIdeal.main_c_18, Cert.KernelIdeal.main_v89, Cert.KernelIdeal.main_v90, Cert.KernelIdeal.main_c_19, Cert.KernelIdeal.main_v91, Cert.KernelIdeal.main_v92, Cert.KernelIdeal.main_v93, Cert.KernelIdeal.main_v94, Cert.KernelIdeal.main_v95, Cert.KernelIdeal.main_c_20, Cert.KernelIdeal.main_v96, Cert.KernelIdeal.main_v97, Cert.KernelIdeal.main_c_21, Cert.KernelIdeal.main_v98, Cert.KernelIdeal.main_v99, Cert.KernelIdeal.main_v100, Cert.KernelIdeal.main_v101, Cert.KernelIdeal.main_v102, Cert.KernelIdeal.main_c_22, Cert.KernelIdeal.main_v103, Cert.KernelIdeal.main_v104, Cert.KernelIdeal.main_c_23, Cert.KernelIdeal.main_v105, Cert.KernelIdeal.main_v106, Cert.KernelIdeal.main_v107, Cert.KernelIdeal.main_v108, Cert.KernelIdeal.main_v109, Cert.KernelIdeal.main_v110, Cert.KernelIdeal.main_v111, Cert.KernelIdeal.main_v112, Cert.KernelIdeal.main_v113, Cert.KernelIdeal.main_v114, Cert.KernelIdeal.main_v115, Cert.KernelIdeal.main_v116, Cert.KernelIdeal.main_v117, Cert.KernelIdeal.main_v118, Cert.KernelIdeal.main_v119, Cert.KernelIdeal.main_cst_24, Cert.KernelIdeal.main_v120, Cert.KernelIdeal.main_v121, Cert.KernelIdeal.main_v122, Cert.KernelIdeal.main_c_25, Cert.KernelIdeal.main_v123, Cert.KernelIdeal.main_c_26, Cert.KernelIdeal.main_v124, Cert.KernelIdeal.main_v125, Cert.KernelIdeal.main_v126, Cert.KernelIdeal.main_v127, Cert.KernelIdeal.main_v128, Cert.KernelIdeal.main_c_27, Cert.KernelIdeal.main_v129, Cert.KernelIdeal.main_c_28, Cert.KernelIdeal.main_v130, Cert.KernelIdeal.main_v131, Cert.KernelIdeal.main_v132, Cert.KernelIdeal.main_v133]

set_option maxHeartbeats 8000000 in
theorem writesK0 : (Cert.KernelIdeal.Gen.hostOps0 (F := Ideal)).Forall fun op => op.writes ⊆ (writtenK0.map (Proc.devRef (τ := Cert.KernelIdeal.τ) .tc)).toFinset := by
  simp only [Cert.KernelIdeal.Gen.hostOps0, List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

set_option maxHeartbeats 8000000 in
theorem writesK1_0 : (Cert.KernelIdeal.Gen.hostOps1 (F := Ideal)).Forall fun op => op.writes ⊆ (writtenK1.map (Proc.devRef (τ := Cert.KernelIdeal.τ) .tc)).toFinset := by
  simp only [Cert.KernelIdeal.Gen.hostOps1, List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

set_option maxHeartbeats 8000000 in
theorem writesK1_1 : (Cert.KernelIdeal.Gen.hostOps1_1 (F := Ideal)).Forall fun op => op.writes ⊆ (writtenK1.map (Proc.devRef (τ := Cert.KernelIdeal.τ) .tc)).toFinset := by
  simp only [Cert.KernelIdeal.Gen.hostOps1_1, List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

set_option maxHeartbeats 8000000 in
theorem writesK1_2 : (Cert.KernelIdeal.Gen.hostOps1_2 (F := Ideal)).Forall fun op => op.writes ⊆ (writtenK1.map (Proc.devRef (τ := Cert.KernelIdeal.τ) .tc)).toFinset := by
  simp only [Cert.KernelIdeal.Gen.hostOps1_2, List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- A buffer the first stretch does not write holds its launch contents at the first region's entry. -/
theorem W1_keep (b : Ref Cert.KernelIdeal.sig .tc) (hb : b ∉ writtenK0) :
    Cert.KernelIdeal.Gen.W1 m ρ c (dk b) = m ((c : Thread Cert.KernelIdeal.nD Cert.KernelIdeal.τ).loc b) :=
  StableHlo.after_of_writes_sub _ _ writesK0 hb

/-- A buffer the stretches between the regions do not write holds at the second region's entry what it held at the
    first region's exit. -/
theorem W5_keep (b : Ref Cert.KernelIdeal.sig .tc) (hb : b ∉ writtenK1) :
    Cert.KernelIdeal.Gen.W5 m ρ c (dk b) = Cert.KernelIdeal.Gen.W2 m ρ c (dk b) :=
  (StableHlo.after_of_writes_sub _ _ writesK1_2 hb).trans
    ((StableHlo.after_of_writes_sub _ _ writesK1_1 hb).trans (StableHlo.after_of_writes_sub _ _ writesK1_0 hb))

/-- From the second region's exit back to the first region's entry. -/
theorem W6_main_v1 : Cert.KernelIdeal.Gen.W6 m ρ c (dk Cert.KernelIdeal.main_v1) = Cert.KernelIdeal.Gen.W1 m ρ c (dk Cert.KernelIdeal.main_v1) :=
  (Cert.KernelIdeal.Gen.W6_of_ne m ρ c Cert.KernelIdeal.main_v1 (by decide)).trans ((W5_keep m ρ c Cert.KernelIdeal.main_v1 (by decide)).trans (Cert.KernelIdeal.Gen.W2_of_ne m ρ c Cert.KernelIdeal.main_v1 (by decide)))

/-- From the second region's exit back to the first region's entry. -/
theorem W6_main_v3 : Cert.KernelIdeal.Gen.W6 m ρ c (dk Cert.KernelIdeal.main_v3) = Cert.KernelIdeal.Gen.W1 m ρ c (dk Cert.KernelIdeal.main_v3) :=
  (Cert.KernelIdeal.Gen.W6_of_ne m ρ c Cert.KernelIdeal.main_v3 (by decide)).trans ((W5_keep m ρ c Cert.KernelIdeal.main_v3 (by decide)).trans (Cert.KernelIdeal.Gen.W2_of_ne m ρ c Cert.KernelIdeal.main_v3 (by decide)))

/-- From the second region's exit back to the first region's entry. -/
theorem W6_main_v11 : Cert.KernelIdeal.Gen.W6 m ρ c (dk Cert.KernelIdeal.main_v11) = Cert.KernelIdeal.Gen.W1 m ρ c (dk Cert.KernelIdeal.main_v11) :=
  (Cert.KernelIdeal.Gen.W6_of_ne m ρ c Cert.KernelIdeal.main_v11 (by decide)).trans ((W5_keep m ρ c Cert.KernelIdeal.main_v11 (by decide)).trans (Cert.KernelIdeal.Gen.W2_of_ne m ρ c Cert.KernelIdeal.main_v11 (by decide)))

/-- An argument holds its launch contents at the second region's exit. -/
theorem W6_main_arg1 : Cert.KernelIdeal.Gen.W6 m ρ c (dk Cert.KernelIdeal.main_arg1) = m ((c : Thread Cert.KernelIdeal.nD Cert.KernelIdeal.τ).loc Cert.KernelIdeal.main_arg1) :=
  (Cert.KernelIdeal.Gen.W6_of_ne m ρ c Cert.KernelIdeal.main_arg1 (by decide)).trans ((W5_keep m ρ c Cert.KernelIdeal.main_arg1 (by decide)).trans
    ((Cert.KernelIdeal.Gen.W2_of_ne m ρ c Cert.KernelIdeal.main_arg1 (by decide)).trans (W1_keep m ρ c Cert.KernelIdeal.main_arg1 (by decide))))

/-- An argument holds its launch contents at the second region's exit. -/
theorem W6_main_arg10 : Cert.KernelIdeal.Gen.W6 m ρ c (dk Cert.KernelIdeal.main_arg10) = m ((c : Thread Cert.KernelIdeal.nD Cert.KernelIdeal.τ).loc Cert.KernelIdeal.main_arg10) :=
  (Cert.KernelIdeal.Gen.W6_of_ne m ρ c Cert.KernelIdeal.main_arg10 (by decide)).trans ((W5_keep m ρ c Cert.KernelIdeal.main_arg10 (by decide)).trans
    ((Cert.KernelIdeal.Gen.W2_of_ne m ρ c Cert.KernelIdeal.main_arg10 (by decide)).trans (W1_keep m ρ c Cert.KernelIdeal.main_arg10 (by decide))))

/-- An argument holds its launch contents at the second region's exit. -/
theorem W6_main_arg11 : Cert.KernelIdeal.Gen.W6 m ρ c (dk Cert.KernelIdeal.main_arg11) = m ((c : Thread Cert.KernelIdeal.nD Cert.KernelIdeal.τ).loc Cert.KernelIdeal.main_arg11) :=
  (Cert.KernelIdeal.Gen.W6_of_ne m ρ c Cert.KernelIdeal.main_arg11 (by decide)).trans ((W5_keep m ρ c Cert.KernelIdeal.main_arg11 (by decide)).trans
    ((Cert.KernelIdeal.Gen.W2_of_ne m ρ c Cert.KernelIdeal.main_arg11 (by decide)).trans (W1_keep m ρ c Cert.KernelIdeal.main_arg11 (by decide))))

/-- An argument holds its launch contents at the second region's exit. -/
theorem W6_main_arg12 : Cert.KernelIdeal.Gen.W6 m ρ c (dk Cert.KernelIdeal.main_arg12) = m ((c : Thread Cert.KernelIdeal.nD Cert.KernelIdeal.τ).loc Cert.KernelIdeal.main_arg12) :=
  (Cert.KernelIdeal.Gen.W6_of_ne m ρ c Cert.KernelIdeal.main_arg12 (by decide)).trans ((W5_keep m ρ c Cert.KernelIdeal.main_arg12 (by decide)).trans
    ((Cert.KernelIdeal.Gen.W2_of_ne m ρ c Cert.KernelIdeal.main_arg12 (by decide)).trans (W1_keep m ρ c Cert.KernelIdeal.main_arg12 (by decide))))

/-- An argument holds its launch contents at the second region's exit. -/
theorem W6_main_arg13 : Cert.KernelIdeal.Gen.W6 m ρ c (dk Cert.KernelIdeal.main_arg13) = m ((c : Thread Cert.KernelIdeal.nD Cert.KernelIdeal.τ).loc Cert.KernelIdeal.main_arg13) :=
  (Cert.KernelIdeal.Gen.W6_of_ne m ρ c Cert.KernelIdeal.main_arg13 (by decide)).trans ((W5_keep m ρ c Cert.KernelIdeal.main_arg13 (by decide)).trans
    ((Cert.KernelIdeal.Gen.W2_of_ne m ρ c Cert.KernelIdeal.main_arg13 (by decide)).trans (W1_keep m ρ c Cert.KernelIdeal.main_arg13 (by decide))))

end Cert.Bridge.Chain
end
-- ==== Proof.ChainC.lean ====
import proofs.«161084_j22883585753704_2_alg».proof.Defs
import proofs.«161084_j22883585753704_2_alg».proof.Proof.Gen.KernelIdeal.Frame
import proofs.«161084_j22883585753704_2_alg».proof.Proof.ROps
import proofs.«161084_j22883585753704_2_alg».proof.Proof.ChainK

set_option maxRecDepth 8192

noncomputable section
namespace Cert.Bridge.Chain
open Idealize.ShloMosaic Idealize.ShloMosaic.TcCoe Idealize.SL.Sem

set_option quotPrecheck false in
local notation "dk" b:max => (Proc.devRef Proc.tc b : DevRef Cert.KernelIdeal.τ Cert.KernelIdeal.sig)
set_option quotPrecheck false in
local notation "dr" b:max => (Proc.devRef Proc.tc b : DevRef Cert.ReferenceIdeal.τ Cert.ReferenceIdeal.sig)

variable (m : (ℓ : Loc Cert.KernelIdeal.nD Cert.KernelIdeal.τ Cert.KernelIdeal.sig) → Buf (Elt Ideal) ℓ) (ρ : Dev Cert.KernelIdeal.nD → PrngReg) (c : Dev Cert.KernelIdeal.nD)
  (RV : Valuation Cert.ReferenceIdeal.τ Cert.ReferenceIdeal.sig (Elt Ideal))

local macro "after_results_simp_at " h:ident : tactic =>
  `(tactic| simp (disch := decide) only [StableHlo.after_cons, StableHlo.after_nil,
      StableHlo.nullary_result', StableHlo.unary_result', StableHlo.binary_result', StableHlo.ternary_result', StableHlo.quaternary_result', StableHlo.reshape_result',
      StableHlo.nullary_result_ne', StableHlo.unary_result_ne', StableHlo.binary_result_ne', StableHlo.ternary_result_ne', StableHlo.quaternary_result_ne', StableHlo.reshape_result_ne'] at $h:ident)

/-! # The shared host operations after the second kernel region

After the second region both programs repeat the normalisation over source nodes, the aggregation into destination
nodes, the leaky rectifier and the unit-length scaling at the second layer's width; add to it the entity map (the
scaled node features times a transposed weight matrix, plus a bias row, repeated over the heads), scale again to unit
length and average over the two heads; and compute the relation map (the relation table times a transposed weight
matrix, plus a bias row). The kernel's program again writes the region's two outputs through one layout operation
each before using them. Both sides are read down to the region's outputs, the edge lists, the scaled node features
and the arguments — the kernel's side through the second region and the stretches before it, none of which writes
those buffers — and are the same operations of the same operands. -/

set_option maxHeartbeats 16000000 in
attribute [local irreducible] Host.reduce Host.gather Host.scatter Host.reduceAdd Host.scatterAdd in
theorem cpc_v154 (h105 : RV (dr Cert.ReferenceIdeal.main_v105) = Cert.KernelIdeal.Gen.W7 m ρ c (dk Cert.KernelIdeal.main_v135)) (h99 : RV (dr Cert.ReferenceIdeal.main_v99) = Cert.KernelIdeal.Gen.W7 m ρ c (dk Cert.KernelIdeal.main_v147))
    (hv1 : RV (dr Cert.ReferenceIdeal.main_v1) = Cert.KernelIdeal.Gen.W1 m ρ c (dk Cert.KernelIdeal.main_v1)) (hv3 : RV (dr Cert.ReferenceIdeal.main_v3) = Cert.KernelIdeal.Gen.W1 m ρ c (dk Cert.KernelIdeal.main_v3)) (hv11 : RV (dr Cert.ReferenceIdeal.main_v11) = Cert.KernelIdeal.Gen.W1 m ρ c (dk Cert.KernelIdeal.main_v11))
    (ha10 : RV (dr Cert.ReferenceIdeal.main_arg10) = m ((c : Thread Cert.KernelIdeal.nD Cert.KernelIdeal.τ).loc Cert.KernelIdeal.main_arg10)) (ha11 : RV (dr Cert.ReferenceIdeal.main_arg11) = m ((c : Thread Cert.KernelIdeal.nD Cert.KernelIdeal.τ).loc Cert.KernelIdeal.main_arg11)) :
    StableHlo.after (Cert.ReferenceIdeal.ROps.s5 (F := Ideal)) RV (dr Cert.ReferenceIdeal.main_v154) = Cert.KernelIdeal.Gen.W9 m ρ c (dk Cert.KernelIdeal.main_v185) := by
  have h105' := h105
  have h99' := h99
  dsimp only [Cert.KernelIdeal.Gen.W7, Cert.KernelIdeal.Gen.hostOps2] at h105' h99'
  after_results_simp_at h105'
  after_results_simp_at h99'
  dsimp only [Cert.KernelIdeal.Gen.W9, Cert.KernelIdeal.Gen.W8, Cert.KernelIdeal.Gen.W7, Cert.KernelIdeal.Gen.hostOps2_2, Cert.KernelIdeal.Gen.hostOps2_1, Cert.KernelIdeal.Gen.hostOps2, Cert.ReferenceIdeal.ROps.s5]
  after_results_simp
  rw [h105', h99', hv1, hv3, hv11, ha10, ha11, W6_main_v1 m ρ c, W6_main_v3 m ρ c, W6_main_v11 m ρ c, W6_main_arg10 m ρ c, W6_main_arg11 m ρ c]
  rfl

set_option maxHeartbeats 16000000 in
attribute [local irreducible] Host.reduce Host.gather Host.scatter Host.reduceAdd Host.scatterAdd in
theorem cpc_v143 (ha1 : RV (dr Cert.ReferenceIdeal.main_arg1) = m ((c : Thread Cert.KernelIdeal.nD Cert.KernelIdeal.τ).loc Cert.KernelIdeal.main_arg1)) (ha12 : RV (dr Cert.ReferenceIdeal.main_arg12) = m ((c : Thread Cert.KernelIdeal.nD Cert.KernelIdeal.τ).loc Cert.KernelIdeal.main_arg12)) (ha13 : RV (dr Cert.ReferenceIdeal.main_arg13) = m ((c : Thread Cert.KernelIdeal.nD Cert.KernelIdeal.τ).loc Cert.KernelIdeal.main_arg13)) :
    StableHlo.after (Cert.ReferenceIdeal.ROps.s5 (F := Ideal)) RV (dr Cert.ReferenceIdeal.main_v143) = Cert.KernelIdeal.Gen.W9 m ρ c (dk Cert.KernelIdeal.main_v174) := by
  dsimp only [Cert.KernelIdeal.Gen.W9, Cert.KernelIdeal.Gen.W8, Cert.KernelIdeal.Gen.W7, Cert.KernelIdeal.Gen.hostOps2_2, Cert.KernelIdeal.Gen.hostOps2_1, Cert.KernelIdeal.Gen.hostOps2, Cert.ReferenceIdeal.ROps.s5]
  after_results_simp
  rw [ha1, ha12, ha13, W6_main_arg1 m ρ c, W6_main_arg12 m ρ c, W6_main_arg13 m ρ c]
  rfl

/-- The two results agree: the averaged entity features and the relation map. -/
theorem cpc (h105 : RV (dr Cert.ReferenceIdeal.main_v105) = Cert.KernelIdeal.Gen.W7 m ρ c (dk Cert.KernelIdeal.main_v135)) (h99 : RV (dr Cert.ReferenceIdeal.main_v99) = Cert.KernelIdeal.Gen.W7 m ρ c (dk Cert.KernelIdeal.main_v147))
    (hv1 : RV (dr Cert.ReferenceIdeal.main_v1) = Cert.KernelIdeal.Gen.W1 m ρ c (dk Cert.KernelIdeal.main_v1)) (hv3 : RV (dr Cert.ReferenceIdeal.main_v3) = Cert.KernelIdeal.Gen.W1 m ρ c (dk Cert.KernelIdeal.main_v3)) (hv11 : RV (dr Cert.ReferenceIdeal.main_v11) = Cert.KernelIdeal.Gen.W1 m ρ c (dk Cert.KernelIdeal.main_v11))
    (ha1 : RV (dr Cert.ReferenceIdeal.main_arg1) = m ((c : Thread Cert.KernelIdeal.nD Cert.KernelIdeal.τ).loc Cert.KernelIdeal.main_arg1)) (ha10 : RV (dr Cert.ReferenceIdeal.main_arg10) = m ((c : Thread Cert.KernelIdeal.nD Cert.KernelIdeal.τ).loc Cert.KernelIdeal.main_arg10)) (ha11 : RV (dr Cert.ReferenceIdeal.main_arg11) = m ((c : Thread Cert.KernelIdeal.nD Cert.KernelIdeal.τ).loc Cert.KernelIdeal.main_arg11)) (ha12 : RV (dr Cert.ReferenceIdeal.main_arg12) = m ((c : Thread Cert.KernelIdeal.nD Cert.KernelIdeal.τ).loc Cert.KernelIdeal.main_arg12)) (ha13 : RV (dr Cert.ReferenceIdeal.main_arg13) = m ((c : Thread Cert.KernelIdeal.nD Cert.KernelIdeal.τ).loc Cert.KernelIdeal.main_arg13)) :
    StableHlo.after (Cert.ReferenceIdeal.ROps.s5 (F := Ideal)) RV (dr Cert.ReferenceIdeal.main_v154) = Cert.KernelIdeal.Gen.W9 m ρ c (dk Cert.KernelIdeal.main_v185)
    ∧ StableHlo.after (Cert.ReferenceIdeal.ROps.s5 (F := Ideal)) RV (dr Cert.ReferenceIdeal.main_v143) = Cert.KernelIdeal.Gen.W9 m ρ c (dk Cert.KernelIdeal.main_v174) :=
  ⟨cpc_v154 m ρ c RV h105 h99 hv1 hv3 hv11 ha10 ha11, cpc_v143 m ρ c RV ha1 ha12 ha13⟩

end Cert.Bridge.Chain
end
-- ==== Proof.ChainKeep.lean ====
/-
  The reference's carried buffers. Each stretch of the reference's host operations writes only its own result
  buffers; the arguments, the two edge lists and the scaled node features are not among them, so a stretch leaves
  their contents as it found them. For each stretch: the list of the references its operations write, the fact that
  every operation writes inside that list, and the carried references' absence from it, decided over references.
-/
import proofs.«161084_j22883585753704_2_alg».proof.Proof.BridgeDefs
import proofs.«161084_j22883585753704_2_alg».proof.Proof.ROps

set_option maxRecDepth 8192

noncomputable section
namespace Cert.Bridge.Chain
open Idealize.ShloMosaic Idealize.ShloMosaic.TcCoe Idealize.SL.Sem
open Cert.Bridge

/-- The references stretch 0 of the reference writes. -/
abbrev written0 : List (Ref Cert.ReferenceIdeal.sig .tc) := [Cert.ReferenceIdeal.main_v0, Cert.ReferenceIdeal.main_v1, Cert.ReferenceIdeal.main_v2, Cert.ReferenceIdeal.main_v3, Cert.ReferenceIdeal.main_v4, Cert.ReferenceIdeal.main_cst, Cert.ReferenceIdeal.main_v5, Cert.ReferenceIdeal.main_v6, Cert.ReferenceIdeal.main_v7, Cert.ReferenceIdeal.main_cst_0, Cert.ReferenceIdeal.main_v8, Cert.ReferenceIdeal.main_v9, Cert.ReferenceIdeal.main_v10, Cert.ReferenceIdeal.main_v11, Cert.ReferenceIdeal.main_c, Cert.ReferenceIdeal.main_v12, Cert.ReferenceIdeal.main_v13, Cert.ReferenceIdeal.main_c_1, Cert.ReferenceIdeal.main_v14, Cert.ReferenceIdeal.main_v15, Cert.ReferenceIdeal.main_v16, Cert.ReferenceIdeal.main_v17, Cert.ReferenceIdeal.main_v18, Cert.ReferenceIdeal.main_c_2, Cert.ReferenceIdeal.main_v19, Cert.ReferenceIdeal.main_v20, Cert.ReferenceIdeal.main_c_3, Cert.ReferenceIdeal.main_v21, Cert.ReferenceIdeal.main_v22, Cert.ReferenceIdeal.main_v23, Cert.ReferenceIdeal.main_v24, Cert.ReferenceIdeal.main_v25, Cert.ReferenceIdeal.main_c_4, Cert.ReferenceIdeal.main_v26, Cert.ReferenceIdeal.main_v27, Cert.ReferenceIdeal.main_c_5, Cert.ReferenceIdeal.main_v28, Cert.ReferenceIdeal.main_v29, Cert.ReferenceIdeal.main_v30, Cert.ReferenceIdeal.main_v31, Cert.ReferenceIdeal.main_v32]

set_option maxHeartbeats 4000000 in
theorem writes0 : (Cert.ReferenceIdeal.ROps.s0 (F := Ideal)).Forall fun op => op.writes ⊆ (written0.map (Proc.devRef (τ := Cert.ReferenceIdeal.τ) .tc)).toFinset := by
  simp only [Cert.ReferenceIdeal.ROps.s0, List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- Stretch 0 leaves every carried buffer as it found it. -/
theorem keep0 (V : RVal) (b : Ref Cert.ReferenceIdeal.sig .tc) (hb : b ∈ LA) :
    StableHlo.after (Cert.ReferenceIdeal.ROps.s0 (F := Ideal)) V (dr b) = V (dr b) :=
  StableHlo.after_of_writes_sub _ V writes0 ((by decide : ∀ b ∈ LA, b ∉ written0) b hb)

/-- The references stretch 1 of the reference writes. -/
abbrev written1 : List (Ref Cert.ReferenceIdeal.sig .tc) := [Cert.ReferenceIdeal.main_v33, Cert.ReferenceIdeal.main_v34, Cert.ReferenceIdeal.main_v35, Cert.ReferenceIdeal.main_v36, Cert.ReferenceIdeal.main_v37, Cert.ReferenceIdeal.main_v38, Cert.ReferenceIdeal.main_v39, Cert.ReferenceIdeal.main_v40, Cert.ReferenceIdeal.main_v41, Cert.ReferenceIdeal.main_cst_6, Cert.ReferenceIdeal.main_v42, Cert.ReferenceIdeal.main_v43, Cert.ReferenceIdeal.main_cst_7, Cert.ReferenceIdeal.main_call0_cst, Cert.ReferenceIdeal.main_call0_v0, Cert.ReferenceIdeal.main_call0_v1, Cert.ReferenceIdeal.main_call0_v2, Cert.ReferenceIdeal.main_call0_v3, Cert.ReferenceIdeal.main_call0_v4, Cert.ReferenceIdeal.main_v44, Cert.ReferenceIdeal.main_v45]

set_option maxHeartbeats 4000000 in
theorem writes1 : (Cert.ReferenceIdeal.ROps.s1 (F := Ideal)).Forall fun op => op.writes ⊆ (written1.map (Proc.devRef (τ := Cert.ReferenceIdeal.τ) .tc)).toFinset := by
  simp only [Cert.ReferenceIdeal.ROps.s1, List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- Stretch 1 leaves every carried buffer as it found it. -/
theorem keep1 (V : RVal) (b : Ref Cert.ReferenceIdeal.sig .tc) (hb : b ∈ LC) :
    StableHlo.after (Cert.ReferenceIdeal.ROps.s1 (F := Ideal)) V (dr b) = V (dr b) :=
  StableHlo.after_of_writes_sub _ V writes1 ((by decide : ∀ b ∈ LC, b ∉ written1) b hb)

/-- The references stretch 2 of the reference writes. -/
abbrev written2 : List (Ref Cert.ReferenceIdeal.sig .tc) := [Cert.ReferenceIdeal.main_cst_8, Cert.ReferenceIdeal.main_v46, Cert.ReferenceIdeal.main_v47, Cert.ReferenceIdeal.main_v48, Cert.ReferenceIdeal.main_c_9, Cert.ReferenceIdeal.main_v49, Cert.ReferenceIdeal.main_v50, Cert.ReferenceIdeal.main_c_10, Cert.ReferenceIdeal.main_v51, Cert.ReferenceIdeal.main_v52, Cert.ReferenceIdeal.main_v53, Cert.ReferenceIdeal.main_v54, Cert.ReferenceIdeal.main_v55, Cert.ReferenceIdeal.main_v56, Cert.ReferenceIdeal.main_v57, Cert.ReferenceIdeal.main_v58, Cert.ReferenceIdeal.main_cst_11, Cert.ReferenceIdeal.main_v59, Cert.ReferenceIdeal.main_v60, Cert.ReferenceIdeal.main_v61, Cert.ReferenceIdeal.main_cst_12, Cert.ReferenceIdeal.main_call1_cst, Cert.ReferenceIdeal.main_call1_v0, Cert.ReferenceIdeal.main_call1_v1, Cert.ReferenceIdeal.main_call1_v2, Cert.ReferenceIdeal.main_call1_v3, Cert.ReferenceIdeal.main_call1_v4, Cert.ReferenceIdeal.main_v62, Cert.ReferenceIdeal.main_v63, Cert.ReferenceIdeal.main_cst_13, Cert.ReferenceIdeal.main_v64, Cert.ReferenceIdeal.main_v65, Cert.ReferenceIdeal.main_v66, Cert.ReferenceIdeal.main_cst_14, Cert.ReferenceIdeal.main_v67, Cert.ReferenceIdeal.main_v68, Cert.ReferenceIdeal.main_v69, Cert.ReferenceIdeal.main_v70, Cert.ReferenceIdeal.main_v71]

set_option maxHeartbeats 4000000 in
theorem writes2 : (Cert.ReferenceIdeal.ROps.s2 (F := Ideal)).Forall fun op => op.writes ⊆ (written2.map (Proc.devRef (τ := Cert.ReferenceIdeal.τ) .tc)).toFinset := by
  simp only [Cert.ReferenceIdeal.ROps.s2, List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- Stretch 2 leaves every carried buffer as it found it. -/
theorem keep2 (V : RVal) (b : Ref Cert.ReferenceIdeal.sig .tc) (hb : b ∈ LC) :
    StableHlo.after (Cert.ReferenceIdeal.ROps.s2 (F := Ideal)) V (dr b) = V (dr b) :=
  StableHlo.after_of_writes_sub _ V writes2 ((by decide : ∀ b ∈ LC, b ∉ written2) b hb)

/-- The references stretch 3 of the reference writes. -/
abbrev written3 : List (Ref Cert.ReferenceIdeal.sig .tc) := [Cert.ReferenceIdeal.main_c_15, Cert.ReferenceIdeal.main_v72, Cert.ReferenceIdeal.main_v73, Cert.ReferenceIdeal.main_c_16, Cert.ReferenceIdeal.main_v74, Cert.ReferenceIdeal.main_v75, Cert.ReferenceIdeal.main_v76, Cert.ReferenceIdeal.main_v77, Cert.ReferenceIdeal.main_v78, Cert.ReferenceIdeal.main_c_17, Cert.ReferenceIdeal.main_v79, Cert.ReferenceIdeal.main_v80, Cert.ReferenceIdeal.main_c_18, Cert.ReferenceIdeal.main_v81, Cert.ReferenceIdeal.main_v82, Cert.ReferenceIdeal.main_v83, Cert.ReferenceIdeal.main_v84, Cert.ReferenceIdeal.main_v85, Cert.ReferenceIdeal.main_c_19, Cert.ReferenceIdeal.main_v86, Cert.ReferenceIdeal.main_v87, Cert.ReferenceIdeal.main_c_20, Cert.ReferenceIdeal.main_v88, Cert.ReferenceIdeal.main_v89, Cert.ReferenceIdeal.main_v90, Cert.ReferenceIdeal.main_v91, Cert.ReferenceIdeal.main_v92]

set_option maxHeartbeats 4000000 in
theorem writes3 : (Cert.ReferenceIdeal.ROps.s3 (F := Ideal)).Forall fun op => op.writes ⊆ (written3.map (Proc.devRef (τ := Cert.ReferenceIdeal.τ) .tc)).toFinset := by
  simp only [Cert.ReferenceIdeal.ROps.s3, List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- Stretch 3 leaves every carried buffer as it found it. -/
theorem keep3 (V : RVal) (b : Ref Cert.ReferenceIdeal.sig .tc) (hb : b ∈ LC) :
    StableHlo.after (Cert.ReferenceIdeal.ROps.s3 (F := Ideal)) V (dr b) = V (dr b) :=
  StableHlo.after_of_writes_sub _ V writes3 ((by decide : ∀ b ∈ LC, b ∉ written3) b hb)

/-- The references stretch 4 of the reference writes. -/
abbrev written4 : List (Ref Cert.ReferenceIdeal.sig .tc) := [Cert.ReferenceIdeal.main_v93, Cert.ReferenceIdeal.main_v94, Cert.ReferenceIdeal.main_v95, Cert.ReferenceIdeal.main_v96, Cert.ReferenceIdeal.main_v97, Cert.ReferenceIdeal.main_v98, Cert.ReferenceIdeal.main_v99, Cert.ReferenceIdeal.main_v100, Cert.ReferenceIdeal.main_v101, Cert.ReferenceIdeal.main_cst_21, Cert.ReferenceIdeal.main_v102, Cert.ReferenceIdeal.main_v103, Cert.ReferenceIdeal.main_cst_22, Cert.ReferenceIdeal.main_call2_cst, Cert.ReferenceIdeal.main_call2_v0, Cert.ReferenceIdeal.main_call2_v1, Cert.ReferenceIdeal.main_call2_v2, Cert.ReferenceIdeal.main_call2_v3, Cert.ReferenceIdeal.main_call2_v4, Cert.ReferenceIdeal.main_v104, Cert.ReferenceIdeal.main_v105]

set_option maxHeartbeats 4000000 in
theorem writes4 : (Cert.ReferenceIdeal.ROps.s4 (F := Ideal)).Forall fun op => op.writes ⊆ (written4.map (Proc.devRef (τ := Cert.ReferenceIdeal.τ) .tc)).toFinset := by
  simp only [Cert.ReferenceIdeal.ROps.s4, List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- Stretch 4 leaves every carried buffer as it found it. -/
theorem keep4 (V : RVal) (b : Ref Cert.ReferenceIdeal.sig .tc) (hb : b ∈ LC) :
    StableHlo.after (Cert.ReferenceIdeal.ROps.s4 (F := Ideal)) V (dr b) = V (dr b) :=
  StableHlo.after_of_writes_sub _ V writes4 ((by decide : ∀ b ∈ LC, b ∉ written4) b hb)

end Cert.Bridge.Chain
end
-- ==== Proof.LibPlainDot.lean ====
/-
  A plain matrix product read at an index, over the extended reals.

  For the dimension numbers of an M×K by K×N product (contract the left operand's second axis with the
  right operand's first; no batch axes) the entry (i, j) of the product is the sum over k of
  lhs (i, k) · rhs (k, j): stated once for a `tpu.matmul` accumulating into the zero splat and once for
  the host's `dot_general`, for any extents M, K, N. The contraction index of such a product has one
  axis of extent K, and the sum over it is re-indexed by that coordinate.
-/
import Idealize.ShloMosaic.Lib.ValueIdx
import Idealize.ShloMosaic.PureOps.Ideal.Laws

noncomputable section

open scoped BigOperators

namespace Idealize.ShloMosaic.PlainDot

open Idealize.ShloMosaic Idealize.ShloMosaic.ValueIdx

variable {M K N : Nat}

/-- The left operand's row coordinate is the result's row coordinate. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (j : (⟨2, ![M, N]⟩ : Shape).Idx) (q : (DotDims.plain M K N).contr.Idx) :
    ((DotDims.plain M K N).lhsIdx j q 1).val = (q ⟨0, show 0 < (DotDims.plain M K N).contr.rank from Nat.one_pos⟩).val :=
  (DotDims.plain M K N).lhsIdx_val_of_single rfl j q

/-- The right operand's row coordinate is the contraction coordinate. -/
theorem rhs_row (j : (⟨2, ![M, N]⟩ : Shape).Idx) (q : (DotDims.plain M K N).contr.Idx) :
    ((DotDims.plain M K N).rhsIdx j q 0).val = (q ⟨0, show 0 < (DotDims.plain M K N).contr.rank from Nat.one_pos⟩).val :=
  (DotDims.plain M K N).rhsIdx_val_of_single rfl j q

/-- The right operand's column coordinate is the result's column coordinate. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the contraction index of a plain product is the sum over k of lhs (i, k) · rhs (k, j). -/
theorem sum_contr (lhs : (⟨2, ![M, K]⟩ : Shape).Idx → EReal) (rhs : (⟨2, ![K, N]⟩ : Shape).Idx → EReal)
    (i : Fin M) (j : Fin N) :
    (∑ q : (DotDims.plain M K N).contr.Idx,
        lhs ((DotDims.plain M K N).lhsIdx (ix2 i j) q) * rhs ((DotDims.plain M K N).rhsIdx (ix2 i j) q))
      = ∑ k : Fin K, lhs (ix2 i k) * rhs (ix2 k j) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => exact lhs_row _ _
      | ⟨1, _⟩ => exact (lhs_col _ _).trans hk)
  have er : (DotDims.plain M K N).rhsIdx (ix2 i j) ((contrEquiv1 (DotDims.plain M K N) K rfl rfl).symm k) = ix2 k j :=
    funext fun a => Fin.ext (by
      match a with
      | ⟨0, _⟩ => exact (rhs_row _ _).trans hk
      | ⟨1, _⟩ => exact rhs_col _ _)
  rw [el, er]

/-- A `tpu.matmul` of plain dimension numbers into the zero splat, at (i, j): the sum over k of the products. -/
theorem matmul_zero_apply {φ₁ φ₂ : FTy} (prec : Option ContractPrecision)
    (lhs : FVec Ideal ⟨2, ![M, K]⟩ φ₁) (rhs : FVec Ideal ⟨2, ![K, N]⟩ φ₂) (i : Fin M) (j : Fin N) :
    FloatOps.matmul (DotDims.plain M K N) prec lhs rhs (constant ⟨2, ![M, N]⟩ .f32 0x00000000#32) (ix2 i j)
      = ∑ k : Fin K, lhs (ix2 i k) * rhs (ix2 k j) :=
  (Ideal.matmul_constant_zero_apply (DotDims.plain M K N) prec lhs rhs (ix2 i j)).trans (sum_contr lhs rhs i j)

/-- The host's `dot_general` of plain dimension numbers, at (i, j): the same sum. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (i : Fin M) (j : Fin N) :
    FloatOps.dotGeneral (DotDims.plain M K N) prec sched lhs rhs (ix2 i j)
      = ∑ k : Fin K, lhs (ix2 i k) * rhs (ix2 k j) :=
  (Ideal.dotGeneral_apply (DotDims.plain M K N) prec sched lhs rhs (ix2 i j)).trans (sum_contr lhs rhs i j)

end Idealize.ShloMosaic.PlainDot

end
-- ==== Proof.LibRowSpread.lean ====
/-
  A one-row matrix spread over many rows, and a scalar spread over an array, read at an index.

  A 1 × b matrix broadcast to a × b reads its entry (0, q) at every (p, q), whether the broadcast is the vector
  one or the host's broadcast in dimensions [0, 1]; a rank-0 array broadcast in no dimensions reads its one entry
  everywhere.
-/
import Idealize.ShloMosaic.Lib.Pipeline.Value
import Idealize.ShloMosaic.Lib.ValueIdx

noncomputable section

namespace Idealize.ShloMosaic.RowSpread

open Idealize.ShloMosaic Idealize.ShloMosaic.ValueIdx

variable {a b : Nat} {α : Type}

/-- A row spread over a rows by the vector broadcast reads its entry (0, q) at every (p, q). -/
theorem rowBcast_apply (v : (⟨2, ![1, b]⟩ : Shape).Idx → α) (h : (⟨2, ![1, b]⟩ : Shape).Broadcasts ⟨2, ![a, b]⟩)
    (p : Fin a) (q : Fin b) : broadcastTo ⟨2, ![a, b]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if b = 1 then 0 else q.val
    split
    · have := q.isLt; omega
    · rfl

/-- The host's spread of a row over a rows reads its entry (0, q) at every (p, q). -/
theorem rowInDim2_apply (w : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h w (ix2 p q) = w (ix2 (0 : Fin 1) q) := by
  refine broadcastInDim_apply ![0, 1] h w (ix2 p q) (ix2 (0 : Fin 1) q) fun ax => ?_
  match ax with
  | ⟨0, _⟩ => rfl
  | ⟨1, _⟩ =>
    show q.val = if b = 1 then 0 else q.val
    split
    · have := q.isLt; omega
    · rfl

/-- The host's spread of a scalar reads its one entry everywhere. -/
theorem scalarInDim_apply {s : Shape} (v : (⟨0, ![]⟩ : Shape).Idx → α)
    (h : (⟨0, ![]⟩ : Shape).BroadcastsInDim s ![]) (i : s.Idx) :
    broadcastInDim s ![] h v i = v ix0 :=
  broadcastInDim_apply ![] h v i ix0 fun ax => ax.elim0

end Idealize.ShloMosaic.RowSpread

end
-- ==== Proof.Layer1Body.lean ====
/-
  The first layer's region body, read entry by entry.

  The body forms, for a tile of 10000 edges, the projection
    c (p, q) = ((Σ_k a (p, k) · wa (k, q) + Σ_k b (p, k) · wb (k, q)) + Σ_k g (p, k) · wg (k, q)) + bias (0, q)
  of the three gathered row blocks a, b, g by the three weight blocks, and from it the attention
  weights  ev (p, h) = exp (leaky (Σ_j c (p, j) · M (j, h))).  Each matrix product accumulates into
  zeros, so its entry is the plain sum over the contracted position; the casts to an equal shape
  are identities; the bias row is spread over the rows.
-/
import proofs.«161084_j22883585753704_2_alg».proof.Proof.Gen.KernelIdeal.Skeleton
import proofs.«161084_j22883585753704_2_alg».proof.Proof.LibPlainDot
import proofs.«161084_j22883585753704_2_alg».proof.Proof.LibRowSpread

noncomputable section

open scoped BigOperators

namespace Cert.Bridge.Layer1

open Idealize.ShloMosaic Idealize.ShloMosaic.ValueIdx
open Cert.KernelIdeal

/-- The leaky rectifier followed by the exponential, as one function of the logit: the logit itself
    where it is at least zero, a fixed small multiple of it elsewhere, then e to that power. -/
def act (x : EReal) : EReal :=
  FloatOps.exp (F := Ideal) (φ := .f32)
    (Scalar.select (FloatOps.cmpf (F := Ideal) (φ := .f32) .oge x (Scalar.ofBits (F := Ideal) .f32 0x00000000#32)) x
      ((Scalar.ofBits (F := Ideal) .f32 0x3C23D70A#32 : EReal) * x))

theorem dotA_eq : dot_S10000x100_S100x200_S10000x200_1_0_0_1_n_n = DotDims.plain 10000 100 200 := rfl

theorem dotB_eq : dot_S10000x200_S200x2_S10000x2_1_0_0_1_n_n = DotDims.plain 10000 200 2 := rfl

/-- The projection block at (p, q). -/
theorem pay1_apply (a wa b wb g wg : _) (bias : Vec Ideal S1x200 .f32) (p : Fin 10000) (q : Fin 200) :
    Gen.k0_pay1 (F := Ideal) a wa b wb g wg bias (ix2 p q)
      = ((∑ k : Fin 100, a (ix2 p k) * wa (ix2 k q)) + ∑ k : Fin 100, b (ix2 p k) * wb (ix2 k q))
          + (∑ k : Fin 100, g (ix2 p k) * wg (ix2 k q)) + bias (ix2 (0 : Fin 1) q) := by
  unfold Gen.k0_pay1
  simp only [addf_apply, shapeCast_self, dotA_eq]
  exact congrArg₂ (· + ·) (congrArg₂ (· + ·) (congrArg₂ (· + ·)
    (PlainDot.matmul_zero_apply (M := 10000) (K := 100) (N := 200) none a wa p q)
    (PlainDot.matmul_zero_apply (M := 10000) (K := 100) (N := 200) none b wb p q))
    (PlainDot.matmul_zero_apply (M := 10000) (K := 100) (N := 200) none g wg p q))
    (RowSpread.rowBcast_apply (a := 10000) (b := 200) bias _ p q)

/-- The attention weights' block at (p, h). -/
theorem pay2_apply (a wa b wb g wg : _) (bias : Vec Ideal S1x200 .f32) (M : Vec Ideal S200x2 .f32) (p : Fin 10000) (h : Fin 2) :
    Gen.k0_pay2 (F := Ideal) a wa b wb g wg bias M (ix2 p h)
      = act (∑ j : Fin 200, Gen.k0_pay1 (F := Ideal) a wa b wb g wg bias (ix2 p j) * M (ix2 j h)) := by
  unfold Gen.k0_pay2
  simp only [shapeCast_self, dotB_eq]
  have e : matmul (F := Ideal) (DotDims.plain 10000 200 2) none (Gen.k0_pay1 (F := Ideal) a wa b wb g wg bias) M (constant S10000x2 .f32 0x00000000#32) (ix2 p h)
      = ∑ j : Fin 200, Gen.k0_pay1 (F := Ideal) a wa b wb g wg bias (ix2 p j) * M (ix2 j h) :=
    PlainDot.matmul_zero_apply (M := 10000) (K := 200) (N := 2) (φ₁ := .f32) (φ₂ := .f32) none (Gen.k0_pay1 (F := Ideal) a wa b wb g wg bias) M p h
  generalize matmul (F := Ideal) (DotDims.plain 10000 200 2) none (Gen.k0_pay1 (F := Ideal) a wa b wb g wg bias) M (constant S10000x2 .f32 0x00000000#32) = X at e ⊢
  rw [← e]
  rfl

end Cert.Bridge.Layer1

end
-- ==== Proof.Layer1Blocks.lean ====
/-
  The first layer's region: from the tiles to the whole arrays.

  The region walks 30 tiles of 10000 edges. At tile t the three row operands are read at rows
  t·10000 … t·10000 + 9999, the weights, the bias row and the attention matrix are read whole, and the two
  results are written at the same rows. Since the body's results at a row depend on that row of the
  operands only, the two result arrays end as ONE function of the whole operand arrays, row by row:
    c (e, q)  = ((Σ_k A (e, k) · wa (k, q) + Σ_k B (e, k) · wb (k, q)) + Σ_k C (e, k) · wg (k, q)) + bias (0, q),
    ev (e, h) = exp (leaky (Σ_j c (e, j) · M (j, h))),
  and every row e is written by tile e / 10000.
-/
import proofs.«161084_j22883585753704_2_alg».proof.Proof.Gen.KernelIdeal.Frame
import proofs.«161084_j22883585753704_2_alg».proof.Proof.Layer1Body
import Idealize.ShloMosaic.Lib.Pipeline.Value

noncomputable section

open scoped BigOperators

namespace Cert.Bridge.Layer1

open Idealize.ShloMosaic Idealize.ShloMosaic.TcCoe Idealize.ShloMosaic.ValueIdx Idealize.SL.Sem
open Idealize.ShloMosaic.Pipeline (Dat)
open Cert.KernelIdeal

/-- The projection of edge e at column q, from the whole operand arrays. -/
def proj (A B C : (⟨2, ![300000, 100]⟩ : Shape).Idx → EReal) (wa wb wg : (⟨2, ![100, 200]⟩ : Shape).Idx → EReal)
    (bias : (⟨2, ![1, 200]⟩ : Shape).Idx → EReal) (e : Fin 300000) (q : Fin 200) : EReal :=
  ((∑ k : Fin 100, A (ix2 e k) * wa (ix2 k q)) + ∑ k : Fin 100, B (ix2 e k) * wb (ix2 k q))
    + (∑ k : Fin 100, C (ix2 e k) * wg (ix2 k q)) + bias (ix2 (0 : Fin 1) q)

/-- The projection as an array over the edges. -/
def projArr (A B C : (⟨2, ![300000, 100]⟩ : Shape).Idx → EReal) (wa wb wg : (⟨2, ![100, 200]⟩ : Shape).Idx → EReal)
    (bias : (⟨2, ![1, 200]⟩ : Shape).Idx → EReal) : (⟨2, ![300000, 200]⟩ : Shape).Idx → EReal :=
  fun i => proj A B C wa wb wg bias (i 0) (i 1)

/-- The attention weight of edge e and head h: the activation of the projection's product with the
    attention matrix. -/
def attn (A B C : (⟨2, ![300000, 100]⟩ : Shape).Idx → EReal) (wa wb wg : (⟨2, ![100, 200]⟩ : Shape).Idx → EReal)
    (bias : (⟨2, ![1, 200]⟩ : Shape).Idx → EReal) (M : (⟨2, ![200, 2]⟩ : Shape).Idx → EReal)
    (e : Fin 300000) (h : Fin 2) : EReal :=
  act (∑ j : Fin 200, proj A B C wa wb wg bias e j * M (ix2 j h))

/-- The attention weights as an array over the edges. -/
def attnArr (A B C : (⟨2, ![300000, 100]⟩ : Shape).Idx → EReal) (wa wb wg : (⟨2, ![100, 200]⟩ : Shape).Idx → EReal)
    (bias : (⟨2, ![1, 200]⟩ : Shape).Idx → EReal) (M : (⟨2, ![200, 2]⟩ : Shape).Idx → EReal) :
    (⟨2, ![300000, 2]⟩ : Shape).Idx → EReal :=
  fun i => attn A B C wa wb wg bias M (i 0) (i 1)

theorem hz : (![0, 0] : Fin 2 → Nat) = fun _ => 0 := funext fun a => by fin_cases a <;> rfl

/-- The index maps over the 30 grid points: the three row windows and the two result windows are at block
    (t, 0), the weights, the bias row and the attention matrix always at block (0, 0). -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = t.val ∧ win0_8.index t (1 : Fin 2) = 0)
    ∧ (win0_9.index t (0 : Fin 2) = t.val ∧ win0_9.index t (1 : Fin 2) = 0) :=
  (by decide +kernel : ∀ t : Fin grid0.N, _)

section Entry

variable (V : (c : Dev nD) → (b : Ref sig .tc) → Buf (Elt Ideal) ((c : Thread nD τ).loc b))

/-! ## The input tiles as rows of the arrays -/

/-- Row p of tile t of the first row operand is row t·10000 + p of its array. -/
theorem iblk_rows0 (c : Dev nD) (t : Fin cfg0.N) (p : Fin 10000) (k : Fin 100) (e : Fin 300000)
    (he : e.val = t.val * 10000 + p.val) :
    (Gen.iblk0 V c 0 t : Vec Ideal S10000x100 .bf16) (ix2 p k) = (V c main_v20 : S300000x100.Idx → EReal) (ix2 e k) := by
  unfold Gen.iblk0
  rw [View.read_apply]
  show V c main_v20 _ = V c main_v20 _
  refine congrArg (V c main_v20) (funext fun a => Fin.ext ?_)
  match a with
  | ⟨0, _⟩ => show win0_0.index t (0 : Fin 2) * 10000 + 1 * p.val = e.val; rw [(idx_facts t).1.1, he]; omega
  | ⟨1, _⟩ => show win0_0.index t (1 : Fin 2) * 100 + 1 * k.val = k.val; rw [(idx_facts t).1.2]; omega

/-- The same for the second row operand. -/
theorem iblk_rows1 (c : Dev nD) (t : Fin cfg0.N) (p : Fin 10000) (k : Fin 100) (e : Fin 300000)
    (he : e.val = t.val * 10000 + p.val) :
    (Gen.iblk0 V c 1 t : Vec Ideal S10000x100 .bf16) (ix2 p k) = (V c main_v27 : S300000x100.Idx → EReal) (ix2 e k) := by
  unfold Gen.iblk0
  rw [View.read_apply]
  show V c main_v27 _ = V c main_v27 _
  refine congrArg (V c main_v27) (funext fun a => Fin.ext ?_)
  match a with
  | ⟨0, _⟩ => show win0_1.index t (0 : Fin 2) * 10000 + 1 * p.val = e.val; rw [(idx_facts t).2.1.1, he]; omega
  | ⟨1, _⟩ => show win0_1.index t (1 : Fin 2) * 100 + 1 * k.val = k.val; rw [(idx_facts t).2.1.2]; omega

/-- The same for the third row operand. -/
theorem iblk_rows2 (c : Dev nD) (t : Fin cfg0.N) (p : Fin 10000) (k : Fin 100) (e : Fin 300000)
    (he : e.val = t.val * 10000 + p.val) :
    (Gen.iblk0 V c 2 t : Vec Ideal S10000x100 .bf16) (ix2 p k) = (V c main_v34 : S300000x100.Idx → EReal) (ix2 e k) := by
  unfold Gen.iblk0
  rw [View.read_apply]
  show V c main_v34 _ = V c main_v34 _
  refine congrArg (V c main_v34) (funext fun a => Fin.ext ?_)
  match a with
  | ⟨0, _⟩ => show win0_2.index t (0 : Fin 2) * 10000 + 1 * p.val = e.val; rw [(idx_facts t).2.2.1.1, he]; omega
  | ⟨1, _⟩ => show win0_2.index t (1 : Fin 2) * 100 + 1 * k.val = k.val; rw [(idx_facts t).2.2.1.2]; omega

/-- The first weight window holds its whole array at every tile. -/
theorem iblk_whole3 (c : Dev nD) (t : Fin cfg0.N) :
    (Gen.iblk0 V c 3 t : Vec Ideal S100x200 .bf16) = (V c main_v39 : S100x200.Idx → EReal) := by
  unfold Gen.iblk0
  funext j
  rw [View.read_apply]
  show V c main_v39 _ = V c main_v39 _
  refine congrArg (V c main_v39) (funext fun a => Fin.ext ?_)
  match a with
  | ⟨0, _⟩ => show win0_3.index t (0 : Fin 2) * 100 + 1 * (j 0).val = (j 0).val; rw [(idx_facts t).2.2.2.1.1]; omega
  | ⟨1, _⟩ => show win0_3.index t (1 : Fin 2) * 200 + 1 * (j 1).val = (j 1).val; rw [(idx_facts t).2.2.2.1.2]; omega

/-- So does the second. -/
theorem iblk_whole4 (c : Dev nD) (t : Fin cfg0.N) :
    (Gen.iblk0 V c 4 t : Vec Ideal S100x200 .bf16) = (V c main_v41 : S100x200.Idx → EReal) := by
  unfold Gen.iblk0
  funext j
  rw [View.read_apply]
  show V c main_v41 _ = V c main_v41 _
  refine congrArg (V c main_v41) (funext fun a => Fin.ext ?_)
  match a with
  | ⟨0, _⟩ => show win0_4.index t (0 : Fin 2) * 100 + 1 * (j 0).val = (j 0).val; rw [(idx_facts t).2.2.2.2.1.1]; omega
  | ⟨1, _⟩ => show win0_4.index t (1 : Fin 2) * 200 + 1 * (j 1).val = (j 1).val; rw [(idx_facts t).2.2.2.2.1.2]; omega

/-- And the third. -/
theorem iblk_whole5 (c : Dev nD) (t : Fin cfg0.N) :
    (Gen.iblk0 V c 5 t : Vec Ideal S100x200 .bf16) = (V c main_v43 : S100x200.Idx → EReal) := by
  unfold Gen.iblk0
  funext j
  rw [View.read_apply]
  show V c main_v43 _ = V c main_v43 _
  refine congrArg (V c main_v43) (funext fun a => Fin.ext ?_)
  match a with
  | ⟨0, _⟩ => show win0_5.index t (0 : Fin 2) * 100 + 1 * (j 0).val = (j 0).val; rw [(idx_facts t).2.2.2.2.2.1.1]; omega
  | ⟨1, _⟩ => show win0_5.index t (1 : Fin 2) * 200 + 1 * (j 1).val = (j 1).val; rw [(idx_facts t).2.2.2.2.2.1.2]; omega

/-- The bias row's window holds the whole row at every tile. -/
theorem iblk_whole6 (c : Dev nD) (t : Fin cfg0.N) :
    (Gen.iblk0 V c 6 t : Vec Ideal S1x200 .f32) = (V c main_v58 : S1x200.Idx → EReal) := by
  unfold Gen.iblk0
  funext j
  rw [View.read_apply]
  show V c main_v58 _ = V c main_v58 _
  refine congrArg (V c main_v58) (funext fun a => Fin.ext ?_)
  match a with
  | ⟨0, _⟩ => show win0_6.index t (0 : Fin 2) * 1 + 1 * (j 0).val = (j 0).val; rw [(idx_facts t).2.2.2.2.2.2.1.1]; omega
  | ⟨1, _⟩ => show win0_6.index t (1 : Fin 2) * 200 + 1 * (j 1).val = (j 1).val; rw [(idx_facts t).2.2.2.2.2.2.1.2]; omega

/-- The attention matrix's window holds the whole matrix at every tile. -/
theorem iblk_whole7 (c : Dev nD) (t : Fin cfg0.N) :
    (Gen.iblk0 V c 7 t : Vec Ideal S200x2 .f32) = (V c main_v57 : S200x2.Idx → EReal) := by
  unfold Gen.iblk0
  funext j
  rw [View.read_apply]
  show V c main_v57 _ = V c main_v57 _
  refine congrArg (V c main_v57) (funext fun a => Fin.ext ?_)
  match a with
  | ⟨0, _⟩ => show win0_7.index t (0 : Fin 2) * 200 + 1 * (j 0).val = (j 0).val; rw [(idx_facts t).2.2.2.2.2.2.2.1.1]; omega
  | ⟨1, _⟩ => show win0_7.index t (1 : Fin 2) * 2 + 1 * (j 1).val = (j 1).val; rw [(idx_facts t).2.2.2.2.2.2.2.1.2]; omega

/-! ## The body on tile t is the row functions at rows t·10000 + p -/

/-- The projection tile at (p, q) is the projection of edge t·10000 + p. -/
theorem pay1_blocks (c : Dev nD) (t : Fin cfg0.N) (p : Fin 10000) (q : Fin 200) (e : Fin 300000)
    (he : e.val = t.val * 10000 + p.val) :
    Gen.k0_pay1 (F := Ideal) (Gen.iblk0 V c 0 t) (Gen.iblk0 V c 3 t) (Gen.iblk0 V c 1 t) (Gen.iblk0 V c 4 t)
        (Gen.iblk0 V c 2 t) (Gen.iblk0 V c 5 t) (Gen.iblk0 V c 6 t) (ix2 p q)
      = proj (V c main_v20) (V c main_v27) (V c main_v34) (V c main_v39) (V c main_v41) (V c main_v43) (V c main_v58) e q := by
  refine (pay1_apply _ _ _ _ _ _ _ p q).trans ?_
  unfold proj
  rw [iblk_whole3 V c t, iblk_whole4 V c t, iblk_whole5 V c t, iblk_whole6 V c t]
  simp only [fun k => iblk_rows0 V c t p k e he, fun k => iblk_rows1 V c t p k e he, fun k => iblk_rows2 V c t p k e he]

end Entry

end Cert.Bridge.Layer1

end
-- ==== Proof.Layer1Array.lean ====
/-
  The first layer's region: the two result arrays after the last tile.

  What tile t writes back is rows t·10000 … t·10000 + 9999 of the row functions of the whole operand
  arrays, and every row lies in the tile numbered by its quotient by 10000: so after the thirty tiles the
  projection array and the attention-weight array hold those functions everywhere.
-/
import proofs.«161084_j22883585753704_2_alg».proof.Proof.Layer1Blocks

noncomputable section

open scoped BigOperators

namespace Cert.Bridge.Layer1

open Idealize.ShloMosaic Idealize.ShloMosaic.TcCoe Idealize.ShloMosaic.ValueIdx Idealize.SL.Sem
open Idealize.ShloMosaic.Pipeline (Dat)
open Cert.KernelIdeal

/-- A tile of the projection window agrees with rows t·10000 + p of an array as soon as it does entry by entry. -/
theorem blk8_ext (t : Fin cfg0.N) (X : Vec Ideal S10000x200 .f32) (G : S300000x200.Idx → EReal)
    (h : ∀ (p : Fin 10000) (q : Fin 200) (e : Fin 300000), e.val = t.val * 10000 + p.val → X (ix2 p q) = G (ix2 e q)) :
    (cfg0.win 8).cut (grid0.coords t) X = ((cfg0.win 8).blk t).view.read (Elt Ideal) G := by
  funext j
  rw [View.read_apply]
  have hj0 : (j 0).val < 10000 := (j 0).isLt
  have hj1 : (j 1).val < 200 := (j 1).isLt
  have ht : t.val < 30 := t.isLt
  have := h ⟨(j 0).val, hj0⟩ ⟨(j 1).val, hj1⟩ ⟨t.val * 10000 + (j 0).val, by omega⟩ rfl
  show X j = G _
  refine (congrArg X ?_).trans (this.trans (congrArg G ?_))
  · funext a
    match a with
    | ⟨0, _⟩ => rfl
    | ⟨1, _⟩ => rfl
  · funext a
    apply Fin.ext
    match a with
    | ⟨0, _⟩ => show t.val * 10000 + (j 0).val = win0_8.index t (0 : Fin 2) * 10000 + 1 * (j 0).val; rw [(idx_facts t).2.2.2.2.2.2.2.2.1.1]; omega
    | ⟨1, _⟩ => show (j 1).val = win0_8.index t (1 : Fin 2) * 200 + 1 * (j 1).val; rw [(idx_facts t).2.2.2.2.2.2.2.2.1.2]; omega

/-- The same for the attention-weight window. -/
theorem blk9_ext (t : Fin cfg0.N) (X : Vec Ideal S10000x2 .f32) (G : S300000x2.Idx → EReal)
    (h : ∀ (p : Fin 10000) (q : Fin 2) (e : Fin 300000), e.val = t.val * 10000 + p.val → X (ix2 p q) = G (ix2 e q)) :
    (cfg0.win 9).cut (grid0.coords t) X = ((cfg0.win 9).blk t).view.read (Elt Ideal) G := by
  funext j
  rw [View.read_apply]
  have hj0 : (j 0).val < 10000 := (j 0).isLt
  have hj1 : (j 1).val < 2 := (j 1).isLt
  have ht : t.val < 30 := t.isLt
  have := h ⟨(j 0).val, hj0⟩ ⟨(j 1).val, hj1⟩ ⟨t.val * 10000 + (j 0).val, by omega⟩ rfl
  show X j = G _
  refine (congrArg X ?_).trans (this.trans (congrArg G ?_))
  · funext a
    match a with
    | ⟨0, _⟩ => rfl
    | ⟨1, _⟩ => rfl
  · funext a
    apply Fin.ext
    match a with
    | ⟨0, _⟩ => show t.val * 10000 + (j 0).val = win0_9.index t (0 : Fin 2) * 10000 + 1 * (j 0).val; rw [(idx_facts t).2.2.2.2.2.2.2.2.2.1]; omega
    | ⟨1, _⟩ => show (j 1).val = win0_9.index t (1 : Fin 2) * 2 + 1 * (j 1).val; rw [(idx_facts t).2.2.2.2.2.2.2.2.2.2]; omega

section Entry

variable (V : (c : Dev nD) → (b : Ref sig .tc) → Buf (Elt Ideal) ((c : Thread nD τ).loc b))

/-- What tile t writes back to the projection array. -/
theorem flushed8_eq (c : Dev nD) (t : Fin cfg0.N) :
    (Gen.dat0 V c).flushed 8 t = ((cfg0.win 8).blk t).view.read (Elt Ideal)
      (projArr (V c main_v20) (V c main_v27) (V c main_v34) (V c main_v39) (V c main_v41) (V c main_v43) (V c main_v58)) := by
  show (cfg0.win 8).cut (grid0.coords t) ((Gen.dat0 V c).after 8 t) = _
  rw [Gen.after0_8]
  unfold Gen.out0_8
  rw [View.canon_unit_zero hz]
  simp only [View.ld_unit_zero (S := S10000x100) hz, View.ld_unit_zero (S := S100x200) hz, View.ld_unit_zero (S := S1x200) hz]
  exact blk8_ext t _ _ fun p q e he => pay1_blocks V c t p q e he

/-- What tile t writes back to the attention-weight array. -/
theorem flushed9_eq (c : Dev nD) (t : Fin cfg0.N) :
    (Gen.dat0 V c).flushed 9 t = ((cfg0.win 9).blk t).view.read (Elt Ideal)
      (attnArr (V c main_v20) (V c main_v27) (V c main_v34) (V c main_v39) (V c main_v41) (V c main_v43) (V c main_v58) (V c main_v57)) := by
  show (cfg0.win 9).cut (grid0.coords t) ((Gen.dat0 V c).after 9 t) = _
  rw [Gen.after0_9]
  unfold Gen.out0_9
  rw [View.canon_unit_zero hz]
  simp only [View.ld_unit_zero (S := S10000x100) hz, View.ld_unit_zero (S := S100x200) hz, View.ld_unit_zero (S := S1x200) hz,
    View.ld_unit_zero (S := S200x2) hz]
  refine blk9_ext t _ _ fun p h e he => ?_
  refine (pay2_apply _ _ _ _ _ _ _ _ p h).trans ?_
  show act _ = act _
  refine congrArg act (Finset.sum_congr rfl fun j _ => ?_)
  rw [pay1_blocks V c t p j e he, iblk_whole7 V c t]

/-! ## Every row is written by its tile -/

/-- Row e of the projection array lies in tile e / 10000. -/
theorem cover8 (i : S300000x200.Idx) :
    ∃ t : Fin cfg0.N, (cfg0.win 8).flush t = true ∧ i ∈ ((cfg0.win 8).blk t).view.set := by
  have hi0 : (i 0).val < 300000 := (i 0).isLt
  have hi1 : (i 1).val < 200 := (i 1).isLt
  obtain ⟨t, ht⟩ : ∃ t : Fin cfg0.N, t.val = (i 0).val / 10000 := ⟨⟨(i 0).val / 10000, by show _ < 30; omega⟩, rfl⟩
  refine ⟨t, Gen.flush0_8 t, ?_⟩
  show i ∈ ((View.whole main_v59_0).slice (win0_8.rect t)).set
  rw [View.set_slice_whole, Rect.mem_set_unit]
  obtain ⟨e0, e1⟩ := (idx_facts t).2.2.2.2.2.2.2.2.1
  intro a
  match a with
  | ⟨0, _⟩ =>
    show win0_8.index t (0 : Fin 2) * 10000 ≤ (i 0).val ∧ (i 0).val < win0_8.index t (0 : Fin 2) * 10000 + 10000
    rw [e0, ht]; omega
  | ⟨1, _⟩ =>
    show win0_8.index t (1 : Fin 2) * 200 ≤ (i 1).val ∧ (i 1).val < win0_8.index t (1 : Fin 2) * 200 + 200
    rw [e1]; omega

/-- Row e of the attention-weight array lies in tile e / 10000. -/
theorem cover9 (i : S300000x2.Idx) :
    ∃ t : Fin cfg0.N, (cfg0.win 9).flush t = true ∧ i ∈ ((cfg0.win 9).blk t).view.set := by
  have hi0 : (i 0).val < 300000 := (i 0).isLt
  have hi1 : (i 1).val < 2 := (i 1).isLt
  obtain ⟨t, ht⟩ : ∃ t : Fin cfg0.N, t.val = (i 0).val / 10000 := ⟨⟨(i 0).val / 10000, by show _ < 30; omega⟩, rfl⟩
  refine ⟨t, Gen.flush0_9 t, ?_⟩
  show i ∈ ((View.whole main_v59_1).slice (win0_9.rect t)).set
  rw [View.set_slice_whole, Rect.mem_set_unit]
  obtain ⟨e0, e1⟩ := (idx_facts t).2.2.2.2.2.2.2.2.2
  intro a
  match a with
  | ⟨0, _⟩ =>
    show win0_9.index t (0 : Fin 2) * 10000 ≤ (i 0).val ∧ (i 0).val < win0_9.index t (0 : Fin 2) * 10000 + 10000
    rw [e0, ht]; omega
  | ⟨1, _⟩ =>
    show win0_9.index t (1 : Fin 2) * 2 ≤ (i 1).val ∧ (i 1).val < win0_9.index t (1 : Fin 2) * 2 + 2
    rw [e1]; omega

/-! ## The arrays after the last tile -/

/-- The projection array after the thirty tiles. -/
theorem final8 (c : Dev nD) :
    (Gen.dat0 V c).arrAt 8 cfg0.N
      = projArr (V c main_v20) (V c main_v27) (V c main_v34) (V c main_v39) (V c main_v41) (V c main_v43) (V c main_v58) :=
  (Gen.dat0 V c).arrAt_eq_of_cover 8 _ (fun t _ => flushed8_eq V c t) cover8

/-- The attention-weight array after the thirty tiles. -/
theorem final9 (c : Dev nD) :
    (Gen.dat0 V c).arrAt 9 cfg0.N
      = attnArr (V c main_v20) (V c main_v27) (V c main_v34) (V c main_v39) (V c main_v41) (V c main_v43) (V c main_v58) (V c main_v57) :=
  (Gen.dat0 V c).arrAt_eq_of_cover 9 _ (fun t _ => flushed9_eq V c t) cover9

end Entry

end Cert.Bridge.Layer1

end
-- ==== Proof.LibNary3.lean ====
/-
  A host operation over a literal family of three references, read at its result.

  A `stablehlo.concatenate` of three operands is printed as an n-ary operation over the family ![a, b, c]. Its result
  at its own reference is its function applied to the operands' contents. Stated with the contents as the function
  k ↦ F ↑(![a, b, c] k), the references under the binder are no literals, and nothing further can be read off them;
  stated with each operand's contents at its own reference — Fin.cons (F ↑a) (Fin.cons (F ↑b) (Fin.cons (F ↑c) _)) —
  the reading goes on into the operands. This is the three-operand companion of the library's four-operand form,
  together with the one-pass read-off of a line of host operations that uses it.
-/
import Idealize.ShloMosaic.Lib.StableHlo.Run

namespace Cert.LibNary3

open Idealize.ShloMosaic Idealize.ShloMosaic.StableHlo

variable {τ : Topo} {sig : RefSig} {Val : EltTy → Type} {x a b y : Ref sig .tc}

/-- An n-ary host operation over the literal family ![x, a, b], at its own result reference: its function of the three
    operands' contents, each read at its own reference. The family's length is left as the notation ![x, a, b] itself
    elaborates it (three successors of zero, not the numeral 3): the rewriting pass finds a lemma by the syntactic shape
    of its left side, and that is the shape a printed program's family has. -/
theorem nary3_result'
    (f : ((k : _) → ((![x, a, b]) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) := by
  rw [nary_result]; congr 1; funext k; fin_cases k <;> rfl

/-- What one buffer holds after a line of host operations, read off in one rewriting pass: each operation's result at
    its own reference is its function of its operands' contents, at any other reference what was there before. An
    n-ary operation is read by the lemmas handed to the tactic (one per three-operand family of the program, stated
    with the operands as plain arguments, so that the pass goes on into them); the general form with the operands'
    contents under a binder is left out on purpose: the pass would take it, and stop there. -/
macro "read_off" "[" ls:Lean.Parser.Tactic.simpLemma,* "]" : tactic =>
  `(tactic| (simp (disch := decide) only [$ls,*, after_cons, after_nil,
      nullary_result', unary_result', binary_result', ternary_result', quaternary_result', reshape_result', nary4_result',
      unaryIndexed_result', binaryIndexed_result',
      nullary_result_ne', unary_result_ne', binary_result_ne', ternary_result_ne', quaternary_result_ne', reshape_result_ne',
      nary_result_ne', unaryIndexed_result_ne', binaryIndexed_result_ne']))

end Cert.LibNary3
-- ==== Proof.Layer1KTerm.lean ====
/-
  The first layer's region operands that the host builds from the arguments, as terms of the launch memory.

  Before the region the host cuts the 200 × 300 weight matrix into three 200 × 100 column blocks and transposes each
  (a change of number format in between is the identity on extended reals); spreads the bias vector as a 1 × 200 row;
  and builds the 200 × 2 attention matrix from zeros by writing head 0's hundred coefficients into column 0 at rows
  0 … 99 and head 1's into column 1 at rows 100 … 199.
-/
import proofs.«161084_j22883585753704_2_alg».proof.Proof.Gen.KernelIdeal.Frame
import proofs.«161084_j22883585753704_2_alg».proof.Proof.LibNary3
import Idealize.ShloMosaic.PureOps.Ideal

set_option maxRecDepth 16384

noncomputable section

namespace Cert.Bridge.Layer1

open Idealize.ShloMosaic Idealize.ShloMosaic.TcCoe Idealize.SL.Sem
open Cert.KernelIdeal Cert.KernelIdeal.Facts₀ Cert.KernelIdeal.Facts

variable (m : (ℓ : Loc nD τ sig) → Buf (Elt Ideal) ℓ) (ρ : Dev nD → PrngReg) (c : Dev nD)

/-- The weight block whose columns start at column off of the weight matrix, transposed: 100 × 200. -/
def kW0 : S100x200.Idx → EReal :=
  truncf (F := Ideal) .bf16
    (transpose S100x200 [1, 0] (extractStridedSlice S200x100 ![0, 0] (Gen.W0 m ρ c (Proc.devRef .tc main_arg4)) slices_S200x300_S200x100_0_0 : S200x100.Idx → EReal)
      transposes_S200x100_S100x200_1_0 : S100x200.Idx → EReal) bitsLt_bf16_f32

def kW1 : S100x200.Idx → EReal :=
  truncf (F := Ideal) .bf16
    (transpose S100x200 [1, 0] (extractStridedSlice S200x100 ![0, 100] (Gen.W0 m ρ c (Proc.devRef .tc main_arg4)) slices_S200x300_S200x100_0_100 : S200x100.Idx → EReal)
      transposes_S200x100_S100x200_1_0 : S100x200.Idx → EReal) bitsLt_bf16_f32

def kW2 : S100x200.Idx → EReal :=
  truncf (F := Ideal) .bf16
    (transpose S100x200 [1, 0] (extractStridedSlice S200x100 ![0, 200] (Gen.W0 m ρ c (Proc.devRef .tc main_arg4)) slices_S200x300_S200x100_0_200 : S200x100.Idx → EReal)
      transposes_S200x100_S100x200_1_0 : S100x200.Idx → EReal) bitsLt_bf16_f32

/-- The bias as a row. -/
def kBias : S1x200.Idx → EReal :=
  broadcastInDim S1x200 ![1] bcast_S200_S1x200_1 (Gen.W0 m ρ c (Proc.devRef .tc main_arg5))

/-- The attention coefficients as 2 × 100. -/
def kAtt2 : S2x100.Idx → EReal :=
  shapeCast S2x100 (Gen.W0 m ρ c (Proc.devRef .tc main_arg6)) shapeCasts_S1x2x100_S2x100

/-- Head 0's coefficients in column 0, rows 0 … 99, of zeros. -/
def kM0 : S200x2.Idx → EReal :=
  Host.scatter scatter_S200x2_S2_S100_0_1_01_0 (fun _ b => b)
    (broadcastInDim S200x2 ![] bcast_S_S200x2 (constant (F := Ideal) S_ .f32 0x00000000#32))
    (concatenate S2 0 [⟨S1, broadcastInDim S1 ![] bcast_S_S1 (constantI S_ 32 0#32)⟩, ⟨S1, broadcastInDim S1 ![] bcast_S_S1 (constantI S_ 32 0#32)⟩] concatenates_S1_S1_S2_d0)
    (shapeCast S100 (extractStridedSlice S1x100 ![0, 0] (kAtt2 m ρ c) slices_S2x100_S1x100_0_0 : S1x100.Idx → EReal) shapeCasts_S1x100_S100)

/-- Then head 1's coefficients in column 1, rows 100 … 199: the attention matrix. -/
def kM : S200x2.Idx → EReal :=
  Host.scatter scatter_S200x2_S2_S100_0_1_01_0 (fun _ b => b)
    (kM0 m ρ c)
    (concatenate S2 0 [⟨S1, broadcastInDim S1 ![] bcast_S_S1 (constantI S_ 32 100#32)⟩, ⟨S1, broadcastInDim S1 ![] bcast_S_S1 (constantI S_ 32 1#32)⟩] concatenates_S1_S1_S2_d0)
    (shapeCast S100 (extractStridedSlice S1x100 ![1, 0] (kAtt2 m ρ c) slices_S2x100_S1x100_1_0 : S1x100.Idx → EReal) shapeCasts_S1x100_S100)

set_option maxHeartbeats 4000000 in
set_option maxRecDepth 100000 in
/-- At the region's entry the first weight operand holds the first transposed block. -/
theorem W1_v39 : Gen.W1 m ρ c (Proc.devRef .tc main_v39) = kW0 m ρ c := by
  unfold kW0
  dsimp only [Gen.W1, Gen.hostOps0]
  after_results_simp

set_option maxHeartbeats 4000000 in
set_option maxRecDepth 100000 in
/-- The second weight operand holds the second transposed block. -/
theorem W1_v41 : Gen.W1 m ρ c (Proc.devRef .tc main_v41) = kW1 m ρ c := by
  unfold kW1
  dsimp only [Gen.W1, Gen.hostOps0]
  after_results_simp

set_option maxHeartbeats 4000000 in
set_option maxRecDepth 100000 in
/-- The third weight operand holds the third transposed block. -/
theorem W1_v43 : Gen.W1 m ρ c (Proc.devRef .tc main_v43) = kW2 m ρ c := by
  unfold kW2
  dsimp only [Gen.W1, Gen.hostOps0]
  after_results_simp

set_option maxHeartbeats 4000000 in
set_option maxRecDepth 100000 in
/-- The bias operand holds the bias as a row. -/
theorem W1_v58 : Gen.W1 m ρ c (Proc.devRef .tc main_v58) = kBias m ρ c := by
  unfold kBias
  dsimp only [Gen.W1, Gen.hostOps0]
  after_results_simp

set_option maxHeartbeats 4000000 in
set_option maxRecDepth 100000 in
/-- The attention operand holds the attention matrix. -/
theorem W1_v57 : Gen.W1 m ρ c (Proc.devRef .tc main_v57) = kM m ρ c := by
  unfold kM kM0 kAtt2
  dsimp only [Gen.W1, Gen.hostOps0]
  after_results_simp
  repeat (first
    | rw [StableHlo.nullary_result] | rw [StableHlo.unary_result]
    | (rw [StableHlo.nullary_result_ne]; rotate_left; decide)
    | (rw [StableHlo.unary_result_ne]; rotate_left; decide)
    | (rw [StableHlo.binary_result_ne]; rotate_left; decide)
    | (rw [StableHlo.ternary_result_ne]; rotate_left; decide)
    | (rw [StableHlo.reshape_result_ne]; rotate_left; decide))
  rfl

/-- The launch memory read at an argument's reference is the argument's buffer. -/
theorem W0_arg4 : Gen.W0 m ρ c (Proc.devRef .tc main_arg4) = m ((c : Thread nD τ).loc main_arg4) := rfl
theorem W0_arg5 : Gen.W0 m ρ c (Proc.devRef .tc main_arg5) = m ((c : Thread nD τ).loc main_arg5) := rfl
theorem W0_arg6 : Gen.W0 m ρ c (Proc.devRef .tc main_arg6) = m ((c : Thread nD τ).loc main_arg6) := rfl

end Cert.Bridge.Layer1

end
-- ==== Proof.LibSwap2.lean ====
/-
  A matrix transposed, read at an index: entry (p, q) of the transpose of an a × b matrix is its entry (q, p).
-/
import Idealize.ShloMosaic.Lib.Pipeline.Value
import Idealize.ShloMosaic.Lib.ValueIdx

noncomputable section

namespace Idealize.ShloMosaic.Swap2

open Idealize.ShloMosaic Idealize.ShloMosaic.ValueIdx

variable {α : Type} {a b : Nat}

/-- Entry (p, q) of the transpose is entry (q, p) of the matrix. -/
theorem transpose_swap_apply (x : (⟨2, ![a, b]⟩ : Shape).Idx → α)
    (h : (⟨2, ![a, b]⟩ : Shape).Transposes [1, 0] ⟨2, ![b, a]⟩) (p : Fin b) (q : Fin a) :
    transpose ⟨2, ![b, a]⟩ [1, 0] x h (ix2 p q) = x (ix2 q p) := by
  refine transpose_apply [1, 0] x h (ix2 p q) (ix2 q p) fun d => ?_
  match d with
  | ⟨0, _⟩ => rfl
  | ⟨1, _⟩ => rfl

/-- Entry (p, q) of a block of b' columns starting at column o of an a × b matrix is entry (p, o + q) of the matrix. -/
theorem colBlock_apply {b' : Nat} (o : Nat) (x : (⟨2, ![a, b]⟩ : Shape).Idx → α)
    (h : (⟨2, ![a, b]⟩ : Shape).Slices ![0, o] ⟨2, ![a, b']⟩) (p : Fin a) (q : Fin b') (q' : Fin b)
    (hq : q'.val = o + q.val) :
    extractStridedSlice ⟨2, ![a, b']⟩ ![0, o] x h (ix2 p q) = x (ix2 p q') := by
  refine extractStridedSlice_apply ![0, o] x h (ix2 p q) (ix2 p q') fun d => ?_
  match d with
  | ⟨0, _⟩ => show p.val = 0 + p.val; omega
  | ⟨1, _⟩ => exact hq

/-- Entry (0, q) of the one-row block at row r of an a × b matrix is entry (r, q) of the matrix. -/
theorem rowBlock_apply (r : Nat) (x : (⟨2, ![a, b]⟩ : Shape).Idx → α)
    (h : (⟨2, ![a, b]⟩ : Shape).Slices ![r, 0] ⟨2, ![1, b]⟩) (q : Fin b) (r' : Fin a) (hr : r'.val = r) :
    extractStridedSlice ⟨2, ![1, b]⟩ ![r, 0] x h (ix2 (0 : Fin 1) q) = x (ix2 r' q) := by
  refine extractStridedSlice_apply ![r, 0] x h (ix2 (0 : Fin 1) q) (ix2 r' q) fun d => ?_
  match d with
  | ⟨0, _⟩ => show r'.val = r + 0; omega
  | ⟨1, _⟩ => show q.val = 0 + q.val; omega

end Idealize.ShloMosaic.Swap2

end
-- ==== Proof.LibAxisSpread.lean ====
/-
  Three spreads of an array over new or unit axes, read at an index.

  A vector of b entries laid out as a 1 × b row reads its entry q at (0, q). A 1 × H × D array spread over E leading
  copies reads its entry (0, h, d) at every (e, h, d). An E × H matrix given a trailing unit axis reads its entry (e, h)
  at (e, h, 0).
-/
import Idealize.ShloMosaic.Lib.Pipeline.Value
import Idealize.ShloMosaic.Lib.ValueIdx

noncomputable section

namespace Idealize.ShloMosaic.AxisSpread

open Idealize.ShloMosaic Idealize.ShloMosaic.ValueIdx

variable {α : Type} {b E H D : Nat}

/-- A vector laid out as a one-row matrix (the host's broadcast in dimension [1]) reads its entry q at (0, q). -/
theorem vecAsRow_apply (v : (⟨1, ![b]⟩ : Shape).Idx → α)
    (h : (⟨1, ![b]⟩ : Shape).BroadcastsInDim ⟨2, ![1, b]⟩ ![1]) (q : Fin b) :
    broadcastInDim ⟨2, ![1, b]⟩ ![1] h v (ix2 (0 : Fin 1) q) = v (ix1 q) := by
  refine broadcastInDim_apply ![1] h v (ix2 (0 : Fin 1) q) (ix1 q) fun ax => ?_
  match ax with
  | ⟨0, _⟩ =>
    show q.val = if b = 1 then 0 else q.val
    split
    · have := q.isLt; omega
    · rfl

/-- A 1 × H × D array spread over E leading copies (the host's broadcast in dimensions [0, 1, 2]) reads its entry
    (0, h, d) at every (e, h, d). -/
theorem leadSpread3_apply (v : (⟨3, ![1, H, D]⟩ : Shape).Idx → α)
    (hb : (⟨3, ![1, H, D]⟩ : Shape).BroadcastsInDim ⟨3, ![E, H, D]⟩ ![0, 1, 2]) (e : Fin E) (h : Fin H) (d : Fin D) :
    broadcastInDim ⟨3, ![E, H, D]⟩ ![0, 1, 2] hb v (ix3 e h d) = v (ix3 (0 : Fin 1) h d) := by
  refine broadcastInDim_apply ![0, 1, 2] hb v (ix3 e h d) (ix3 (0 : Fin 1) h d) fun ax => ?_
  match ax with
  | ⟨0, _⟩ => rfl
  | ⟨1, _⟩ =>
    show h.val = if H = 1 then 0 else h.val
    split
    · have := h.isLt; omega
    · rfl
  | ⟨2, _⟩ =>
    show d.val = if D = 1 then 0 else d.val
    split
    · have := d.isLt; omega
    · rfl

/-- An E × H matrix given a trailing unit axis (the host's broadcast in dimensions [0, 1]) reads its entry (e, h) at
    (e, h, 0). -/
theorem trailUnit3_apply (v : (⟨2, ![E, H]⟩ : Shape).Idx → α)
    (hb : (⟨2, ![E, H]⟩ : Shape).BroadcastsInDim ⟨3, ![E, H, 1]⟩ ![0, 1]) (e : Fin E) (h : Fin H) (z : Fin 1) :
    broadcastInDim ⟨3, ![E, H, 1]⟩ ![0, 1] hb v (ix3 e h z) = v (ix2 e h) := by
  refine broadcastInDim_apply ![0, 1] hb v (ix3 e h z) (ix2 e h) fun ax => ?_
  match ax with
  | ⟨0, _⟩ =>
    show e.val = if E = 1 then 0 else e.val
    split
    · have := e.isLt; omega
    · rfl
  | ⟨1, _⟩ =>
    show h.val = if H = 1 then 0 else h.val
    split
    · have := h.isLt; omega
    · rfl

end Idealize.ShloMosaic.AxisSpread

end
-- ==== Proof.LibScatterCols.lean ====
/-
  A SET-SCATTER THAT WRITES A BLOCK INTO THE LEADING COLUMNS OF A WIDER ARRAY, READ AT AN INDEX.

  `zeros([a, c]).at[:, :b].set(u)` for an update `u : [a, b]` with `b ≤ c` is a `stablehlo.scatter` with
  `update_window_dims = [0, 1]`, no inserted window axis, `scatter_dims_to_operand_dims = [1]`, the index vector on
  axis 0 of a one-element array of scatter indices, and that one index the constant `0`. `Host.scatter` is the left fold,
  over the update's indices in row-major order, of the step that overwrites the operand's element at the update index's
  result index. Here every update index `(h, l)` has the result index `(h, l)` (start `0` on both axes, window
  coordinate the update's own), so the map from update indices to result indices is injective and the fold touches the
  operand's element `(h, l)`, `l < b`, exactly once: the scatter read there is the body applied to the operand's element
  and the update's element `(h, l)`, and for the body that returns the update it is the update's element.

  Contents: two lemmas on a left fold that changes one position at most once (`foldl_apply_of_no_hit`,
  `foldl_apply_of_unique_hit`); the dimension numbers `padDims` and their start, window and result index at an all-zero
  index array (`pad_start0` … `pad_resultIdx`); the scatter read at a leading column for any body (`scatter_pad_apply`)
  and for the body that returns the update (`scatter_pad_set_apply`).
-/
import Idealize.ShloMosaic.PureOps
import Idealize.ShloMosaic.Lib.ValueIdx

open Idealize.ShloMosaic Idealize.ShloMosaic.ValueIdx

namespace Idealize.ShloMosaic.ScatterCols

/-! ## A left fold that changes one position at most once -/

section Fold
variable {ι β α : Type}

/-- If a step leaves position `i0` alone at every list element outside `P`, and no element of the list is in `P`, the
    fold leaves position `i0` as it started. -/
theorem foldl_apply_of_no_hit (step : (β → α) → ι → (β → α)) (i0 : β) (P : ι → Prop)
    (hmiss : ∀ r n, ¬ P n → step r n i0 = r i0) (l : List ι) (x : β → α)
    (h : ∀ n ∈ l, ¬ P n) : (l.foldl step x) i0 = x i0 := by
  induction l generalizing x with
  | nil => rfl
  | cons n l ih =>
    rw [List.foldl_cons, ih (step x n) (fun m hm => h m (List.mem_cons_of_mem _ hm))]
    exact hmiss x n (h n (List.mem_cons.mpr (Or.inl rfl)))

/-- If a step leaves position `i0` alone at every list element outside `P` and replaces it by `g` of its old value at
    an element in `P`, and a list without repeats has exactly one element `n0` in `P`, the fold's value at `i0` is `g`
    of the starting value at `n0`: the elements before `n0` do not touch `i0`, `n0` writes it, the elements after do not
    touch it again. -/
theorem foldl_apply_of_unique_hit (step : (β → α) → ι → (β → α)) (i0 : β) (P : ι → Prop) (g : α → ι → α)
    (hmiss : ∀ r n, ¬ P n → step r n i0 = r i0)
    (hhit : ∀ r n, P n → step r n i0 = g (r i0) n) (n0 : ι) (hP : P n0)
    (l : List ι) (x : β → α) (hnd : l.Nodup) (hmem : n0 ∈ l) (huniq : ∀ n ∈ l, P n → n = n0) :
    (l.foldl step x) i0 = g (x i0) n0 := by
  induction l generalizing x with
  | nil => exact absurd hmem List.not_mem_nil
  | cons n l ih =>
    rw [List.foldl_cons]
    rcases List.nodup_cons.mp hnd with ⟨hnl, hndl⟩
    by_cases hn : n = n0
    · subst hn
      rw [foldl_apply_of_no_hit step i0 P hmiss l (step x n)
        (fun m hm hPm => hnl ((huniq m (List.mem_cons_of_mem _ hm) hPm) ▸ hm))]
      exact hhit x n hP
    · have hmem' : n0 ∈ l := by
        rcases List.mem_cons.mp hmem with h | h
        · exact absurd h.symm hn
        · exact h
      have hPn : ¬ P n := fun h => hn (huniq n (List.mem_cons.mpr (Or.inl rfl)) h)
      rw [ih (step x n) hndl hmem' (fun m hm => huniq m (List.mem_cons_of_mem _ hm)), hmiss x n hPn]

end Fold

/-! ## The dimension numbers of `zeros([a, c]).at[:, :b].set(u)` -/

section Dims

/-- The scatter dimension numbers for an operand `[a, c]`, one scatter index `[1]` and an update `[a, b]`: both update
    axes are window axes, no operand axis is inserted, the one index component starts the window on operand axis 1. -/
abbrev padDims (a b c : Nat) (wf : ScatterDims.WF ⟨2, ![a, c]⟩ ⟨1, ![1]⟩ ⟨2, ![a, b]⟩ [0, 1] [] [1] 0) :
    ScatterDims ⟨2, ![a, c]⟩ ⟨1, ![1]⟩ ⟨2, ![a, b]⟩ where
  updateWindowDims := [0, 1]
  insertedWindowDims := []
  scatterDimsToOperandDims := [1]
  indexVectorDim := 0
  wf := wf

variable {a b c : Nat} (wf : ScatterDims.WF ⟨2, ![a, c]⟩ ⟨1, ![1]⟩ ⟨2, ![a, b]⟩ [0, 1] [] [1] 0)

/-- With no inserted axis, both operand axes are kept. -/
theorem pad_sKept : (padDims a b c wf).sKept = [0, 1] := rfl

/-- The window coordinate on operand axis 0 is the update index's coordinate on axis 0. -/
theorem pad_window0 (j : (⟨2, ![a, b]⟩ : Shape).Idx) : (padDims a b c wf).window j 0 = (j 0).val := by
  unfold ScatterDims.window
  rw [dif_pos (by rw [pad_sKept]; exact List.mem_cons.mpr (Or.inl rfl))]
  rfl

/-- The window coordinate on operand axis 1 is the update index's coordinate on axis 1. -/
theorem pad_window1 (j : (⟨2, ![a, b]⟩ : Shape).Idx) : (padDims a b c wf).window j 1 = (j 1).val := by
  unfold ScatterDims.window
  rw [dif_pos (by rw [pad_sKept]; simp)]
  rfl

/-- Operand axis 0 is not a scattered axis: its window starts at `0`. -/
theorem pad_start0 {w : Nat} (j : (⟨2, ![a, b]⟩ : Shape).Idx) (idx : IVec ⟨1, ![1]⟩ w) :
    (padDims a b c wf).start j idx 0 = 0 := by
  unfold ScatterDims.start
  rw [dif_neg (by simp)]

/-- Operand axis 1 is the scattered axis: its window starts at the scatter index read signed, `0` for the zero word. -/
theorem pad_start1 {w : Nat} (j : (⟨2, ![a, b]⟩ : Shape).Idx) (idx : IVec ⟨1, ![1]⟩ w) (hidx : ∀ k, idx k = 0#w) :
    (padDims a b c wf).start j idx 1 = 0 := by
  unfold ScatterDims.start
  rw [dif_pos (by simp), hidx]
  simp

end Dims

/-! ## The scatter read at a leading column -/

section Apply
variable {α : Type} {a b c : Nat} (wf : ScatterDims.WF ⟨2, ![a, c]⟩ ⟨1, ![1]⟩ ⟨2, ![a, b]⟩ [0, 1] [] [1] 0)

/-- An update index `(h, l)` as the operand index `(h, l)`: the column `l < b` read as a column below `c`. -/
abbrev padIdx (hbc : b ≤ c) (j : (⟨2, ![a, b]⟩ : Shape).Idx) : (⟨2, ![a, c]⟩ : Shape).Idx :=
  ix2 (⟨(j 0).val, idx2_lt0 j⟩ : Fin a) (⟨(j 1).val, Nat.lt_of_lt_of_le (idx2_lt1 j) hbc⟩ : Fin c)

/-- `padIdx` on an index given by its coordinates. -/
theorem padIdx_ix2 (hbc : b ≤ c) (h : Fin a) (l : Fin b) :
    padIdx hbc (ix2 h l) = ix2 h (⟨l.val, Nat.lt_of_lt_of_le l.isLt hbc⟩ : Fin c) := rfl

/-- Distinct update indices go to distinct operand indices. -/
theorem padIdx_injective (hbc : b ≤ c) {j j' : (⟨2, ![a, b]⟩ : Shape).Idx} (h : padIdx hbc j = padIdx hbc j') : j = j' := by
  have h0 : (padIdx hbc j 0).val = (padIdx hbc j' 0).val := congrArg Fin.val (congrFun h 0)
  have h1 : (padIdx hbc j 1).val = (padIdx hbc j' 1).val := congrArg Fin.val (congrFun h 1)
  funext a'
  match a' with
  | ⟨0, _⟩ => exact Fin.ext h0
  | ⟨1, _⟩ => exact Fin.ext h1

/-- At an all-zero index array every update index lands inside the operand, at the operand index with the same two
    coordinates: start `0` plus the window coordinate on each axis. -/
theorem pad_resultIdx {w : Nat} (hbc : b ≤ c) (j : (⟨2, ![a, b]⟩ : Shape).Idx) (idx : IVec ⟨1, ![1]⟩ w)
    (hidx : ∀ k, idx k = 0#w) : (padDims a b c wf).resultIdx? j idx = some (padIdx hbc j) := by
  have key0 : (padDims a b c wf).start j idx 0 + (padDims a b c wf).window j 0 = ((padIdx hbc j 0).val : Int) := by
    rw [pad_start0, pad_window0, Int.zero_add]
    rfl
  have key1 : (padDims a b c wf).start j idx 1 + (padDims a b c wf).window j 1 = ((padIdx hbc j 1).val : Int) := by
    rw [pad_start1 wf j idx hidx, pad_window1, Int.zero_add]
    rfl
  have key : ∀ a', (padDims a b c wf).start j idx a' + (padDims a b c wf).window j a' = ((padIdx hbc j a').val : Int) := by
    intro a'
    match a' with
    | ⟨0, _⟩ => exact key0
    | ⟨1, _⟩ => exact key1
  unfold ScatterDims.resultIdx?
  rw [dif_pos (fun a' => by
    rw [key a']
    exact ⟨Int.natCast_nonneg _, Int.ofNat_lt.mpr (padIdx hbc j a').isLt⟩)]
  congr 1
  funext a'
  apply Fin.ext
  show ((padDims a b c wf).start j idx a' + (padDims a b c wf).window j a').toNat = (padIdx hbc j a').val
  rw [key a', Int.toNat_natCast]

/-- THE SCATTER READ AT `(h, l)`, `l < b`, for any body `f`: `f` of the operand's element there and the update's element
    `(h, l)`. The update index `(h, l)` is the only one whose result index is `(h, l)`, so the row-major fold applies
    the body there exactly once. -/
theorem scatter_pad_apply {w : Nat} (hbc : b ≤ c) (f : α → α → α) (x : (⟨2, ![a, c]⟩ : Shape).Idx → α)
    (idx : IVec ⟨1, ![1]⟩ w) (hidx : ∀ k, idx k = 0#w) (upd : (⟨2, ![a, b]⟩ : Shape).Idx → α) (h : Fin a) (l : Fin b) :
    Host.scatter (padDims a b c wf) f x idx upd (ix2 h (⟨l.val, Nat.lt_of_lt_of_le l.isLt hbc⟩ : Fin c))
      = f (x (ix2 h (⟨l.val, Nat.lt_of_lt_of_le l.isLt hbc⟩ : Fin c))) (upd (ix2 h l)) := by
  unfold Host.scatter
  refine (foldl_apply_of_unique_hit _ (ix2 h (⟨l.val, Nat.lt_of_lt_of_le l.isLt hbc⟩ : Fin c))
    (fun n => padIdx hbc ((⟨2, ![a, b]⟩ : Shape).rowMajor.symm n) = ix2 h (⟨l.val, Nat.lt_of_lt_of_le l.isLt hbc⟩ : Fin c))
    (fun r n => f r (upd ((⟨2, ![a, b]⟩ : Shape).rowMajor.symm n))) ?_ ?_
    ((⟨2, ![a, b]⟩ : Shape).rowMajor (ix2 h l)) ?_ _ x (List.nodup_finRange _) (List.mem_finRange _) ?_).trans ?_
  · intro r n hn
    rw [pad_resultIdx wf hbc _ idx hidx]
    exact if_neg (fun e => hn e.symm)
  · intro r n hn
    rw [pad_resultIdx wf hbc _ idx hidx]
    refine (if_pos hn.symm).trans ?_
    rw [hn]
  · show padIdx hbc _ = _
    rw [Equiv.symm_apply_apply]
    exact padIdx_ix2 hbc h l
  · intro n _ hn
    exact (Equiv.symm_apply_eq _).mp (padIdx_injective hbc (hn.trans (padIdx_ix2 hbc h l).symm))
  · show f _ (upd _) = _
    rw [Equiv.symm_apply_apply]

/-- The scatter whose body returns the update (`.at[…].set`), read at `(h, l)`, `l < b`: the update's element `(h, l)`,
    whatever the operand held. -/
theorem scatter_pad_set_apply {w : Nat} (hbc : b ≤ c) (x : (⟨2, ![a, c]⟩ : Shape).Idx → α)
    (idx : IVec ⟨1, ![1]⟩ w) (hidx : ∀ k, idx k = 0#w) (upd : (⟨2, ![a, b]⟩ : Shape).Idx → α) (h : Fin a) (l : Fin b) :
    Host.scatter (padDims a b c wf) (fun _ v => v) x idx upd (ix2 h (⟨l.val, Nat.lt_of_lt_of_le l.isLt hbc⟩ : Fin c))
      = upd (ix2 h l) :=
  scatter_pad_apply wf hbc (fun _ v => v) x idx hidx upd h l

end Apply

end Idealize.ShloMosaic.ScatterCols
-- ==== Proof.LibColScatter.lean ====
/-
  A set-scatter that writes a vector down one column of a matrix, read at an index.

  `x.at[r0 : r0 + b, c0].set(u)` for an operand x : [a, c] and an update u : [b] is a scatter whose one update axis is
  a window axis going to operand axis 0, whose operand axis 1 is an inserted window axis, and whose single scatter index
  is the start pair (r0, c0), one component per operand axis. Update position l lands at the operand's entry
  (r0 + l, c0): distinct positions land at distinct entries, so the row-major fold writes each of those entries once
  and no other entry at all. Read at (p, q) the result is therefore u(p − r0) on rows r0 ≤ p < r0 + b of column c0,
  and the operand's own entry everywhere else.
-/
import Idealize.ShloMosaic.PureOps
import Idealize.ShloMosaic.Lib.ValueIdx
import proofs.«161084_j22883585753704_2_alg».proof.Proof.LibScatterCols

open Idealize.ShloMosaic Idealize.ShloMosaic.ValueIdx

namespace Idealize.ShloMosaic.ColScatter

/-- The scatter dimension numbers for an operand [a, c], one start pair [2] and an update [b]: the update's axis is a
    window axis, operand axis 1 is inserted, the start pair's components go to operand axes 0 and 1. -/
abbrev colDims (a c b : Nat) (wf : ScatterDims.WF ⟨2, ![a, c]⟩ ⟨1, ![2]⟩ ⟨1, ![b]⟩ [0] [1] [0, 1] 0) :
    ScatterDims ⟨2, ![a, c]⟩ ⟨1, ![2]⟩ ⟨1, ![b]⟩ where
  updateWindowDims := [0]
  insertedWindowDims := [1]
  scatterDimsToOperandDims := [0, 1]
  indexVectorDim := 0
  wf := wf

section Dims
variable {a c b : Nat} (wf : ScatterDims.WF ⟨2, ![a, c]⟩ ⟨1, ![2]⟩ ⟨1, ![b]⟩ [0] [1] [0, 1] 0)

/-- Operand axis 0 is the one kept axis. -/
theorem col_sKept : (colDims a c b wf).sKept = [0] := rfl

/-- The window coordinate on operand axis 0 is the update position. -/
theorem col_window0 (j : (⟨1, ![b]⟩ : Shape).Idx) : (colDims a c b wf).window j 0 = (j 0).val := by
  unfold ScatterDims.window
  rw [dif_pos (by rw [col_sKept]; exact List.mem_cons.mpr (Or.inl rfl))]
  rfl

/-- Operand axis 1 is inserted: its window coordinate is 0. -/
theorem col_window1 (j : (⟨1, ![b]⟩ : Shape).Idx) : (colDims a c b wf).window j 1 = 0 := by
  unfold ScatterDims.window
  rw [dif_neg (by rw [col_sKept]; exact fun h => absurd (congrArg Fin.val (List.mem_singleton.mp h)) Nat.one_ne_zero)]

/-- Component k of the start pair is read at position k of the index array, whatever the update position. -/
theorem col_siIdx (j : (⟨1, ![b]⟩ : Shape).Idx) (k : Fin 2) :
    (colDims a c b wf).siIdx j k = ix1 k := by
  funext bb
  match bb with
  | ⟨0, _⟩ => exact Fin.ext rfl

/-- The window on operand axis 0 starts at the start pair's first component. -/
theorem col_start0 {w : Nat} (j : (⟨1, ![b]⟩ : Shape).Idx) (idx : IVec ⟨1, ![2]⟩ w) :
    (colDims a c b wf).start j idx 0 = (idx (ix1 (0 : Fin 2))).toInt := by
  unfold ScatterDims.start
  rw [dif_pos (by simp), col_siIdx]
  rfl

/-- The window on operand axis 1 starts at the start pair's second component. -/
theorem col_start1 {w : Nat} (j : (⟨1, ![b]⟩ : Shape).Idx) (idx : IVec ⟨1, ![2]⟩ w) :
    (colDims a c b wf).start j idx 1 = (idx (ix1 (1 : Fin 2))).toInt := by
  unfold ScatterDims.start
  rw [dif_pos (by simp), col_siIdx]
  rfl

end Dims

section Apply
variable {α : Type} {a c b : Nat} (wf : ScatterDims.WF ⟨2, ![a, c]⟩ ⟨1, ![2]⟩ ⟨1, ![b]⟩ [0] [1] [0, 1] 0)

/-- Where update position l lands: row r0 + l of column c0. -/
abbrev colIdx (r0 c0 : Nat) (hr : r0 + b ≤ a) (hc : c0 < c) (j : (⟨1, ![b]⟩ : Shape).Idx) : (⟨2, ![a, c]⟩ : Shape).Idx :=
  ix2 (⟨r0 + (j 0).val, by have : (j 0).val < b := (j 0).isLt; omega⟩ : Fin a) (⟨c0, hc⟩ : Fin c)

/-- Distinct update positions land at distinct entries. -/
theorem colIdx_injective (r0 c0 : Nat) (hr : r0 + b ≤ a) (hc : c0 < c) {j j' : (⟨1, ![b]⟩ : Shape).Idx}
    (h : colIdx r0 c0 hr hc j = colIdx r0 c0 hr hc j') : j = j' := by
  have h0 : (colIdx r0 c0 hr hc j 0).val = (colIdx r0 c0 hr hc j' 0).val := congrArg Fin.val (congrFun h 0)
  have h0' : r0 + (j 0).val = r0 + (j' 0).val := h0
  funext a'
  match a' with
  | ⟨0, _⟩ => exact Fin.ext (Nat.add_left_cancel h0')

/-- With the start pair (r0, c0), the window inside the operand, every update position lands inside the operand at
    `colIdx`. -/
theorem col_resultIdx {w : Nat} (r0 c0 : Nat) (hr : r0 + b ≤ a) (hc : c0 < c) (j : (⟨1, ![b]⟩ : Shape).Idx)
    (idx : IVec ⟨1, ![2]⟩ w) (h0 : (idx (ix1 (0 : Fin 2))).toInt = (r0 : Int)) (h1 : (idx (ix1 (1 : Fin 2))).toInt = (c0 : Int)) :
    (colDims a c b wf).resultIdx? j idx = some (colIdx r0 c0 hr hc j) := by
  have key0 : (colDims a c b wf).start j idx 0 + (colDims a c b wf).window j 0 = ((colIdx r0 c0 hr hc j 0).val : Int) := by
    rw [col_start0, col_window0, h0]
    show (r0 : Int) + ((j 0).val : Int) = ((r0 + (j 0).val : Nat) : Int)
    omega
  have key1 : (colDims a c b wf).start j idx 1 + (colDims a c b wf).window j 1 = ((colIdx r0 c0 hr hc j 1).val : Int) := by
    rw [col_start1, col_window1, h1]
    show (c0 : Int) + ((0 : Nat) : Int) = ((c0 : Nat) : Int)
    omega
  have key : ∀ a', (colDims a c b wf).start j idx a' + (colDims a c b wf).window j a' = ((colIdx r0 c0 hr hc j a').val : Int) := by
    intro a'
    match a' with
    | ⟨0, _⟩ => exact key0
    | ⟨1, _⟩ => exact key1
  unfold ScatterDims.resultIdx?
  rw [dif_pos (fun a' => by
    rw [key a']
    exact ⟨Int.natCast_nonneg _, Int.ofNat_lt.mpr (colIdx r0 c0 hr hc j a').isLt⟩)]
  congr 1
  funext a'
  apply Fin.ext
  show ((colDims a c b wf).start j idx a' + (colDims a c b wf).window j a').toNat = (colIdx r0 c0 hr hc j a').val
  rw [key a', Int.toNat_natCast]

/-- The scatter read at (r0 + l, c0): the update's entry l. -/
theorem scatter_col_hit {w : Nat} (r0 c0 : Nat) (hr : r0 + b ≤ a) (hc : c0 < c) (x : (⟨2, ![a, c]⟩ : Shape).Idx → α)
    (idx : IVec ⟨1, ![2]⟩ w) (h0 : (idx (ix1 (0 : Fin 2))).toInt = (r0 : Int)) (h1 : (idx (ix1 (1 : Fin 2))).toInt = (c0 : Int))
    (upd : (⟨1, ![b]⟩ : Shape).Idx → α) (l : Fin b) :
    Host.scatter (colDims a c b wf) (fun _ v => v) x idx upd (colIdx r0 c0 hr hc (ix1 l)) = upd (ix1 l) := by
  unfold Host.scatter
  refine (ScatterCols.foldl_apply_of_unique_hit _ (colIdx r0 c0 hr hc (ix1 l))
    (fun n => colIdx r0 c0 hr hc ((⟨1, ![b]⟩ : Shape).rowMajor.symm n) = colIdx r0 c0 hr hc (ix1 l))
    (fun _ n => upd ((⟨1, ![b]⟩ : Shape).rowMajor.symm n)) ?_ ?_
    ((⟨1, ![b]⟩ : Shape).rowMajor (ix1 l)) ?_ _ x (List.nodup_finRange _) (List.mem_finRange _) ?_).trans ?_
  · intro r n hn
    rw [col_resultIdx wf r0 c0 hr hc _ idx h0 h1]
    exact if_neg (fun e => hn e.symm)
  · intro r n hn
    rw [col_resultIdx wf r0 c0 hr hc _ idx h0 h1]
    exact if_pos hn.symm
  · show colIdx r0 c0 hr hc _ = _
    rw [Equiv.symm_apply_apply]
  · intro n _ hn
    exact (Equiv.symm_apply_eq _).mp (colIdx_injective r0 c0 hr hc hn)
  · show upd _ = _
    rw [Equiv.symm_apply_apply]

/-- The scatter read at an entry outside rows r0 … r0 + b − 1 of column c0: the operand's own entry. -/
theorem scatter_col_miss {w : Nat} (r0 c0 : Nat) (hr : r0 + b ≤ a) (hc : c0 < c) (x : (⟨2, ![a, c]⟩ : Shape).Idx → α)
    (idx : IVec ⟨1, ![2]⟩ w) (h0 : (idx (ix1 (0 : Fin 2))).toInt = (r0 : Int)) (h1 : (idx (ix1 (1 : Fin 2))).toInt = (c0 : Int))
    (upd : (⟨1, ![b]⟩ : Shape).Idx → α) (p : Fin a) (q : Fin c) (hpq : q.val ≠ c0 ∨ p.val < r0 ∨ r0 + b ≤ p.val) :
    Host.scatter (colDims a c b wf) (fun _ v => v) x idx upd (ix2 p q) = x (ix2 p q) := by
  unfold Host.scatter
  refine ScatterCols.foldl_apply_of_no_hit _ (ix2 p q)
    (fun n => colIdx r0 c0 hr hc ((⟨1, ![b]⟩ : Shape).rowMajor.symm n) = ix2 p q) ?_ _ x ?_
  · intro r n hn
    rw [col_resultIdx wf r0 c0 hr hc _ idx h0 h1]
    exact if_neg (fun e => hn e.symm)
  · intro n _ hn
    have e0 : r0 + (((⟨1, ![b]⟩ : Shape).rowMajor.symm n) 0).val = p.val := congrArg Fin.val (congrFun hn 0)
    have e1 : c0 = q.val := congrArg Fin.val (congrFun hn 1)
    have hl : (((⟨1, ![b]⟩ : Shape).rowMajor.symm n) 0).val < b := (((⟨1, ![b]⟩ : Shape).rowMajor.symm n) 0).isLt
    omega

end Apply

end Idealize.ShloMosaic.ColScatter
-- ==== Proof.LibStartPair.lean ====
/-
  The start pair of a scatter, built by joining two one-element arrays each holding a spread scalar, read at its two
  positions.
-/
import Idealize.ShloMosaic.Lib.Pipeline.Value
import Idealize.ShloMosaic.Lib.ValueIdx

noncomputable section

namespace Idealize.ShloMosaic.StartPair

open Idealize.ShloMosaic Idealize.ShloMosaic.ValueIdx

variable {α : Type}

/-- Position 0 of the joined pair is the first array's one entry. -/
theorem pair_fst (x y : (⟨1, ![1]⟩ : Shape).Idx → α)
    (hc : Shape.Concatenates [(⟨1, ![1]⟩ : Shape), ⟨1, ![1]⟩] ⟨1, ![2]⟩ 0) :
    concatenate ⟨1, ![2]⟩ 0 [⟨⟨1, ![1]⟩, x⟩, ⟨⟨1, ![1]⟩, y⟩] hc (ix1 (0 : Fin 2)) = x (ix1 (0 : Fin 1)) := by
  refine concatenate_pair_apply_left (t := ⟨1, ![2]⟩) (0 : Fin 1) x y hc (ix1 (0 : Fin 2)) rfl (ix1 (0 : Fin 1)) fun b => ?_
  match b with
  | ⟨0, _⟩ => rfl

/-- Position 1 of the joined pair is the second array's one entry. -/
theorem pair_snd (x y : (⟨1, ![1]⟩ : Shape).Idx → α)
    (hc : Shape.Concatenates [(⟨1, ![1]⟩ : Shape), ⟨1, ![1]⟩] ⟨1, ![2]⟩ 0) :
    concatenate ⟨1, ![2]⟩ 0 [⟨⟨1, ![1]⟩, x⟩, ⟨⟨1, ![1]⟩, y⟩] hc (ix1 (1 : Fin 2)) = y (ix1 (0 : Fin 1)) := by
  refine concatenate_pair_apply_right (t := ⟨1, ![2]⟩) (0 : Fin 1) x y hc (ix1 (1 : Fin 2)) rfl rfl (ix1 (0 : Fin 1)) (fun b hb => ?_) rfl
  match b with
  | ⟨0, _⟩ => exact absurd rfl hb

/-- A spread integer scalar in a one-element array reads the scalar. -/
theorem spreadI_apply {w : Nat} (u : BitVec w) (hb : (⟨0, ![]⟩ : Shape).BroadcastsInDim ⟨1, ![1]⟩ ![]) (i : (⟨1, ![1]⟩ : Shape).Idx) :
    broadcastInDim ⟨1, ![1]⟩ ![] hb (constantI ⟨0, ![]⟩ w u) i = u :=
  broadcastInDim_apply ![] hb (constantI ⟨0, ![]⟩ w u) i ix0 fun ax => ax.elim0

/-- The start pair (u, v): its two components. -/
theorem startPair_apply {w : Nat} (u v : BitVec w) (hb : (⟨0, ![]⟩ : Shape).BroadcastsInDim ⟨1, ![1]⟩ ![])
    (hc : Shape.Concatenates [(⟨1, ![1]⟩ : Shape), ⟨1, ![1]⟩] ⟨1, ![2]⟩ 0) :
    concatenate ⟨1, ![2]⟩ 0 [⟨⟨1, ![1]⟩, broadcastInDim ⟨1, ![1]⟩ ![] hb (constantI ⟨0, ![]⟩ w u)⟩,
        ⟨⟨1, ![1]⟩, broadcastInDim ⟨1, ![1]⟩ ![] hb (constantI ⟨0, ![]⟩ w v)⟩] hc (ix1 (0 : Fin 2)) = u
    ∧ concatenate ⟨1, ![2]⟩ 0 [⟨⟨1, ![1]⟩, broadcastInDim ⟨1, ![1]⟩ ![] hb (constantI ⟨0, ![]⟩ w u)⟩,
        ⟨⟨1, ![1]⟩, broadcastInDim ⟨1, ![1]⟩ ![] hb (constantI ⟨0, ![]⟩ w v)⟩] hc (ix1 (1 : Fin 2)) = v :=
  ⟨(pair_fst _ _ hc).trans (spreadI_apply u hb _), (pair_snd _ _ hc).trans (spreadI_apply v hb _)⟩

end Idealize.ShloMosaic.StartPair

end
-- ==== Proof.Layer1KAt.lean ====
/-
  The first layer's host-built region operands, read entry by entry from the launch memory.

  Entry (k, j) of the i-th transposed weight block is entry (j, 100·i + k) of the weight matrix; entry (0, j) of the
  bias row is entry j of the bias; and the attention matrix holds head h's coefficient d at row 100·h + d of column h,
  and zero at the other hundred rows of that column.
-/
import proofs.«161084_j22883585753704_2_alg».proof.Proof.Layer1KTerm
import proofs.«161084_j22883585753704_2_alg».proof.Proof.LibSwap2
import proofs.«161084_j22883585753704_2_alg».proof.Proof.LibAxisSpread
import proofs.«161084_j22883585753704_2_alg».proof.Proof.LibRowSpread
import proofs.«161084_j22883585753704_2_alg».proof.Proof.LibColScatter
import proofs.«161084_j22883585753704_2_alg».proof.Proof.LibStartPair

noncomputable section

namespace Cert.Bridge.Layer1

open Idealize.ShloMosaic Idealize.ShloMosaic.TcCoe Idealize.ShloMosaic.ValueIdx Idealize.SL.Sem
open Cert.KernelIdeal Cert.KernelIdeal.Facts₀ Cert.KernelIdeal.Facts

variable (m : (ℓ : Loc nD τ sig) → Buf (Elt Ideal) ℓ) (ρ : Dev nD → PrngReg) (c : Dev nD)

/-- Entry (k, j) of the first transposed weight block. -/
theorem kW0_apply (k : Fin 100) (j : Fin 200) (k' : Fin 300) (hk : k'.val = k.val) :
    kW0 m ρ c (ix2 k j) = (Gen.W0 m ρ c (Proc.devRef .tc main_arg4) : S200x300.Idx → EReal) (ix2 j k') := by
  unfold kW0
  refine (Swap2.transpose_swap_apply (a := 200) (b := 100)
    (extractStridedSlice S200x100 ![0, 0] (Gen.W0 m ρ c (Proc.devRef .tc main_arg4)) slices_S200x300_S200x100_0_0 : S200x100.Idx → EReal)
    transposes_S200x100_S100x200_1_0 k j).trans ?_
  exact Swap2.colBlock_apply (a := 200) (b := 300) (b' := 100) 0 _ _ j k k' (by omega)

/-- Entry (k, j) of the second transposed weight block. -/
theorem kW1_apply (k : Fin 100) (j : Fin 200) (k' : Fin 300) (hk : k'.val = 100 + k.val) :
    kW1 m ρ c (ix2 k j) = (Gen.W0 m ρ c (Proc.devRef .tc main_arg4) : S200x300.Idx → EReal) (ix2 j k') := by
  unfold kW1
  refine (Swap2.transpose_swap_apply (a := 200) (b := 100)
    (extractStridedSlice S200x100 ![0, 100] (Gen.W0 m ρ c (Proc.devRef .tc main_arg4)) slices_S200x300_S200x100_0_100 : S200x100.Idx → EReal)
    transposes_S200x100_S100x200_1_0 k j).trans ?_
  exact Swap2.colBlock_apply (a := 200) (b := 300) (b' := 100) 100 _ _ j k k' hk

/-- Entry (k, j) of the third transposed weight block. -/
theorem kW2_apply (k : Fin 100) (j : Fin 200) (k' : Fin 300) (hk : k'.val = 200 + k.val) :
    kW2 m ρ c (ix2 k j) = (Gen.W0 m ρ c (Proc.devRef .tc main_arg4) : S200x300.Idx → EReal) (ix2 j k') := by
  unfold kW2
  refine (Swap2.transpose_swap_apply (a := 200) (b := 100)
    (extractStridedSlice S200x100 ![0, 200] (Gen.W0 m ρ c (Proc.devRef .tc main_arg4)) slices_S200x300_S200x100_0_200 : S200x100.Idx → EReal)
    transposes_S200x100_S100x200_1_0 k j).trans ?_
  exact Swap2.colBlock_apply (a := 200) (b := 300) (b' := 100) 200 _ _ j k k' hk

/-- Entry (0, j) of the bias row. -/
theorem kBias_apply (j : Fin 200) :
    kBias m ρ c (ix2 (0 : Fin 1) j) = (Gen.W0 m ρ c (Proc.devRef .tc main_arg5) : S200.Idx → EReal) (ix1 j) := by
  unfold kBias
  exact AxisSpread.vecAsRow_apply (b := 200) _ _ j

/-- Head h's coefficient d, as the scatters' updates read it. -/
theorem attRow_apply (h : Fin 2) (d : Fin 100) (hs : S2x100.Slices ![h.val, 0] S1x100) :
    shapeCast S100 (extractStridedSlice S1x100 ![h.val, 0] (kAtt2 m ρ c) hs : S1x100.Idx → EReal) shapeCasts_S1x100_S100 (ix1 d)
      = (Gen.W0 m ρ c (Proc.devRef .tc main_arg6) : S1x2x100.Idx → EReal) (ix3 (0 : Fin 1) h d) := by
  refine (shapeCast_apply _ _ (ix1 d) (ix2 (0 : Fin 1) d) ?_).trans ?_
  · rw [Shape.rowMajor_val_two, Shape.rowMajor_val_one]
    show 0 * 100 + d.val = d.val
    omega
  refine (Swap2.rowBlock_apply (a := 2) (b := 100) h.val _ hs d h rfl).trans ?_
  unfold kAtt2
  refine shapeCast_apply _ _ (ix2 h d) (ix3 (0 : Fin 1) h d) ?_
  rw [Shape.rowMajor_val_three, Shape.rowMajor_val_two]
  show (0 * 2 + h.val) * 100 + d.val = h.val * 100 + d.val
  omega

end Cert.Bridge.Layer1

end
-- ==== Proof.Layer1RefTerm.lean ====
/-
  The first layer's stretch of the reference, as terms of its entry contents.

  The stretch sets the three gathered operands side by side, multiplies the 300000 × 300 result by the transposed
  weight matrix, adds the bias spread over the rows and views the 200 columns as 2 heads of 100 (the projection);
  then it multiplies by the attention coefficients spread over the edges, sums each head's 100 products, applies
  the leaky rectifier and the exponential (the unnormalised attention weights).
-/
import proofs.«161084_j22883585753704_2_alg».proof.Proof.ROps
import proofs.«161084_j22883585753704_2_alg».proof.Proof.LibNary3
import Idealize.ShloMosaic.PureOps.Ideal

set_option maxRecDepth 16384

noncomputable section

namespace Cert.Bridge.Layer1

open Idealize.ShloMosaic Idealize.ShloMosaic.TcCoe Idealize.SL.Sem
open Cert.ReferenceIdeal Cert.ReferenceIdeal.Facts₀ Cert.ReferenceIdeal.Facts

variable (RV : Valuation Cert.ReferenceIdeal.τ Cert.ReferenceIdeal.sig (Elt Ideal))

/-- The joined operands times the transposed weights, plus the bias row spread over the edges: 300000 × 200. -/
def refLin : S300000x200.Idx → EReal :=
  addf (F := Ideal) (φ := .f32)
    (Host.dotGeneral (F := Ideal) (φ₁ := .f32) (φ₂ := .f32) dot_S300000x300_S300x200_S300000x200_1_0_0_1_n_n none
      (concatenate S300000x300 1 [⟨S300000x100, RV (Proc.devRef .tc main_v18)⟩, ⟨S300000x100, RV (Proc.devRef .tc main_v25)⟩, ⟨S300000x100, RV (Proc.devRef .tc main_v32)⟩]
        concatenates_S300000x100_S300000x100_S300000x100_S300000x300_d1 : S300000x300.Idx → EReal)
      (transpose S300x200 [1, 0] (RV (Proc.devRef .tc main_arg4)) transposes_S200x300_S300x200_1_0 : S300x200.Idx → EReal))
    (broadcastInDim S300000x200 ![0, 1] bcast_S1x200_S300000x200_0_1
      (broadcastInDim S1x200 ![1] bcast_S200_S1x200_1 (RV (Proc.devRef .tc main_arg5)) : S1x200.Idx → EReal))

/-- The projection: the same entries viewed as 300000 × 2 × 100. -/
def refProj : S300000x2x100.Idx → EReal :=
  shapeCast S300000x2x100 (refLin RV) shapeCasts_S300000x200_S300000x2x100

/-- The logits, one per edge and head, with a trailing unit axis. -/
def refLogit : S300000x2x1.Idx → EReal :=
  broadcastInDim S300000x2x1 ![0, 1] bcast_S300000x2_S300000x2x1_0_1
    (Host.reduceAdd (F := Ideal) (φ := .f32)
      (mulf (F := Ideal) (φ := .f32)
        (broadcastInDim S300000x2x100 ![0, 1, 2] bcast_S1x2x100_S300000x2x100_0_1_2 (RV (Proc.devRef .tc main_arg6)) : S300000x2x100.Idx → EReal)
        (refProj RV))
      (constant (F := Ideal) S_ .f32 0x00000000#32) reducesTo_S300000x2x100_S300000x2_d2 h_S_ : S300000x2.Idx → EReal)

/-- The exponential of the leaky rectifier of the logits. -/
def refExp : S300000x2x1.Idx → EReal :=
  Host.exp (F := Ideal) (φ := .f32)
    (select
      (cmpf (F := Ideal) (φ := .f32) .oge (refLogit RV) (broadcastInDim S300000x2x1 ![] bcast_S_S300000x2x1 (constant (F := Ideal) S_ .f32 0x00000000#32)))
      (refLogit RV)
      (mulf (F := Ideal) (φ := .f32) (broadcastInDim S300000x2x1 ![] bcast_S_S300000x2x1 (constant (F := Ideal) S_ .f32 0x3C23D70A#32)) (refLogit RV)))

set_option maxHeartbeats 4000000 in
set_option maxRecDepth 100000 in
/-- After the stretch the projection's buffer holds the projection. -/
theorem s1_v39 : StableHlo.after (Cert.ReferenceIdeal.ROps.s1 (F := Ideal)) RV (Proc.devRef .tc main_v39) = refProj RV := by
  unfold refProj refLin
  read_off [Cert.LibNary3.nary3_result']
  rfl

set_option maxHeartbeats 4000000 in
set_option maxRecDepth 100000 in
/-- After the stretch the exponentials' buffer holds the exponentials. -/
theorem s1_v45 : StableHlo.after (Cert.ReferenceIdeal.ROps.s1 (F := Ideal)) RV (Proc.devRef .tc main_v45) = refExp RV := by
  unfold refExp refLogit refProj refLin
  read_off [Cert.LibNary3.nary3_result']
  dsimp only [StableHlo.TRef.toBuf, StableHlo.TRef.ofBuf, StableHlo.TRef.of, cast_eq, id]
  rfl

end Cert.Bridge.Layer1

end
-- ==== Proof.LibConcat3.lean ====
/-
  Three matrices with the same number of rows set side by side, read at an index.

  Entry (e, k) of the joined matrix is the first block's (e, k) for k below its width a, the second block's
  (e, k − a) for the next b columns, and the third block's (e, k − a − b) for the last c.
-/
import Idealize.ShloMosaic.Lib.Pipeline.Value
import Idealize.ShloMosaic.Lib.ValueIdx

noncomputable section

namespace Cert.Concat3

open Idealize.ShloMosaic Idealize.ShloMosaic.ValueIdx

variable {α : Type} {n a b c m : Nat}
  (x₁ : (⟨2, ![n, a]⟩ : Shape).Idx → α) (x₂ : (⟨2, ![n, b]⟩ : Shape).Idx → α) (x₃ : (⟨2, ![n, c]⟩ : Shape).Idx → α)
  (h : Shape.Concatenates [(⟨2, ![n, a]⟩ : Shape), ⟨2, ![n, b]⟩, ⟨2, ![n, c]⟩] ⟨2, ![n, m]⟩ 1)

/-- The first a columns are the first block. -/
theorem left_apply (e : Fin n) (k : Fin a) (hk : k.val < m) :
    concatenate ⟨2, ![n, m]⟩ 1 [⟨⟨2, ![n, a]⟩, x₁⟩, ⟨⟨2, ![n, b]⟩, x₂⟩, ⟨⟨2, ![n, c]⟩, x₃⟩] h (ix2 e ⟨k.val, hk⟩)
      = x₁ (ix2 e k) := by
  refine concatenate_apply_piece (t := ⟨2, ![n, m]⟩) (1 : Fin 2) [⟨⟨2, ![n, a]⟩, x₁⟩, ⟨⟨2, ![n, b]⟩, x₂⟩, ⟨⟨2, ![n, c]⟩, x₃⟩] h _ 0 (by show 0 < 3; omega) _ x₁ rfl rfl 0 rfl (ix2 e k) (fun d hd => ?_) ?_
  · match d with
    | ⟨0, _⟩ => rfl
    | ⟨1, _⟩ => exact absurd rfl hd
  · show 0 + k.val = k.val
    omega

/-- The next b columns are the second block. -/
theorem mid_apply (e : Fin n) (k : Fin b) (hk : a + k.val < m) :
    concatenate ⟨2, ![n, m]⟩ 1 [⟨⟨2, ![n, a]⟩, x₁⟩, ⟨⟨2, ![n, b]⟩, x₂⟩, ⟨⟨2, ![n, c]⟩, x₃⟩] h (ix2 e ⟨a + k.val, hk⟩)
      = x₂ (ix2 e k) := by
  refine concatenate_apply_piece (t := ⟨2, ![n, m]⟩) (1 : Fin 2) [⟨⟨2, ![n, a]⟩, x₁⟩, ⟨⟨2, ![n, b]⟩, x₂⟩, ⟨⟨2, ![n, c]⟩, x₃⟩] h _ 1 (by show 1 < 3; omega) _ x₂ rfl rfl a (by show a + 0 = a; omega) (ix2 e k) (fun d hd => ?_) ?_
  · match d with
    | ⟨0, _⟩ => rfl
    | ⟨1, _⟩ => exact absurd rfl hd
  · rfl

/-- The last c columns are the third block. -/
theorem right_apply (e : Fin n) (k : Fin c) (hk : a + b + k.val < m) :
    concatenate ⟨2, ![n, m]⟩ 1 [⟨⟨2, ![n, a]⟩, x₁⟩, ⟨⟨2, ![n, b]⟩, x₂⟩, ⟨⟨2, ![n, c]⟩, x₃⟩] h (ix2 e ⟨a + b + k.val, hk⟩)
      = x₃ (ix2 e k) := by
  refine concatenate_apply_piece (t := ⟨2, ![n, m]⟩) (1 : Fin 2) [⟨⟨2, ![n, a]⟩, x₁⟩, ⟨⟨2, ![n, b]⟩, x₂⟩, ⟨⟨2, ![n, c]⟩, x₃⟩] h _ 2 (by show 2 < 3; omega) _ x₃ rfl rfl (a + b) (by show a + (b + 0) = a + b; omega) (ix2 e k) (fun d hd => ?_) ?_
  · match d with
    | ⟨0, _⟩ => rfl
    | ⟨1, _⟩ => exact absurd rfl hd
  · rfl

end Cert.Concat3

end
-- ==== Proof.LibBlockSums.lean ====
/-
  Two laws of finite sums over consecutive blocks of positions, in any additive commutative monoid.

  A sum over a + b + c consecutive positions is the sum of the sums over its three consecutive blocks: the
  first a positions, the next b, the last c. And a sum over a + b positions whose terms vanish on one of the two
  blocks is the sum over the other block. Nothing but associativity and commutativity of addition is used, so
  both hold over the extended reals with no finiteness.
-/
import Mathlib.Algebra.BigOperators.Fin

open scoped BigOperators

namespace BlockSums

variable {α : Type*} [AddCommMonoid α]

/-- A sum over a + b + c positions, block by block: position k of the first block is k, of the second a + k, of
    the third a + b + k. -/
theorem sum_three_blocks (a b c : ℕ) (f : Fin (a + b + c) → α) :
    ∑ k, f k
      = (∑ k : Fin a, f (Fin.castAdd c (Fin.castAdd b k)) + ∑ k : Fin b, f (Fin.castAdd c (Fin.natAdd a k)))
        + ∑ k : Fin c, f (Fin.natAdd (a + b) k) := by
  rw [Fin.sum_univ_add, Fin.sum_univ_add]

/-- A sum over a + b positions, block by block. -/
theorem sum_two_blocks (a b : ℕ) (f : Fin (a + b) → α) :
    ∑ k, f k = ∑ k : Fin a, f (Fin.castAdd b k) + ∑ k : Fin b, f (Fin.natAdd a k) :=
  Fin.sum_univ_add f

/-- Terms that vanish on the second block: the sum is the first block's. -/
theorem sum_first_block (a b : ℕ) (f : Fin (a + b) → α) (h : ∀ k : Fin b, f (Fin.natAdd a k) = 0) :
    ∑ k, f k = ∑ k : Fin a, f (Fin.castAdd b k) := by
  rw [Fin.sum_univ_add, Finset.sum_eq_zero (fun k _ => h k), add_zero]

/-- Terms that vanish on the first block: the sum is the second block's. -/
theorem sum_second_block (a b : ℕ) (f : Fin (a + b) → α) (h : ∀ k : Fin a, f (Fin.castAdd b k) = 0) :
    ∑ k, f k = ∑ k : Fin b, f (Fin.natAdd a k) := by
  rw [Fin.sum_univ_add, Finset.sum_eq_zero (fun k _ => h k), zero_add]

/-- The positions the blocks' members stand at. -/
theorem val_first (a b : ℕ) (k : Fin a) : (Fin.castAdd b k).val = k.val := rfl
theorem val_second (a b : ℕ) (k : Fin b) : (Fin.natAdd a k).val = a + k.val := rfl

end BlockSums
-- ==== Proof.LibConcatDot.lean ====
/-
  Three matrices set side by side, then multiplied by one matrix: the product read at an index is three block sums.

  For X = [x₁ | x₂ | x₃] with x₁ : E × a₁, x₂ : E × a₂, x₃ : E × a₃ and R : (a₁ + a₂ + a₃) × N, entry (e, j) of X · R is
  Σ_k x₁(e,k)·R(k,j) + Σ_k x₂(e,k)·R(a₁+k,j) + Σ_k x₃(e,k)·R(a₁+a₂+k,j): the sum over the joined columns split into its
  three consecutive blocks, by associativity and commutativity of addition alone (no finiteness).
-/
import Idealize.ShloMosaic.Lib.ValueIdx
import Idealize.ShloMosaic.PureOps.Ideal.Laws
import proofs.«161084_j22883585753704_2_alg».proof.Proof.LibPlainDot
import proofs.«161084_j22883585753704_2_alg».proof.Proof.LibConcat3
import proofs.«161084_j22883585753704_2_alg».proof.Proof.LibBlockSums

noncomputable section

open scoped BigOperators

namespace Idealize.ShloMosaic.ConcatDot

open Idealize.ShloMosaic Idealize.ShloMosaic.ValueIdx

variable {E a1 a2 a3 N : Nat}

/-- The sum over the joined columns, block by block. -/
theorem sum_concat3 (x1 : (⟨2, ![E, a1]⟩ : Shape).Idx → EReal) (x2 : (⟨2, ![E, a2]⟩ : Shape).Idx → EReal)
    (x3 : (⟨2, ![E, a3]⟩ : Shape).Idx → EReal)
    (hc : Shape.Concatenates [(⟨2, ![E, a1]⟩ : Shape), ⟨2, ![E, a2]⟩, ⟨2, ![E, a3]⟩] ⟨2, ![E, a1 + a2 + a3]⟩ 1)
    (R : (⟨2, ![a1 + a2 + a3, N]⟩ : Shape).Idx → EReal) (e : Fin E) (j : Fin N) :
    (∑ k : Fin (a1 + a2 + a3),
        concatenate ⟨2, ![E, a1 + a2 + a3]⟩ 1 [⟨⟨2, ![E, a1]⟩, x1⟩, ⟨⟨2, ![E, a2]⟩, x2⟩, ⟨⟨2, ![E, a3]⟩, x3⟩] hc (ix2 e k) * R (ix2 k j))
      = (∑ k : Fin a1, x1 (ix2 e k) * R (ix2 (Fin.castAdd a3 (Fin.castAdd a2 k)) j)
          + ∑ k : Fin a2, x2 (ix2 e k) * R (ix2 (Fin.castAdd a3 (Fin.natAdd a1 k)) j))
        + ∑ k : Fin a3, x3 (ix2 e k) * R (ix2 (Fin.natAdd (a1 + a2) k) j) := by
  rw [BlockSums.sum_three_blocks a1 a2 a3]
  refine congrArg₂ (· + ·) (congrArg₂ (· + ·) ?_ ?_) ?_
  · exact Finset.sum_congr rfl fun k _ =>
      congrArg (· * R (ix2 (Fin.castAdd a3 (Fin.castAdd a2 k)) j))
        (Cert.Concat3.left_apply x1 x2 x3 hc e k (by have := k.isLt; omega))
  · exact Finset.sum_congr rfl fun k _ =>
      congrArg (· * R (ix2 (Fin.castAdd a3 (Fin.natAdd a1 k)) j))
        (Cert.Concat3.mid_apply x1 x2 x3 hc e k (by have := k.isLt; omega))
  · exact Finset.sum_congr rfl fun k _ =>
      congrArg (· * R (ix2 (Fin.natAdd (a1 + a2) k) j))
        (Cert.Concat3.right_apply x1 x2 x3 hc e k (by have := k.isLt; omega))

/-- The host's product of the joined matrix with R, at (e, j): the three block sums. The joined width K is a
    number of its own with K = a₁ + a₂ + a₃, so that the law applies to a width written as one numeral. -/
theorem dotGeneral_concat3_apply {K : Nat} (hK : K = a1 + a2 + a3) {φ₂ : FTy} (prec : Option ContractPrecision) (sched : HostSchedule)
    (x1 : (⟨2, ![E, a1]⟩ : Shape).Idx → EReal) (x2 : (⟨2, ![E, a2]⟩ : Shape).Idx → EReal)
    (x3 : (⟨2, ![E, a3]⟩ : Shape).Idx → EReal)
    (hc : Shape.Concatenates [(⟨2, ![E, a1]⟩ : Shape), ⟨2, ![E, a2]⟩, ⟨2, ![E, a3]⟩] ⟨2, ![E, K]⟩ 1)
    (R : FVec Ideal ⟨2, ![K, N]⟩ φ₂) (e : Fin E) (j : Fin N) :
    FloatOps.dotGeneral (F := Ideal) (φ₁ := .f32) (DotDims.plain E K N) prec sched
        (concatenate ⟨2, ![E, K]⟩ 1 [⟨⟨2, ![E, a1]⟩, x1⟩, ⟨⟨2, ![E, a2]⟩, x2⟩, ⟨⟨2, ![E, a3]⟩, x3⟩] hc) R (ix2 e j)
      = (∑ k : Fin a1, x1 (ix2 e k) * R (ix2 (⟨k.val, by have := k.isLt; omega⟩ : Fin K) j)
          + ∑ k : Fin a2, x2 (ix2 e k) * R (ix2 (⟨a1 + k.val, by have := k.isLt; omega⟩ : Fin K) j))
        + ∑ k : Fin a3, x3 (ix2 e k) * R (ix2 (⟨a1 + a2 + k.val, by have := k.isLt; omega⟩ : Fin K) j) := by
  subst hK
  exact (PlainDot.dotGeneral_apply prec sched _ R e j).trans (sum_concat3 x1 x2 x3 hc R e j)

end Idealize.ShloMosaic.ConcatDot

end
-- ==== Proof.LibSplitLast.lean ====
/-
  The last axis of a matrix split in two, read at an index.

  An E × n array with n = H·D viewed as E × H × D keeps its row-major order, so entry (e, h, d) of the view is entry
  (e, h·D + d) of the matrix.
-/
import Idealize.ShloMosaic.Lib.Pipeline.Value
import Idealize.ShloMosaic.Lib.ValueIdx
import Mathlib.Tactic.Ring

noncomputable section

namespace Idealize.ShloMosaic.SplitLast

open Idealize.ShloMosaic Idealize.ShloMosaic.ValueIdx

variable {α : Type} {E H D n : Nat}

/-- The view's entry (e, h, d) is the matrix's entry (e, q) with q = h·D + d. -/
theorem shapeCast_split_apply (hn : n = H * D) (x : (⟨2, ![E, n]⟩ : Shape).Idx → α)
    (hs : (⟨2, ![E, n]⟩ : Shape).ShapeCasts ⟨3, ![E, H, D]⟩) (e : Fin E) (h : Fin H) (d : Fin D) (q : Fin n)
    (hq : q.val = h.val * D + d.val) :
    shapeCast ⟨3, ![E, H, D]⟩ x hs (ix3 e h d) = x (ix2 e q) := by
  refine shapeCast_apply x hs (ix3 e h d) (ix2 e q) ?_
  rw [Shape.rowMajor_val_two, Shape.rowMajor_val_three]
  show e.val * n + q.val = (e.val * H + h.val) * D + d.val
  rw [hq, hn]
  ring

end Idealize.ShloMosaic.SplitLast

end
-- ==== Proof.LibLastAxisSum.lean ====
/-
  The host's sum over the last axis of an E × H × D array of extended reals, read at an index.

  Entry (e, h) of the result is the initial value plus the sum over d of the entries (e, h, d).
-/
import Idealize.ShloMosaic.Lib.ValueIdx
import Idealize.ShloMosaic.PureOps.Ideal.Laws

noncomputable section

open scoped BigOperators

namespace Idealize.ShloMosaic.LastAxisSum

open Idealize.ShloMosaic Idealize.ShloMosaic.ValueIdx

variable {E H D : Nat} {φ : FTy}

/-- The reduced index (e, h) with d put back on the last axis is (e, h, d). -/
theorem lift_last (hr : (⟨3, ![E, H, D]⟩ : Shape).Reduces [2] ⟨2, ![E, H]⟩) (e : Fin E) (h : Fin H) (d : Fin D) :
    hr.lift (ix2 e h) d = ix3 e h d := by
  funext ax
  match ax with
  | ⟨0, _⟩ => exact Fin.ext rfl
  | ⟨1, _⟩ => exact Fin.ext rfl
  | ⟨2, _⟩ => exact Fin.ext rfl

/-- The host's add-reduction over the last axis, from a rank-0 initial value, at (e, h). -/
theorem hostSumLast3_apply (h' : (⟨3, ![E, H, D]⟩ : Shape).ReducesTo [2] ⟨2, ![E, H]⟩)
    (hr : (⟨3, ![E, H, D]⟩ : Shape).Reduces [2] ⟨2, ![E, H]⟩)
    (x : FVec Ideal ⟨3, ![E, H, D]⟩ φ) (init : (⟨0, ![]⟩ : Shape).Idx → Ideal φ) (hu : 0 < (⟨0, ![]⟩ : Shape).numel)
    (e : Fin E) (h : Fin H) :
    Host.reduceAdd (F := Ideal) x init h' hu (ix2 e h) = init ix0 + ∑ d : Fin D, x (ix3 e h d) := by
  unfold Host.reduceAdd
  refine (Ideal.hostReduceAdd_single h' hr x _ (ix2 e h)).trans ?_
  rw [eq_ix0 (Shape.Idx.first hu)]
  exact congrArg (init ix0 + ·) (Finset.sum_congr rfl fun d _ => congrArg x (lift_last hr e h d))

end Idealize.ShloMosaic.LastAxisSum

end
-- ==== Proof.Layer1RefAt.lean ====
/-
  The first layer's stretch of the reference, read entry by entry.

  Entry (e, j) of the linear map is the sum over the 300 joined columns of the joined operands against row j of the
  weight matrix — the three consecutive blocks of a hundred — plus entry j of the bias; the projection's entry
  (e, h, d) is the linear map's entry (e, 100·h + d); the logit of edge e and head h is the sum over d of the attention
  coefficient (h, d) times that projection entry; and the attention weight is the activation of the logit.
-/
import proofs.«161084_j22883585753704_2_alg».proof.Proof.Layer1RefTerm
import proofs.«161084_j22883585753704_2_alg».proof.Proof.Layer1Body
import proofs.«161084_j22883585753704_2_alg».proof.Proof.LibConcatDot
import proofs.«161084_j22883585753704_2_alg».proof.Proof.LibSwap2
import proofs.«161084_j22883585753704_2_alg».proof.Proof.LibRowSpread
import proofs.«161084_j22883585753704_2_alg».proof.Proof.LibAxisSpread
import proofs.«161084_j22883585753704_2_alg».proof.Proof.LibSplitLast
import proofs.«161084_j22883585753704_2_alg».proof.Proof.LibLastAxisSum

noncomputable section

open scoped BigOperators

namespace Cert.Bridge.Layer1

open Idealize.ShloMosaic Idealize.ShloMosaic.TcCoe Idealize.ShloMosaic.ValueIdx Idealize.SL.Sem
open Cert.ReferenceIdeal Cert.ReferenceIdeal.Facts₀ Cert.ReferenceIdeal.Facts

variable (RV : Valuation Cert.ReferenceIdeal.τ Cert.ReferenceIdeal.sig (Elt Ideal))

/-- The linear map's entry (e, j), from the operands, the weight matrix and the bias. -/
def linAt (A B C : (⟨2, ![300000, 100]⟩ : Shape).Idx → EReal) (W : (⟨2, ![200, 300]⟩ : Shape).Idx → EReal)
    (b : (⟨1, ![200]⟩ : Shape).Idx → EReal) (e : Fin 300000) (j : Fin 200) : EReal :=
  ((∑ k : Fin 100, A (ix2 e k) * W (ix2 j (⟨k.val, by have := k.isLt; omega⟩ : Fin 300))
      + ∑ k : Fin 100, B (ix2 e k) * W (ix2 j (⟨100 + k.val, by have := k.isLt; omega⟩ : Fin 300)))
    + ∑ k : Fin 100, C (ix2 e k) * W (ix2 j (⟨100 + 100 + k.val, by have := k.isLt; omega⟩ : Fin 300)))
  + b (ix1 j)

/-- The logit's sum for head h, from the attention coefficients and a row of projection entries. -/
def logitAt (att : (⟨3, ![1, 2, 100]⟩ : Shape).Idx → EReal) (p : Fin 100 → EReal) (h : Fin 2) : EReal :=
  Ideal.ofBits .f32 0x00000000#32 + ∑ d : Fin 100, att (ix3 (0 : Fin 1) h d) * p d

theorem dotR_eq : dot_S300000x300_S300x200_S300000x200_1_0_0_1_n_n = DotDims.plain 300000 300 200 := rfl

/-- The linear map at (e, j): the three block sums against row j of the weights, plus the bias. -/
theorem refLin_apply (e : Fin 300000) (j : Fin 200) :
    refLin RV (ix2 e j)
      = linAt (RV (Proc.devRef .tc main_v18)) (RV (Proc.devRef .tc main_v25)) (RV (Proc.devRef .tc main_v32))
          (RV (Proc.devRef .tc main_arg4)) (RV (Proc.devRef .tc main_arg5)) e j := by
  unfold refLin linAt
  simp only [addf_apply, dotR_eq]
  refine congrArg₂ (· + ·) ?_ ?_
  · refine (ConcatDot.dotGeneral_concat3_apply (E := 300000) (a1 := 100) (a2 := 100) (a3 := 100) (N := 200) (K := 300) rfl none .single _ _ _ _ _ e j).trans ?_
    refine congrArg₂ (· + ·) (congrArg₂ (· + ·) ?_ ?_) ?_
    · exact Finset.sum_congr rfl fun k _ => congrArg₂ (HMul.hMul : EReal → EReal → EReal) rfl (Swap2.transpose_swap_apply (a := 200) (b := 300) _ _ _ j)
    · exact Finset.sum_congr rfl fun k _ => congrArg₂ (HMul.hMul : EReal → EReal → EReal) rfl (Swap2.transpose_swap_apply (a := 200) (b := 300) _ _ _ j)
    · exact Finset.sum_congr rfl fun k _ => congrArg₂ (HMul.hMul : EReal → EReal → EReal) rfl (Swap2.transpose_swap_apply (a := 200) (b := 300) _ _ _ j)
  · exact (RowSpread.rowInDim2_apply (a := 300000) (b := 200) _ _ e j).trans (AxisSpread.vecAsRow_apply (b := 200) _ _ j)

/-- The projection at (e, h, d) is the linear map at (e, 100·h + d). -/
theorem refProj_apply (e : Fin 300000) (h : Fin 2) (d : Fin 100) (q : Fin 200) (hq : q.val = h.val * 100 + d.val) :
    refProj RV (ix3 e h d) = refLin RV (ix2 e q) := by
  unfold refProj
  exact SplitLast.shapeCast_split_apply (E := 300000) (H := 2) (D := 100) (n := 200) rfl _ _ e h d q hq

/-- The logit of edge e and head h. -/
theorem refLogit_apply (e : Fin 300000) (h : Fin 2) (z : Fin 1) :
    refLogit RV (ix3 e h z)
      = logitAt (RV (Proc.devRef .tc main_arg6)) (fun d => refProj RV (ix3 e h d)) h := by
  unfold refLogit logitAt
  refine (AxisSpread.trailUnit3_apply (E := 300000) (H := 2) _ _ e h z).trans ?_
  refine (LastAxisSum.hostSumLast3_apply (E := 300000) (H := 2) (D := 100) (φ := .f32) _ (by decide) _ _ _ e h).trans ?_
  refine congrArg₂ (· + ·) rfl (Finset.sum_congr rfl fun d _ => ?_)
  exact congrArg₂ (HMul.hMul : EReal → EReal → EReal) (AxisSpread.leadSpread3_apply (E := 300000) (H := 2) (D := 100) _ _ e h d) rfl

/-- The attention weight is the activation of the logit. -/
theorem refExp_apply (e : Fin 300000) (h : Fin 2) (z : Fin 1) :
    refExp RV (ix3 e h z) = act (refLogit RV (ix3 e h z)) := rfl

end Cert.Bridge.Layer1

end
-- ==== Proof.LibBlockDiag.lean ====
/-
  A sum against a block-diagonal matrix with two diagonal blocks.

  Let M be a column over D + D positions that carries a vector a on one of the two blocks of D consecutive
  positions and zeros on the other. Then the sum over all D + D positions of c j · M j is the sum over that
  one block of c · a: the other block's terms are c j · 0 = 0. Only x · 0 = 0 (a hypothesis, so that the law is stated where multiplication need not distribute) and the splitting of a sum over
  consecutive blocks are used, so the law holds over the extended reals with no finiteness.
-/
import Mathlib.Algebra.BigOperators.Fin
import proofs.«161084_j22883585753704_2_alg».proof.Proof.LibBlockSums

open scoped BigOperators

namespace BlockDiag

variable {α : Type*} [AddCommMonoid α] [Mul α]

/-- The column carries a on the first block and zeros on the second. -/
theorem sum_mul_fst (hmz : ∀ x : α, x * 0 = 0) (D : ℕ) (c M : Fin (D + D) → α) (a : Fin D → α)
    (hon : ∀ d : Fin D, M (Fin.castAdd D d) = a d) (hoff : ∀ d : Fin D, M (Fin.natAdd D d) = 0) :
    ∑ j, c j * M j = ∑ d : Fin D, c (Fin.castAdd D d) * a d := by
  rw [BlockSums.sum_first_block D D (fun j => c j * M j) (fun k => by rw [hoff, hmz])]
  exact Finset.sum_congr rfl fun d _ => by rw [hon]

/-- The column carries zeros on the first block and a on the second. -/
theorem sum_mul_snd (hmz : ∀ x : α, x * 0 = 0) (D : ℕ) (c M : Fin (D + D) → α) (a : Fin D → α)
    (hon : ∀ d : Fin D, M (Fin.natAdd D d) = a d) (hoff : ∀ d : Fin D, M (Fin.castAdd D d) = 0) :
    ∑ j, c j * M j = ∑ d : Fin D, c (Fin.natAdd D d) * a d := by
  rw [BlockSums.sum_second_block D D (fun j => c j * M j) (fun k => by rw [hoff, hmz])]
  exact Finset.sum_congr rfl fun d _ => by rw [hon]

end BlockDiag
-- ==== Proof.Layer1Join.lean ====
/-
  The first layer: the reference's stretch and the region agree.

  Both sides compute, for every edge e, the projection
    c (e, q) = Σ_k [A | B | C] (e, k) · W (q, k) + b (q)
  — the reference as one sum over the 300 joined columns, the region as the three sums over the blocks of a hundred,
  added in order: a sum over consecutive blocks, reassociated — and the attention weights exp (leaky (logit)), where
  the reference's logit of head h is Σ_d att (h, d) · c (e, 100·h + d) and the region's is the sum over all 200
  columns against a matrix that holds att (h, ·) on rows 100·h … 100·h + 99 of column h and zeros elsewhere: the
  extra terms are c · 0 = 0.
-/
import proofs.«161084_j22883585753704_2_alg».proof.Proof.Layer1Array
import proofs.«161084_j22883585753704_2_alg».proof.Proof.Layer1KAt
import proofs.«161084_j22883585753704_2_alg».proof.Proof.Layer1RefAt
import proofs.«161084_j22883585753704_2_alg».proof.Proof.LibBlockDiag

noncomputable section

open scoped BigOperators

namespace Cert.Bridge.Layer1

open Idealize.ShloMosaic Idealize.ShloMosaic.TcCoe Idealize.ShloMosaic.ValueIdx Idealize.SL.Sem
open Cert.KernelIdeal

variable (m : (ℓ : Loc nD τ sig) → Buf (Elt Ideal) ℓ) (ρ : Dev nD → PrngReg) (c : Dev nD)
  (RV : Valuation Cert.ReferenceIdeal.τ Cert.ReferenceIdeal.sig (Elt Ideal))

/-- The reference's linear map is the region's projection function of the region's operands. -/
theorem lin_eq
    (h18 : RV (Proc.devRef .tc Cert.ReferenceIdeal.main_v18) = Gen.W1 m ρ c (Proc.devRef .tc main_v20))
    (h25 : RV (Proc.devRef .tc Cert.ReferenceIdeal.main_v25) = Gen.W1 m ρ c (Proc.devRef .tc main_v27))
    (h32 : RV (Proc.devRef .tc Cert.ReferenceIdeal.main_v32) = Gen.W1 m ρ c (Proc.devRef .tc main_v34))
    (h4 : RV (Proc.devRef .tc Cert.ReferenceIdeal.main_arg4) = m ((c : Thread nD τ).loc main_arg4))
    (h5 : RV (Proc.devRef .tc Cert.ReferenceIdeal.main_arg5) = m ((c : Thread nD τ).loc main_arg5)) :
    refLin RV = projArr (Gen.W1 m ρ c (Proc.devRef .tc main_v20)) (Gen.W1 m ρ c (Proc.devRef .tc main_v27))
      (Gen.W1 m ρ c (Proc.devRef .tc main_v34)) (kW0 m ρ c) (kW1 m ρ c) (kW2 m ρ c) (kBias m ρ c) := by
  funext i
  obtain ⟨e, j, rfl⟩ : ∃ (e : Fin 300000) (j : Fin 200), i = ix2 e j := ⟨i 0, i 1, eq_ix2 i⟩
  rw [refLin_apply]
  show _ = proj _ _ _ _ _ _ _ e j
  unfold linAt proj
  rw [h18, h25, h32, h4, h5]
  simp only [fun k : Fin 100 => kW0_apply m ρ c k j ⟨k.val, by have := k.isLt; omega⟩ rfl,
    fun k : Fin 100 => kW1_apply m ρ c k j ⟨100 + k.val, by have := k.isLt; omega⟩ rfl,
    fun k : Fin 100 => kW2_apply m ρ c k j ⟨100 + 100 + k.val, by have := k.isLt; omega⟩ (by show 100 + 100 + k.val = 200 + k.val; omega),
    kBias_apply m ρ c j]

open Cert.KernelIdeal.Facts₀ Cert.KernelIdeal.Facts in
set_option maxRecDepth 100000 in
/-- After the host operations that follow the region, the reshaped projection's buffer holds the region's first
    result viewed as 300000 × 2 × 100. -/
theorem ops1_v72 (V : Valuation τ sig (Elt Ideal)) :
    StableHlo.after Gen.hostOps1 V (Proc.devRef .tc main_v72)
      = shapeCast S300000x2x100 (V (Proc.devRef .tc main_v59_0)) shapeCasts_S300000x200_S300000x2x100 := by
  after_results_simp <;> rfl

open Cert.KernelIdeal.Facts₀ Cert.KernelIdeal.Facts in
set_option maxRecDepth 100000 in
/-- And the attention weights' buffer holds the region's second result with a trailing unit axis. -/
theorem ops1_v60 (V : Valuation τ sig (Elt Ideal)) :
    StableHlo.after Gen.hostOps1 V (Proc.devRef .tc main_v60)
      = broadcastInDim S300000x2x1 ![0, 1] bcast_S300000x2_S300000x2x1_0_1 (V (Proc.devRef .tc main_v59_1)) := by
  after_results_simp <;> rfl

/-- The region's first result array, from its entry contents. -/
theorem W2_v59_0 : Gen.W2 m ρ c (Proc.devRef .tc main_v59_0)
    = projArr (Gen.W1 m ρ c (Proc.devRef .tc main_v20)) (Gen.W1 m ρ c (Proc.devRef .tc main_v27))
        (Gen.W1 m ρ c (Proc.devRef .tc main_v34)) (Gen.W1 m ρ c (Proc.devRef .tc main_v39)) (Gen.W1 m ρ c (Proc.devRef .tc main_v41))
        (Gen.W1 m ρ c (Proc.devRef .tc main_v43)) (Gen.W1 m ρ c (Proc.devRef .tc main_v58)) :=
  (Gen.W2_arr m ρ c 8).trans (final8 (Gen.V1 m ρ) c)

/-- The region's second result array, from its entry contents. -/
theorem W2_v59_1 : Gen.W2 m ρ c (Proc.devRef .tc main_v59_1)
    = attnArr (Gen.W1 m ρ c (Proc.devRef .tc main_v20)) (Gen.W1 m ρ c (Proc.devRef .tc main_v27))
        (Gen.W1 m ρ c (Proc.devRef .tc main_v34)) (Gen.W1 m ρ c (Proc.devRef .tc main_v39)) (Gen.W1 m ρ c (Proc.devRef .tc main_v41))
        (Gen.W1 m ρ c (Proc.devRef .tc main_v43)) (Gen.W1 m ρ c (Proc.devRef .tc main_v58)) (Gen.W1 m ρ c (Proc.devRef .tc main_v57)) :=
  (Gen.W2_arr m ρ c 9).trans (final9 (Gen.V1 m ρ) c)

/-- The projection half: the reference's reshaped projection is the region's. -/
theorem cp1_proj
    (h18 : RV (Proc.devRef .tc Cert.ReferenceIdeal.main_v18) = Gen.W1 m ρ c (Proc.devRef .tc main_v20))
    (h25 : RV (Proc.devRef .tc Cert.ReferenceIdeal.main_v25) = Gen.W1 m ρ c (Proc.devRef .tc main_v27))
    (h32 : RV (Proc.devRef .tc Cert.ReferenceIdeal.main_v32) = Gen.W1 m ρ c (Proc.devRef .tc main_v34))
    (h4 : RV (Proc.devRef .tc Cert.ReferenceIdeal.main_arg4) = m ((c : Thread nD τ).loc main_arg4))
    (h5 : RV (Proc.devRef .tc Cert.ReferenceIdeal.main_arg5) = m ((c : Thread nD τ).loc main_arg5)) :
    StableHlo.after (Cert.ReferenceIdeal.ROps.s1 (F := Ideal)) RV (Proc.devRef .tc Cert.ReferenceIdeal.main_v39)
      = Gen.W3 m ρ c (Proc.devRef .tc main_v72) := by
  rw [s1_v39]
  show _ = StableHlo.after Gen.hostOps1 (Gen.W2 m ρ c) (Proc.devRef .tc main_v72)
  rw [ops1_v72, W2_v59_0, W1_v39, W1_v41, W1_v43, W1_v58]
  unfold refProj
  rw [lin_eq m ρ c RV h18 h25 h32 h4 h5]

/-- The logit law at one edge: a row P of 200 projection entries against column h of a matrix that holds head h's
    hundred coefficients on rows 100·h … 100·h + 99 and zeros on the other hundred rows is the sum over the head's
    hundred positions only. -/
theorem logit_eq (att : (⟨3, ![1, 2, 100]⟩ : Shape).Idx → EReal) (M : (⟨2, ![200, 2]⟩ : Shape).Idx → EReal)
    (hon : ∀ (h : Fin 2) (d : Fin 100) (p : Fin 200), p.val = h.val * 100 + d.val → M (ix2 p h) = att (ix3 (0 : Fin 1) h d))
    (hoff : ∀ (h : Fin 2) (p : Fin 200), (p.val < h.val * 100 ∨ (h.val + 1) * 100 ≤ p.val) → M (ix2 p h) = 0)
    (P : Fin 200 → EReal) (h : Fin 2) :
    ∑ j : Fin 200, P j * M (ix2 j h)
      = ∑ d : Fin 100, att (ix3 (0 : Fin 1) h d) * P ⟨h.val * 100 + d.val, by have := h.isLt; have := d.isLt; omega⟩ := by
  match h with
  | ⟨0, _⟩ =>
    refine (BlockDiag.sum_mul_fst (α := EReal) mul_zero 100 (fun j : Fin (100 + 100) => P j)
      (fun j : Fin (100 + 100) => M (ix2 (j : Fin 200) (0 : Fin 2))) (fun d => att (ix3 (0 : Fin 1) (0 : Fin 2) d))
      (fun d => hon 0 d (Fin.castAdd 100 d) (by show d.val = 0 * 100 + d.val; omega))
      (fun d => hoff 0 (Fin.natAdd 100 d) (Or.inr (by show (0 + 1) * 100 ≤ 100 + d.val; omega)))).trans ?_
    refine Finset.sum_congr rfl fun d _ => ?_
    rw [mul_comm]
    exact congrArg₂ (HMul.hMul : EReal → EReal → EReal) rfl (congrArg P (Fin.ext (by show d.val = 0 * 100 + d.val; omega)))
  | ⟨1, _⟩ =>
    refine (BlockDiag.sum_mul_snd (α := EReal) mul_zero 100 (fun j : Fin (100 + 100) => P j)
      (fun j : Fin (100 + 100) => M (ix2 (j : Fin 200) (1 : Fin 2))) (fun d => att (ix3 (0 : Fin 1) (1 : Fin 2) d))
      (fun d => hon 1 d (Fin.natAdd 100 d) (by show 100 + d.val = 1 * 100 + d.val; omega))
      (fun d => hoff 1 (Fin.castAdd 100 d) (Or.inl (by show d.val < 1 * 100; have := d.isLt; omega)))).trans ?_
    refine Finset.sum_congr rfl fun d _ => ?_
    rw [mul_comm]
    exact congrArg₂ (HMul.hMul : EReal → EReal → EReal) rfl (congrArg P (Fin.ext (by show 100 + d.val = 1 * 100 + d.val; omega)))

/-- The attention-weight half, given the attention matrix's entries: the reference's exponentials are the region's. -/
theorem cp1_exp_of
    (hon : ∀ (h : Fin 2) (d : Fin 100) (p : Fin 200), p.val = h.val * 100 + d.val →
      kM m ρ c (ix2 p h) = (m ((c : Thread nD τ).loc main_arg6) : S1x2x100.Idx → EReal) (ix3 (0 : Fin 1) h d))
    (hoff : ∀ (h : Fin 2) (p : Fin 200), (p.val < h.val * 100 ∨ (h.val + 1) * 100 ≤ p.val) → kM m ρ c (ix2 p h) = 0)
    (h18 : RV (Proc.devRef .tc Cert.ReferenceIdeal.main_v18) = Gen.W1 m ρ c (Proc.devRef .tc main_v20))
    (h25 : RV (Proc.devRef .tc Cert.ReferenceIdeal.main_v25) = Gen.W1 m ρ c (Proc.devRef .tc main_v27))
    (h32 : RV (Proc.devRef .tc Cert.ReferenceIdeal.main_v32) = Gen.W1 m ρ c (Proc.devRef .tc main_v34))
    (h4 : RV (Proc.devRef .tc Cert.ReferenceIdeal.main_arg4) = m ((c : Thread nD τ).loc main_arg4))
    (h5 : RV (Proc.devRef .tc Cert.ReferenceIdeal.main_arg5) = m ((c : Thread nD τ).loc main_arg5))
    (h6 : RV (Proc.devRef .tc Cert.ReferenceIdeal.main_arg6) = m ((c : Thread nD τ).loc main_arg6)) :
    StableHlo.after (Cert.ReferenceIdeal.ROps.s1 (F := Ideal)) RV (Proc.devRef .tc Cert.ReferenceIdeal.main_v45)
      = Gen.W3 m ρ c (Proc.devRef .tc main_v60) := by
  rw [s1_v45]
  show _ = StableHlo.after Gen.hostOps1 (Gen.W2 m ρ c) (Proc.devRef .tc main_v60)
  rw [ops1_v60, W2_v59_1, W1_v39, W1_v41, W1_v43, W1_v58, W1_v57]
  funext i
  obtain ⟨e, h, z, rfl⟩ : ∃ (e : Fin 300000) (h : Fin 2) (z : Fin 1), i = ix3 e h z := ⟨i 0, i 1, i 2, eq_ix3 i⟩
  rw [refExp_apply, refLogit_apply]
  refine Eq.trans ?_ (AxisSpread.trailUnit3_apply (E := 300000) (H := 2) _ _ e h z).symm
  show act _ = attn _ _ _ _ _ _ _ _ e h
  unfold attn logitAt
  refine congrArg act ?_
  rw [Ideal.ofBits_zero_f32, zero_add, logit_eq _ (kM m ρ c) hon hoff _ h, h6]
  refine Finset.sum_congr rfl fun d _ => ?_
  refine congrArg₂ (HMul.hMul : EReal → EReal → EReal) rfl ?_
  show refProj RV (ix3 e h d) = _
  rw [refProj_apply RV e h d ⟨h.val * 100 + d.val, by have := h.isLt; have := d.isLt; omega⟩ rfl,
    lin_eq m ρ c RV h18 h25 h32 h4 h5]
  rfl

end Cert.Bridge.Layer1

end
-- ==== Proof.Layer1OperandsM.lean ====
/-
  The first layer's attention matrix, entry by entry.

  The 200 × 2 matrix starts as zeros; head 0's hundred coefficients are written down rows 0 … 99 of column 0, then
  head 1's down rows 100 … 199 of column 1. Each write lands its entry l at row (start + l) of its column and touches
  nothing else. So column h holds head h's coefficient d at row 100·h + d, and zero at its other hundred rows.
-/
import proofs.«161084_j22883585753704_2_alg».proof.Proof.Layer1KAt
import proofs.«161084_j22883585753704_2_alg».proof.Proof.LibColScatter
import proofs.«161084_j22883585753704_2_alg».proof.Proof.LibStartPair
import proofs.«161084_j22883585753704_2_alg».proof.Proof.LibRowSpread
import Idealize.ShloMosaic.PureOps.Ideal.Laws

noncomputable section

namespace Cert.Bridge.Layer1

open Idealize.ShloMosaic Idealize.ShloMosaic.TcCoe Idealize.ShloMosaic.ValueIdx Idealize.SL.Sem
open Cert.KernelIdeal Cert.KernelIdeal.Facts₀ Cert.KernelIdeal.Facts

variable (m : (ℓ : Loc nD τ sig) → Buf (Elt Ideal) ℓ) (ρ : Dev nD → PrngReg) (c : Dev nD)

/-- A start pair (r, q) as the two-word index array the host builds. -/
def startPair (r q : BitVec 32) : S2.Idx → BitVec 32 :=
  concatenate S2 0 [⟨S1, broadcastInDim S1 ![] bcast_S_S1 (constantI S_ 32 r)⟩, ⟨S1, broadcastInDim S1 ![] bcast_S_S1 (constantI S_ 32 q)⟩]
    concatenates_S1_S1_S2_d0

/-- Head h's hundred coefficients as a vector: row h of the 2 × 100 coefficient array. -/
def headRow (h : Nat) (hs : S2x100.Slices ![h, 0] S1x100) : S100.Idx → EReal :=
  shapeCast S100 (extractStridedSlice S1x100 ![h, 0] (kAtt2 m ρ c) hs : S1x100.Idx → EReal) shapeCasts_S1x100_S100

/-- The zeros the matrix starts from. -/
def zeroMat : S200x2.Idx → EReal :=
  broadcastInDim S200x2 ![] bcast_S_S200x2 (constant (F := Ideal) S_ .f32 0x00000000#32)

/-- The two writes' dimension numbers: a vector down one column. -/
theorem scatterDims_eq : scatter_S200x2_S2_S100_0_1_01_0 = ColScatter.colDims 200 2 100 scatter_S200x2_S2_S100_0_1_01_0_wf := rfl

/-- The matrix after the first write. -/
theorem kM0_eq : kM0 m ρ c
    = Host.scatter (ColScatter.colDims 200 2 100 scatter_S200x2_S2_S100_0_1_01_0_wf) (fun _ b => b) zeroMat
        (startPair 0#32 0#32) (headRow m ρ c 0 slices_S2x100_S1x100_0_0) := by
  unfold kM0 zeroMat startPair headRow
  rw [scatterDims_eq]

/-- The matrix is the second write into the first write's result. -/
theorem kM_eq : kM m ρ c
    = Host.scatter (ColScatter.colDims 200 2 100 scatter_S200x2_S2_S100_0_1_01_0_wf) (fun _ b => b) (kM0 m ρ c)
        (startPair 100#32 1#32) (headRow m ρ c 1 slices_S2x100_S1x100_1_0) := by
  unfold kM startPair headRow
  rw [scatterDims_eq]

/-- The components of a start pair. -/
theorem startPair_zero (r q : BitVec 32) : startPair r q (ix1 (0 : Fin 2)) = r := by
  unfold startPair
  exact (StartPair.startPair_apply r q bcast_S_S1 concatenates_S1_S1_S2_d0).1
theorem startPair_one (r q : BitVec 32) : startPair r q (ix1 (1 : Fin 2)) = q := by
  unfold startPair
  exact (StartPair.startPair_apply r q bcast_S_S1 concatenates_S1_S1_S2_d0).2

/-- The two start pairs read as integers. -/
theorem sp00_0 : (startPair 0#32 0#32 (ix1 (0 : Fin 2))).toInt = ((0 : Nat) : Int) := by rw [startPair_zero]; rfl
theorem sp00_1 : (startPair 0#32 0#32 (ix1 (1 : Fin 2))).toInt = ((0 : Nat) : Int) := by rw [startPair_one]; rfl
theorem sp1001_0 : (startPair 100#32 1#32 (ix1 (0 : Fin 2))).toInt = ((100 : Nat) : Int) := by rw [startPair_zero]; rfl
theorem sp1001_1 : (startPair 100#32 1#32 (ix1 (1 : Fin 2))).toInt = ((1 : Nat) : Int) := by rw [startPair_one]; rfl

/-- The zeros read zero. -/
theorem zeroMat_apply (i : S200x2.Idx) : zeroMat i = (0 : EReal) := by
  unfold zeroMat
  exact (RowSpread.scalarInDim_apply _ _ i).trans Ideal.ofBits_zero_f32

/-- Head 0's coefficient d. -/
theorem headRow0_apply (d : Fin 100) :
    headRow m ρ c 0 slices_S2x100_S1x100_0_0 (ix1 d)
      = (Gen.W0 m ρ c (Proc.devRef .tc main_arg6) : S1x2x100.Idx → EReal) (ix3 (0 : Fin 1) (0 : Fin 2) d) := by
  unfold headRow
  exact attRow_apply m ρ c (0 : Fin 2) d slices_S2x100_S1x100_0_0

/-- Head 1's coefficient d. -/
theorem headRow1_apply (d : Fin 100) :
    headRow m ρ c 1 slices_S2x100_S1x100_1_0 (ix1 d)
      = (Gen.W0 m ρ c (Proc.devRef .tc main_arg6) : S1x2x100.Idx → EReal) (ix3 (0 : Fin 1) (1 : Fin 2) d) := by
  unfold headRow
  exact attRow_apply m ρ c (1 : Fin 2) d slices_S2x100_S1x100_1_0

/-- After the first write: row d of column 0 holds head 0's coefficient d. -/
theorem kM0_hit (d : Fin 100) (p : Fin 200) (hp : p.val = d.val) :
    kM0 m ρ c (ix2 p (0 : Fin 2)) = (Gen.W0 m ρ c (Proc.devRef .tc main_arg6) : S1x2x100.Idx → EReal) (ix3 (0 : Fin 1) (0 : Fin 2) d) := by
  have hi : (ix2 p (0 : Fin 2) : S200x2.Idx) = ColScatter.colIdx (a := 200) (c := 2) (b := 100) 0 0 (by decide) (by decide) (ix1 d) := by
    funext a
    match a with
    | ⟨0, _⟩ => exact Fin.ext (by show p.val = 0 + d.val; omega)
    | ⟨1, _⟩ => rfl
  rw [hi, kM0_eq]
  refine (ColScatter.scatter_col_hit (a := 200) (c := 2) (b := 100) scatter_S200x2_S2_S100_0_1_01_0_wf 0 0 (by decide) (by decide)
    zeroMat (startPair 0#32 0#32) sp00_0 sp00_1 (headRow m ρ c 0 slices_S2x100_S1x100_0_0) d).trans ?_
  exact headRow0_apply m ρ c d

/-- After the first write: everything outside rows 0 … 99 of column 0 is zero. -/
theorem kM0_miss (p : Fin 200) (q : Fin 2) (hpq : q.val ≠ 0 ∨ p.val < 0 ∨ 0 + 100 ≤ p.val) :
    kM0 m ρ c (ix2 p q) = (0 : EReal) := by
  rw [kM0_eq]
  refine (ColScatter.scatter_col_miss (a := 200) (c := 2) (b := 100) scatter_S200x2_S2_S100_0_1_01_0_wf 0 0 (by decide) (by decide)
    zeroMat (startPair 0#32 0#32) sp00_0 sp00_1 (headRow m ρ c 0 slices_S2x100_S1x100_0_0) p q hpq).trans ?_
  exact zeroMat_apply _

/-- Column 0, row d < 100: head 0's coefficient d. -/
theorem kM_on0 (d : Fin 100) (p : Fin 200) (hp : p.val = d.val) :
    kM m ρ c (ix2 p (0 : Fin 2)) = (Gen.W0 m ρ c (Proc.devRef .tc main_arg6) : S1x2x100.Idx → EReal) (ix3 (0 : Fin 1) (0 : Fin 2) d) := by
  rw [kM_eq]
  refine (ColScatter.scatter_col_miss (a := 200) (c := 2) (b := 100) scatter_S200x2_S2_S100_0_1_01_0_wf 100 1 (by decide) (by decide)
    (kM0 m ρ c) (startPair 100#32 1#32) sp1001_0 sp1001_1 (headRow m ρ c 1 slices_S2x100_S1x100_1_0) p (0 : Fin 2) (Or.inl (by decide))).trans ?_
  exact kM0_hit m ρ c d p hp

/-- Column 1, row 100 + d: head 1's coefficient d. -/
theorem kM_on1 (d : Fin 100) (p : Fin 200) (hp : p.val = 100 + d.val) :
    kM m ρ c (ix2 p (1 : Fin 2)) = (Gen.W0 m ρ c (Proc.devRef .tc main_arg6) : S1x2x100.Idx → EReal) (ix3 (0 : Fin 1) (1 : Fin 2) d) := by
  have hi : (ix2 p (1 : Fin 2) : S200x2.Idx) = ColScatter.colIdx (a := 200) (c := 2) (b := 100) 100 1 (by decide) (by decide) (ix1 d) := by
    funext a
    match a with
    | ⟨0, _⟩ => exact Fin.ext hp
    | ⟨1, _⟩ => rfl
  rw [kM_eq, hi]
  refine (ColScatter.scatter_col_hit (a := 200) (c := 2) (b := 100) scatter_S200x2_S2_S100_0_1_01_0_wf 100 1 (by decide) (by decide)
    (kM0 m ρ c) (startPair 100#32 1#32) sp1001_0 sp1001_1 (headRow m ρ c 1 slices_S2x100_S1x100_1_0) d).trans ?_
  exact headRow1_apply m ρ c d

/-- Column 0, rows 100 … 199: zero. -/
theorem kM_off0 (p : Fin 200) (hp : 100 ≤ p.val) : kM m ρ c (ix2 p (0 : Fin 2)) = (0 : EReal) := by
  rw [kM_eq]
  refine (ColScatter.scatter_col_miss (a := 200) (c := 2) (b := 100) scatter_S200x2_S2_S100_0_1_01_0_wf 100 1 (by decide) (by decide)
    (kM0 m ρ c) (startPair 100#32 1#32) sp1001_0 sp1001_1 (headRow m ρ c 1 slices_S2x100_S1x100_1_0) p (0 : Fin 2) (Or.inl (by decide))).trans ?_
  exact kM0_miss m ρ c p (0 : Fin 2) (Or.inr (Or.inr (by omega)))

/-- Column 1, rows 0 … 99: zero. -/
theorem kM_off1 (p : Fin 200) (hp : p.val < 100) : kM m ρ c (ix2 p (1 : Fin 2)) = (0 : EReal) := by
  rw [kM_eq]
  refine (ColScatter.scatter_col_miss (a := 200) (c := 2) (b := 100) scatter_S200x2_S2_S100_0_1_01_0_wf 100 1 (by decide) (by decide)
    (kM0 m ρ c) (startPair 100#32 1#32) sp1001_0 sp1001_1 (headRow m ρ c 1 slices_S2x100_S1x100_1_0) p (1 : Fin 2) (Or.inr (Or.inl hp))).trans ?_
  exact kM0_miss m ρ c p (1 : Fin 2) (Or.inl (by decide))

/-- Column h holds head h's coefficient d at row 100·h + d. -/
theorem kM_on (h : Fin 2) (d : Fin 100) (p : Fin 200) (hp : p.val = h.val * 100 + d.val) :
    kM m ρ c (ix2 p h) = (Gen.W0 m ρ c (Proc.devRef .tc main_arg6) : S1x2x100.Idx → EReal) (ix3 (0 : Fin 1) h d) := by
  match h, hp with
  | ⟨0, _⟩, hp => exact kM_on0 m ρ c d p (by have : p.val = 0 * 100 + d.val := hp; omega)
  | ⟨1, _⟩, hp => exact kM_on1 m ρ c d p (by have : p.val = 1 * 100 + d.val := hp; omega)

/-- Column h is zero outside rows 100·h … 100·h + 99. -/
theorem kM_off (h : Fin 2) (p : Fin 200) (hp : p.val < h.val * 100 ∨ (h.val + 1) * 100 ≤ p.val) :
    kM m ρ c (ix2 p h) = 0 := by
  have hlt : p.val < 200 := p.isLt
  match h, hp with
  | ⟨0, _⟩, hp => exact kM_off0 m ρ c p (by have : p.val < 0 * 100 ∨ (0 + 1) * 100 ≤ p.val := hp; omega)
  | ⟨1, _⟩, hp => exact kM_off1 m ρ c p (by have : p.val < 1 * 100 ∨ (1 + 1) * 100 ≤ p.val := hp; omega)

end Cert.Bridge.Layer1

end
-- ==== Proof.Layer1.lean ====
/-
  The first layer's checkpoint.

  If the reference's contents agree with the region's entry contents on the three gathered operands, and with the
  launch memory on the weight matrix, the bias and the attention coefficients, then after the reference's first-layer
  stretch its attention weights and its reshaped projection are what the kernel's program holds after the region and the
  host operations that follow it.
-/
import proofs.«161084_j22883585753704_2_alg».proof.Proof.Layer1Join
import proofs.«161084_j22883585753704_2_alg».proof.Proof.Layer1OperandsM

noncomputable section

namespace Cert.Bridge.Layer1

open Idealize.ShloMosaic Idealize.ShloMosaic.TcCoe Idealize.SL.Sem

variable (m : (ℓ : Loc Cert.KernelIdeal.nD Cert.KernelIdeal.τ Cert.KernelIdeal.sig) → Buf (Elt Ideal) ℓ)
  (ρ : Dev Cert.KernelIdeal.nD → PrngReg) (c : Dev Cert.KernelIdeal.nD)
  (RV : Valuation Cert.ReferenceIdeal.τ Cert.ReferenceIdeal.sig (Elt Ideal))

theorem cp1
    (h18 : RV (Proc.devRef .tc Cert.ReferenceIdeal.main_v18) = Cert.KernelIdeal.Gen.W1 m ρ c (Proc.devRef .tc Cert.KernelIdeal.main_v20))
    (h25 : RV (Proc.devRef .tc Cert.ReferenceIdeal.main_v25) = Cert.KernelIdeal.Gen.W1 m ρ c (Proc.devRef .tc Cert.KernelIdeal.main_v27))
    (h32 : RV (Proc.devRef .tc Cert.ReferenceIdeal.main_v32) = Cert.KernelIdeal.Gen.W1 m ρ c (Proc.devRef .tc Cert.KernelIdeal.main_v34))
    (h4 : RV (Proc.devRef .tc Cert.ReferenceIdeal.main_arg4) = m ((c : Thread Cert.KernelIdeal.nD Cert.KernelIdeal.τ).loc Cert.KernelIdeal.main_arg4))
    (h5 : RV (Proc.devRef .tc Cert.ReferenceIdeal.main_arg5) = m ((c : Thread Cert.KernelIdeal.nD Cert.KernelIdeal.τ).loc Cert.KernelIdeal.main_arg5))
    (h6 : RV (Proc.devRef .tc Cert.ReferenceIdeal.main_arg6) = m ((c : Thread Cert.KernelIdeal.nD Cert.KernelIdeal.τ).loc Cert.KernelIdeal.main_arg6)) :
    StableHlo.after (Cert.ReferenceIdeal.ROps.s1 (F := Ideal)) RV (Proc.devRef .tc Cert.ReferenceIdeal.main_v45)
        = Cert.KernelIdeal.Gen.W3 m ρ c (Proc.devRef .tc Cert.KernelIdeal.main_v60)
      ∧ StableHlo.after (Cert.ReferenceIdeal.ROps.s1 (F := Ideal)) RV (Proc.devRef .tc Cert.ReferenceIdeal.main_v39)
        = Cert.KernelIdeal.Gen.W3 m ρ c (Proc.devRef .tc Cert.KernelIdeal.main_v72) :=
  ⟨cp1_exp_of m ρ c RV (fun h d p hp => kM_on m ρ c h d p hp) (fun h p hp => kM_off m ρ c h p hp) h18 h25 h32 h4 h5 h6,
   cp1_proj m ρ c RV h18 h25 h32 h4 h5⟩

end Cert.Bridge.Layer1

end
-- ==== Proof.Act.lean ====
/-
  The activation of the attention logits: the exponential of the leaky rectifier.

  A logit x is kept where it is at least zero and multiplied by a small slope elsewhere, and the result is
  exponentiated. The zero and the slope are the single-precision words 0x00000000 and 0x3C23D70A read as extended
  reals; the comparison is the ordered "greater or equal". Both programs apply exactly this scalar function at every
  index, one with vector operations and one with array operations, so it is named once here.
-/
import Idealize.ShloMosaic.PureOps.Ideal
import Idealize.ShloMosaic.Lib.ValueIdx

noncomputable section

namespace Cert.Bridge

open Idealize.ShloMosaic

/-- The exponential of the leaky rectifier of an extended real: `x` where `x ≥ 0`, slope times `x` elsewhere, then `exp`. -/
def act (x : EReal) : EReal :=
  Ideal.exp (Scalar.select (FloatOps.cmpf (F := Ideal) (φ := .f32) .oge x (Ideal.ofBits .f32 0x00000000#32)) x
    (Ideal.ofBits .f32 0x3C23D70A#32 * x))

/-- The vector form read at an index: compare with the broadcast zero, multiply by the broadcast slope, select,
    exponentiate — at index `i` that is `act` of the element. -/
theorem act_vector {s : Shape} (v : FVec Ideal s .f32) (i : s.Idx) :
    exp (select (cmpf .oge v (broadcast s (Scalar.ofBits (F := Ideal) .f32 0x00000000#32))) v
      (mulf (broadcast s (Scalar.ofBits (F := Ideal) .f32 0x3C23D70A#32)) v)) i = act (v i) := rfl

end Cert.Bridge

end
-- ==== Proof.Region1Body.lean ====
/-
  The second layer's region body, read entry by entry.

  For a tile of 6000 edges the body forms the projection
    c (p, q) = ((Σ_k a (p, k) · wa (k, q) + Σ_k b (p, k) · wb (k, q)) + Σ_k g (p, k) · wg (k, q)) + bias (0, q)
  of the two 200-wide gathered row blocks a, b and the 100-wide one g by their weight blocks, and from it the
  attention weights  ev (p, h) = act (Σ_j c (p, j) · M (j, h)),  act the exponential of the leaky rectifier.
  Each matrix product accumulates into zeros, so its entry is the plain sum over the contracted position; a cast
  to an equal shape is the identity; the bias row is spread over the rows.
-/
import proofs.«161084_j22883585753704_2_alg».proof.Proof.Gen.KernelIdeal.Skeleton
import proofs.«161084_j22883585753704_2_alg».proof.Proof.LibPlainDot
import proofs.«161084_j22883585753704_2_alg».proof.Proof.LibRowSpread
import proofs.«161084_j22883585753704_2_alg».proof.Proof.Act

noncomputable section

open scoped BigOperators

namespace Cert.Bridge.Region1

open Idealize.ShloMosaic Idealize.ShloMosaic.ValueIdx
open Cert.KernelIdeal Cert.Bridge

/-- The 200-wide products contract the left operand's columns with the right operand's rows, nothing else. -/
theorem dotA_eq : dot_S6000x200_S200x400_S6000x400_1_0_0_1_n_n = DotDims.plain 6000 200 400 := rfl

/-- So does the 100-wide product. -/
theorem dotG_eq : dot_S6000x100_S100x400_S6000x400_1_0_0_1_n_n = DotDims.plain 6000 100 400 := rfl

/-- And the product with the attention matrix. -/
theorem dotM_eq : dot_S6000x400_S400x2_S6000x2_1_0_0_1_n_n = DotDims.plain 6000 400 2 := rfl

/-- The projection tile at (p, q). -/
theorem pay1_apply (a wa b wb g wg : _) (bias : Vec Ideal S1x400 .f32) (p : Fin 6000) (q : Fin 400) :
    Gen.k1_pay1 (F := Ideal) a wa b wb g wg bias (ix2 p q)
      = ((∑ k : Fin 200, a (ix2 p k) * wa (ix2 k q)) + ∑ k : Fin 200, b (ix2 p k) * wb (ix2 k q))
          + (∑ k : Fin 100, g (ix2 p k) * wg (ix2 k q)) + bias (ix2 (0 : Fin 1) q) := by
  unfold Gen.k1_pay1
  simp only [addf_apply, shapeCast_self, dotA_eq, dotG_eq]
  exact congrArg₂ (· + ·) (congrArg₂ (· + ·) (congrArg₂ (· + ·)
    (PlainDot.matmul_zero_apply (M := 6000) (K := 200) (N := 400) none a wa p q)
    (PlainDot.matmul_zero_apply (M := 6000) (K := 200) (N := 400) none b wb p q))
    (PlainDot.matmul_zero_apply (M := 6000) (K := 100) (N := 400) none g wg p q))
    (RowSpread.rowBcast_apply (a := 6000) (b := 400) bias _ p q)

/-- The attention weights' tile at (p, h). -/
theorem pay2_apply (a wa b wb g wg : _) (bias : Vec Ideal S1x400 .f32) (M : Vec Ideal S400x2 .f32) (p : Fin 6000) (h : Fin 2) :
    Gen.k1_pay2 (F := Ideal) a wa b wb g wg bias M (ix2 p h)
      = act (∑ j : Fin 400, Gen.k1_pay1 (F := Ideal) a wa b wb g wg bias (ix2 p j) * M (ix2 j h)) := by
  unfold Gen.k1_pay2
  simp only [shapeCast_self, dotM_eq]
  have e : matmul (F := Ideal) (DotDims.plain 6000 400 2) none (Gen.k1_pay1 (F := Ideal) a wa b wb g wg bias) M (constant S6000x2 .f32 0x00000000#32) (ix2 p h)
      = ∑ j : Fin 400, Gen.k1_pay1 (F := Ideal) a wa b wb g wg bias (ix2 p j) * M (ix2 j h) :=
    PlainDot.matmul_zero_apply (M := 6000) (K := 400) (N := 2) (φ₁ := .f32) (φ₂ := .f32) none (Gen.k1_pay1 (F := Ideal) a wa b wb g wg bias) M p h
  generalize matmul (F := Ideal) (DotDims.plain 6000 400 2) none (Gen.k1_pay1 (F := Ideal) a wa b wb g wg bias) M (constant S6000x2 .f32 0x00000000#32) = X at e ⊢
  rw [← e]
  rfl

end Cert.Bridge.Region1

end
-- ==== Proof.Region1Blocks.lean ====
/-
  The second layer's region: from the tiles to the whole arrays.

  The region walks 50 tiles of 6000 edges. At tile t the three row operands are read at rows
  t·6000 … t·6000 + 5999, the weights, the bias row and the attention matrix are read whole, and the two results
  are written at the same rows. The body's results at a row depend on that row of the operands only, so the two
  result arrays end as ONE function of the whole operand arrays, row by row:
    c (e, q)  = ((Σ_k A (e, k) · wa (k, q) + Σ_k B (e, k) · wb (k, q)) + Σ_k C (e, k) · wg (k, q)) + bias (0, q),
    ev (e, h) = act (Σ_j c (e, j) · M (j, h)).
-/
import proofs.«161084_j22883585753704_2_alg».proof.Proof.Gen.KernelIdeal.Frame
import proofs.«161084_j22883585753704_2_alg».proof.Proof.Region1Body
import Idealize.ShloMosaic.Lib.Pipeline.Value

noncomputable section

open scoped BigOperators

namespace Cert.Bridge.Region1

open Idealize.ShloMosaic Idealize.ShloMosaic.TcCoe Idealize.ShloMosaic.ValueIdx Idealize.SL.Sem
open Idealize.ShloMosaic.Pipeline (Dat)
open Cert.KernelIdeal Cert.Bridge

/-- The projection of edge e at column q, from the whole operand arrays. -/
def proj (A B : (⟨2, ![300000, 200]⟩ : Shape).Idx → EReal) (C : (⟨2, ![300000, 100]⟩ : Shape).Idx → EReal)
    (wa wb : (⟨2, ![200, 400]⟩ : Shape).Idx → EReal) (wg : (⟨2, ![100, 400]⟩ : Shape).Idx → EReal)
    (bias : (⟨2, ![1, 400]⟩ : Shape).Idx → EReal) (e : Fin 300000) (q : Fin 400) : EReal :=
  ((∑ k : Fin 200, A (ix2 e k) * wa (ix2 k q)) + ∑ k : Fin 200, B (ix2 e k) * wb (ix2 k q))
    + (∑ k : Fin 100, C (ix2 e k) * wg (ix2 k q)) + bias (ix2 (0 : Fin 1) q)

/-- The projection as an array over the edges. -/
def projArr (A B : (⟨2, ![300000, 200]⟩ : Shape).Idx → EReal) (C : (⟨2, ![300000, 100]⟩ : Shape).Idx → EReal)
    (wa wb : (⟨2, ![200, 400]⟩ : Shape).Idx → EReal) (wg : (⟨2, ![100, 400]⟩ : Shape).Idx → EReal)
    (bias : (⟨2, ![1, 400]⟩ : Shape).Idx → EReal) : (⟨2, ![300000, 400]⟩ : Shape).Idx → EReal :=
  fun i => proj A B C wa wb wg bias (i 0) (i 1)

/-- The attention weight of edge e and head h: the activation of the projection's product with the attention matrix. -/
def attn (A B : (⟨2, ![300000, 200]⟩ : Shape).Idx → EReal) (C : (⟨2, ![300000, 100]⟩ : Shape).Idx → EReal)
    (wa wb : (⟨2, ![200, 400]⟩ : Shape).Idx → EReal) (wg : (⟨2, ![100, 400]⟩ : Shape).Idx → EReal)
    (bias : (⟨2, ![1, 400]⟩ : Shape).Idx → EReal) (M : (⟨2, ![400, 2]⟩ : Shape).Idx → EReal)
    (e : Fin 300000) (h : Fin 2) : EReal :=
  act (∑ j : Fin 400, proj A B C wa wb wg bias e j * M (ix2 j h))

/-- The attention weights as an array over the edges. -/
def attnArr (A B : (⟨2, ![300000, 200]⟩ : Shape).Idx → EReal) (C : (⟨2, ![300000, 100]⟩ : Shape).Idx → EReal)
    (wa wb : (⟨2, ![200, 400]⟩ : Shape).Idx → EReal) (wg : (⟨2, ![100, 400]⟩ : Shape).Idx → EReal)
    (bias : (⟨2, ![1, 400]⟩ : Shape).Idx → EReal) (M : (⟨2, ![400, 2]⟩ : Shape).Idx → EReal) :
    (⟨2, ![300000, 2]⟩ : Shape).Idx → EReal :=
  fun i => attn A B C wa wb wg bias M (i 0) (i 1)

/-- The zero offset of a whole-tile access. -/
theorem hz : (![0, 0] : Fin 2 → Nat) = fun _ => 0 := funext fun a => by fin_cases a <;> rfl

/-- The index maps over the 50 grid points: the three row windows and the two result windows are at block (t, 0),
    the weights, the bias row and the attention matrix always at block (0, 0). -/
theorem idx_facts : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0)
    ∧ (win1_8.index t (0 : Fin 2) = t.val ∧ win1_8.index t (1 : Fin 2) = 0)
    ∧ (win1_9.index t (0 : Fin 2) = t.val ∧ win1_9.index t (1 : Fin 2) = 0) :=
  (by decide +kernel : ∀ t : Fin grid1.N, _)

section Entry

variable (V : (c : Dev nD) → (b : Ref sig .tc) → Buf (Elt Ideal) ((c : Thread nD τ).loc b))

/-! ## The input tiles as rows of the arrays -/

/-- Row p of tile t of the first row operand is row t·6000 + p of its array. -/
theorem iblk_rows0 (c : Dev nD) (t : Fin cfg1.N) (p : Fin 6000) (k : Fin 200) (e : Fin 300000)
    (he : e.val = t.val * 6000 + p.val) :
    (Gen.iblk1 V c 0 t : Vec Ideal S6000x200 .bf16) (ix2 p k) = (V c main_v95 : S300000x200.Idx → EReal) (ix2 e k) := by
  unfold Gen.iblk1
  rw [View.read_apply]
  show V c main_v95 _ = V c main_v95 _
  refine congrArg (V c main_v95) (funext fun a => Fin.ext ?_)
  match a with
  | ⟨0, _⟩ => show win1_0.index t (0 : Fin 2) * 6000 + 1 * p.val = e.val; rw [(idx_facts t).1.1, he]; omega
  | ⟨1, _⟩ => show win1_0.index t (1 : Fin 2) * 200 + 1 * k.val = k.val; rw [(idx_facts t).1.2]; omega

/-- Row p of tile t of the second row operand is row t·6000 + p of its array. -/
theorem iblk_rows1 (c : Dev nD) (t : Fin cfg1.N) (p : Fin 6000) (k : Fin 200) (e : Fin 300000)
    (he : e.val = t.val * 6000 + p.val) :
    (Gen.iblk1 V c 1 t : Vec Ideal S6000x200 .bf16) (ix2 p k) = (V c main_v102 : S300000x200.Idx → EReal) (ix2 e k) := by
  unfold Gen.iblk1
  rw [View.read_apply]
  show V c main_v102 _ = V c main_v102 _
  refine congrArg (V c main_v102) (funext fun a => Fin.ext ?_)
  match a with
  | ⟨0, _⟩ => show win1_1.index t (0 : Fin 2) * 6000 + 1 * p.val = e.val; rw [(idx_facts t).2.1.1, he]; omega
  | ⟨1, _⟩ => show win1_1.index t (1 : Fin 2) * 200 + 1 * k.val = k.val; rw [(idx_facts t).2.1.2]; omega

/-- Row p of tile t of the third row operand is row t·6000 + p of its array. -/
theorem iblk_rows2 (c : Dev nD) (t : Fin cfg1.N) (p : Fin 6000) (k : Fin 100) (e : Fin 300000)
    (he : e.val = t.val * 6000 + p.val) :
    (Gen.iblk1 V c 2 t : Vec Ideal S6000x100 .bf16) (ix2 p k) = (V c main_v109 : S300000x100.Idx → EReal) (ix2 e k) := by
  unfold Gen.iblk1
  rw [View.read_apply]
  show V c main_v109 _ = V c main_v109 _
  refine congrArg (V c main_v109) (funext fun a => Fin.ext ?_)
  match a with
  | ⟨0, _⟩ => show win1_2.index t (0 : Fin 2) * 6000 + 1 * p.val = e.val; rw [(idx_facts t).2.2.1.1, he]; omega
  | ⟨1, _⟩ => show win1_2.index t (1 : Fin 2) * 100 + 1 * k.val = k.val; rw [(idx_facts t).2.2.1.2]; omega

/-- The first weight window holds its whole array at every tile. -/
theorem iblk_whole3 (c : Dev nD) (t : Fin cfg1.N) :
    (Gen.iblk1 V c 3 t : Vec Ideal S200x400 .bf16) = (V c main_v114 : S200x400.Idx → EReal) := by
  unfold Gen.iblk1
  funext j
  rw [View.read_apply]
  show V c main_v114 _ = V c main_v114 _
  refine congrArg (V c main_v114) (funext fun a => Fin.ext ?_)
  match a with
  | ⟨0, _⟩ => show win1_3.index t (0 : Fin 2) * 200 + 1 * (j 0).val = (j 0).val; rw [(idx_facts t).2.2.2.1.1]; omega
  | ⟨1, _⟩ => show win1_3.index t (1 : Fin 2) * 400 + 1 * (j 1).val = (j 1).val; rw [(idx_facts t).2.2.2.1.2]; omega

/-- So does the second. -/
theorem iblk_whole4 (c : Dev nD) (t : Fin cfg1.N) :
    (Gen.iblk1 V c 4 t : Vec Ideal S200x400 .bf16) = (V c main_v116 : S200x400.Idx → EReal) := by
  unfold Gen.iblk1
  funext j
  rw [View.read_apply]
  show V c main_v116 _ = V c main_v116 _
  refine congrArg (V c main_v116) (funext fun a => Fin.ext ?_)
  match a with
  | ⟨0, _⟩ => show win1_4.index t (0 : Fin 2) * 200 + 1 * (j 0).val = (j 0).val; rw [(idx_facts t).2.2.2.2.1.1]; omega
  | ⟨1, _⟩ => show win1_4.index t (1 : Fin 2) * 400 + 1 * (j 1).val = (j 1).val; rw [(idx_facts t).2.2.2.2.1.2]; omega

/-- And the third. -/
theorem iblk_whole5 (c : Dev nD) (t : Fin cfg1.N) :
    (Gen.iblk1 V c 5 t : Vec Ideal S100x400 .bf16) = (V c main_v118 : S100x400.Idx → EReal) := by
  unfold Gen.iblk1
  funext j
  rw [View.read_apply]
  show V c main_v118 _ = V c main_v118 _
  refine congrArg (V c main_v118) (funext fun a => Fin.ext ?_)
  match a with
  | ⟨0, _⟩ => show win1_5.index t (0 : Fin 2) * 100 + 1 * (j 0).val = (j 0).val; rw [(idx_facts t).2.2.2.2.2.1.1]; omega
  | ⟨1, _⟩ => show win1_5.index t (1 : Fin 2) * 400 + 1 * (j 1).val = (j 1).val; rw [(idx_facts t).2.2.2.2.2.1.2]; omega

/-- The bias row's window holds the whole row at every tile. -/
theorem iblk_whole6 (c : Dev nD) (t : Fin cfg1.N) :
    (Gen.iblk1 V c 6 t : Vec Ideal S1x400 .f32) = (V c main_v133 : S1x400.Idx → EReal) := by
  unfold Gen.iblk1
  funext j
  rw [View.read_apply]
  show V c main_v133 _ = V c main_v133 _
  refine congrArg (V c main_v133) (funext fun a => Fin.ext ?_)
  match a with
  | ⟨0, _⟩ => show win1_6.index t (0 : Fin 2) * 1 + 1 * (j 0).val = (j 0).val; rw [(idx_facts t).2.2.2.2.2.2.1.1]; omega
  | ⟨1, _⟩ => show win1_6.index t (1 : Fin 2) * 400 + 1 * (j 1).val = (j 1).val; rw [(idx_facts t).2.2.2.2.2.2.1.2]; omega

/-- The attention matrix's window holds the whole matrix at every tile. -/
theorem iblk_whole7 (c : Dev nD) (t : Fin cfg1.N) :
    (Gen.iblk1 V c 7 t : Vec Ideal S400x2 .f32) = (V c main_v132 : S400x2.Idx → EReal) := by
  unfold Gen.iblk1
  funext j
  rw [View.read_apply]
  show V c main_v132 _ = V c main_v132 _
  refine congrArg (V c main_v132) (funext fun a => Fin.ext ?_)
  match a with
  | ⟨0, _⟩ => show win1_7.index t (0 : Fin 2) * 400 + 1 * (j 0).val = (j 0).val; rw [(idx_facts t).2.2.2.2.2.2.2.1.1]; omega
  | ⟨1, _⟩ => show win1_7.index t (1 : Fin 2) * 2 + 1 * (j 1).val = (j 1).val; rw [(idx_facts t).2.2.2.2.2.2.2.1.2]; omega

/-! ## The body on tile t is the row functions at rows t·6000 + p -/

/-- The projection tile at (p, q) is the projection of edge t·6000 + p. -/
theorem pay1_blocks (c : Dev nD) (t : Fin cfg1.N) (p : Fin 6000) (q : Fin 400) (e : Fin 300000)
    (he : e.val = t.val * 6000 + p.val) :
    Gen.k1_pay1 (F := Ideal) (Gen.iblk1 V c 0 t) (Gen.iblk1 V c 3 t) (Gen.iblk1 V c 1 t) (Gen.iblk1 V c 4 t)
        (Gen.iblk1 V c 2 t) (Gen.iblk1 V c 5 t) (Gen.iblk1 V c 6 t) (ix2 p q)
      = proj (V c main_v95) (V c main_v102) (V c main_v109) (V c main_v114) (V c main_v116) (V c main_v118) (V c main_v133) e q := by
  refine (pay1_apply _ _ _ _ _ _ _ p q).trans ?_
  unfold proj
  rw [iblk_whole3 V c t, iblk_whole4 V c t, iblk_whole5 V c t, iblk_whole6 V c t]
  simp only [fun k => iblk_rows0 V c t p k e he, fun k => iblk_rows1 V c t p k e he, fun k => iblk_rows2 V c t p k e he]

end Entry

end Cert.Bridge.Region1

end
-- ==== Proof.Region1Array.lean ====
/-
  The second layer's region: the two result arrays after the last tile.

  What tile t writes back is rows t·6000 … t·6000 + 5999 of the row functions of the whole operand arrays, and
  every row lies in the tile numbered by its quotient by 6000: so after the fifty tiles the projection array and the
  attention-weight array hold those functions everywhere. Read at an edge e: the projection is the three partial
  products plus the bias, and the attention weight of head h is the activation of the projection row's product with
  column h of the attention matrix.
-/
import proofs.«161084_j22883585753704_2_alg».proof.Proof.Region1Blocks

noncomputable section

open scoped BigOperators

namespace Cert.Bridge.Region1

open Idealize.ShloMosaic Idealize.ShloMosaic.TcCoe Idealize.ShloMosaic.ValueIdx Idealize.SL.Sem
open Idealize.ShloMosaic.Pipeline (Dat)
open Cert.KernelIdeal Cert.Bridge

/-- A tile of the projection window agrees with rows t·6000 + p of an array as soon as it does entry by entry. -/
theorem blk8_ext (t : Fin cfg1.N) (X : Vec Ideal S6000x400 .f32) (G : S300000x400.Idx → EReal)
    (h : ∀ (p : Fin 6000) (q : Fin 400) (e : Fin 300000), e.val = t.val * 6000 + p.val → X (ix2 p q) = G (ix2 e q)) :
    (cfg1.win 8).cut (grid1.coords t) X = ((cfg1.win 8).blk t).view.read (Elt Ideal) G := by
  funext j
  rw [View.read_apply]
  have hj0 : (j 0).val < 6000 := (j 0).isLt
  have hj1 : (j 1).val < 400 := (j 1).isLt
  have ht : t.val < 50 := t.isLt
  have := h ⟨(j 0).val, hj0⟩ ⟨(j 1).val, hj1⟩ ⟨t.val * 6000 + (j 0).val, by omega⟩ rfl
  show X j = G _
  refine (congrArg X ?_).trans (this.trans (congrArg G ?_))
  · funext a
    match a with
    | ⟨0, _⟩ => rfl
    | ⟨1, _⟩ => rfl
  · funext a
    apply Fin.ext
    match a with
    | ⟨0, _⟩ => show t.val * 6000 + (j 0).val = win1_8.index t (0 : Fin 2) * 6000 + 1 * (j 0).val; rw [(idx_facts t).2.2.2.2.2.2.2.2.1.1]; omega
    | ⟨1, _⟩ => show (j 1).val = win1_8.index t (1 : Fin 2) * 400 + 1 * (j 1).val; rw [(idx_facts t).2.2.2.2.2.2.2.2.1.2]; omega

/-- A tile of the attention-weight window agrees with rows t·6000 + p of an array as soon as it does entry by entry. -/
theorem blk9_ext (t : Fin cfg1.N) (X : Vec Ideal S6000x2 .f32) (G : S300000x2.Idx → EReal)
    (h : ∀ (p : Fin 6000) (q : Fin 2) (e : Fin 300000), e.val = t.val * 6000 + p.val → X (ix2 p q) = G (ix2 e q)) :
    (cfg1.win 9).cut (grid1.coords t) X = ((cfg1.win 9).blk t).view.read (Elt Ideal) G := by
  funext j
  rw [View.read_apply]
  have hj0 : (j 0).val < 6000 := (j 0).isLt
  have hj1 : (j 1).val < 2 := (j 1).isLt
  have ht : t.val < 50 := t.isLt
  have := h ⟨(j 0).val, hj0⟩ ⟨(j 1).val, hj1⟩ ⟨t.val * 6000 + (j 0).val, by omega⟩ rfl
  show X j = G _
  refine (congrArg X ?_).trans (this.trans (congrArg G ?_))
  · funext a
    match a with
    | ⟨0, _⟩ => rfl
    | ⟨1, _⟩ => rfl
  · funext a
    apply Fin.ext
    match a with
    | ⟨0, _⟩ => show t.val * 6000 + (j 0).val = win1_9.index t (0 : Fin 2) * 6000 + 1 * (j 0).val; rw [(idx_facts t).2.2.2.2.2.2.2.2.2.1]; omega
    | ⟨1, _⟩ => show (j 1).val = win1_9.index t (1 : Fin 2) * 2 + 1 * (j 1).val; rw [(idx_facts t).2.2.2.2.2.2.2.2.2.2]; omega

/-- The projection, written out. -/
theorem proj_def (A B : (⟨2, ![300000, 200]⟩ : Shape).Idx → EReal) (C : (⟨2, ![300000, 100]⟩ : Shape).Idx → EReal)
    (wa wb : (⟨2, ![200, 400]⟩ : Shape).Idx → EReal) (wg : (⟨2, ![100, 400]⟩ : Shape).Idx → EReal)
    (bias : (⟨2, ![1, 400]⟩ : Shape).Idx → EReal) (e : Fin 300000) (q : Fin 400) :
    proj A B C wa wb wg bias e q
      = ((∑ k : Fin 200, A (ix2 e k) * wa (ix2 k q)) + ∑ k : Fin 200, B (ix2 e k) * wb (ix2 k q))
          + (∑ k : Fin 100, C (ix2 e k) * wg (ix2 k q)) + bias (ix2 (0 : Fin 1) q) := rfl

/-- The attention weight, written out: the activation of the projection row's product with a column of the attention matrix. -/
theorem attn_def (A B : (⟨2, ![300000, 200]⟩ : Shape).Idx → EReal) (C : (⟨2, ![300000, 100]⟩ : Shape).Idx → EReal)
    (wa wb : (⟨2, ![200, 400]⟩ : Shape).Idx → EReal) (wg : (⟨2, ![100, 400]⟩ : Shape).Idx → EReal)
    (bias : (⟨2, ![1, 400]⟩ : Shape).Idx → EReal) (M : (⟨2, ![400, 2]⟩ : Shape).Idx → EReal) (e : Fin 300000) (h : Fin 2) :
    attn A B C wa wb wg bias M e h = act (∑ j : Fin 400, proj A B C wa wb wg bias e j * M (ix2 j h)) := rfl

section Entry

variable (V : (c : Dev nD) → (b : Ref sig .tc) → Buf (Elt Ideal) ((c : Thread nD τ).loc b))

/-- What tile t writes back to the projection array. -/
theorem flushed8_eq (c : Dev nD) (t : Fin cfg1.N) :
    (Gen.dat1 V c).flushed 8 t = ((cfg1.win 8).blk t).view.read (Elt Ideal)
      (projArr (V c main_v95) (V c main_v102) (V c main_v109) (V c main_v114) (V c main_v116) (V c main_v118) (V c main_v133)) := by
  show (cfg1.win 8).cut (grid1.coords t) ((Gen.dat1 V c).after 8 t) = _
  rw [Gen.after1_8]
  unfold Gen.out1_8
  rw [View.canon_unit_zero hz]
  simp only [View.ld_unit_zero (S := S6000x200) hz, View.ld_unit_zero (S := S6000x100) hz, View.ld_unit_zero (S := S200x400) hz, View.ld_unit_zero (S := S100x400) hz, View.ld_unit_zero (S := S1x400) hz]
  exact blk8_ext t _ _ fun p q e he => pay1_blocks V c t p q e he

/-- What tile t writes back to the attention-weight array. -/
theorem flushed9_eq (c : Dev nD) (t : Fin cfg1.N) :
    (Gen.dat1 V c).flushed 9 t = ((cfg1.win 9).blk t).view.read (Elt Ideal)
      (attnArr (V c main_v95) (V c main_v102) (V c main_v109) (V c main_v114) (V c main_v116) (V c main_v118) (V c main_v133) (V c main_v132)) := by
  show (cfg1.win 9).cut (grid1.coords t) ((Gen.dat1 V c).after 9 t) = _
  rw [Gen.after1_9]
  unfold Gen.out1_9
  rw [View.canon_unit_zero hz]
  simp only [View.ld_unit_zero (S := S6000x200) hz, View.ld_unit_zero (S := S6000x100) hz, View.ld_unit_zero (S := S200x400) hz, View.ld_unit_zero (S := S100x400) hz, View.ld_unit_zero (S := S1x400) hz,
    View.ld_unit_zero (S := S400x2) hz]
  refine blk9_ext t _ _ fun p h e he => ?_
  refine (pay2_apply _ _ _ _ _ _ _ _ p h).trans ?_
  show act _ = act _
  refine congrArg act (Finset.sum_congr rfl fun j _ => ?_)
  rw [pay1_blocks V c t p j e he, iblk_whole7 V c t]

/-! ## Every row is written by its tile -/

/-- Row e of the projection array lies in tile e / 6000. -/
theorem cover8 (i : S300000x400.Idx) :
    ∃ t : Fin cfg1.N, (cfg1.win 8).flush t = true ∧ i ∈ ((cfg1.win 8).blk t).view.set := by
  have hi0 : (i 0).val < 300000 := (i 0).isLt
  have hi1 : (i 1).val < 400 := (i 1).isLt
  obtain ⟨t, ht⟩ : ∃ t : Fin cfg1.N, t.val = (i 0).val / 6000 := ⟨⟨(i 0).val / 6000, by show _ < 50; omega⟩, rfl⟩
  refine ⟨t, Gen.flush1_8 t, ?_⟩
  show i ∈ ((View.whole main_v134_0).slice (win1_8.rect t)).set
  rw [View.set_slice_whole, Rect.mem_set_unit]
  obtain ⟨e0, e1⟩ := (idx_facts t).2.2.2.2.2.2.2.2.1
  intro a
  match a with
  | ⟨0, _⟩ =>
    show win1_8.index t (0 : Fin 2) * 6000 ≤ (i 0).val ∧ (i 0).val < win1_8.index t (0 : Fin 2) * 6000 + 6000
    rw [e0, ht]; omega
  | ⟨1, _⟩ =>
    show win1_8.index t (1 : Fin 2) * 400 ≤ (i 1).val ∧ (i 1).val < win1_8.index t (1 : Fin 2) * 400 + 400
    rw [e1]; omega

/-- Row e of the attention-weight array lies in tile e / 6000. -/
theorem cover9 (i : S300000x2.Idx) :
    ∃ t : Fin cfg1.N, (cfg1.win 9).flush t = true ∧ i ∈ ((cfg1.win 9).blk t).view.set := by
  have hi0 : (i 0).val < 300000 := (i 0).isLt
  have hi1 : (i 1).val < 2 := (i 1).isLt
  obtain ⟨t, ht⟩ : ∃ t : Fin cfg1.N, t.val = (i 0).val / 6000 := ⟨⟨(i 0).val / 6000, by show _ < 50; omega⟩, rfl⟩
  refine ⟨t, Gen.flush1_9 t, ?_⟩
  show i ∈ ((View.whole main_v134_1).slice (win1_9.rect t)).set
  rw [View.set_slice_whole, Rect.mem_set_unit]
  obtain ⟨e0, e1⟩ := (idx_facts t).2.2.2.2.2.2.2.2.2
  intro a
  match a with
  | ⟨0, _⟩ =>
    show win1_9.index t (0 : Fin 2) * 6000 ≤ (i 0).val ∧ (i 0).val < win1_9.index t (0 : Fin 2) * 6000 + 6000
    rw [e0, ht]; omega
  | ⟨1, _⟩ =>
    show win1_9.index t (1 : Fin 2) * 2 ≤ (i 1).val ∧ (i 1).val < win1_9.index t (1 : Fin 2) * 2 + 2
    rw [e1]; omega

/-! ## The arrays after the last tile -/

/-- The projection array after the fifty tiles. -/
theorem final8 (c : Dev nD) :
    (Gen.dat1 V c).arrAt 8 cfg1.N = projArr (V c main_v95) (V c main_v102) (V c main_v109) (V c main_v114) (V c main_v116) (V c main_v118) (V c main_v133) :=
  (Gen.dat1 V c).arrAt_eq_of_cover 8 _ (fun t _ => flushed8_eq V c t) cover8

/-- The attention-weight array after the fifty tiles. -/
theorem final9 (c : Dev nD) :
    (Gen.dat1 V c).arrAt 9 cfg1.N = attnArr (V c main_v95) (V c main_v102) (V c main_v109) (V c main_v114) (V c main_v116) (V c main_v118) (V c main_v133) (V c main_v132) :=
  (Gen.dat1 V c).arrAt_eq_of_cover 9 _ (fun t _ => flushed9_eq V c t) cover9

/-! ## Read at an edge -/

/-- The projection of edge e at column j: the three partial products and the bias. -/
theorem c_apply (c : Dev nD) (e : Fin 300000) (j : Fin 400) :
    (Gen.dat1 (F := Ideal) V c).arrAt 8 cfg1.N (ix2 e j)
      = proj (V c main_v95) (V c main_v102) (V c main_v109) (V c main_v114) (V c main_v116) (V c main_v118) (V c main_v133) e j := by
  rw [final8 V c]
  rfl

/-- The attention weight of edge e and head h: the activation of the projection row's product with the attention matrix. -/
theorem ev_apply (c : Dev nD) (e : Fin 300000) (h : Fin 2) :
    (Gen.dat1 (F := Ideal) V c).arrAt 9 cfg1.N (ix2 e h)
      = attn (V c main_v95) (V c main_v102) (V c main_v109) (V c main_v114) (V c main_v116) (V c main_v118) (V c main_v133) (V c main_v132) e h := by
  rw [final9 V c]
  rfl

end Entry

end Cert.Bridge.Region1

end
-- ==== Proof.Layer2Args.lean ====
/-
  The second layer's weights, bias and attention coefficients reach the second region's host operations as launched.

  No host operation before them and no region writes an argument's buffer, so the contents of the three arguments just
  before the operations that prepare the second region's operands are the launch memory's.
-/
import proofs.«161084_j22883585753704_2_alg».proof.Proof.Gen.KernelIdeal.Frame
import Idealize.ShloMosaic.PureOps.Ideal

set_option maxRecDepth 16384

noncomputable section

namespace Cert.Bridge.Layer2

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg) (c : Dev nD)

/-- A line of host operations leaves a buffer none of them writes as it was. -/
local macro "no_write" "[" l:ident "]" : tactic =>
  `(tactic| (refine StableHlo.after_of_forall_not_mem _ _ (List.forall_iff_forall_mem.mp ?_)
             simp only [$l:ident, List.flatten_cons, List.flatten_nil, List.append_nil, List.cons_append,
               List.nil_append, List.Forall, StableHlo.nullary_writes, StableHlo.unary_writes, StableHlo.binary_writes,
               StableHlo.ternary_writes, StableHlo.quaternary_writes, StableHlo.reshape_writes, StableHlo.binaryIndexed_writes,
               Finset.mem_singleton]
             repeat' apply And.intro
             all_goals exact StableHlo.devRef_ne_of_ne (by decide)))

set_option maxHeartbeats 4000000 in
/-- The weight matrix, before the second region's operands are prepared, is the launched one. -/
theorem W4_arg7 : W4 m ρ c (Proc.devRef .tc main_arg7) = m ((c : Thread nD τ).loc main_arg7) :=
  calc W4 m ρ c (Proc.devRef .tc main_arg7)
    _ = W3 m ρ c (Proc.devRef .tc main_arg7) := by no_write [hostOps1_1]
    _ = W2 m ρ c (Proc.devRef .tc main_arg7) := by no_write [hostOps1]
    _ = W1 m ρ c (Proc.devRef .tc main_arg7) := W2_of_ne m ρ c main_arg7 (by decide)
    _ = W0 m ρ c (Proc.devRef .tc main_arg7) := by no_write [hostOps0]
    _ = m ((c : Thread nD τ).loc main_arg7) := rfl

set_option maxHeartbeats 4000000 in
/-- The bias, likewise. -/
theorem W4_arg8 : W4 m ρ c (Proc.devRef .tc main_arg8) = m ((c : Thread nD τ).loc main_arg8) :=
  calc W4 m ρ c (Proc.devRef .tc main_arg8)
    _ = W3 m ρ c (Proc.devRef .tc main_arg8) := by no_write [hostOps1_1]
    _ = W2 m ρ c (Proc.devRef .tc main_arg8) := by no_write [hostOps1]
    _ = W1 m ρ c (Proc.devRef .tc main_arg8) := W2_of_ne m ρ c main_arg8 (by decide)
    _ = W0 m ρ c (Proc.devRef .tc main_arg8) := by no_write [hostOps0]
    _ = m ((c : Thread nD τ).loc main_arg8) := rfl

set_option maxHeartbeats 4000000 in
/-- The attention coefficients, likewise. -/
theorem W4_arg9 : W4 m ρ c (Proc.devRef .tc main_arg9) = m ((c : Thread nD τ).loc main_arg9) :=
  calc W4 m ρ c (Proc.devRef .tc main_arg9)
    _ = W3 m ρ c (Proc.devRef .tc main_arg9) := by no_write [hostOps1_1]
    _ = W2 m ρ c (Proc.devRef .tc main_arg9) := by no_write [hostOps1]
    _ = W1 m ρ c (Proc.devRef .tc main_arg9) := W2_of_ne m ρ c main_arg9 (by decide)
    _ = W0 m ρ c (Proc.devRef .tc main_arg9) := by no_write [hostOps0]
    _ = m ((c : Thread nD τ).loc main_arg9) := rfl

end Cert.Bridge.Layer2

end
-- ==== Proof.Layer2HostTerm.lean ====
/-
  The operands the host prepares for the second region, as terms of the contents the preparing operations start from.

  The three weight blocks are column ranges of the weight matrix, transposed (their change of format is the identity
  on extended reals); the bias is laid out as a one-row matrix; the attention matrix is a 400 × 2 array of zeros into
  which the first head's 200 coefficients are written down rows 0 … 199 of column 0 and the second head's down rows
  200 … 399 of column 1.
-/
import proofs.«161084_j22883585753704_2_alg».proof.Proof.Gen.KernelIdeal.Launch
import Idealize.ShloMosaic.PureOps.Ideal

set_option maxRecDepth 16384

noncomputable section

namespace Cert.Bridge.Layer2

open Idealize.ShloMosaic Idealize.ShloMosaic.TcCoe Idealize.SL.Sem
open Cert.KernelIdeal Cert.KernelIdeal.Gen

variable (V : Valuation τ sig (Elt Ideal))

/-- Columns o … of the weight matrix, transposed. -/
def wBlock200 (o : Nat) (hs : S400x500.Slices ![0, o] S400x200) : S200x400.Idx → EReal :=
  truncf (F := Ideal) (φ := .f32) .bf16
    (transpose S200x400 [1, 0] (extractStridedSlice S400x200 ![0, o] (V (Proc.devRef .tc main_arg7)) hs : S400x200.Idx → EReal)
      transposes_S400x200_S200x400_1_0) bitsLt_bf16_f32

/-- The last 100 columns of the weight matrix, transposed. -/
def wBlock100 : S100x400.Idx → EReal :=
  truncf (F := Ideal) (φ := .f32) .bf16
    (transpose S100x400 [1, 0] (extractStridedSlice S400x100 ![0, 400] (V (Proc.devRef .tc main_arg7)) slices_S400x500_S400x100_0_400 : S400x100.Idx → EReal)
      transposes_S400x100_S100x400_1_0) bitsLt_bf16_f32

/-- Head h's 200 attention coefficients as a vector. -/
def attRow (h : Nat) (hs : S2x200.Slices ![h, 0] S1x200) : S200.Idx → EReal :=
  shapeCast S200
    (extractStridedSlice S1x200 ![h, 0] (shapeCast S2x200 (V (Proc.devRef .tc main_arg9)) shapeCasts_S1x2x200_S2x200 : S2x200.Idx → EReal) hs : S1x200.Idx → EReal)
    shapeCasts_S1x200_S200

/-- A start pair (r, q) as the two-word index array the host builds. -/
def startPair (r q : BitVec 32) : S2.Idx → BitVec 32 :=
  concatenate S2 0 [⟨S1, broadcastInDim S1 ![] bcast_S_S1 (constantI S_ 32 r)⟩, ⟨S1, broadcastInDim S1 ![] bcast_S_S1 (constantI S_ 32 q)⟩]
    concatenates_S1_S1_S2_d0

/-- The attention matrix: zeros, then the two heads' coefficients written down their columns. -/
def attMat : S400x2.Idx → EReal :=
  Host.scatter scatter_S400x2_S2_S200_0_1_01_0 (fun _ b => b)
    (Host.scatter scatter_S400x2_S2_S200_0_1_01_0 (fun _ b => b)
      (broadcastInDim S400x2 ![] bcast_S_S400x2 (constant (F := Ideal) S_ .f32 0x00000000#32))
      (startPair 0#32 0#32) (attRow V 0 slices_S2x200_S1x200_0_0))
    (startPair 200#32 1#32) (attRow V 1 slices_S2x200_S1x200_1_0)

set_option maxHeartbeats 4000000 in
theorem ops_v114 : (StableHlo.after (hostOps1_2 (F := Ideal)) V (Proc.devRef .tc main_v114) : S200x400.Idx → EReal)
    = wBlock200 V 0 slices_S400x500_S400x200_0_0 := by
  unfold wBlock200
  after_results_simp <;> rfl

set_option maxHeartbeats 4000000 in
theorem ops_v116 : (StableHlo.after (hostOps1_2 (F := Ideal)) V (Proc.devRef .tc main_v116) : S200x400.Idx → EReal)
    = wBlock200 V 200 slices_S400x500_S400x200_0_200 := by
  unfold wBlock200
  after_results_simp <;> rfl

set_option maxHeartbeats 4000000 in
theorem ops_v118 : (StableHlo.after (hostOps1_2 (F := Ideal)) V (Proc.devRef .tc main_v118) : S100x400.Idx → EReal)
    = wBlock100 V := by
  unfold wBlock100
  after_results_simp <;> rfl

set_option maxHeartbeats 4000000 in
theorem ops_v133 : (StableHlo.after (hostOps1_2 (F := Ideal)) V (Proc.devRef .tc main_v133) : S1x400.Idx → EReal)
    = broadcastInDim S1x400 ![1] bcast_S400_S1x400_1 (V (Proc.devRef .tc main_arg8)) := by
  after_results_simp <;> rfl

set_option maxHeartbeats 4000000 in
theorem ops_v132 : (StableHlo.after (hostOps1_2 (F := Ideal)) V (Proc.devRef .tc main_v132) : S400x2.Idx → EReal)
    = attMat V := by
  unfold attMat attRow startPair
  after_results_simp <;> rfl

end Cert.Bridge.Layer2

end
-- ==== Proof.Layer2Host.lean ====
/-
  The operands the host prepares for the second region, entry by entry.

  Entry (k, j) of a weight block is the weight matrix's entry (j, o + k) for the block's first column o; the bias row's
  entry (0, j) is the bias's entry j; the attention matrix's entry (j, h) is head h's coefficient j − 200·h when row j
  lies in head h's 200 rows, and 0 otherwise.
-/
import proofs.«161084_j22883585753704_2_alg».proof.Proof.Layer2HostTerm
import proofs.«161084_j22883585753704_2_alg».proof.Proof.LibColScatter
import proofs.«161084_j22883585753704_2_alg».proof.Proof.LibAxisSpread
import proofs.«161084_j22883585753704_2_alg».proof.Proof.LibRowSpread
import Idealize.ShloMosaic.Lib.ValueLayout
import Idealize.ShloMosaic.PureOps.Ideal.Laws

noncomputable section

namespace Cert.Bridge.Layer2

open Idealize.ShloMosaic Idealize.ShloMosaic.ValueIdx Idealize.ShloMosaic.TcCoe Idealize.SL.Sem
open Cert.KernelIdeal Cert.KernelIdeal.Gen

variable (V : Valuation τ sig (Elt Ideal))

/-- A 200-row weight block at (k, j): the weight matrix at (j, o + k). -/
theorem wBlock200_apply (o : Nat) (hs : S400x500.Slices ![0, o] S400x200) (k : Fin 200) (j : Fin 400) (k' : Fin 500)
    (hk : k'.val = o + k.val) :
    wBlock200 V o hs (ix2 k j) = (V (Proc.devRef .tc main_arg7) : S400x500.Idx → EReal) (ix2 j k') := by
  unfold wBlock200
  refine (truncf_apply (ψ := .bf16) (φ := .f32) _ bitsLt_bf16_f32 _).trans ?_
  exact (transpose_ix2_apply _ _ k j).trans (slice2_axis1_apply o _ hs j k k' hk)

/-- The 100-row weight block at (k, j): the weight matrix at (j, 400 + k). -/
theorem wBlock100_apply (k : Fin 100) (j : Fin 400) (k' : Fin 500) (hk : k'.val = 400 + k.val) :
    wBlock100 V (ix2 k j) = (V (Proc.devRef .tc main_arg7) : S400x500.Idx → EReal) (ix2 j k') := by
  unfold wBlock100
  refine (truncf_apply (ψ := .bf16) (φ := .f32) _ bitsLt_bf16_f32 _).trans ?_
  exact (transpose_ix2_apply _ _ k j).trans (slice2_axis1_apply 400 _ slices_S400x500_S400x100_0_400 j k k' hk)

/-- The bias row at (0, j): the bias at j. -/
theorem biasRow_apply (j : Fin 400) :
    broadcastInDim S1x400 ![1] bcast_S400_S1x400_1 (V (Proc.devRef .tc main_arg8)) (ix2 (0 : Fin 1) j)
      = (V (Proc.devRef .tc main_arg8) : S400.Idx → EReal) (ix1 j) :=
  AxisSpread.vecAsRow_apply _ _ j

/-- Head h's coefficient vector at d: the coefficient array at (0, h, d). -/
theorem attRow_apply (h : Nat) (hs : S2x200.Slices ![h, 0] S1x200) (hh : Fin 2) (hv : hh.val = h) (d : Fin 200) :
    attRow V h hs (ix1 d) = (V (Proc.devRef .tc main_arg9) : S1x2x200.Idx → EReal) (ix3 (0 : Fin 1) hh d) := by
  unfold attRow
  refine (shapeCast_1a_a_apply _ _ d).trans ?_
  refine (slice2_axis0_apply h _ hs (0 : Fin 1) d hh (by rw [hv]; rfl)).trans ?_
  exact shapeCast_1ab_ab_apply _ _ hh d

/-- The first component of a start pair. -/
theorem startPair_zero (r q : BitVec 32) : startPair r q (ix1 (0 : Fin 2)) = r := by
  unfold startPair
  refine (concatenate_pair_apply_left (t := S2) (s₁ := S1) (s₂ := S1) (0 : Fin 1) _ _ concatenates_S1_S1_S2_d0
    (ix1 (0 : Fin 2)) (rfl : S1.rank = S2.rank) (ix1 (0 : Fin 1)) (fun b => match b with | ⟨0, _⟩ => rfl)).trans ?_
  exact RowSpread.scalarInDim_apply _ _ _

/-- The second component of a start pair. -/
theorem startPair_one (r q : BitVec 32) : startPair r q (ix1 (1 : Fin 2)) = q := by
  unfold startPair
  refine (concatenate_pair_apply_right (t := S2) (s₁ := S1) (s₂ := S1) (0 : Fin 1) _ _ concatenates_S1_S1_S2_d0
    (ix1 (1 : Fin 2)) (rfl : S1.rank = S2.rank) (rfl : S1.rank = S2.rank) (ix1 (0 : Fin 1))
    (fun b hb => match b with | ⟨0, _⟩ => absurd rfl hb) rfl).trans ?_
  exact RowSpread.scalarInDim_apply _ _ _

/-- The two start pairs read as integers. -/
theorem sp00_0 : (startPair 0#32 0#32 (ix1 (0 : Fin 2))).toInt = ((0 : Nat) : Int) := by rw [startPair_zero]; rfl
theorem sp00_1 : (startPair 0#32 0#32 (ix1 (1 : Fin 2))).toInt = ((0 : Nat) : Int) := by rw [startPair_one]; rfl
theorem sp2001_0 : (startPair 200#32 1#32 (ix1 (0 : Fin 2))).toInt = ((200 : Nat) : Int) := by rw [startPair_zero]; rfl
theorem sp2001_1 : (startPair 200#32 1#32 (ix1 (1 : Fin 2))).toInt = ((1 : Nat) : Int) := by rw [startPair_one]; rfl

/-- The two scatters' dimension numbers are the column scatter's. -/
theorem scatterDims_eq :
    scatter_S400x2_S2_S200_0_1_01_0 = ColScatter.colDims 400 2 200 scatter_S400x2_S2_S200_0_1_01_0_wf := rfl

/-- The zeros the attention matrix starts from. -/
theorem zeros_apply (i : S400x2.Idx) :
    broadcastInDim S400x2 ![] bcast_S_S400x2 (constant (F := Ideal) S_ .f32 0x00000000#32) i = (0 : EReal) :=
  (RowSpread.scalarInDim_apply _ _ i).trans Ideal.ofBits_zero_f32

/-- The attention matrix after the first head's column only. -/
def attMat0 : S400x2.Idx → EReal :=
  Host.scatter (ColScatter.colDims 400 2 200 scatter_S400x2_S2_S200_0_1_01_0_wf) (fun _ b => b)
    (broadcastInDim S400x2 ![] bcast_S_S400x2 (constant (F := Ideal) S_ .f32 0x00000000#32))
    (startPair 0#32 0#32) (attRow V 0 slices_S2x200_S1x200_0_0)

/-- The attention matrix is the second head's column written into that. -/
theorem attMat_eq : attMat V
    = Host.scatter (ColScatter.colDims 400 2 200 scatter_S400x2_S2_S200_0_1_01_0_wf) (fun _ b => b) (attMat0 V)
        (startPair 200#32 1#32) (attRow V 1 slices_S2x200_S1x200_1_0) := by
  unfold attMat attMat0
  rw [scatterDims_eq]

/-- After the first head's column: row k < 200 of column 0 holds the first head's coefficient k. -/
theorem attMat0_hit (k : Fin 200) :
    attMat0 V (ix2 (⟨k.val, by have := k.isLt; omega⟩ : Fin 400) (0 : Fin 2))
      = (V (Proc.devRef .tc main_arg9) : S1x2x200.Idx → EReal) (ix3 (0 : Fin 1) (0 : Fin 2) k) := by
  have hi : (ix2 (⟨k.val, by have := k.isLt; omega⟩ : Fin 400) (0 : Fin 2) : S400x2.Idx)
      = ColScatter.colIdx (a := 400) (c := 2) (b := 200) 0 0 (by decide) (by decide) (ix1 k) := by
    funext a
    match a with
    | ⟨0, _⟩ => exact Fin.ext (Nat.zero_add _).symm
    | ⟨1, _⟩ => rfl
  rw [hi]
  unfold attMat0
  refine (ColScatter.scatter_col_hit (a := 400) (c := 2) (b := 200) scatter_S400x2_S2_S200_0_1_01_0_wf 0 0 (by decide) (by decide)
    _ (startPair 0#32 0#32) sp00_0 sp00_1 (attRow V 0 slices_S2x200_S1x200_0_0) k).trans ?_
  exact attRow_apply V 0 _ (0 : Fin 2) rfl k

/-- After the first head's column: everything outside rows 0 … 199 of column 0 is zero. -/
theorem attMat0_miss (p : Fin 400) (q : Fin 2) (hpq : q.val ≠ 0 ∨ p.val < 0 ∨ 0 + 200 ≤ p.val) :
    attMat0 V (ix2 p q) = (0 : EReal) := by
  unfold attMat0
  refine (ColScatter.scatter_col_miss (a := 400) (c := 2) (b := 200) scatter_S400x2_S2_S200_0_1_01_0_wf 0 0 (by decide) (by decide)
    _ (startPair 0#32 0#32) sp00_0 sp00_1 (attRow V 0 slices_S2x200_S1x200_0_0) p q hpq).trans ?_
  exact zeros_apply _

/-- Row k < 200, column 0: the first head's coefficient k. -/
theorem attMat_00 (k : Fin 200) :
    attMat V (ix2 (⟨k.val, by have := k.isLt; omega⟩ : Fin 400) (0 : Fin 2))
      = (V (Proc.devRef .tc main_arg9) : S1x2x200.Idx → EReal) (ix3 (0 : Fin 1) (0 : Fin 2) k) := by
  rw [attMat_eq]
  refine (ColScatter.scatter_col_miss (a := 400) (c := 2) (b := 200) scatter_S400x2_S2_S200_0_1_01_0_wf 200 1 (by decide) (by decide)
    (attMat0 V) (startPair 200#32 1#32) sp2001_0 sp2001_1 (attRow V 1 slices_S2x200_S1x200_1_0) _ _ (Or.inl (by decide))).trans ?_
  exact attMat0_hit V k

/-- Row k < 200, column 1: zero. -/
theorem attMat_01 (k : Fin 200) :
    attMat V (ix2 (⟨k.val, by have := k.isLt; omega⟩ : Fin 400) (1 : Fin 2)) = (0 : EReal) := by
  rw [attMat_eq]
  refine (ColScatter.scatter_col_miss (a := 400) (c := 2) (b := 200) scatter_S400x2_S2_S200_0_1_01_0_wf 200 1 (by decide) (by decide)
    (attMat0 V) (startPair 200#32 1#32) sp2001_0 sp2001_1 (attRow V 1 slices_S2x200_S1x200_1_0) _ _ (Or.inr (Or.inl k.isLt))).trans ?_
  exact attMat0_miss V _ _ (Or.inl (by decide))

/-- Row 200 + k, column 0: zero. -/
theorem attMat_10 (k : Fin 200) :
    attMat V (ix2 (⟨200 + k.val, by have := k.isLt; omega⟩ : Fin 400) (0 : Fin 2)) = (0 : EReal) := by
  rw [attMat_eq]
  refine (ColScatter.scatter_col_miss (a := 400) (c := 2) (b := 200) scatter_S400x2_S2_S200_0_1_01_0_wf 200 1 (by decide) (by decide)
    (attMat0 V) (startPair 200#32 1#32) sp2001_0 sp2001_1 (attRow V 1 slices_S2x200_S1x200_1_0) _ _ (Or.inl (by decide))).trans ?_
  exact attMat0_miss V _ _ (Or.inr (Or.inr (by show 0 + 200 ≤ 200 + k.val; omega)))

/-- Row 200 + k, column 1: the second head's coefficient k. -/
theorem attMat_11 (k : Fin 200) :
    attMat V (ix2 (⟨200 + k.val, by have := k.isLt; omega⟩ : Fin 400) (1 : Fin 2))
      = (V (Proc.devRef .tc main_arg9) : S1x2x200.Idx → EReal) (ix3 (0 : Fin 1) (1 : Fin 2) k) := by
  rw [attMat_eq]
  refine (ColScatter.scatter_col_hit (a := 400) (c := 2) (b := 200) scatter_S400x2_S2_S200_0_1_01_0_wf 200 1 (by decide) (by decide)
    (attMat0 V) (startPair 200#32 1#32) sp2001_0 sp2001_1 (attRow V 1 slices_S2x200_S1x200_1_0) k).trans ?_
  exact attRow_apply V 1 _ (1 : Fin 2) rfl k

end Cert.Bridge.Layer2

end
-- ==== Proof.Layer2Tail.lean ====
/-
  What the host does with the second region's two outputs first: the exponentials get a trailing unit axis, and the
  projection's 400 columns are viewed as 2 heads of 200.
-/
import proofs.«161084_j22883585753704_2_alg».proof.Proof.Gen.KernelIdeal.Launch
import Idealize.ShloMosaic.PureOps.Ideal

set_option maxRecDepth 16384

noncomputable section

namespace Cert.Bridge.Layer2

open Idealize.ShloMosaic Idealize.ShloMosaic.TcCoe Idealize.SL.Sem
open Cert.KernelIdeal Cert.KernelIdeal.Gen

variable (V : Valuation τ sig (Elt Ideal))

set_option maxHeartbeats 4000000 in
/-- The exponentials with a trailing unit axis. -/
theorem ops2_v135 : (StableHlo.after (hostOps2 (F := Ideal)) V (Proc.devRef .tc main_v135) : S300000x2x1.Idx → EReal)
    = broadcastInDim S300000x2x1 ![0, 1] bcast_S300000x2_S300000x2x1_0_1 (V (Proc.devRef .tc main_v134_1)) := by
  after_results_simp <;> rfl

set_option maxHeartbeats 4000000 in
/-- The projection viewed as 300000 × 2 × 200. -/
theorem ops2_v147 : (StableHlo.after (hostOps2 (F := Ideal)) V (Proc.devRef .tc main_v147) : S300000x2x200.Idx → EReal)
    = shapeCast S300000x2x200 (V (Proc.devRef .tc main_v134_0)) shapeCasts_S300000x400_S300000x2x200 := by
  after_results_simp <;> rfl

end Cert.Bridge.Layer2

end
-- ==== Proof.Layer2Spec.lean ====
/-
  Layer 2 of the attention network, entry by entry.

  For an edge e the projected message is c(e, q) = Σ_k A(e,k)·W(q,k) + Σ_k B(e,k)·W(q,200+k) + Σ_k C(e,k)·W(q,400+k) + b(q),
  where A, B are the 200 features gathered at the edge's two end nodes, C the 100 features gathered at its type, W the
  400 × 500 weight matrix and b the bias. The sum is written as the three partial products, in the order a blockwise
  evaluation adds them. The attention logit of head h is Σ_d att(0,h,d)·c(e, 200·h + d), and the unnormalised attention
  weight is the exponential of the leaky rectifier of the logit.
-/
import Idealize.ShloMosaic.PureOps.Ideal
import Idealize.ShloMosaic.Lib.ValueIdx

noncomputable section

open scoped BigOperators

namespace Cert.Bridge.Layer2

open Idealize.ShloMosaic Idealize.ShloMosaic.ValueIdx

/-- The leaky rectifier with slope 0x3C23D70A on one extended real: x where 0 ≤ x, slope · x elsewhere. -/
def leaky (x : EReal) : EReal :=
  Scalar.select (FloatOps.cmpf (F := Ideal) (φ := .f32) .oge x (Ideal.ofBits .f32 0x00000000#32)) x
    (Ideal.ofBits .f32 0x3C23D70A#32 * x)

/-- Column 200·h + d of a 400-column matrix, for head h and position d inside the head. -/
abbrev headCol (h : Fin 2) (d : Fin 200) : Fin 400 := ⟨200 * h.val + d.val, by have := h.isLt; have := d.isLt; omega⟩

/-- The projected message c(e, q), as the three partial products plus the bias. -/
def proj (A B : (⟨2, ![300000, 200]⟩ : Shape).Idx → EReal) (C : (⟨2, ![300000, 100]⟩ : Shape).Idx → EReal)
    (W : (⟨2, ![400, 500]⟩ : Shape).Idx → EReal) (b : (⟨1, ![400]⟩ : Shape).Idx → EReal) (e : Fin 300000) (q : Fin 400) : EReal :=
  ((∑ k : Fin 200, A (ix2 e k) * W (ix2 q (⟨k.val, by have := k.isLt; omega⟩ : Fin 500))
      + ∑ k : Fin 200, B (ix2 e k) * W (ix2 q (⟨200 + k.val, by have := k.isLt; omega⟩ : Fin 500)))
    + ∑ k : Fin 100, C (ix2 e k) * W (ix2 q (⟨400 + k.val, by have := k.isLt; omega⟩ : Fin 500)))
  + b (ix1 q)

/-- The attention logit of head h at edge e: the head's 200 attention coefficients against the head's 200 columns of c. -/
def logit (A B : (⟨2, ![300000, 200]⟩ : Shape).Idx → EReal) (C : (⟨2, ![300000, 100]⟩ : Shape).Idx → EReal)
    (W : (⟨2, ![400, 500]⟩ : Shape).Idx → EReal) (b : (⟨1, ![400]⟩ : Shape).Idx → EReal)
    (att : (⟨3, ![1, 2, 200]⟩ : Shape).Idx → EReal) (e : Fin 300000) (h : Fin 2) : EReal :=
  ∑ d : Fin 200, att (ix3 (0 : Fin 1) h d) * proj A B C W b e (headCol h d)

end Cert.Bridge.Layer2

end
-- ==== Proof.Layer2Kern.lean ====
/-
  The second layer on the kernel program's side, entry by entry, from the launch memory.

  The region leaves the projection c(e, q) as three partial products against the prepared weight blocks plus the bias
  row; the blocks are column ranges of the launched weight matrix, transposed, so c(e, q) is the three block sums
  against row q of the weights. The region's logit is c's row against the attention matrix, whose column h carries
  head h's 200 coefficients on head h's rows and zeros elsewhere: the terms off the head's rows are c · 0 = 0, and the
  sum over 400 rows is the sum over the head's 200. The host then views c as 2 heads of 200 and gives the
  exponentials a trailing unit axis.
-/
import proofs.«161084_j22883585753704_2_alg».proof.Proof.Region1Array
import proofs.«161084_j22883585753704_2_alg».proof.Proof.Layer2Args
import proofs.«161084_j22883585753704_2_alg».proof.Proof.Layer2Host
import proofs.«161084_j22883585753704_2_alg».proof.Proof.Layer2Tail
import proofs.«161084_j22883585753704_2_alg».proof.Proof.Layer2Spec
import proofs.«161084_j22883585753704_2_alg».proof.Proof.LibBlockDiag
import proofs.«161084_j22883585753704_2_alg».proof.Proof.LibSplitLast
import proofs.«161084_j22883585753704_2_alg».proof.Proof.LibAxisSpread

set_option maxRecDepth 16384

noncomputable section

open scoped BigOperators

namespace Cert.Bridge.Layer2

open Idealize.ShloMosaic Idealize.ShloMosaic.ValueIdx Idealize.ShloMosaic.TcCoe Idealize.SL.Sem
open Cert.KernelIdeal Cert.KernelIdeal.Gen Cert.Bridge

variable (m : (ℓ : Loc nD τ sig) → Buf (Elt Ideal) ℓ) (ρ : Dev nD → PrngReg) (c : Dev nD)

/-- The launched weight matrix, bias and attention coefficients as arrays of extended reals. -/
abbrev argW : (⟨2, ![400, 500]⟩ : Shape).Idx → EReal := m ((c : Thread nD τ).loc main_arg7)
abbrev argB : (⟨1, ![400]⟩ : Shape).Idx → EReal := m ((c : Thread nD τ).loc main_arg8)
abbrev argAtt : (⟨3, ![1, 2, 200]⟩ : Shape).Idx → EReal := m ((c : Thread nD τ).loc main_arg9)

/-! ## The prepared operands, from the launch memory -/

theorem eW1_apply (k : Fin 200) (j : Fin 400) :
    V5 m ρ c main_v114 (ix2 k j) = argW m c (ix2 j (⟨k.val, by have := k.isLt; omega⟩ : Fin 500)) := by
  refine (congrFun (ops_v114 (W4 m ρ c)) (ix2 k j)).trans ?_
  refine (wBlock200_apply (W4 m ρ c) 0 _ k j ⟨k.val, by have := k.isLt; omega⟩ (Nat.zero_add _).symm).trans ?_
  rw [W4_arg7 m ρ c]

theorem eW2_apply (k : Fin 200) (j : Fin 400) :
    V5 m ρ c main_v116 (ix2 k j) = argW m c (ix2 j (⟨200 + k.val, by have := k.isLt; omega⟩ : Fin 500)) := by
  refine (congrFun (ops_v116 (W4 m ρ c)) (ix2 k j)).trans ?_
  refine (wBlock200_apply (W4 m ρ c) 200 _ k j ⟨200 + k.val, by have := k.isLt; omega⟩ rfl).trans ?_
  rw [W4_arg7 m ρ c]

theorem eW3_apply (k : Fin 100) (j : Fin 400) :
    V5 m ρ c main_v118 (ix2 k j) = argW m c (ix2 j (⟨400 + k.val, by have := k.isLt; omega⟩ : Fin 500)) := by
  refine (congrFun (ops_v118 (W4 m ρ c)) (ix2 k j)).trans ?_
  refine (wBlock100_apply (W4 m ρ c) k j ⟨400 + k.val, by have := k.isLt; omega⟩ rfl).trans ?_
  rw [W4_arg7 m ρ c]

theorem eBias_apply (j : Fin 400) : V5 m ρ c main_v133 (ix2 (0 : Fin 1) j) = argB m c (ix1 j) := by
  refine (congrFun (ops_v133 (W4 m ρ c)) (ix2 (0 : Fin 1) j)).trans ?_
  refine (biasRow_apply (W4 m ρ c) j).trans ?_
  rw [W4_arg8 m ρ c]

theorem eM_00 (k : Fin 200) :
    V5 m ρ c main_v132 (ix2 (⟨k.val, by have := k.isLt; omega⟩ : Fin 400) (0 : Fin 2)) = argAtt m c (ix3 (0 : Fin 1) (0 : Fin 2) k) := by
  refine (congrFun (ops_v132 (W4 m ρ c)) _).trans ?_
  refine (attMat_00 (W4 m ρ c) k).trans ?_
  rw [W4_arg9 m ρ c]

theorem eM_11 (k : Fin 200) :
    V5 m ρ c main_v132 (ix2 (⟨200 + k.val, by have := k.isLt; omega⟩ : Fin 400) (1 : Fin 2)) = argAtt m c (ix3 (0 : Fin 1) (1 : Fin 2) k) := by
  refine (congrFun (ops_v132 (W4 m ρ c)) _).trans ?_
  refine (attMat_11 (W4 m ρ c) k).trans ?_
  rw [W4_arg9 m ρ c]

theorem eM_01 (k : Fin 200) :
    V5 m ρ c main_v132 (ix2 (⟨k.val, by have := k.isLt; omega⟩ : Fin 400) (1 : Fin 2)) = (0 : EReal) :=
  (congrFun (ops_v132 (W4 m ρ c)) _).trans (attMat_01 (W4 m ρ c) k)

theorem eM_10 (k : Fin 200) :
    V5 m ρ c main_v132 (ix2 (⟨200 + k.val, by have := k.isLt; omega⟩ : Fin 400) (0 : Fin 2)) = (0 : EReal) :=
  (congrFun (ops_v132 (W4 m ρ c)) _).trans (attMat_10 (W4 m ρ c) k)

/-! ## The region's two outputs -/

/-- The region's projection is c(e, q) against the launched weights and bias. -/
theorem kproj (e : Fin 300000) (q : Fin 400) :
    Region1.proj (V5 m ρ c main_v95) (V5 m ρ c main_v102) (V5 m ρ c main_v109) (V5 m ρ c main_v114) (V5 m ρ c main_v116)
        (V5 m ρ c main_v118) (V5 m ρ c main_v133) e q
      = proj (V5 m ρ c main_v95) (V5 m ρ c main_v102) (V5 m ρ c main_v109) (argW m c) (argB m c) e q := by
  unfold Region1.proj proj
  refine congrArg₂ (· + ·) (congrArg₂ (· + ·) (congrArg₂ (· + ·) ?_ ?_) ?_) ?_
  · exact Finset.sum_congr rfl fun k _ => by rw [eW1_apply]
  · exact Finset.sum_congr rfl fun k _ => by rw [eW2_apply]
  · exact Finset.sum_congr rfl fun k _ => by rw [eW3_apply]
  · exact eBias_apply m ρ c q

/-- The head's columns: 200·0 + d = d and 200·1 + d = 200 + d. -/
theorem headCol_zero (d : Fin 200) : headCol (0 : Fin 2) d = (⟨d.val, by have := d.isLt; omega⟩ : Fin 400) :=
  Fin.ext (by show 200 * 0 + d.val = d.val; omega)
theorem headCol_one (d : Fin 200) : headCol (1 : Fin 2) d = (⟨200 + d.val, by have := d.isLt; omega⟩ : Fin 400) :=
  Fin.ext (by show 200 * 1 + d.val = 200 + d.val; omega)

/-- The region's attention weight is the activation of the head's logit. -/
theorem kattn (e : Fin 300000) (h : Fin 2) :
    Region1.attn (V5 m ρ c main_v95) (V5 m ρ c main_v102) (V5 m ρ c main_v109) (V5 m ρ c main_v114) (V5 m ρ c main_v116)
        (V5 m ρ c main_v118) (V5 m ρ c main_v133) (V5 m ρ c main_v132) e h
      = act (logit (V5 m ρ c main_v95) (V5 m ρ c main_v102) (V5 m ρ c main_v109) (argW m c) (argB m c) (argAtt m c) e h) := by
  unfold Region1.attn logit
  refine congrArg act ?_
  match h with
  | ⟨0, _⟩ =>
    refine (BlockDiag.sum_mul_fst (α := EReal) mul_zero 200
      (fun j => Region1.proj (V5 m ρ c main_v95) (V5 m ρ c main_v102) (V5 m ρ c main_v109) (V5 m ρ c main_v114) (V5 m ρ c main_v116)
        (V5 m ρ c main_v118) (V5 m ρ c main_v133) e j)
      (fun j => V5 m ρ c main_v132 (ix2 j (0 : Fin 2))) (fun d => argAtt m c (ix3 (0 : Fin 1) (0 : Fin 2) d))
      (fun d => eM_00 m ρ c d) (fun d => eM_10 m ρ c d)).trans ?_
    refine Finset.sum_congr rfl fun d _ => ?_
    beta_reduce
    refine (mul_comm _ _).trans (congrArg (fun z : EReal => argAtt m c (ix3 (0 : Fin 1) (0 : Fin 2) d) * z) ?_)
    exact (kproj m ρ c e _).trans (congrArg (proj _ _ _ _ _ e) (headCol_zero d).symm)
  | ⟨1, _⟩ =>
    refine (BlockDiag.sum_mul_snd (α := EReal) mul_zero 200
      (fun j => Region1.proj (V5 m ρ c main_v95) (V5 m ρ c main_v102) (V5 m ρ c main_v109) (V5 m ρ c main_v114) (V5 m ρ c main_v116)
        (V5 m ρ c main_v118) (V5 m ρ c main_v133) e j)
      (fun j => V5 m ρ c main_v132 (ix2 j (1 : Fin 2))) (fun d => argAtt m c (ix3 (0 : Fin 1) (1 : Fin 2) d))
      (fun d => eM_11 m ρ c d) (fun d => eM_01 m ρ c d)).trans ?_
    refine Finset.sum_congr rfl fun d _ => ?_
    beta_reduce
    refine (mul_comm _ _).trans (congrArg (fun z : EReal => argAtt m c (ix3 (0 : Fin 1) (1 : Fin 2) d) * z) ?_)
    exact (kproj m ρ c e _).trans (congrArg (proj _ _ _ _ _ e) (headCol_one d).symm)

/-! ## What the host makes of them -/

/-- The projection viewed as 2 heads of 200, at (e, h, d). -/
theorem W7_v147_apply (e : Fin 300000) (h : Fin 2) (d : Fin 200) :
    (W7 m ρ c (Proc.devRef .tc main_v147) : S300000x2x200.Idx → EReal) (ix3 e h d)
      = proj (V5 m ρ c main_v95) (V5 m ρ c main_v102) (V5 m ρ c main_v109) (argW m c) (argB m c) e (headCol h d) := by
  refine (congrFun (ops2_v147 (W6 m ρ c)) (ix3 e h d)).trans ?_
  refine (SplitLast.shapeCast_split_apply (E := 300000) (H := 2) (D := 200) (n := 400) rfl _ _ e h d (headCol h d)
    (by show 200 * h.val + d.val = h.val * 200 + d.val; omega)).trans ?_
  rw [show W6 m ρ c (Proc.devRef .tc main_v134_0) = (dat1 (V5 m ρ) c).arrAt 8 cfg1.N from W6_arr m ρ c 8]
  exact (Region1.c_apply (V5 m ρ) c e _).trans (kproj m ρ c e _)

/-- The exponentials with their trailing unit axis, at (e, h, 0). -/
theorem W7_v135_apply (e : Fin 300000) (h : Fin 2) (z : Fin 1) :
    (W7 m ρ c (Proc.devRef .tc main_v135) : S300000x2x1.Idx → EReal) (ix3 e h z)
      = act (logit (V5 m ρ c main_v95) (V5 m ρ c main_v102) (V5 m ρ c main_v109) (argW m c) (argB m c) (argAtt m c) e h) := by
  refine (congrFun (ops2_v135 (W6 m ρ c)) (ix3 e h z)).trans ?_
  refine (AxisSpread.trailUnit3_apply _ _ e h z).trans ?_
  rw [show W6 m ρ c (Proc.devRef .tc main_v134_1) = (dat1 (V5 m ρ) c).arrAt 9 cfg1.N from W6_arr m ρ c 9]
  exact (Region1.ev_apply (V5 m ρ) c e h).trans (kattn m ρ c e h)

end Cert.Bridge.Layer2

end
-- ==== Proof.Layer2RefTerm.lean ====
/-
  The second layer's stretch of the reference, as terms of its entry contents.

  The stretch joins the three gathered operands side by side, multiplies the 300000 × 500 result by the transposed weight
  matrix, adds the bias spread over the rows and views the 400 columns as 2 heads of 200 (the projection); then it
  multiplies by the attention coefficients spread over the edges, sums each head's 200 products, applies the leaky
  rectifier and the exponential (the unnormalised attention weights).
-/
import proofs.«161084_j22883585753704_2_alg».proof.Proof.ROps
import proofs.«161084_j22883585753704_2_alg».proof.Proof.LibNary3
import Idealize.ShloMosaic.PureOps.Ideal

set_option maxRecDepth 16384

noncomputable section

namespace Cert.Bridge.Layer2

open Idealize.ShloMosaic Idealize.ShloMosaic.TcCoe Idealize.SL.Sem
open Cert.ReferenceIdeal Cert.ReferenceIdeal.Facts₀ Cert.ReferenceIdeal.Facts

variable (RV : Valuation Cert.ReferenceIdeal.τ Cert.ReferenceIdeal.sig (Elt Ideal))

/-- The joined operands times the transposed weights, plus the bias row spread over the edges: 300000 × 400. -/
def refLin : S300000x400.Idx → EReal :=
  addf (F := Ideal) (φ := .f32)
    (Host.dotGeneral (F := Ideal) (φ₁ := .f32) (φ₂ := .f32) dot_S300000x500_S500x400_S300000x400_1_0_0_1_n_n none
      (concatenate S300000x500 1 [⟨S300000x200, RV (Proc.devRef .tc main_v78)⟩, ⟨S300000x200, RV (Proc.devRef .tc main_v85)⟩, ⟨S300000x100, RV (Proc.devRef .tc main_v92)⟩]
        concatenates_S300000x200_S300000x200_S300000x100_S300000x500_d1 : S300000x500.Idx → EReal)
      (transpose S500x400 [1, 0] (RV (Proc.devRef .tc main_arg7)) transposes_S400x500_S500x400_1_0 : S500x400.Idx → EReal))
    (broadcastInDim S300000x400 ![0, 1] bcast_S1x400_S300000x400_0_1
      (broadcastInDim S1x400 ![1] bcast_S400_S1x400_1 (RV (Proc.devRef .tc main_arg8)) : S1x400.Idx → EReal))

/-- The projection: the same entries viewed as 300000 × 2 × 200. -/
def refProj : S300000x2x200.Idx → EReal :=
  shapeCast S300000x2x200 (refLin RV) shapeCasts_S300000x400_S300000x2x200

/-- The logits, one per edge and head, with a trailing unit axis. -/
def refLogit : S300000x2x1.Idx → EReal :=
  broadcastInDim S300000x2x1 ![0, 1] bcast_S300000x2_S300000x2x1_0_1
    (Host.reduceAdd (F := Ideal) (φ := .f32)
      (mulf (F := Ideal) (φ := .f32)
        (broadcastInDim S300000x2x200 ![0, 1, 2] bcast_S1x2x200_S300000x2x200_0_1_2 (RV (Proc.devRef .tc main_arg9)) : S300000x2x200.Idx → EReal)
        (refProj RV))
      (constant (F := Ideal) S_ .f32 0x00000000#32) reducesTo_S300000x2x200_S300000x2_d2 h_S_ : S300000x2.Idx → EReal)

/-- The exponential of the leaky rectifier of the logits. -/
def refExp : S300000x2x1.Idx → EReal :=
  Host.exp (F := Ideal) (φ := .f32)
    (select
      (cmpf (F := Ideal) (φ := .f32) .oge (refLogit RV) (broadcastInDim S300000x2x1 ![] bcast_S_S300000x2x1 (constant (F := Ideal) S_ .f32 0x00000000#32)))
      (refLogit RV)
      (mulf (F := Ideal) (φ := .f32) (broadcastInDim S300000x2x1 ![] bcast_S_S300000x2x1 (constant (F := Ideal) S_ .f32 0x3C23D70A#32)) (refLogit RV)))

set_option maxHeartbeats 4000000 in
set_option maxRecDepth 100000 in
/-- After the stretch the projection's buffer holds the projection. -/
theorem s4_v99 : StableHlo.after (Cert.ReferenceIdeal.ROps.s4 (F := Ideal)) RV (Proc.devRef .tc main_v99) = refProj RV := by
  unfold refProj refLin
  read_off [Cert.LibNary3.nary3_result']
  rfl

set_option maxHeartbeats 4000000 in
set_option maxRecDepth 100000 in
/-- After the stretch the exponentials' buffer holds the exponentials. -/
theorem s4_v105 : StableHlo.after (Cert.ReferenceIdeal.ROps.s4 (F := Ideal)) RV (Proc.devRef .tc main_v105) = refExp RV := by
  unfold refExp refLogit refProj refLin
  read_off [Cert.LibNary3.nary3_result']
  dsimp only [StableHlo.TRef.toBuf, StableHlo.TRef.ofBuf, StableHlo.TRef.of, cast_eq, id]
  rfl

end Cert.Bridge.Layer2

end
-- ==== Proof.Layer2Ref.lean ====
/-
  The second layer's stretch of the reference, entry by entry.

  The projection at (e, h, d) is c(e, 200·h + d): the product of the joined operands with the transposed weights splits
  into the three block sums, the bias row is read at its column. The logit of head h at edge e is the sum over the
  head's 200 positions of the attention coefficient times the projection, and the stretch's last value is the
  exponential of the leaky rectifier of the logit.
-/
import proofs.«161084_j22883585753704_2_alg».proof.Proof.Layer2RefTerm
import proofs.«161084_j22883585753704_2_alg».proof.Proof.Layer2Spec
import proofs.«161084_j22883585753704_2_alg».proof.Proof.LibConcatDot
import proofs.«161084_j22883585753704_2_alg».proof.Proof.LibRowSpread
import proofs.«161084_j22883585753704_2_alg».proof.Proof.LibAxisSpread
import proofs.«161084_j22883585753704_2_alg».proof.Proof.LibLastAxisSum
import proofs.«161084_j22883585753704_2_alg».proof.Proof.LibSplitLast
import Idealize.ShloMosaic.Lib.ValueLayout

noncomputable section

open scoped BigOperators

namespace Cert.Bridge.Layer2

open Idealize.ShloMosaic Idealize.ShloMosaic.ValueIdx Idealize.ShloMosaic.TcCoe Idealize.SL.Sem
open Cert.ReferenceIdeal Cert.ReferenceIdeal.Facts₀ Cert.ReferenceIdeal.Facts

variable (RV : Valuation Cert.ReferenceIdeal.τ Cert.ReferenceIdeal.sig (Elt Ideal))

/-- The reference's product is a plain 300000 × 500 by 500 × 400 one. -/
theorem dotR_eq : dot_S300000x500_S500x400_S300000x400_1_0_0_1_n_n = DotDims.plain 300000 500 400 := rfl

/-- The linear map at (e, q): the three block sums against row q of the weights, plus the bias at q. -/
theorem refLin_apply (e : Fin 300000) (q : Fin 400) :
    refLin RV (ix2 e q)
      = proj (RV (Proc.devRef .tc main_v78)) (RV (Proc.devRef .tc main_v85)) (RV (Proc.devRef .tc main_v92))
          (RV (Proc.devRef .tc main_arg7)) (RV (Proc.devRef .tc main_arg8)) e q := by
  unfold refLin proj
  simp only [addf_apply, dotR_eq]
  refine congrArg₂ (· + ·) ?_ ?_
  · refine (ConcatDot.dotGeneral_concat3_apply (E := 300000) (a1 := 200) (a2 := 200) (a3 := 100) (N := 400) (K := 500) rfl
      none .single _ _ _ _ _ e q).trans ?_
    refine congrArg₂ (· + ·) (congrArg₂ (· + ·) ?_ ?_) ?_
    · exact Finset.sum_congr rfl fun k _ =>
        by rw [transpose_ix2_apply]
    · exact Finset.sum_congr rfl fun k _ =>
        by rw [transpose_ix2_apply]
    · exact Finset.sum_congr rfl fun k _ =>
        by rw [transpose_ix2_apply]
  · exact (RowSpread.rowInDim2_apply _ _ e q).trans (AxisSpread.vecAsRow_apply _ _ q)

/-- The projection at (e, h, d) is c(e, 200·h + d). -/
theorem refProj_apply (e : Fin 300000) (h : Fin 2) (d : Fin 200) :
    refProj RV (ix3 e h d)
      = proj (RV (Proc.devRef .tc main_v78)) (RV (Proc.devRef .tc main_v85)) (RV (Proc.devRef .tc main_v92))
          (RV (Proc.devRef .tc main_arg7)) (RV (Proc.devRef .tc main_arg8)) e (headCol h d) := by
  unfold refProj
  exact (SplitLast.shapeCast_split_apply (E := 300000) (H := 2) (D := 200) (n := 400) rfl (refLin RV) _ e h d (headCol h d)
    (by show 200 * h.val + d.val = h.val * 200 + d.val; omega)).trans (refLin_apply RV e _)

/-- The logit at (e, h, 0): the head's coefficients against the head's columns of the projection. -/
theorem refLogit_apply (e : Fin 300000) (h : Fin 2) (z : Fin 1) :
    refLogit RV (ix3 e h z)
      = logit (RV (Proc.devRef .tc main_v78)) (RV (Proc.devRef .tc main_v85)) (RV (Proc.devRef .tc main_v92))
          (RV (Proc.devRef .tc main_arg7)) (RV (Proc.devRef .tc main_arg8)) (RV (Proc.devRef .tc main_arg9)) e h := by
  unfold refLogit logit
  refine (AxisSpread.trailUnit3_apply _ _ e h z).trans ?_
  refine (LastAxisSum.hostSumLast3_apply reducesTo_S300000x2x200_S300000x2_d2 (by decide) _ _ h_S_ e h).trans ?_
  rw [constant_apply, Ideal.ofBits_zero_f32, zero_add]
  refine Finset.sum_congr rfl fun d _ => ?_
  rw [mulf_apply]
  exact congrArg₂ (· * ·) (AxisSpread.leadSpread3_apply _ _ e h d) (refProj_apply RV e h d)

/-- The stretch's last value at (e, h, 0): the exponential of the leaky rectifier of the logit. -/
theorem refExp_apply (e : Fin 300000) (h : Fin 2) (z : Fin 1) :
    refExp RV (ix3 e h z)
      = Ideal.exp (leaky (logit (RV (Proc.devRef .tc main_v78)) (RV (Proc.devRef .tc main_v85)) (RV (Proc.devRef .tc main_v92))
          (RV (Proc.devRef .tc main_arg7)) (RV (Proc.devRef .tc main_arg8)) (RV (Proc.devRef .tc main_arg9)) e h)) := by
  have hl := refLogit_apply RV e h z
  have h0 : broadcastInDim S300000x2x1 ![] bcast_S_S300000x2x1 (constant (F := Ideal) S_ .f32 0x00000000#32) (ix3 e h z)
      = Ideal.ofBits .f32 0x00000000#32 := RowSpread.scalarInDim_apply _ _ _
  have h1 : broadcastInDim S300000x2x1 ![] bcast_S_S300000x2x1 (constant (F := Ideal) S_ .f32 0x3C23D70A#32) (ix3 e h z)
      = Ideal.ofBits .f32 0x3C23D70A#32 := RowSpread.scalarInDim_apply _ _ _
  unfold refExp Host.exp
  simp only [select_apply, cmpf_apply, mulf_apply]
  rw [h0, h1, hl]
  rfl

end Cert.Bridge.Layer2

end
-- ==== Proof.Layer2.lean ====
/-
  The second layer: the reference's stretch and the kernel program's region agree.

  Given that the reference's three gathered operands are the region's three row operands, and that the reference reads
  the launched weights, bias and attention coefficients, the reference's projection and exponentials after its stretch
  are what the kernel program holds after the host has reshaped the region's first output and given its second a
  trailing unit axis. Both sides are read entry by entry: the projection is the same three block sums plus the bias on
  both sides, and the logit is the same sum over the head's 200 positions, so the values agree with no finiteness
  assumption.
-/
import proofs.«161084_j22883585753704_2_alg».proof.Proof.Layer2Kern
import proofs.«161084_j22883585753704_2_alg».proof.Proof.Layer2Ref

set_option maxRecDepth 16384

noncomputable section

namespace Cert.Bridge.Layer2

open Idealize.ShloMosaic Idealize.ShloMosaic.ValueIdx Idealize.ShloMosaic.TcCoe Idealize.SL.Sem

variable (m : (ℓ : Loc Cert.KernelIdeal.nD Cert.KernelIdeal.τ Cert.KernelIdeal.sig) → Buf (Elt Ideal) ℓ)
  (ρ : Dev Cert.KernelIdeal.nD → PrngReg) (c : Dev Cert.KernelIdeal.nD)
  (RV : Valuation Cert.ReferenceIdeal.τ Cert.ReferenceIdeal.sig (Elt Ideal))

/-- After the reference's second-layer stretch its exponentials and its projection are the kernel program's. -/
theorem cp4
    (h78 : RV (Proc.devRef .tc Cert.ReferenceIdeal.main_v78) = Cert.KernelIdeal.Gen.W5 m ρ c (Proc.devRef .tc Cert.KernelIdeal.main_v95))
    (h85 : RV (Proc.devRef .tc Cert.ReferenceIdeal.main_v85) = Cert.KernelIdeal.Gen.W5 m ρ c (Proc.devRef .tc Cert.KernelIdeal.main_v102))
    (h92 : RV (Proc.devRef .tc Cert.ReferenceIdeal.main_v92) = Cert.KernelIdeal.Gen.W5 m ρ c (Proc.devRef .tc Cert.KernelIdeal.main_v109))
    (h7 : RV (Proc.devRef .tc Cert.ReferenceIdeal.main_arg7) = m ((c : Thread Cert.KernelIdeal.nD Cert.KernelIdeal.τ).loc Cert.KernelIdeal.main_arg7))
    (h8 : RV (Proc.devRef .tc Cert.ReferenceIdeal.main_arg8) = m ((c : Thread Cert.KernelIdeal.nD Cert.KernelIdeal.τ).loc Cert.KernelIdeal.main_arg8))
    (h9 : RV (Proc.devRef .tc Cert.ReferenceIdeal.main_arg9) = m ((c : Thread Cert.KernelIdeal.nD Cert.KernelIdeal.τ).loc Cert.KernelIdeal.main_arg9)) :
    StableHlo.after (Cert.ReferenceIdeal.ROps.s4 (F := Ideal)) RV (Proc.devRef .tc Cert.ReferenceIdeal.main_v105)
        = Cert.KernelIdeal.Gen.W7 m ρ c (Proc.devRef .tc Cert.KernelIdeal.main_v135)
    ∧ StableHlo.after (Cert.ReferenceIdeal.ROps.s4 (F := Ideal)) RV (Proc.devRef .tc Cert.ReferenceIdeal.main_v99)
        = Cert.KernelIdeal.Gen.W7 m ρ c (Proc.devRef .tc Cert.KernelIdeal.main_v147) := by
  constructor
  · rw [s4_v105 RV]
    show (refExp RV : Cert.ReferenceIdeal.S300000x2x1.Idx → EReal)
      = (Cert.KernelIdeal.Gen.W7 m ρ c (Proc.devRef .tc Cert.KernelIdeal.main_v135) : Cert.KernelIdeal.S300000x2x1.Idx → EReal)
    funext i
    obtain ⟨e, h, z, rfl⟩ : ∃ (e : Fin 300000) (h : Fin 2) (z : Fin 1), i = ix3 e h z := ⟨i 0, i 1, i 2, eq_ix3 i⟩
    rw [refExp_apply RV e h z, h78, h85, h92, h7, h8, h9]
    exact (W7_v135_apply m ρ c e h z).symm
  · rw [s4_v99 RV]
    show (refProj RV : Cert.ReferenceIdeal.S300000x2x200.Idx → EReal)
      = (Cert.KernelIdeal.Gen.W7 m ρ c (Proc.devRef .tc Cert.KernelIdeal.main_v147) : Cert.KernelIdeal.S300000x2x200.Idx → EReal)
    funext i
    obtain ⟨e, h, d, rfl⟩ : ∃ (e : Fin 300000) (h : Fin 2) (d : Fin 200), i = ix3 e h d := ⟨i 0, i 1, i 2, eq_ix3 i⟩
    rw [refProj_apply RV e h d, h78, h85, h92, h7, h8]
    exact (W7_v147_apply m ρ c e h d).symm

end Cert.Bridge.Layer2

end
-- ==== Proof.Bridge.lean ====
/-
  The two idealized programs end with the same results.

  Outside its two kernel regions the kernel program applies the reference's own host operations, operation for
  operation; each region computes what the reference's projection and attention-logit operations compute (the
  concatenated product split into three partial products; the per-head logit as one product with a block-diagonal
  matrix whose off-block terms are c · 0 = 0). So, following the reference through its six stretches from launch
  contents that agree with the kernel program's launch memory on the arguments, its buffers agree with the kernel
  program's at every cut — the gathered operands of layer 1, layer 1's exponentials and projection, the gathered
  operands of layer 2, layer 2's exponentials and projection — and the two results at the end. Buffers a later stretch
  reads (the edge lists, the normalised node features, the arguments) are carried unchanged.
-/
import proofs.«161084_j22883585753704_2_alg».proof.Proof.BridgeDefs
import proofs.«161084_j22883585753704_2_alg».proof.Proof.Gen.KernelIdeal.Frame
import proofs.«161084_j22883585753704_2_alg».proof.Proof.ROps
import proofs.«161084_j22883585753704_2_alg».proof.Proof.ChainA
import proofs.«161084_j22883585753704_2_alg».proof.Proof.ChainB
import proofs.«161084_j22883585753704_2_alg».proof.Proof.ChainC
import proofs.«161084_j22883585753704_2_alg».proof.Proof.ChainKeep
import proofs.«161084_j22883585753704_2_alg».proof.Proof.Layer1
import proofs.«161084_j22883585753704_2_alg».proof.Proof.Layer2

noncomputable section

namespace Cert.Bridge

open Idealize.ShloMosaic Idealize.ShloMosaic.TcCoe Idealize.SL.Sem
open Cert.KernelIdeal.Gen (W1 W3 W5 W7 W9)
open Cert.ReferenceIdeal.ROps

/-- From launch contents agreeing on the fourteen arguments, the reference's two results after all its operations are the
    kernel program's two result buffers at its last boundary. -/
theorem results_eq (m : KM) (ρ : Dev Cert.KernelIdeal.nD → PrngReg) (c : Dev Cert.KernelIdeal.nD) (RV0 : RVal)
    (h0 : RV0 (dr Cert.ReferenceIdeal.main_arg0) = ka m c Cert.KernelIdeal.main_arg0)
    (h1 : RV0 (dr Cert.ReferenceIdeal.main_arg1) = ka m c Cert.KernelIdeal.main_arg1)
    (h2 : RV0 (dr Cert.ReferenceIdeal.main_arg2) = ka m c Cert.KernelIdeal.main_arg2)
    (h3 : RV0 (dr Cert.ReferenceIdeal.main_arg3) = ka m c Cert.KernelIdeal.main_arg3)
    (h4 : RV0 (dr Cert.ReferenceIdeal.main_arg4) = ka m c Cert.KernelIdeal.main_arg4)
    (h5 : RV0 (dr Cert.ReferenceIdeal.main_arg5) = ka m c Cert.KernelIdeal.main_arg5)
    (h6 : RV0 (dr Cert.ReferenceIdeal.main_arg6) = ka m c Cert.KernelIdeal.main_arg6)
    (h7 : RV0 (dr Cert.ReferenceIdeal.main_arg7) = ka m c Cert.KernelIdeal.main_arg7)
    (h8 : RV0 (dr Cert.ReferenceIdeal.main_arg8) = ka m c Cert.KernelIdeal.main_arg8)
    (h9 : RV0 (dr Cert.ReferenceIdeal.main_arg9) = ka m c Cert.KernelIdeal.main_arg9)
    (h10 : RV0 (dr Cert.ReferenceIdeal.main_arg10) = ka m c Cert.KernelIdeal.main_arg10)
    (h11 : RV0 (dr Cert.ReferenceIdeal.main_arg11) = ka m c Cert.KernelIdeal.main_arg11)
    (h12 : RV0 (dr Cert.ReferenceIdeal.main_arg12) = ka m c Cert.KernelIdeal.main_arg12)
    (h13 : RV0 (dr Cert.ReferenceIdeal.main_arg13) = ka m c Cert.KernelIdeal.main_arg13) :
    StableHlo.after (ops (F := Ideal)) RV0 (dr Cert.ReferenceIdeal.main_v154) = W9 m ρ c (dk Cert.KernelIdeal.main_v185)
    ∧ StableHlo.after (ops (F := Ideal)) RV0 (dr Cert.ReferenceIdeal.main_v143) = W9 m ρ c (dk Cert.KernelIdeal.main_v174) := by
  -- the reference's contents at the five cuts
  have e : StableHlo.after (ops (F := Ideal)) RV0
      = StableHlo.after s5 (StableHlo.after s4 (StableHlo.after s3 (StableHlo.after s2 (StableHlo.after s1 (StableHlo.after s0 RV0))))) := by
    rw [show (ops (F := Ideal)) = s0 ++ (s1 ++ (s2 ++ (s3 ++ (s4 ++ s5)))) from rfl, after_append, after_append, after_append, after_append, after_append]
  rw [e]
  generalize hR1 : StableHlo.after (s0 (F := Ideal)) RV0 = RV1
  generalize hR2 : StableHlo.after (s1 (F := Ideal)) RV1 = RV2
  generalize hR3 : StableHlo.after (s2 (F := Ideal)) RV2 = RV3
  generalize hR4 : StableHlo.after (s3 (F := Ideal)) RV3 = RV4
  generalize hR5 : StableHlo.after (s4 (F := Ideal)) RV4 = RV5
  -- a carried buffer through each stretch
  have c1 : ∀ b, b ∈ LA → RV1 (dr b) = RV0 (dr b) := fun b hb => hR1 ▸ Chain.keep0 RV0 b hb
  have c2 : ∀ b, b ∈ LC → RV2 (dr b) = RV1 (dr b) := fun b hb => hR2 ▸ Chain.keep1 RV1 b hb
  have c3 : ∀ b, b ∈ LC → RV3 (dr b) = RV2 (dr b) := fun b hb => hR3 ▸ Chain.keep2 RV2 b hb
  have c4 : ∀ b, b ∈ LC → RV4 (dr b) = RV3 (dr b) := fun b hb => hR4 ▸ Chain.keep3 RV3 b hb
  have c5 : ∀ b, b ∈ LC → RV5 (dr b) = RV4 (dr b) := fun b hb => hR5 ▸ Chain.keep4 RV4 b hb
  -- layer 1
  obtain ⟨a1, a3, a11, a18, a25, a32⟩ := hR1 ▸ Chain.cpa m ρ c RV0 h0 h1 h2 h3
  obtain ⟨b45, b39⟩ := hR2 ▸ Layer1.cp1 m ρ c RV1 a18 a25 a32 ((c1 _ (by decide)).trans h4) ((c1 _ (by decide)).trans h5) ((c1 _ (by decide)).trans h6)
  have g1 : ∀ b, b ∈ LA → RV2 (dr b) = RV0 (dr b) := fun b hb => (c2 b (List.mem_append_right _ hb)).trans (c1 b hb)
  obtain ⟨c78, c85, c92⟩ := hR4 ▸ hR3 ▸ Chain.cpb m ρ c RV2 b45 b39 ((c2 _ (by decide)).trans a1) ((c2 _ (by decide)).trans a3) ((g1 _ (by decide)).trans h1) ((g1 _ (by decide)).trans h3)
  -- layer 2
  have g2 : ∀ b, b ∈ LA → RV4 (dr b) = RV0 (dr b) := fun b hb =>
    (c4 b (List.mem_append_right _ hb)).trans ((c3 b (List.mem_append_right _ hb)).trans (g1 b hb))
  obtain ⟨d105, d99⟩ := hR5 ▸ Layer2.cp4 m ρ c RV4 c78 c85 c92 ((g2 _ (by decide)).trans h7) ((g2 _ (by decide)).trans h8) ((g2 _ (by decide)).trans h9)
  -- the tail
  have g3 : ∀ b, b ∈ LA → RV5 (dr b) = RV0 (dr b) := fun b hb => (c5 b (List.mem_append_right _ hb)).trans (g2 b hb)
  have v5 : ∀ b, b ∈ [Cert.ReferenceIdeal.main_v1, Cert.ReferenceIdeal.main_v3, Cert.ReferenceIdeal.main_v11] → RV5 (dr b) = RV1 (dr b) := fun b hb =>
    (c5 b (List.mem_append_left _ hb)).trans ((c4 b (List.mem_append_left _ hb)).trans ((c3 b (List.mem_append_left _ hb)).trans (c2 b (List.mem_append_left _ hb))))
  exact Chain.cpc m ρ c RV5 d105 d99 ((v5 _ (by decide)).trans a1) ((v5 _ (by decide)).trans a3) ((v5 _ (by decide)).trans a11)
    ((g3 _ (by decide)).trans h1) ((g3 _ (by decide)).trans h10) ((g3 _ (by decide)).trans h11) ((g3 _ (by decide)).trans h12) ((g3 _ (by decide)).trans h13)

end Cert.Bridge

end
-- ==== Proof.lean ====
/-
  The certificate of a two-layer relational-attention message-passing network: the kernel program (each layer's
  projection c = W · [h_row; h_col; g_type] + b and attention exponentials exp(leaky(att · c)) computed by a kernel
  region over tiles of edges, everything else — unit-length scaling, gathers, the normalisation over source nodes and
  the aggregation into destination nodes by scatter-add, the entity and relation maps — by host operations) against
  the plain reference, over the extended reals.

  Frames: the two kernel programs' frames are the generated ones; the reference, a host program, runs to the fold of its
  operations over the launch contents, which leaves the arguments as launched. The idealization rewrote nothing. Equal
  results: both programs run to named buffer contents — the kernel program to its last boundary's, the reference to the fold
  of its operations — and those agree on the two results (Bridge.lean): at Ideal the three partial products of a region
  are the reference's one product of the concatenated operands (a sum over consecutive blocks of positions), the region's
  logit against a block-diagonal matrix is the reference's per-head sum (the off-block terms are c · 0 = 0 for every
  extended real), format changes are the identity, and every other operation is the same on both sides. No finiteness of
  the inputs is used.
-/
import proofs.«161084_j22883585753704_2_alg».proof.Defs
import proofs.«161084_j22883585753704_2_alg».proof.Proof.Gen.Kernel
import proofs.«161084_j22883585753704_2_alg».proof.Proof.Gen.Kernel.Frame
import proofs.«161084_j22883585753704_2_alg».proof.Proof.Gen.KernelIdeal
import proofs.«161084_j22883585753704_2_alg».proof.Proof.Gen.KernelIdeal.Frame
import proofs.«161084_j22883585753704_2_alg».proof.Proof.Gen.ReferenceIdeal
import proofs.«161084_j22883585753704_2_alg».proof.Proof.Gen.Pre_finite_inputs
import proofs.«161084_j22883585753704_2_alg».proof.Proof.KRun
import proofs.«161084_j22883585753704_2_alg».proof.Proof.RRun
import proofs.«161084_j22883585753704_2_alg».proof.Proof.Bridge

noncomputable section

namespace Cert.Proof

open Idealize.ShloMosaic Idealize.ShloMosaic.TcCoe Idealize.SL.Sem Cert.Bridge

/-- The kernel program as printed runs and leaves its arguments as launched. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- Both idealized programs run, from memories agreeing on the arguments, to the same two results: the kernel program's
    result buffers at its last boundary. -/
theorem algebraic : Cert.algebraic_KernelIdeal_ReferenceIdeal := by
  intro m ρ m' ρ' _ hagree
  refine ⟨fun c => Cert.KernelIdeal.Gen.W9 m ρ c (dk Cert.KernelIdeal.main_v185), fun c => Cert.KernelIdeal.Gen.W9 m ρ c (dk Cert.KernelIdeal.main_v174), ?_, ?_⟩
  · exact (θ_run Cert.KernelIdeal.defs _ _).mono (fun r h c =>
      ⟨h c _ Cert.KernelIdeal.KRun.mem_uc_v185, h c _ Cert.KernelIdeal.KRun.mem_uc_v174,
       (h c _ (Cert.KernelIdeal.Gen.mem_uc Cert.KernelIdeal.main_arg0 (by decide))).trans (Cert.KernelIdeal.Gen.W9_main_arg0 m ρ c),
       (h c _ (Cert.KernelIdeal.Gen.mem_uc Cert.KernelIdeal.main_arg1 (by decide))).trans (Cert.KernelIdeal.Gen.W9_main_arg1 m ρ c),
       (h c _ (Cert.KernelIdeal.Gen.mem_uc Cert.KernelIdeal.main_arg2 (by decide))).trans (Cert.KernelIdeal.Gen.W9_main_arg2 m ρ c),
       (h c _ (Cert.KernelIdeal.Gen.mem_uc Cert.KernelIdeal.main_arg3 (by decide))).trans (Cert.KernelIdeal.Gen.W9_main_arg3 m ρ c),
       (h c _ (Cert.KernelIdeal.Gen.mem_uc Cert.KernelIdeal.main_arg4 (by decide))).trans (Cert.KernelIdeal.Gen.W9_main_arg4 m ρ c),
       (h c _ (Cert.KernelIdeal.Gen.mem_uc Cert.KernelIdeal.main_arg5 (by decide))).trans (Cert.KernelIdeal.Gen.W9_main_arg5 m ρ c),
       (h c _ (Cert.KernelIdeal.Gen.mem_uc Cert.KernelIdeal.main_arg6 (by decide))).trans (Cert.KernelIdeal.Gen.W9_main_arg6 m ρ c),
       (h c _ (Cert.KernelIdeal.Gen.mem_uc Cert.KernelIdeal.main_arg7 (by decide))).trans (Cert.KernelIdeal.Gen.W9_main_arg7 m ρ c),
       (h c _ (Cert.KernelIdeal.Gen.mem_uc Cert.KernelIdeal.main_arg8 (by decide))).trans (Cert.KernelIdeal.Gen.W9_main_arg8 m ρ c),
       (h c _ (Cert.KernelIdeal.Gen.mem_uc Cert.KernelIdeal.main_arg9 (by decide))).trans (Cert.KernelIdeal.Gen.W9_main_arg9 m ρ c),
       (h c _ (Cert.KernelIdeal.Gen.mem_uc Cert.KernelIdeal.main_arg10 (by decide))).trans (Cert.KernelIdeal.Gen.W9_main_arg10 m ρ c),
       (h c _ (Cert.KernelIdeal.Gen.mem_uc Cert.KernelIdeal.main_arg11 (by decide))).trans (Cert.KernelIdeal.Gen.W9_main_arg11 m ρ c),
       (h c _ (Cert.KernelIdeal.Gen.mem_uc Cert.KernelIdeal.main_arg12 (by decide))).trans (Cert.KernelIdeal.Gen.W9_main_arg12 m ρ c),
       (h c _ (Cert.KernelIdeal.Gen.mem_uc Cert.KernelIdeal.main_arg13 (by decide))).trans (Cert.KernelIdeal.Gen.W9_main_arg13 m ρ c)⟩)
      (Cert.KernelIdeal.KRun.run_W9 m ρ)
  · refine (θ_run Cert.ReferenceIdeal.defs _ _).mono (fun r h c => ?_) (Cert.ReferenceIdeal.RRun.run_main (F := Ideal) m' ρ')
    obtain ⟨g0, g1, g2, g3, g4, g5, g6, g7, g8, g9, g10, g11, g12, g13⟩ := hagree c
    have E := results_eq m ρ c (StableHlo.launchContents m' c) g0 g1 g2 g3 g4 g5 g6 g7 g8 g9 g10 g11 g12 g13
    exact ⟨(h c _).trans E.1, (h c _).trans E.2,
      (h c _).trans (Cert.ReferenceIdeal.RRun.ops_arg0 _),
      (h c _).trans (Cert.ReferenceIdeal.RRun.ops_arg1 _),
      (h c _).trans (Cert.ReferenceIdeal.RRun.ops_arg2 _),
      (h c _).trans (Cert.ReferenceIdeal.RRun.ops_arg3 _),
      (h c _).trans (Cert.ReferenceIdeal.RRun.ops_arg4 _),
      (h c _).trans (Cert.ReferenceIdeal.RRun.ops_arg5 _),
      (h c _).trans (Cert.ReferenceIdeal.RRun.ops_arg6 _),
      (h c _).trans (Cert.ReferenceIdeal.RRun.ops_arg7 _),
      (h c _).trans (Cert.ReferenceIdeal.RRun.ops_arg8 _),
      (h c _).trans (Cert.ReferenceIdeal.RRun.ops_arg9 _),
      (h c _).trans (Cert.ReferenceIdeal.RRun.ops_arg10 _),
      (h c _).trans (Cert.ReferenceIdeal.RRun.ops_arg11 _),
      (h c _).trans (Cert.ReferenceIdeal.RRun.ops_arg12 _),
      (h c _).trans (Cert.ReferenceIdeal.RRun.ops_arg13 _)⟩

theorem claim : Cert.Claim :=
  ⟨Cert.Kernel.Gen.facts, Cert.KernelIdeal.Gen.facts, Cert.ReferenceIdeal.Gen.facts, Cert.Pre_finite_inputs.Gen.facts,
    frame_k, frame_ki, Cert.ReferenceIdeal.RRun.frame_ri, trivial, algebraic⟩

end Cert.Proof

end
